-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![64, 64, 64]⟩ ⟨3, ![128, 256, 256]⟩ (Layout.meshBlock [2, 4, 4] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![64, 64, 64]⟩ ⟨3, ![128, 256, 256]⟩ (Layout.meshBlock [2, 4, 4] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S64x64x64 : Shape := ⟨3, ![64, 64, 64]⟩
abbrev S_ : Shape := ⟨0, ![]⟩

class Facts : Prop where
  bcast_S_S64x64x64 : S_.BroadcastsInDim S64x64x64 (![] : Fin 0 → Fin S64x64x64.rank)
  reducesTo_S64x64x64_S_d0_1_2 : S64x64x64.ReducesTo [0, 1, 2] S_
  h_S_ : 0 < S_.numel

variable [Facts]

def fn {F : FTy → Type} [FloatOps F] (main_arg0 : FVec F S64x64x64 .f32) : IVec S_ 1 :=
  let main_v0 : FVec F S64x64x64 .f32 := Host.absf main_arg0
  let main_cst : FVec F S_ .f32 := constant S_ .f32 0x7F800000#32
  let main_v1 : FVec F S64x64x64 .f32 := broadcastInDim S64x64x64 ![] bcast_S_S64x64x64 main_cst
  let main_v2 : IVec S64x64x64 1 := cmpf .olt main_v0 main_v1
  let main_c : IVec S_ 1 := constantI S_ 1 1#1
  let main_v3 : IVec S_ 1 := (fun x v => Host.reduce IntOp.andi x v reducesTo_S64x64x64_S_d0_1_2 h_S_) main_v2 main_c
  main_v3
-- ==== Pre_finite_inputs_ReferenceIdeal.lean ====
abbrev S128x256x256 : Shape := ⟨3, ![128, 256, 256]⟩
abbrev S_ : Shape := ⟨0, ![]⟩

class Facts : Prop where
  bcast_S_S128x256x256 : S_.BroadcastsInDim S128x256x256 (![] : Fin 0 → Fin S128x256x256.rank)
  reducesTo_S128x256x256_S_d0_1_2 : S128x256x256.ReducesTo [0, 1, 2] S_
  h_S_ : 0 < S_.numel

variable [Facts]

def fn {F : FTy → Type} [FloatOps F] (main_arg0 : FVec F S128x256x256 .f32) : IVec S_ 1 :=
  let main_v0 : FVec F S128x256x256 .f32 := Host.absf main_arg0
  let main_cst : FVec F S_ .f32 := constant S_ .f32 0x7F800000#32
  let main_v1 : FVec F S128x256x256 .f32 := broadcastInDim S128x256x256 ![] bcast_S_S128x256x256 main_cst
  let main_v2 : IVec S128x256x256 1 := cmpf .olt main_v0 main_v1
  let main_c : IVec S_ 1 := constantI S_ 1 1#1
  let main_v3 : IVec S_ 1 := (fun x v => Host.reduce IntOp.andi x v reducesTo_S128x256x256_S_d0_1_2 h_S_) main_v2 main_c
  main_v3
-- ==== Kernel.lean ====
abbrev S64x64x64 : Shape := ⟨3, ![64, 64, 64]⟩
abbrev S1x64x64 : Shape := ⟨3, ![1, 64, 64]⟩
abbrev S6 : Shape := ⟨1, ![6]⟩
abbrev S64x64 : Shape := ⟨2, ![64, 64]⟩
abbrev S64x1x64 : Shape := ⟨3, ![64, 1, 64]⟩
abbrev S64x64x1 : Shape := ⟨3, ![64, 64, 1]⟩
abbrev S_ : Shape := ⟨0, ![]⟩
abbrev S63x64x64 : Shape := ⟨3, ![63, 64, 64]⟩
abbrev S64x63x64 : Shape := ⟨3, ![64, 63, 64]⟩
abbrev S64x64x63 : Shape := ⟨3, ![64, 64, 63]⟩
abbrev S1 : Shape := ⟨1, ![1]⟩

abbrev nBuf : Space → Nat
  | .hbm => 2
  | .vmem => 14
  | .smem => 0
  | _ => 0

abbrev bufTy : (tb : Table) → Fin (tcTables nBuf tb) → BufTy
  | .hbm, ⟨0, _⟩ => ⟨S64x64x64, .f32⟩
  | .hbm, ⟨1, _⟩ => ⟨S64x64x64, .f32⟩
  | .local _ .vmem, ⟨0, _⟩ => ⟨S64x64x64, .f32⟩
  | .local _ .vmem, ⟨1, _⟩ => ⟨S64x64x64, .f32⟩
  | .local _ .vmem, ⟨2, _⟩ => ⟨S1x64x64, .f32⟩
  | .local _ .vmem, ⟨3, _⟩ => ⟨S1x64x64, .f32⟩
  | .local _ .vmem, ⟨4, _⟩ => ⟨S1x64x64, .f32⟩
  | .local _ .vmem, ⟨5, _⟩ => ⟨S1x64x64, .f32⟩
  | .local _ .vmem, ⟨6, _⟩ => ⟨S1x64x64, .f32⟩
  | .local _ .vmem, ⟨7, _⟩ => ⟨S1x64x64, .f32⟩
  | .local _ .vmem, ⟨8, _⟩ => ⟨S1x64x64, .f32⟩
  | .local _ .vmem, ⟨9, _⟩ => ⟨S1x64x64, .f32⟩
  | .local _ .vmem, ⟨10, _⟩ => ⟨S1x64x64, .f32⟩
  | .local _ .vmem, ⟨11, _⟩ => ⟨S1x64x64, .f32⟩
  | .local _ .vmem, ⟨12, _⟩ => ⟨S1x64x64, .f32⟩
  | .local _ .vmem, ⟨13, _⟩ => ⟨S1x64x64, .f32⟩
  | _, _ => ⟨S64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  { ofTc nBuf bufTy 1 14 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v39 : BitVec 1 := Scalar.cmpi .sgt v2 c0_i32
  let v48 : BitVec 32 := Scalar.extui v39
  let c0_i32_41 : BitVec 32 := 0#32
  let v49 : BitVec 1 := Scalar.cmpi .ne v48 c0_i32_41
  v49

def k0_dev1 (d0 : Dev nD) : Nat :=
  let c0_i32_119 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c_m1_i32 : BitVec 32 := 4294967295#32
  let v233 : BitVec 32 := Scalar.addi v2 c_m1_i32
  let c16_i32_118 : BitVec 32 := 16#32
  let v236 : BitVec 32 := Scalar.muli v233 c16_i32_118
  let v237 : BitVec 32 := Scalar.addi c0_i32_119 v236
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_115 : BitVec 32 := 0#32
  let v234 : BitVec 32 := Scalar.addi v5 c0_i32_115
  let c4_i32_120 : BitVec 32 := 4#32
  let v238 : BitVec 32 := Scalar.muli v234 c4_i32_120
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_116 : BitVec 32 := 0#32
  let v235 : BitVec 32 := Scalar.addi v8 c0_i32_116
  let c1_i32_121 : BitVec 32 := 1#32
  let v240 : BitVec 32 := Scalar.muli v235 c1_i32_121
  let v241 : BitVec 32 := Scalar.addi v239 v240
  v241.toNat
def k0_cond2 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_36 : BitVec 32 := 1#32
  let v40 : BitVec 1 := Scalar.cmpi .slt v2 c1_i32_36
  let v52 : BitVec 32 := Scalar.extui v40
  let c0_i32_42 : BitVec 32 := 0#32
  let v53 : BitVec 1 := Scalar.cmpi .ne v52 c0_i32_42
  v53

def k0_dev2 (d0 : Dev nD) : Nat :=
  let c0_i32_120 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_115 : BitVec 32 := 1#32
  let v233 : BitVec 32 := Scalar.addi v2 c1_i32_115
  let c16_i32_119 : BitVec 32 := 16#32
  let v236 : BitVec 32 := Scalar.muli v233 c16_i32_119
  let v237 : BitVec 32 := Scalar.addi c0_i32_120 v236
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_116 : BitVec 32 := 0#32
  let v234 : BitVec 32 := Scalar.addi v5 c0_i32_116
  let c4_i32_121 : BitVec 32 := 4#32
  let v238 : BitVec 32 := Scalar.muli v234 c4_i32_121
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_117 : BitVec 32 := 0#32
  let v235 : BitVec 32 := Scalar.addi v8 c0_i32_117
  let c1_i32_122 : BitVec 32 := 1#32
  let v240 : BitVec 32 := Scalar.muli v235 c1_i32_122
  let v241 : BitVec 32 := Scalar.addi v239 v240
  v241.toNat
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_37 : BitVec 32 := 0#32
  let v41 : BitVec 1 := Scalar.cmpi .sgt v5 c0_i32_37
  let v56 : BitVec 32 := Scalar.extui v41
  let c0_i32_43 : BitVec 32 := 0#32
  let v57 : BitVec 1 := Scalar.cmpi .ne v56 c0_i32_43
  v57

def k0_dev3 (d0 : Dev nD) : Nat :=
  let c0_i32_119 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_115 : BitVec 32 := 0#32
  let v233 : BitVec 32 := Scalar.addi v2 c0_i32_115
  let c16_i32_118 : BitVec 32 := 16#32
  let v236 : BitVec 32 := Scalar.muli v233 c16_i32_118
  let v237 : BitVec 32 := Scalar.addi c0_i32_119 v236
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v234 : BitVec 32 := Scalar.addi v5 c_m1_i32
  let c4_i32_120 : BitVec 32 := 4#32
  let v238 : BitVec 32 := Scalar.muli v234 c4_i32_120
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_116 : BitVec 32 := 0#32
  let v235 : BitVec 32 := Scalar.addi v8 c0_i32_116
  let c1_i32_121 : BitVec 32 := 1#32
  let v240 : BitVec 32 := Scalar.muli v235 c1_i32_121
  let v241 : BitVec 32 := Scalar.addi v239 v240
  v241.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v42 : BitVec 1 := Scalar.cmpi .slt v5 c3_i32
  let v60 : BitVec 32 := Scalar.extui v42
  let c0_i32_44 : BitVec 32 := 0#32
  let v61 : BitVec 1 := Scalar.cmpi .ne v60 c0_i32_44
  v61

def k0_dev4 (d0 : Dev nD) : Nat :=
  let c0_i32_120 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_115 : BitVec 32 := 0#32
  let v233 : BitVec 32 := Scalar.addi v2 c0_i32_115
  let c16_i32_119 : BitVec 32 := 16#32
  let v236 : BitVec 32 := Scalar.muli v233 c16_i32_119
  let v237 : BitVec 32 := Scalar.addi c0_i32_120 v236
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_116 : BitVec 32 := 1#32
  let v234 : BitVec 32 := Scalar.addi v5 c1_i32_116
  let c4_i32_121 : BitVec 32 := 4#32
  let v238 : BitVec 32 := Scalar.muli v234 c4_i32_121
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_117 : BitVec 32 := 0#32
  let v235 : BitVec 32 := Scalar.addi v8 c0_i32_117
  let c1_i32_122 : BitVec 32 := 1#32
  let v240 : BitVec 32 := Scalar.muli v235 c1_i32_122
  let v241 : BitVec 32 := Scalar.addi v239 v240
  v241.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_38 : BitVec 32 := 0#32
  let v43 : BitVec 1 := Scalar.cmpi .sgt v8 c0_i32_38
  let v64 : BitVec 32 := Scalar.extui v43
  let c0_i32_45 : BitVec 32 := 0#32
  let v65 : BitVec 1 := Scalar.cmpi .ne v64 c0_i32_45
  v65

def k0_dev5 (d0 : Dev nD) : Nat :=
  let c0_i32_119 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_115 : BitVec 32 := 0#32
  let v233 : BitVec 32 := Scalar.addi v2 c0_i32_115
  let c16_i32_118 : BitVec 32 := 16#32
  let v236 : BitVec 32 := Scalar.muli v233 c16_i32_118
  let v237 : BitVec 32 := Scalar.addi c0_i32_119 v236
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_116 : BitVec 32 := 0#32
  let v234 : BitVec 32 := Scalar.addi v5 c0_i32_116
  let c4_i32_120 : BitVec 32 := 4#32
  let v238 : BitVec 32 := Scalar.muli v234 c4_i32_120
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v235 : BitVec 32 := Scalar.addi v8 c_m1_i32
  let c1_i32_121 : BitVec 32 := 1#32
  let v240 : BitVec 32 := Scalar.muli v235 c1_i32_121
  let v241 : BitVec 32 := Scalar.addi v239 v240
  v241.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_39 : BitVec 32 := 3#32
  let v44 : BitVec 1 := Scalar.cmpi .slt v8 c3_i32_39
  let v68 : BitVec 32 := Scalar.extui v44
  let c0_i32_46 : BitVec 32 := 0#32
  let v69 : BitVec 1 := Scalar.cmpi .ne v68 c0_i32_46
  v69

def k0_dev6 (d0 : Dev nD) : Nat :=
  let c0_i32_120 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_115 : BitVec 32 := 0#32
  let v233 : BitVec 32 := Scalar.addi v2 c0_i32_115
  let c16_i32_119 : BitVec 32 := 16#32
  let v236 : BitVec 32 := Scalar.muli v233 c16_i32_119
  let v237 : BitVec 32 := Scalar.addi c0_i32_120 v236
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_116 : BitVec 32 := 0#32
  let v234 : BitVec 32 := Scalar.addi v5 c0_i32_116
  let c4_i32_121 : BitVec 32 := 4#32
  let v238 : BitVec 32 := Scalar.muli v234 c4_i32_121
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v235 : BitVec 32 := Scalar.addi v8 c1_i32_117
  let c1_i32_122 : BitVec 32 := 1#32
  let v240 : BitVec 32 := Scalar.muli v235 c1_i32_122
  let v241 : BitVec 32 := Scalar.addi v239 v240
  v241.toNat
def k0_amt1 (d0 : Dev nD) : BitVec 32 :=
  let c0_i32_40 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v39 : BitVec 1 := Scalar.cmpi .sgt v2 c0_i32
  let v46 : BitVec 32 := Scalar.extui v39
  let v47 : BitVec 32 := Scalar.addi c0_i32_40 v46
  let c1_i32_36 : BitVec 32 := 1#32
  let v40 : BitVec 1 := Scalar.cmpi .slt v2 c1_i32_36
  let v50 : BitVec 32 := Scalar.extui v40
  let v51 : BitVec 32 := Scalar.addi v47 v50
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_37 : BitVec 32 := 0#32
  let v41 : BitVec 1 := Scalar.cmpi .sgt v5 c0_i32_37
  let v54 : BitVec 32 := Scalar.extui v41
  let v55 : BitVec 32 := Scalar.addi v51 v54
  let c3_i32 : BitVec 32 := 3#32
  let v42 : BitVec 1 := Scalar.cmpi .slt v5 c3_i32
  let v58 : BitVec 32 := Scalar.extui v42
  let v59 : BitVec 32 := Scalar.addi v55 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_38 : BitVec 32 := 0#32
  let v43 : BitVec 1 := Scalar.cmpi .sgt v8 c0_i32_38
  let v62 : BitVec 32 := Scalar.extui v43
  let v63 : BitVec 32 := Scalar.addi v59 v62
  let c3_i32_39 : BitVec 32 := 3#32
  let v44 : BitVec 1 := Scalar.cmpi .slt v8 c3_i32_39
  let v66 : BitVec 32 := Scalar.extui v44
  let v67 : BitVec 32 := Scalar.addi v63 v66
  v67
def k0_cond13 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v39 : BitVec 1 := Scalar.cmpi .sgt v2 c0_i32
  let v114 : BitVec 32 := Scalar.extui v39
  let c0_i32_68 : BitVec 32 := 0#32
  let v115 : BitVec 1 := Scalar.cmpi .ne v114 c0_i32_68
  v115

def k0_dev7 (d0 : Dev nD) : Nat :=
  let c0_i32_120 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c_m1_i32 : BitVec 32 := 4294967295#32
  let v233 : BitVec 32 := Scalar.addi v2 c_m1_i32
  let c16_i32_119 : BitVec 32 := 16#32
  let v236 : BitVec 32 := Scalar.muli v233 c16_i32_119
  let v237 : BitVec 32 := Scalar.addi c0_i32_120 v236
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_115 : BitVec 32 := 0#32
  let v234 : BitVec 32 := Scalar.addi v5 c0_i32_115
  let c4_i32_121 : BitVec 32 := 4#32
  let v238 : BitVec 32 := Scalar.muli v234 c4_i32_121
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_116 : BitVec 32 := 0#32
  let v235 : BitVec 32 := Scalar.addi v8 c0_i32_116
  let c1_i32_122 : BitVec 32 := 1#32
  let v240 : BitVec 32 := Scalar.muli v235 c1_i32_122
  let v241 : BitVec 32 := Scalar.addi v239 v240
  v241.toNat
def k0_cond14 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_36 : BitVec 32 := 1#32
  let v40 : BitVec 1 := Scalar.cmpi .slt v2 c1_i32_36
  let v116 : BitVec 32 := Scalar.extui v40
  let c0_i32_69 : BitVec 32 := 0#32
  let v117 : BitVec 1 := Scalar.cmpi .ne v116 c0_i32_69
  v117

def k0_dev8 (d0 : Dev nD) : Nat :=
  let c0_i32_121 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_115 : BitVec 32 := 1#32
  let v233 : BitVec 32 := Scalar.addi v2 c1_i32_115
  let c16_i32_120 : BitVec 32 := 16#32
  let v236 : BitVec 32 := Scalar.muli v233 c16_i32_120
  let v237 : BitVec 32 := Scalar.addi c0_i32_121 v236
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_116 : BitVec 32 := 0#32
  let v234 : BitVec 32 := Scalar.addi v5 c0_i32_116
  let c4_i32_122 : BitVec 32 := 4#32
  let v238 : BitVec 32 := Scalar.muli v234 c4_i32_122
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_117 : BitVec 32 := 0#32
  let v235 : BitVec 32 := Scalar.addi v8 c0_i32_117
  let c1_i32_123 : BitVec 32 := 1#32
  let v240 : BitVec 32 := Scalar.muli v235 c1_i32_123
  let v241 : BitVec 32 := Scalar.addi v239 v240
  v241.toNat
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_37 : BitVec 32 := 0#32
  let v41 : BitVec 1 := Scalar.cmpi .sgt v5 c0_i32_37
  let v118 : BitVec 32 := Scalar.extui v41
  let c0_i32_70 : BitVec 32 := 0#32
  let v119 : BitVec 1 := Scalar.cmpi .ne v118 c0_i32_70
  v119

def k0_dev9 (d0 : Dev nD) : Nat :=
  let c0_i32_120 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_115 : BitVec 32 := 0#32
  let v233 : BitVec 32 := Scalar.addi v2 c0_i32_115
  let c16_i32_119 : BitVec 32 := 16#32
  let v236 : BitVec 32 := Scalar.muli v233 c16_i32_119
  let v237 : BitVec 32 := Scalar.addi c0_i32_120 v236
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v234 : BitVec 32 := Scalar.addi v5 c_m1_i32
  let c4_i32_121 : BitVec 32 := 4#32
  let v238 : BitVec 32 := Scalar.muli v234 c4_i32_121
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_116 : BitVec 32 := 0#32
  let v235 : BitVec 32 := Scalar.addi v8 c0_i32_116
  let c1_i32_122 : BitVec 32 := 1#32
  let v240 : BitVec 32 := Scalar.muli v235 c1_i32_122
  let v241 : BitVec 32 := Scalar.addi v239 v240
  v241.toNat
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v42 : BitVec 1 := Scalar.cmpi .slt v5 c3_i32
  let v120 : BitVec 32 := Scalar.extui v42
  let c0_i32_71 : BitVec 32 := 0#32
  let v121 : BitVec 1 := Scalar.cmpi .ne v120 c0_i32_71
  v121

def k0_dev10 (d0 : Dev nD) : Nat :=
  let c0_i32_121 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_115 : BitVec 32 := 0#32
  let v233 : BitVec 32 := Scalar.addi v2 c0_i32_115
  let c16_i32_120 : BitVec 32 := 16#32
  let v236 : BitVec 32 := Scalar.muli v233 c16_i32_120
  let v237 : BitVec 32 := Scalar.addi c0_i32_121 v236
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_116 : BitVec 32 := 1#32
  let v234 : BitVec 32 := Scalar.addi v5 c1_i32_116
  let c4_i32_122 : BitVec 32 := 4#32
  let v238 : BitVec 32 := Scalar.muli v234 c4_i32_122
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_117 : BitVec 32 := 0#32
  let v235 : BitVec 32 := Scalar.addi v8 c0_i32_117
  let c1_i32_123 : BitVec 32 := 1#32
  let v240 : BitVec 32 := Scalar.muli v235 c1_i32_123
  let v241 : BitVec 32 := Scalar.addi v239 v240
  v241.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_38 : BitVec 32 := 0#32
  let v43 : BitVec 1 := Scalar.cmpi .sgt v8 c0_i32_38
  let v122 : BitVec 32 := Scalar.extui v43
  let c0_i32_72 : BitVec 32 := 0#32
  let v123 : BitVec 1 := Scalar.cmpi .ne v122 c0_i32_72
  v123

def k0_dev11 (d0 : Dev nD) : Nat :=
  let c0_i32_119 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_115 : BitVec 32 := 0#32
  let v233 : BitVec 32 := Scalar.addi v2 c0_i32_115
  let c16_i32_118 : BitVec 32 := 16#32
  let v236 : BitVec 32 := Scalar.muli v233 c16_i32_118
  let v237 : BitVec 32 := Scalar.addi c0_i32_119 v236
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_116 : BitVec 32 := 0#32
  let v234 : BitVec 32 := Scalar.addi v5 c0_i32_116
  let c4_i32_120 : BitVec 32 := 4#32
  let v238 : BitVec 32 := Scalar.muli v234 c4_i32_120
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v235 : BitVec 32 := Scalar.addi v8 c_m1_i32
  let c1_i32_121 : BitVec 32 := 1#32
  let v240 : BitVec 32 := Scalar.muli v235 c1_i32_121
  let v241 : BitVec 32 := Scalar.addi v239 v240
  v241.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_39 : BitVec 32 := 3#32
  let v44 : BitVec 1 := Scalar.cmpi .slt v8 c3_i32_39
  let v124 : BitVec 32 := Scalar.extui v44
  let c0_i32_73 : BitVec 32 := 0#32
  let v125 : BitVec 1 := Scalar.cmpi .ne v124 c0_i32_73
  v125

def k0_dev12 (d0 : Dev nD) : Nat :=
  let c0_i32_120 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_115 : BitVec 32 := 0#32
  let v233 : BitVec 32 := Scalar.addi v2 c0_i32_115
  let c16_i32_119 : BitVec 32 := 16#32
  let v236 : BitVec 32 := Scalar.muli v233 c16_i32_119
  let v237 : BitVec 32 := Scalar.addi c0_i32_120 v236
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_116 : BitVec 32 := 0#32
  let v234 : BitVec 32 := Scalar.addi v5 c0_i32_116
  let c4_i32_121 : BitVec 32 := 4#32
  let v238 : BitVec 32 := Scalar.muli v234 c4_i32_121
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v235 : BitVec 32 := Scalar.addi v8 c1_i32_117
  let c1_i32_122 : BitVec 32 := 1#32
  let v240 : BitVec 32 := Scalar.muli v235 c1_i32_122
  let v241 : BitVec 32 := Scalar.addi v239 v240
  v241.toNat
abbrev stage0_0 : Fin 1 → Memref sig .tc .vmem S64x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  inb_S64x64x64_S1x64x64_0_0_0 : ∀ a, (![0, 0, 0] : Fin 3 → Nat) a + S1x64x64.size a ≤ S64x64x64.size a
  h_S1x64x64 : 0 < S1x64x64.numel
  shapeCasts_S1x64x64_S64x64 : S1x64x64.ShapeCasts S64x64
  inb_S1x64x64_S1x64x64_0_0_0 : ∀ a, (![0, 0, 0] : Fin 3 → Nat) a + S1x64x64.size a ≤ S1x64x64.size a
  shapeCasts_S64x64_S1x64x64 : S64x64.ShapeCasts S1x64x64
  inb_S64x64x64_S1x64x64_63_0_0 : ∀ a, (![63, 0, 0] : Fin 3 → Nat) a + S1x64x64.size a ≤ S64x64x64.size a
  inb_S64x64x64_S64x1x64_0_0_0 : ∀ a, (![0, 0, 0] : Fin 3 → Nat) a + S64x1x64.size a ≤ S64x64x64.size a
  h_S64x1x64 : 0 < S64x1x64.numel
  shapeCasts_S64x1x64_S64x64 : S64x1x64.ShapeCasts S64x64
  inb_S64x64x64_S64x1x64_0_63_0 : ∀ a, (![0, 63, 0] : Fin 3 → Nat) a + S64x1x64.size a ≤ S64x64x64.size a
  inb_S64x64x64_S64x64x1_0_0_0 : ∀ a, (![0, 0, 0] : Fin 3 → Nat) a + S64x64x1.size a ≤ S64x64x64.size a
  h_S64x64x1 : 0 < S64x64x1.numel
  shapeCasts_S64x64x1_S64x64 : S64x64x1.ShapeCasts S64x64
  inb_S64x64x64_S64x64x1_0_0_63 : ∀ a, (![0, 0, 63] : Fin 3 → Nat) a + S64x64x1.size a ≤ S64x64x64.size a
  hamt_1 : (1#32 : BitVec 32).msb = false
  inb_S64x64x64_S64x64x64_0_0_0 : ∀ a, (![0, 0, 0] : Fin 3 → Nat) a + S64x64x64.size a ≤ S64x64x64.size a
  h_S64x64x64 : 0 < S64x64x64.numel
  shapeCasts_S64x64x64_S64x64x64 : S64x64x64.ShapeCasts S64x64x64
  slices_S64x64x64_o0_0_0_S63x64x64 : S64x64x64.Slices ![0, 0, 0] S63x64x64
  concatenates_S1x64x64_S63x64x64_S64x64x64_d0 : Shape.Concatenates [S1x64x64, S63x64x64] S64x64x64 0
  slices_S64x64x64_o1_0_0_S63x64x64 : S64x64x64.Slices ![1, 0, 0] S63x64x64
  concatenates_S63x64x64_S1x64x64_S64x64x64_d0 : Shape.Concatenates [S63x64x64, S1x64x64] S64x64x64 0
  slices_S64x64x64_o0_0_0_S64x63x64 : S64x64x64.Slices ![0, 0, 0] S64x63x64
  concatenates_S64x1x64_S64x63x64_S64x64x64_d1 : Shape.Concatenates [S64x1x64, S64x63x64] S64x64x64 1
  slices_S64x64x64_o0_1_0_S64x63x64 : S64x64x64.Slices ![0, 1, 0] S64x63x64
  concatenates_S64x63x64_S64x1x64_S64x64x64_d1 : Shape.Concatenates [S64x63x64, S64x1x64] S64x64x64 1
  slices_S64x64x64_o0_0_0_S64x64x63 : S64x64x64.Slices ![0, 0, 0] S64x64x63
  concatenates_S64x64x1_S64x64x63_S64x64x64_d2 : Shape.Concatenates [S64x64x1, S64x64x63] S64x64x64 2
  slices_S64x64x64_o0_0_1_S64x64x63 : S64x64x64.Slices ![0, 0, 1] S64x64x63
  concatenates_S64x64x63_S64x64x1_S64x64x64_d2 : Shape.Concatenates [S64x64x63, S64x64x1] S64x64x64 2
  shapeCasts_S64x64_S64x1x64 : S64x64.ShapeCasts S64x1x64
  shapeCasts_S64x64_S64x64x1 : S64x64.ShapeCasts S64x64x1
  inb_S6_S1_0 : ∀ a, (![0] : Fin 1 → Nat) a + S1.size a ≤ S6.size a
  squeezes_S1_S_ : S1.Squeezes S_
  inb_S6_S1_1 : ∀ a, (![1] : Fin 1 → Nat) a + S1.size a ≤ S6.size a
  inb_S6_S1_2 : ∀ a, (![2] : Fin 1 → Nat) a + S1.size a ≤ S6.size a
  inb_S6_S1_3 : ∀ a, (![3] : Fin 1 → Nat) a + S1.size a ≤ S6.size a
  inb_S6_S1_4 : ∀ a, (![4] : Fin 1 → Nat) a + S1.size a ≤ S6.size a
  inb_S6_S1_5 : ∀ a, (![5] : Fin 1 → Nat) a + S1.size a ≤ S6.size a
  iota_S64x64_d0_w32 : S64x64.Iotas .tc 32 [0]
  iota_S64x64_d1_w32 : S64x64.Iotas .tc 32 [1]
  hcc0_scratch12 : 2 + S6.numel ≤ 14
  hcc0_scratch13 : 8 + S6.numel ≤ 14
  k0_dev1_lt : ∀ d0 : Dev nD, ∀ (k0_h1 : k0_cond1 d0 = 1#1), (k0_dev1 d0) < nD
  k0_dev2_lt : ∀ d0 : Dev nD, ∀ (k0_h2 : k0_cond2 d0 = 1#1), (k0_dev2 d0) < nD
  k0_dev3_lt : ∀ d0 : Dev nD, ∀ (k0_h3 : k0_cond3 d0 = 1#1), (k0_dev3 d0) < nD
  k0_dev4_lt : ∀ d0 : Dev nD, ∀ (k0_h4 : k0_cond4 d0 = 1#1), (k0_dev4 d0) < nD
  k0_dev5_lt : ∀ d0 : Dev nD, ∀ (k0_h5 : k0_cond5 d0 = 1#1), (k0_dev5 d0) < nD
  k0_dev6_lt : ∀ d0 : Dev nD, ∀ (k0_h6 : k0_cond6 d0 = 1#1), (k0_dev6 d0) < nD
  k0_amt1_nn : ∀ d0 : Dev nD, ((k0_amt1 d0)).msb = false
  k0_dev7_lt : ∀ d0 : Dev nD, ∀ (k0_h13 : k0_cond13 d0 = 1#1), (k0_dev7 d0) < nD
  k0_dev8_lt : ∀ d0 : Dev nD, ∀ (k0_h14 : k0_cond14 d0 = 1#1), (k0_dev8 d0) < nD
  k0_dev9_lt : ∀ d0 : Dev nD, ∀ (k0_h15 : k0_cond15 d0 = 1#1), (k0_dev9 d0) < nD
  k0_dev10_lt : ∀ d0 : Dev nD, ∀ (k0_h16 : k0_cond16 d0 = 1#1), (k0_dev10 d0) < nD
  k0_dev11_lt : ∀ d0 : Dev nD, ∀ (k0_h17 : k0_cond17 d0 = 1#1), (k0_dev11 d0) < nD
  k0_dev12_lt : ∀ d0 : Dev nD, ∀ (k0_h18 : k0_cond18 d0 = 1#1), (k0_dev12 d0) < nD
  hstage0_0 : ∀ j, (stage0_0 j).IsWhole
  hstage0_1 : ∀ j, (stage0_1 j).IsWhole

variable [Facts₀]

abbrev cc0_scratch12 : DmaSems sig S6 := SemArray.consecutive 2 S6 hcc0_scratch12
abbrev cc0_scratch13 : DmaSems sig S6 := SemArray.consecutive 8 S6 hcc0_scratch13

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x256x256 : Shape := ⟨3, ![128, 256, 256]⟩
abbrev S_ : Shape := ⟨0, ![]⟩
abbrev S126x254x254 : Shape := ⟨3, ![126, 254, 254]⟩
abbrev S1 : Shape := ⟨1, ![1]⟩
abbrev S3 : Shape := ⟨1, ![3]⟩

abbrev nBuf : Space → Nat
  | .hbm => 27
  | .vmem => 0
  | .smem => 0
  | _ => 0

abbrev bufTy : (tb : Table) → Fin (tcTables nBuf tb) → BufTy
  | .hbm, ⟨0, _⟩ => ⟨S128x256x256, .f32⟩
  | .hbm, ⟨1, _⟩ => ⟨S_, .f32⟩
  | .hbm, ⟨2, _⟩ => ⟨S128x256x256, .f32⟩
  | .hbm, ⟨3, _⟩ => ⟨S126x254x254, .f32⟩
  | .hbm, ⟨4, _⟩ => ⟨S126x254x254, .f32⟩
  | .hbm, ⟨5, _⟩ => ⟨S126x254x254, .f32⟩
  | .hbm, ⟨6, _⟩ => ⟨S126x254x254, .f32⟩
  | .hbm, ⟨7, _⟩ => ⟨S126x254x254, .f32⟩
  | .hbm, ⟨8, _⟩ => ⟨S126x254x254, .f32⟩
  | .hbm, ⟨9, _⟩ => ⟨S126x254x254, .f32⟩
  | .hbm, ⟨10, _⟩ => ⟨S126x254x254, .f32⟩
  | .hbm, ⟨11, _⟩ => ⟨S126x254x254, .f32⟩
  | .hbm, ⟨12, _⟩ => ⟨S126x254x254, .f32⟩
  | .hbm, ⟨13, _⟩ => ⟨S126x254x254, .f32⟩
  | .hbm, ⟨14, _⟩ => ⟨S126x254x254, .f32⟩
  | .hbm, ⟨15, _⟩ => ⟨S_, .f32⟩
  | .hbm, ⟨16, _⟩ => ⟨S126x254x254, .f32⟩
  | .hbm, ⟨17, _⟩ => ⟨S126x254x254, .f32⟩
  | .hbm, ⟨18, _⟩ => ⟨S126x254x254, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S3, .i32⟩
  | .hbm, ⟨26, _⟩ => ⟨S128x256x256, .f32⟩
  | _, _ => ⟨S128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  bcast_S_S128x256x256 : S_.BroadcastsInDim S128x256x256 (![] : Fin 0 → Fin S128x256x256.rank)
  slices_S128x256x256_S126x254x254_0_1_1 : S128x256x256.Slices ![0, 1, 1] S126x254x254
  slices_S128x256x256_S126x254x254_2_1_1 : S128x256x256.Slices ![2, 1, 1] S126x254x254
  slices_S128x256x256_S126x254x254_1_0_1 : S128x256x256.Slices ![1, 0, 1] S126x254x254
  slices_S128x256x256_S126x254x254_1_2_1 : S128x256x256.Slices ![1, 2, 1] S126x254x254
  slices_S128x256x256_S126x254x254_1_1_0 : S128x256x256.Slices ![1, 1, 0] S126x254x254
  slices_S128x256x256_S126x254x254_1_1_2 : S128x256x256.Slices ![1, 1, 2] S126x254x254
  slices_S128x256x256_S126x254x254_1_1_1 : S128x256x256.Slices ![1, 1, 1] S126x254x254
  bcast_S_S126x254x254 : S_.BroadcastsInDim S126x254x254 (![] : Fin 0 → Fin S126x254x254.rank)
  bcast_S_S1 : S_.BroadcastsInDim S1 (![] : Fin 0 → Fin S1.rank)
  concatenates_S1_S1_S1_S3_d0 : Shape.Concatenates [S1, S1, S1] S3 0
  scatter_S128x256x256_S3_S126x254x254_012_n_012_0_wf : ScatterDims.WF S128x256x256 S3 S126x254x254 [0, 1, 2] [] [0, 1, 2] 0

variable [Facts₀]

def scatter_S128x256x256_S3_S126x254x254_012_n_012_0 : ScatterDims S128x256x256 S3 S126x254x254 where
  updateWindowDims := [0, 1, 2]
  insertedWindowDims := []
  scatterDimsToOperandDims := [0, 1, 2]
  indexVectorDim := 0
  wf := scatter_S128x256x256_S3_S126x254x254_012_n_012_0_wf

class Facts : Prop extends Facts₀ where

variable [Facts]
-- ==== Proof.MeshNbr.lean ====
/-
  The 2 × 4 × 4 mesh by device number, and its six directions.

  Device `c` (0 … 31) sits at x = c / 16, y = (c / 4) % 4, z = c % 4. Direction 0 is x − 1, 1 is x + 1, 2 is y − 1,
  3 is y + 1, 4 is z − 1, 5 is z + 1. `has d c` says device `c` has a neighbour in direction `d`; `nbr d c` is that
  neighbour (and `c` itself where there is none, so that it is a total function); `opp d` is the opposite direction.
  Going to a neighbour and back is the identity, a neighbour has a neighbour in the opposite direction, and a device is
  the direction-`d` neighbour of exactly the devices that are its own direction-`opp d` neighbour.
-/
import Mathlib.Data.Fintype.Basic
import Mathlib.Data.Fintype.Card
import Mathlib.Data.Fin.Basic
import Mathlib.Tactic.FinCases

namespace Cert.Halo

/-- Device `c` has a neighbour in direction `d`. -/
def has (d : Fin 6) (c : Fin 32) : Bool :=
  match d with
  | ⟨0, _⟩ => decide (16 ≤ c.val)
  | ⟨1, _⟩ => decide (c.val < 16)
  | ⟨2, _⟩ => decide (0 < (c.val / 4) % 4)
  | ⟨3, _⟩ => decide ((c.val / 4) % 4 < 3)
  | ⟨4, _⟩ => decide (0 < c.val % 4)
  | ⟨_ + 5, _⟩ => decide (c.val % 4 < 3)

/-- How far, in device numbers, direction `d` moves (as a number to add after subtracting `back d`). -/
def fwd (d : Fin 6) : Nat := match d with
  | ⟨1, _⟩ => 16 | ⟨3, _⟩ => 4 | ⟨5, _⟩ => 1 | _ => 0
def back (d : Fin 6) : Nat := match d with
  | ⟨0, _⟩ => 16 | ⟨2, _⟩ => 4 | ⟨4, _⟩ => 1 | _ => 0

/-- The neighbour of `c` in direction `d`; `c` itself where there is none. -/
def nbr (d : Fin 6) (c : Fin 32) : Fin 32 :=
  if has d c then ⟨(c.val + fwd d - back d) % 32, Nat.mod_lt _ (by decide)⟩ else c

/-- The opposite direction. -/
def opp (d : Fin 6) : Fin 6 := match d with
  | ⟨0, _⟩ => 1 | ⟨1, _⟩ => 0 | ⟨2, _⟩ => 3 | ⟨3, _⟩ => 2 | ⟨4, _⟩ => 5 | ⟨_ + 5, _⟩ => 4

theorem opp_opp : ∀ d : Fin 6, opp (opp d) = d := by decide
theorem opp_ne : ∀ d : Fin 6, opp d ≠ d := by decide
theorem has_opp_nbr : ∀ (d : Fin 6) (c : Fin 32), has d c = true → has (opp d) (nbr d c) = true := by decide
theorem nbr_opp_nbr : ∀ (d : Fin 6) (c : Fin 32), has d c = true → nbr (opp d) (nbr d c) = c := by decide
theorem nbr_ne : ∀ (d : Fin 6) (c : Fin 32), has d c = true → nbr d c ≠ c := by decide
theorem nbr_of_not : ∀ (d : Fin 6) (c : Fin 32), has d c = false → nbr d c = c := by decide
/-- Two devices with the same neighbour in one direction are the same device. -/
theorem nbr_inj : ∀ (d : Fin 6) (c c' : Fin 32), has d c = true → has d c' = true → nbr d c = nbr d c' → c = c' := by decide
/-- How many neighbours a device has. -/
def nNbr (c : Fin 32) : Nat := (Finset.univ.filter fun d : Fin 6 => has d c = true).card

end Cert.Halo
-- ==== Proof.HaloSched.lean ====
/-
  The halo exchange's protocol, as a schedule of rounds.

  Every device has thirteen semaphores that matter: the barrier semaphore, six send semaphores (one per direction) and six
  receive semaphores (one per halo plane). Everything happens in one round, round 0.
  * The barrier cell of device `c` has one duty per direction `d` in which `c` has a neighbour: the neighbour `nbr d c`
    signals one unit, and with it hands `c` the halo plane of its own that `c`'s copy in direction `d` lands in (plane
    `opp d` of the neighbour), together with the fact that the neighbour's receive cell for that plane is at round 0.
  * The receive cell `h` of device `c`, when `c` has a neighbour in direction `h`, has one duty: the neighbour's copy
    landing, which hands `c` its halo plane `h` holding the neighbour's boundary plane facing `c`.
  * The send cell `d` of device `c`, when `c` has a neighbour in direction `d`, has one duty: `c`'s own copy having
    been read out, which hands back the boundary plane it was read from.
  A cell in a direction without a neighbour has no duty at all.
-/
import proofs.«900441_g7700000000000442_dist_halo3d_v7x_xyz2x4x4_s64_f32_1_alg».proof.Proof.Gen.KernelIdeal
import proofs.«900441_g7700000000000442_dist_halo3d_v7x_xyz2x4x4_s64_f32_1_alg».proof.Proof.Gen.KernelIdeal.Skeleton
import proofs.«900441_g7700000000000442_dist_halo3d_v7x_xyz2x4x4_s64_f32_1_alg».proof.Proof.Gen.KernelIdeal.Launch
import proofs.«900441_g7700000000000442_dist_halo3d_v7x_xyz2x4x4_s64_f32_1_alg».proof.Proof.MeshNbr
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen Cert.Halo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's (duties named by direction) -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The memrefs and the cells -/

abbrev xM : Memref sig .tc .vmem S64x64x64 .f32 := Memref.whole cc0_stg0_0
abbrev oM : Memref sig .tc .vmem S64x64x64 .f32 := Memref.whole cc0_stg1_0

/-- Halo plane `h` (scratch operands 0 … 5) and boundary plane `d` (scratch operands 6 … 11). -/
def haloM (h : Fin 6) : Memref sig .tc .vmem S1x64x64 .f32 := match h with
  | ⟨0, _⟩ => Memref.whole cc0_scratch0 | ⟨1, _⟩ => Memref.whole cc0_scratch1 | ⟨2, _⟩ => Memref.whole cc0_scratch2
  | ⟨3, _⟩ => Memref.whole cc0_scratch3 | ⟨4, _⟩ => Memref.whole cc0_scratch4 | ⟨_ + 5, _⟩ => Memref.whole cc0_scratch5
def stageM (d : Fin 6) : Memref sig .tc .vmem S1x64x64 .f32 := match d with
  | ⟨0, _⟩ => Memref.whole cc0_scratch6 | ⟨1, _⟩ => Memref.whole cc0_scratch7 | ⟨2, _⟩ => Memref.whole cc0_scratch8
  | ⟨3, _⟩ => Memref.whole cc0_scratch9 | ⟨4, _⟩ => Memref.whole cc0_scratch10 | ⟨_ + 5, _⟩ => Memref.whole cc0_scratch11

abbrev barS : Sem sig := (SemArray.scalar (sig.barrier 0 rfl) : Sems sig S_).sem
/-- Send semaphore `d` is DMA semaphore 2 + d, receive semaphore `h` is 8 + h. -/
def sendSem (d : Fin 6) : DmaSem sig := ⟨2 + d.val, by have := d.isLt; show 2 + d.val < 14; omega⟩
def recvSem (h : Fin 6) : DmaSem sig := ⟨8 + h.val, by have := h.isLt; show 8 + h.val < 14; omega⟩

abbrev barCell (c : Dev nD) : GSem nD τ sig := ((c : Thread nD τ), .reg barS)
abbrev sendCell (c : Dev nD) (d : Fin 6) : GSem nD τ sig := ((c : Thread nD τ), .dma (sendSem d))
abbrev recvCell (c : Dev nD) (h : Fin 6) : GSem nD τ sig := ((c : Thread nD τ), .dma (recvSem h))

abbrev N : ℕ := (haloM 0 : Memref sig .tc .vmem S1x64x64 .f32).view.dmaCredit
theorem N_pos : 0 < N := View.dmaCredit_pos _ (by decide)

/-! ## Contents -/

/-- Device `c`'s block of the argument array, as its input window stages it. -/
def xstg (c : Dev nD) : (cc0_stg0_0 : Ref sig .tc).ty.Contents (Elt F) :=
  (win0_0.blk (0 : Fin 1)).view.read (Elt F) (m ((c : Thread nD τ).loc main_arg0))

abbrev rX0 : Rect S64x64x64 := Rect.unit (s := S64x64x64) ![0, 0, 0] S1x64x64.size inb_S64x64x64_S1x64x64_0_0_0
abbrev rX63 : Rect S64x64x64 := Rect.unit (s := S64x64x64) ![63, 0, 0] S1x64x64.size inb_S64x64x64_S1x64x64_63_0_0
abbrev rY0 : Rect S64x64x64 := Rect.unit (s := S64x64x64) ![0, 0, 0] S64x1x64.size inb_S64x64x64_S64x1x64_0_0_0
abbrev rY63 : Rect S64x64x64 := Rect.unit (s := S64x64x64) ![0, 63, 0] S64x1x64.size inb_S64x64x64_S64x1x64_0_63_0
abbrev rZ0 : Rect S64x64x64 := Rect.unit (s := S64x64x64) ![0, 0, 0] S64x64x1.size inb_S64x64x64_S64x64x1_0_0_0
abbrev rZ63 : Rect S64x64x64 := Rect.unit (s := S64x64x64) ![0, 0, 63] S64x64x1.size inb_S64x64x64_S64x64x1_0_0_63

/-- The boundary plane of a block `x` facing direction `d`, as the body lays it out in its 1 × 64 × 64 scratch. -/
def faceOf (x : (cc0_stg0_0 : Ref sig .tc).ty.Contents (Elt F)) (d : Fin 6) : FVec F S1x64x64 .f32 := match d with
  | ⟨0, _⟩ => k0_pay6 ((xM : Memref sig .tc .vmem S64x64x64 .f32).view.readAt (Elt F) rX0.toLoadRect x)
  | ⟨1, _⟩ => k0_pay7 ((xM : Memref sig .tc .vmem S64x64x64 .f32).view.readAt (Elt F) rX63.toLoadRect x)
  | ⟨2, _⟩ => k0_pay8 ((xM : Memref sig .tc .vmem S64x64x64 .f32).view.readAt (Elt F) rY0.toLoadRect x)
  | ⟨3, _⟩ => k0_pay10 (k0_pay9 ((xM : Memref sig .tc .vmem S64x64x64 .f32).view.readAt (Elt F) rY63.toLoadRect x))
  | ⟨4, _⟩ => k0_pay11 ((xM : Memref sig .tc .vmem S64x64x64 .f32).view.readAt (Elt F) rZ0.toLoadRect x)
  | ⟨_ + 5, _⟩ => k0_pay12 ((xM : Memref sig .tc .vmem S64x64x64 .f32).view.readAt (Elt F) rZ63.toLoadRect x)

/-- What lands in halo plane `h` of device `c`: its direction-`h` neighbour's boundary plane facing back. -/
def landed (c : Dev nD) (h : Fin 6) : FVec F S1x64x64 .f32 := faceOf (xstg m (nbr h c)) (opp h)

/-- Halo plane `h` of device `c` held whole at contents `f`; boundary plane `d` likewise. -/
def haloPts (c : Dev nD) (h : Fin 6) (f : FVec F S1x64x64 .f32) : sProp 𝕄 := match h with
  | ⟨0, _⟩ => ((Memref.whole cc0_scratch0 : Memref sig .tc .vmem S1x64x64 .f32).view.loc (c : Thread nD τ) ↦{fullShare} f) | ⟨1, _⟩ => ((Memref.whole cc0_scratch1 : Memref sig .tc .vmem S1x64x64 .f32).view.loc (c : Thread nD τ) ↦{fullShare} f)
  | ⟨2, _⟩ => ((Memref.whole cc0_scratch2 : Memref sig .tc .vmem S1x64x64 .f32).view.loc (c : Thread nD τ) ↦{fullShare} f) | ⟨3, _⟩ => ((Memref.whole cc0_scratch3 : Memref sig .tc .vmem S1x64x64 .f32).view.loc (c : Thread nD τ) ↦{fullShare} f)
  | ⟨4, _⟩ => ((Memref.whole cc0_scratch4 : Memref sig .tc .vmem S1x64x64 .f32).view.loc (c : Thread nD τ) ↦{fullShare} f) | ⟨_ + 5, _⟩ => ((Memref.whole cc0_scratch5 : Memref sig .tc .vmem S1x64x64 .f32).view.loc (c : Thread nD τ) ↦{fullShare} f)
def stagePts (c : Dev nD) (d : Fin 6) (f : FVec F S1x64x64 .f32) : sProp 𝕄 := match d with
  | ⟨0, _⟩ => ((Memref.whole cc0_scratch6 : Memref sig .tc .vmem S1x64x64 .f32).view.loc (c : Thread nD τ) ↦{fullShare} f) | ⟨1, _⟩ => ((Memref.whole cc0_scratch7 : Memref sig .tc .vmem S1x64x64 .f32).view.loc (c : Thread nD τ) ↦{fullShare} f)
  | ⟨2, _⟩ => ((Memref.whole cc0_scratch8 : Memref sig .tc .vmem S1x64x64 .f32).view.loc (c : Thread nD τ) ↦{fullShare} f) | ⟨3, _⟩ => ((Memref.whole cc0_scratch9 : Memref sig .tc .vmem S1x64x64 .f32).view.loc (c : Thread nD τ) ↦{fullShare} f)
  | ⟨4, _⟩ => ((Memref.whole cc0_scratch10 : Memref sig .tc .vmem S1x64x64 .f32).view.loc (c : Thread nD τ) ↦{fullShare} f) | ⟨_ + 5, _⟩ => ((Memref.whole cc0_scratch11 : Memref sig .tc .vmem S1x64x64 .f32).view.loc (c : Thread nD τ) ↦{fullShare} f)

omit [FloatOps F] in
instance haloPts_storable (c : Dev nD) (h : Fin 6) (f) : BI.Storable (upEmb : UEmb _ 𝕄) (haloPts (F := F) c h f) := by
  unfold haloPts; split <;> infer_instance
omit [FloatOps F] in
instance stagePts_storable (c : Dev nD) (d : Fin 6) (f) : BI.Storable (upEmb : UEmb _ 𝕄) (stagePts (F := F) c d f) := by
  unfold stagePts; split <;> infer_instance

/-! ## The schedule -/

/-- What the direction-`d` neighbour's signal hands `c`: the neighbour's halo plane `opp d`, and that the neighbour's
    receive cell for it stands at round 0. -/
def barPay (c : Dev nD) (d : Fin 6) : sProp 𝕄 :=
  iprop((∃ f, haloPts (nbr d c) (opp d) f) ∗ reached ER (recvCell (nbr d c) (opp d)) 0)
/-- What the landing on receive cell `h` hands `c`: its halo plane `h` at the neighbour's boundary plane. -/
def recvPay (c : Dev nD) (h : Fin 6) : sProp 𝕄 := haloPts c h (landed m c h)
/-- What the departure on send cell `d` hands back: the boundary plane it read. -/
def sendPay (c : Dev nD) (d : Fin 6) : sProp 𝕄 := iprop(∃ f, stagePts c d f)

/-- One round. A barrier cell's duties are the directions its device has a neighbour in; send cell `d` and receive cell
    `d` have the duty `d` when the device has a neighbour in direction `d`. -/
def haloRd : Rounds.Schedule (GSem nD τ sig) (Fin 6) 𝕄 where
  duties g r :=
    if r = 0 ∧ g.1.2 = .tc then
      (if g.2 = .reg barS then Finset.univ.filter fun d => has d g.1.1 = true
       else Finset.univ.filter fun d => has d g.1.1 = true ∧ (g.2 = .dma (sendSem d) ∨ g.2 = .dma (recvSem d)))
    else ∅
  unitless _ := False
  amount g _ _ := if g.2 = .reg barS then 1 else N
  payload g _ d :=
    if g.2 = .reg barS then barPay g.1.1 d
    else if g.2 = .dma (recvSem d) then recvPay m g.1.1 d
    else if g.2 = .dma (sendSem d) then sendPay g.1.1 d
    else iprop(emp)
  amount_pos g _ _ _ := by
    by_cases h : g.2 = .reg barS
    · rw [if_pos h]; exact Nat.one_pos
    · rw [if_neg h]; exact N_pos

instance haloRd_payload_storable (g : GSem nD τ sig) (r : ℕ) (d : Fin 6) :
    BI.Storable (upEmb : UEmb _ 𝕄) ((haloRd (F := F) m).payload g r d) := by
  show BI.Storable upEmb (if g.2 = .reg barS then barPay g.1.1 d else if g.2 = .dma (recvSem d) then recvPay m g.1.1 d
    else if g.2 = .dma (sendSem d) then sendPay g.1.1 d else iprop(emp))
  unfold barPay recvPay sendPay
  (repeat' split) <;> infer_instance

section Sched
variable (c : Dev nD)

theorem send_ne_bar (d : Fin 6) : (SemLoc.dma (sendSem d) : SemLoc sig) ≠ .reg barS := fun h => by cases h
theorem recv_ne_bar (d : Fin 6) : (SemLoc.dma (recvSem d) : SemLoc sig) ≠ .reg barS := fun h => by cases h
theorem send_ne_recv : ∀ d e : Fin 6, (SemLoc.dma (sendSem d) : SemLoc sig) ≠ .dma (recvSem e) := by decide
theorem recv_ne_send : ∀ d e : Fin 6, (SemLoc.dma (recvSem d) : SemLoc sig) ≠ .dma (sendSem e) := by decide
theorem send_inj : ∀ d e : Fin 6, (SemLoc.dma (sendSem d) : SemLoc sig) = .dma (sendSem e) → d = e := by decide
theorem recv_inj : ∀ d e : Fin 6, (SemLoc.dma (recvSem d) : SemLoc sig) = .dma (recvSem e) → d = e := by decide

omit [FloatOps F] in
theorem duties_bar : (haloRd (F := F) m).duties (barCell c) 0 = Finset.univ.filter fun d => has d c = true := by
  dsimp only [haloRd]; rw [if_pos ⟨rfl, rfl⟩, if_pos rfl]
omit [FloatOps F] in
theorem duties_send (d : Fin 6) : (haloRd (F := F) m).duties (sendCell c d) 0 = if has d c = true then {d} else ∅ := by
  dsimp only [haloRd]; rw [if_pos ⟨rfl, rfl⟩, if_neg (send_ne_bar d)]
  ext e
  simp only [Finset.mem_filter, Finset.mem_univ, true_and]
  constructor
  · rintro ⟨he, h | h⟩
    · have := send_inj d e h; subst this; rw [if_pos he]; exact Finset.mem_singleton_self _
    · exact absurd h (send_ne_recv d e)
  · intro h
    by_cases hd : has d c = true
    · rw [if_pos hd] at h; rw [Finset.mem_singleton.mp h]; exact ⟨hd, .inl rfl⟩
    · rw [if_neg hd] at h; exact absurd h (Finset.notMem_empty _)
omit [FloatOps F] in
theorem duties_recv (d : Fin 6) : (haloRd (F := F) m).duties (recvCell c d) 0 = if has d c = true then {d} else ∅ := by
  dsimp only [haloRd]; rw [if_pos ⟨rfl, rfl⟩, if_neg (recv_ne_bar d)]
  ext e
  simp only [Finset.mem_filter, Finset.mem_univ, true_and]
  constructor
  · rintro ⟨he, h | h⟩
    · exact absurd h (recv_ne_send d e)
    · have := recv_inj d e h; subst this; rw [if_pos he]; exact Finset.mem_singleton_self _
  · intro h
    by_cases hd : has d c = true
    · rw [if_pos hd] at h; rw [Finset.mem_singleton.mp h]; exact ⟨hd, .inr rfl⟩
    · rw [if_neg hd] at h; exact absurd h (Finset.notMem_empty _)
omit [FloatOps F] in
theorem duties_later (g : GSem nD τ sig) : ∀ r, 1 ≤ r → (haloRd (F := F) m).duties g r = ∅ :=
  fun r hr => by dsimp only [haloRd]; rw [if_neg fun h => by omega]

omit [FloatOps F] in
theorem amount_bar (d : Fin 6) : (haloRd (F := F) m).amount (barCell c) 0 d = 1 := by dsimp only [haloRd]; exact if_pos rfl
omit [FloatOps F] in
theorem amount_send (d e : Fin 6) : (haloRd (F := F) m).amount (sendCell c d) 0 e = N := by dsimp only [haloRd]; exact if_neg (send_ne_bar d)
omit [FloatOps F] in
theorem amount_recv (d e : Fin 6) : (haloRd (F := F) m).amount (recvCell c d) 0 e = N := by dsimp only [haloRd]; exact if_neg (recv_ne_bar d)

omit [FloatOps F] in
theorem expect_bar : (haloRd (F := F) m).expect (barCell c) 0 = nNbr c := by
  unfold Schedule.expect Schedule.amountOf nNbr
  rw [duties_bar, Finset.sum_congr rfl fun d _ => amount_bar m c d, Finset.sum_const, smul_eq_mul, Nat.mul_one]
omit [FloatOps F] in
theorem expect_send (d : Fin 6) (hd : has d c = true) : (haloRd (F := F) m).expect (sendCell c d) 0 = N := by
  unfold Schedule.expect Schedule.amountOf; rw [duties_send, if_pos hd, Finset.sum_singleton, amount_send]
omit [FloatOps F] in
theorem expect_recv (d : Fin 6) (hd : has d c = true) : (haloRd (F := F) m).expect (recvCell c d) 0 = N := by
  unfold Schedule.expect Schedule.amountOf; rw [duties_recv, if_pos hd, Finset.sum_singleton, amount_recv]

omit [FloatOps F] in
theorem payload_bar (d : Fin 6) : (haloRd (F := F) m).payload (barCell c) 0 d = barPay c d := by dsimp only [haloRd]; rw [if_pos rfl]
omit [FloatOps F] in
theorem payload_send (d : Fin 6) : (haloRd (F := F) m).payload (sendCell c d) 0 d = sendPay c d := by
  dsimp only [haloRd]; rw [if_neg (send_ne_bar d), if_neg (send_ne_recv d d), if_pos rfl]
omit [FloatOps F] in
theorem payload_recv (d : Fin 6) : (haloRd (F := F) m).payload (recvCell c d) 0 d = recvPay m c d := by
  dsimp only [haloRd]; rw [if_neg (recv_ne_bar d), if_pos rfl]

end Sched

end Cert.KernelIdeal.Halo

end
-- ==== Proof.HaloRules.lean ====
/-
  The five kinds of cross-device step of the halo exchange, each stated once for any device `c` and any direction `d` in
  which `c` has a neighbour `n = nbr d c`:
  * the signal to the neighbour's barrier cell, which hands the neighbour `c`'s own halo plane `d` (the plane the
    neighbour's copy lands in) and that `c`'s receive cell `d` stands at round 0;
  * the wait on `c`'s own barrier cell for as many units as `c` has neighbours, which hands `c` every neighbour's
    plane facing it;
  * the copy of boundary plane `d` into the neighbour's halo plane `opp d`, paying the neighbour's receive cell;
  * the wait on receive cell `d`: halo plane `d` comes back holding the neighbour's boundary plane;
  * the wait on send cell `d`: the boundary plane comes back.
-/
import proofs.«900441_g7700000000000442_dist_halo3d_v7x_xyz2x4x4_s64_f32_1_alg».proof.Proof.HaloSched

noncomputable section

namespace Cert.KernelIdeal.Halo

open Cert.KernelIdeal Cert.KernelIdeal.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

abbrev 𝒱₀ : Variants := Variants.none

omit [FloatOps F] in
theorem opp_mem_bar (c : Dev nD) (d : Fin 6) (hd : has d c = true) :
    opp d ∈ (haloRd (F := F) m).duties (barCell (nbr d c)) 0 := by
  rw [duties_bar]; exact Finset.mem_filter.mpr ⟨Finset.mem_univ _, has_opp_nbr d c hd⟩

omit [FloatOps F] in
/-- The payload of the signal `c` sends its direction-`d` neighbour: `c`'s own halo plane `d` and its receive cell's mark. -/
theorem payload_sig (c : Dev nD) (d : Fin 6) (hd : has d c = true) :
    (haloRd (F := F) m).payload (barCell (nbr d c)) 0 (opp d) = iprop((∃ f, haloPts c d f) ∗ reached ER (recvCell c d) 0) := by
  rw [payload_bar]; unfold barPay; rw [nbr_opp_nbr d c hd, opp_opp]

/-- The signal to the direction-`d` neighbour's barrier cell. -/
theorem wp_sig (c n : Dev nD) (d : Fin 6) (hd : has d c = true) (hn : n = nbr d c)
    {α : Type} {Q : α → sProp 𝕄} {k : PUnit → Prog (TpuEff nD τ sig (Elt F) Λ₀ .tc) α}
    (κ : ℕ) (O : CellTallies nD τ sig Unit) (W : Waits sig Unit) :
    iprop(cellInv ER (haloRd m) κ (barCell (nbr d c)) ∗ owes (c : Thread nD τ) (O + tallyAt (barCell (nbr d c)) () 1) W
        ∗ dutyTok ER (barCell (nbr d c)) 0 (opp d) ∗ (∃ f, haloPts c d f) ∗ reached ER (recvCell c d) 0
        ∗ reached ER (barCell (nbr d c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS (1#32).toNat) k) Q) := by
  subst hn
  iintro ⟨#HI, HO, Ht, Hp, #Hrv, #Hrb⟩
  iapply (Rounds.wp_signal 𝒱₀ ER (haloRd m) (c : Thread nD τ) none (dst := (nbr d c : Thread nD τ)) (κ := κ)
      (d := opp d) (opp_mem_bar m c d hd) ((amount_bar m (nbr d c) (opp d)).trans (by decide)) () O rfl) $$ [HO Ht Hp]
  isplitr; · iexact HI
  isplitl [HO]; · iexact HO
  isplitl [Ht]; · iexact Ht
  isplitl [Hp]
  · rw [payload_sig m c d hd]
    isplitl [Hp]; · iexact Hp
    iexact Hrv
  · iexact Hrb

end Cert.KernelIdeal.Halo

end
-- ==== Proof.HaloGuard.lean ====
/-
  The device-dependent branches of the halo exchange, one direction at a time.

  The program tests, for each direction, whether the device has a neighbour there, and only then signals, copies or waits.
  Each such branch is taken here ONCE for any device: what it needs and what it leaves are stated with "if the device
  has a neighbour in direction `d`" inside them (`onDir`: something held only then; `offDir`: something held only
  otherwise), so that the same sentence holds on both sides of the branch.
-/
import proofs.«900441_g7700000000000442_dist_halo3d_v7x_xyz2x4x4_s64_f32_1_alg».proof.Proof.HaloRules

noncomputable section

namespace Cert.KernelIdeal.Halo

open Cert.KernelIdeal Cert.KernelIdeal.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- `P` if device `c` has a neighbour in direction `d`, nothing otherwise; and the other way round. -/
def onDir (c : Dev nD) (d : Fin 6) (P : sProp 𝕄) : sProp 𝕄 := if has d c = true then P else iprop(emp)
def offDir (c : Dev nD) (d : Fin 6) (P : sProp 𝕄) : sProp 𝕄 := if has d c = true then iprop(emp) else P

/-- What device `c` owes in direction `d`: one unit to the neighbour's barrier cell, and the plane's credit to the
    neighbour's receive cell. -/
def sigOwe (c : Dev nD) (d : Fin 6) : CellTallies nD τ sig Unit := if has d c = true then tallyAt (barCell (nbr d c)) () 1 else 0
def sndOwe (c : Dev nD) (d : Fin 6) : CellTallies nD τ sig Unit := if has d c = true then tallyAt (recvCell (nbr d c) (opp d)) () N else 0

/-! ## The program's tests and device numbers, decided over the mesh -/

theorem cond1_iff : ∀ c : Dev nD, k0_cond1 c = 1#1 ↔ has 0 c = true := by decide +kernel
theorem cond2_iff : ∀ c : Dev nD, k0_cond2 c = 1#1 ↔ has 1 c = true := by decide +kernel
theorem cond3_iff : ∀ c : Dev nD, k0_cond3 c = 1#1 ↔ has 2 c = true := by decide +kernel
theorem cond4_iff : ∀ c : Dev nD, k0_cond4 c = 1#1 ↔ has 3 c = true := by decide +kernel
theorem cond5_iff : ∀ c : Dev nD, k0_cond5 c = 1#1 ↔ has 4 c = true := by decide +kernel
theorem cond6_iff : ∀ c : Dev nD, k0_cond6 c = 1#1 ↔ has 5 c = true := by decide +kernel
theorem cond13_iff : ∀ c : Dev nD, k0_cond13 c = 1#1 ↔ has 0 c = true := by decide +kernel
theorem cond14_iff : ∀ c : Dev nD, k0_cond14 c = 1#1 ↔ has 1 c = true := by decide +kernel
theorem cond15_iff : ∀ c : Dev nD, k0_cond15 c = 1#1 ↔ has 2 c = true := by decide +kernel
theorem cond16_iff : ∀ c : Dev nD, k0_cond16 c = 1#1 ↔ has 3 c = true := by decide +kernel
theorem cond17_iff : ∀ c : Dev nD, k0_cond17 c = 1#1 ↔ has 4 c = true := by decide +kernel
theorem cond18_iff : ∀ c : Dev nD, k0_cond18 c = 1#1 ↔ has 5 c = true := by decide +kernel

theorem dev1_eq : ∀ (c : Dev nD) (h : k0_cond1 c = 1#1), (⟨k0_dev1 c, k0_dev1_lt c h⟩ : Dev nD) = nbr 0 c := by decide +kernel
theorem dev2_eq : ∀ (c : Dev nD) (h : k0_cond2 c = 1#1), (⟨k0_dev2 c, k0_dev2_lt c h⟩ : Dev nD) = nbr 1 c := by decide +kernel
theorem dev3_eq : ∀ (c : Dev nD) (h : k0_cond3 c = 1#1), (⟨k0_dev3 c, k0_dev3_lt c h⟩ : Dev nD) = nbr 2 c := by decide +kernel
theorem dev4_eq : ∀ (c : Dev nD) (h : k0_cond4 c = 1#1), (⟨k0_dev4 c, k0_dev4_lt c h⟩ : Dev nD) = nbr 3 c := by decide +kernel
theorem dev5_eq : ∀ (c : Dev nD) (h : k0_cond5 c = 1#1), (⟨k0_dev5 c, k0_dev5_lt c h⟩ : Dev nD) = nbr 4 c := by decide +kernel
theorem dev6_eq : ∀ (c : Dev nD) (h : k0_cond6 c = 1#1), (⟨k0_dev6 c, k0_dev6_lt c h⟩ : Dev nD) = nbr 5 c := by decide +kernel
theorem dev7_eq : ∀ (c : Dev nD) (h : k0_cond13 c = 1#1), (⟨k0_dev7 c, k0_dev7_lt c h⟩ : Dev nD) = nbr 0 c := by decide +kernel
theorem dev8_eq : ∀ (c : Dev nD) (h : k0_cond14 c = 1#1), (⟨k0_dev8 c, k0_dev8_lt c h⟩ : Dev nD) = nbr 1 c := by decide +kernel
theorem dev9_eq : ∀ (c : Dev nD) (h : k0_cond15 c = 1#1), (⟨k0_dev9 c, k0_dev9_lt c h⟩ : Dev nD) = nbr 2 c := by decide +kernel
theorem dev10_eq : ∀ (c : Dev nD) (h : k0_cond16 c = 1#1), (⟨k0_dev10 c, k0_dev10_lt c h⟩ : Dev nD) = nbr 3 c := by decide +kernel
theorem dev11_eq : ∀ (c : Dev nD) (h : k0_cond17 c = 1#1), (⟨k0_dev11 c, k0_dev11_lt c h⟩ : Dev nD) = nbr 4 c := by decide +kernel
theorem dev12_eq : ∀ (c : Dev nD) (h : k0_cond18 c = 1#1), (⟨k0_dev12 c, k0_dev12_lt c h⟩ : Dev nD) = nbr 5 c := by decide +kernel
/-- The barrier wait's amount is the number of neighbours. -/
theorem amt1_eq : ∀ c : Dev nD, (k0_amt1 c).toNat = nNbr c := by decide +kernel

/-! ## The guarded signal -/

/-- The branch "if there is a neighbour in direction `d`, signal its barrier cell": from what the device owes with that
    unit among it, the signal's token if there is a neighbour, and its own halo plane `d`, the rest `R` of the program
    runs owing the unit less and holding the plane only if there was no neighbour to hand it to. -/
theorem wp_sig_g (c : Dev nD) (d : Fin 6) {C : Prop} [Decidable C] (hC : C ↔ has d c = true)
    (n : C → Dev nD) (hn : ∀ h, n h = nbr d c)
    {α : Type} {Q : α → sProp 𝕄} (R : Prog (TpuEff nD τ sig (Elt F) Λ₀ .tc) α)
    (pt : C → Prog (TpuEff nD τ sig (Elt F) Λ₀ .tc) α) (pe : Prog (TpuEff nD τ sig (Elt F) Λ₀ .tc) α)
    (hpt : ∀ h, pt h = Prog.bind (semSignalWord (n h) barS 1#32 hamt_1) (fun _ => R)) (hpe : pe = R)
    (κ : ℕ) (O : CellTallies nD τ sig Unit) (W : Waits sig Unit) :
    iprop(cellInv ER (haloRd m) κ (barCell (nbr d c)) ∗ reached ER (recvCell c d) 0 ∗ reached ER (barCell (nbr d c)) 0
        ∗ owes (c : Thread nD τ) (O + sigOwe c d) W ∗ onDir c d (dutyTok ER (barCell (nbr d c)) 0 (opp d)) ∗ (∃ f, haloPts c d f)
        ∗ ((owes (c : Thread nD τ) O W ∗ offDir c d iprop(∃ f, haloPts (F := F) c d f))
            -∗ wp frame (wpE (defs₀ (F := F)) 𝒱₀ (c : Thread nD τ) none) Set.univ R Q))
      ⊢ wp frame (wpE (defs₀ (F := F)) 𝒱₀ (c : Thread nD τ) none) Set.univ (if h : C then pt h else pe) Q := by
  by_cases h : C
  · have hd := hC.mp h
    rw [dif_pos h, hpt h]
    unfold onDir offDir sigOwe semSignalWord
    rw [if_pos hd, if_pos hd, if_pos hd]
    simp only [Prog.bind_op, Prog.bind_ret]
    iintro ⟨#HI, #Hrv, #Hrb, HO, Ht, Hp, Hk⟩
    iapply (wp_sig m c (n h) d hd (hn h) κ O W) $$ [HO Ht Hp]
    · isplitr; · iexact HI
      isplitl [HO]; · iexact HO
      isplitl [Ht]; · iexact Ht
      isplitl [Hp]; · iexact Hp
      isplitr; · iexact Hrv
      iexact Hrb
    iintro HO
    iapply Hk
    isplitl [HO]; · iexact HO
    iempintro
  · have hd : ¬ has d c = true := fun hd => h (hC.mpr hd)
    rw [dif_neg h, hpe]
    unfold onDir offDir sigOwe
    rw [if_neg hd, if_neg hd, if_neg hd, add_zero]
    iintro ⟨-, -, -, HO, -, Hp, Hk⟩
    iapply Hk
    isplitl [HO]; · iexact HO
    iexact Hp

end Cert.KernelIdeal.Halo

end
-- ==== Proof.HaloGhost.lean ====
/-
  What every device holds when its body starts and when it ends.

  The thirteen cells of a device are numbered: 0 the barrier cell, 1 + d send cell `d`, 7 + d receive cell `d`. Every cell
  of every device has its invariant allocated at launch, at the name `K (device, number)`.
  A device starts with
  * the persistent part: its barrier cell's invariant and, per direction `d`, the invariants of the four cells that
    direction's steps touch (the neighbour's barrier cell and receive cell `opp d`, its own send cell `d` and receive cell
    `d`) and that each of them stands at round 0;
  * the linear part: its position at round 0 of each of its thirteen cells and, per direction in which it has a
    neighbour, the three duty tokens it pays with (the neighbour's barrier duty `opp d`, the neighbour's receive duty
    `opp d`, its own send duty `d`);
  * the launch credit: as many units on its barrier cell as it has neighbours, and a plane's credit on receive cell `d`
    for each neighbour;
  * what it owes: per neighbour, a unit to that barrier cell and a plane's credit to that receive cell. The sum is nested
    so that the steps peel it from the right in program order: the six signals first, then the six copies.
-/
import proofs.«900441_g7700000000000442_dist_halo3d_v7x_xyz2x4x4_s64_f32_1_alg».proof.Proof.HaloGuard

noncomputable section

namespace Cert.KernelIdeal.Halo

open Cert.KernelIdeal Cert.KernelIdeal.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The cells, numbered -/

def kBar : Fin 13 := 0
def kSend (d : Fin 6) : Fin 13 := ⟨1 + d.val, by have := d.isLt; omega⟩
def kRecv (d : Fin 6) : Fin 13 := ⟨7 + d.val, by have := d.isLt; omega⟩

def csem (k : Fin 13) : SemLoc sig :=
  if h0 : k.val = 0 then .reg barS
  else if h1 : k.val < 7 then .dma (sendSem ⟨k.val - 1, by omega⟩)
  else .dma (recvSem ⟨k.val - 7, by have := k.isLt; omega⟩)
abbrev kcell (ck : Dev nD × Fin 13) : GSem nD τ sig := ((ck.1 : Thread nD τ), csem ck.2)

theorem csem_bar : csem kBar = .reg barS := rfl
theorem csem_send : ∀ d : Fin 6, csem (kSend d) = .dma (sendSem d) := by decide
theorem csem_recv : ∀ d : Fin 6, csem (kRecv d) = .dma (recvSem d) := by decide
theorem csem_injective : Function.Injective csem := by decide

/-- Six things side by side, one per direction. -/
abbrev sep6 (P : Fin 6 → sProp 𝕄) : sProp 𝕄 := iprop(P 0 ∗ P 1 ∗ P 2 ∗ P 3 ∗ P 4 ∗ P 5)

/-! ## What a device starts from -/

/-- The persistent part for direction `d`. -/
def persDir (K : Dev nD × Fin 13 → ℕ) (c : Dev nD) (d : Fin 6) : sProp 𝕄 :=
  iprop(cellInv ER (haloRd m) (K (nbr d c, kBar)) (barCell (nbr d c))
    ∗ cellInv ER (haloRd m) (K (nbr d c, kRecv (opp d))) (recvCell (nbr d c) (opp d))
    ∗ cellInv ER (haloRd m) (K (c, kSend d)) (sendCell c d) ∗ cellInv ER (haloRd m) (K (c, kRecv d)) (recvCell c d)
    ∗ reached ER (barCell (nbr d c)) 0 ∗ reached ER (recvCell (nbr d c) (opp d)) 0
    ∗ reached ER (sendCell c d) 0 ∗ reached ER (recvCell c d) 0)
instance persDir_persistent (K : Dev nD × Fin 13 → ℕ) (c : Dev nD) (d : Fin 6) : BI.Persistent (persDir m K c d) := by
  unfold persDir; infer_instance

def pers (K : Dev nD × Fin 13 → ℕ) (c : Dev nD) : sProp 𝕄 :=
  iprop(cellInv ER (haloRd m) (K (c, kBar)) (barCell c) ∗ sep6 (persDir m K c))
instance pers_persistent (K : Dev nD × Fin 13 → ℕ) (c : Dev nD) : BI.Persistent (pers m K c) := by unfold pers; infer_instance

/-- The linear part for direction `d`: the three tokens (if there is a neighbour) and the two positions. -/
def linDir (c : Dev nD) (d : Fin 6) : sProp 𝕄 :=
  iprop(onDir c d (dutyTok ER (barCell (nbr d c)) 0 (opp d)) ∗ onDir c d (dutyTok ER (recvCell (nbr d c) (opp d)) 0 (opp d))
    ∗ onDir c d (dutyTok ER (sendCell c d) 0 d)
    ∗ atPos ER (sendCell c d) 0 ∅ 0 ∗ atPos ER (recvCell c d) 0 ∅ 0)

def ghost (K : Dev nD × Fin 13 → ℕ) (c : Dev nD) : sProp 𝕄 :=
  iprop(pers m K c ∗ atPos ER (barCell c) 0 ∅ 0 ∗ sep6 (linDir (F := F) c))

/-- The launch credit on receive cell `d`. -/
def credDir (c : Dev nD) (d : Fin 6) : sProp 𝕄 := onDir c d (cred (tallyAt (recvCell c d) () N))

/-- What device `c` owes at launch, nested for peeling from the right: signals 0 … 5, then copies 0 … 5. -/
def O₀ (c : Dev nD) : CellTallies nD τ sig Unit :=
  0 + sndOwe c 5 + sndOwe c 4 + sndOwe c 3 + sndOwe c 2 + sndOwe c 1 + sndOwe c 0
    + sigOwe c 5 + sigOwe c 4 + sigOwe c 3 + sigOwe c 2 + sigOwe c 1 + sigOwe c 0
/-- What it still owes at its barrier wait: the six copies. -/
def Osnd (c : Dev nD) : CellTallies nD τ sig Unit :=
  0 + sndOwe c 5 + sndOwe c 4 + sndOwe c 3 + sndOwe c 2 + sndOwe c 1 + sndOwe c 0

/-- The levels: barrier cells at 1, receive cells at 2, everything else (staging, send) at 0. -/
def L (g : GSem nD τ sig) : Finset Unit := if g.1.2 = .tc then {()} else ∅
def lv (g : GSem nD τ sig) (_ : Unit) : ℕ :=
  if g.2 = .reg barS then 1 else if ∃ d : Fin 6, g.2 = .dma (recvSem d) then 2 else 0

theorem L_of_ne (g : GSem nD τ sig) (h : g.1.2 ≠ .tc) : L g = ∅ := if_neg h
theorem L_tc (c : Dev nD) (sm : SemLoc sig) : L ((c : Thread nD τ), sm) = {()} := if_pos rfl

/-- What device `c`'s body starts from, besides the staged windows and the scratch buffers. -/
def start (c : Dev nD) : sProp 𝕄 :=
  iprop((∃ K, ghost m K c) ∗ cred (tallyAt (barCell c) () (nNbr c)) ∗ sep6 (credDir (F := F) c) ∗ levAts L lv)

/-- The twelve scratch planes, each held whole at something. -/
def scratch (c : Dev nD) : sProp 𝕄 :=
  iprop(sep6 (fun h => iprop(∃ f, haloPts (F := F) c h f)) ∗ sep6 (fun d => iprop(∃ f, stagePts (F := F) c d f)))

/-- The twelve own semaphores back at zero. -/
def ownZero (c : Dev nD) : sProp 𝕄 :=
  iprop(sep6 (fun d => (semVal (sendCell c d) 0 : sProp 𝕄)) ∗ sep6 (fun d => (semVal (recvCell c d) 0 : sProp 𝕄)))

def Φ₀ (c : Dev nD) : sProp 𝕄 := iprop(start m c ∗ scratch (F := F) c)
def Φ₁ (c : Dev nD) : sProp 𝕄 := iprop(scratch (F := F) c ∗ ownZero (F := F) c)

end Cert.KernelIdeal.Halo

end
-- ==== Proof.HaloData.lean ====
/-
  The pipeline's proof data for the one-point region: the input window stages the device's block and is left in place; the
  output window's staging buffer ends at the device's result `outAt c`; the invariant goes from what a device starts from
  to the scratch planes and own semaphores handed back; the device owes its neighbours before the point and nothing after.
-/
import proofs.«900441_g7700000000000442_dist_halo3d_v7x_xyz2x4x4_s64_f32_1_alg».proof.Proof.HaloGhost

noncomputable section

namespace Cert.KernelIdeal.Halo

open Cert.KernelIdeal Cert.KernelIdeal.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (outAt : Dev nD → (cc0_stg1_0 : Ref sig .tc).ty.Contents (Elt F))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

end Cert.KernelIdeal.Halo

end
-- ==== Proof.HaloWaits.lean ====
/-
  Which waits the levels allow. Barrier cells stand at level 1, receive cells at level 2, every other cell at level 0.
  A device that has sent its signals owes only receive cells of its neighbours, all above its own barrier cell, so it
  may wait there; and whatever a device owes at any time stands at a barrier cell or a receive cell, above level 0, so
  it may always wait on a cell of level 0.
-/
import proofs.«900441_g7700000000000442_dist_halo3d_v7x_xyz2x4x4_s64_f32_1_alg».proof.Proof.HaloGhost

noncomputable section

namespace Cert.KernelIdeal.Halo

open Cert.KernelIdeal Cert.KernelIdeal.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## Where a device owes: only at receive cells of its neighbours once the signals are sent -/

theorem sndOwe_pos {c : Dev nD} {d : Fin 6} {g : GSem nD τ sig} {u : Unit} (h : 0 < sndOwe c d g u) :
    g = recvCell (nbr d c) (opp d) := by
  unfold sndOwe at h
  by_cases hd : has d c = true
  · rw [if_pos hd, tallyAt_apply] at h
    by_contra hn
    rw [if_neg (fun h' => hn h'.1)] at h
    exact Nat.lt_irrefl 0 h
  · rw [if_neg hd] at h
    exact absurd h (Nat.lt_irrefl 0)

theorem Osnd_pos {c : Dev nD} {g : GSem nD τ sig} {u : Unit} (h : 0 < Osnd c g u) :
    ∃ d : Fin 6, g = recvCell (nbr d c) (opp d) := by
  unfold Osnd at h
  simp only [Pi.add_apply, Finsupp.add_apply, Pi.zero_apply, Finsupp.coe_zero] at h
  by_contra hn
  have z : ∀ d, sndOwe c d g u = 0 := fun d =>
    Nat.eq_zero_of_not_pos (fun hp => hn ⟨d, sndOwe_pos hp⟩)
  rw [z 5, z 4, z 3, z 2, z 1, z 0] at h
  exact Nat.lt_irrefl 0 h

omit [FloatOps F] in
/-- At its barrier wait a device owes only receive cells, which stand above its barrier cell. -/
theorem mayWait_bar (c : Dev nD) :
    (levAts L lv : sProp 𝕄) ⊢ MayWait (c : Thread nD τ) (.reg barS) () (Osnd c) :=
  MayOwe.of_cut (L := L) (lev := lv) 1
    (fun p hp => by rw [Finset.mem_singleton.mp hp, L_tc]; exact Finset.mem_singleton_self _)
    (fun g u hg => by obtain ⟨d, rfl⟩ := Osnd_pos hg; rw [L_tc]; exact Finset.mem_singleton_self _)
    (fun p hp => by rw [Finset.mem_singleton.mp hp]; dsimp only [lv]; rw [if_pos rfl])
    (fun g u hg => by
      obtain ⟨d, rfl⟩ := Osnd_pos hg
      dsimp only [lv]
      rw [if_neg (recv_ne_bar _), if_pos ⟨_, rfl⟩]
      decide)

/-! ## What a device owes at launch stands at barrier cells and receive cells -/

theorem sigOwe_pos {c : Dev nD} {d : Fin 6} {g : GSem nD τ sig} {u : Unit} (h : 0 < sigOwe c d g u) :
    g = barCell (nbr d c) := by
  unfold sigOwe at h
  by_cases hd : has d c = true
  · rw [if_pos hd, tallyAt_apply] at h
    by_contra hn
    rw [if_neg (fun h' => hn h'.1)] at h
    exact Nat.lt_irrefl 0 h
  · rw [if_neg hd] at h
    exact absurd h (Nat.lt_irrefl 0)

theorem O₀_pos {c : Dev nD} {g : GSem nD τ sig} {u : Unit} (h : 0 < O₀ c g u) :
    (∃ d : Fin 6, g = recvCell (nbr d c) (opp d)) ∨ ∃ d : Fin 6, g = barCell (nbr d c) := by
  unfold O₀ at h
  simp only [Pi.add_apply, Finsupp.add_apply, Pi.zero_apply, Finsupp.coe_zero] at h
  by_contra hn
  rw [not_or] at hn
  have z : ∀ d, sndOwe c d g u = 0 := fun d =>
    Nat.eq_zero_of_not_pos (fun hp => hn.1 ⟨d, sndOwe_pos hp⟩)
  have y : ∀ d, sigOwe c d g u = 0 := fun d =>
    Nat.eq_zero_of_not_pos (fun hp => hn.2 ⟨d, sigOwe_pos hp⟩)
  rw [z 5, z 4, z 3, z 2, z 1, z 0, y 5, y 4, y 3, y 2, y 1, y 0] at h
  exact Nat.lt_irrefl 0 h

omit [FloatOps F] in
/-- A cell of level 0 — any DMA semaphore that is not a receive semaphore — may be waited on whatever the device owes
    of its launch debt, or nothing. -/
theorem mayWait_low (c : Dev nD) (q : DmaSem sig) (hq : ∀ d : Fin 6, SemLoc.dma q ≠ .dma (recvSem d))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases O₀_pos hg with ⟨d, rfl⟩ | ⟨d, rfl⟩ <;> (rw [L_tc]; exact Finset.mem_singleton_self _))
      (fun p hp => by
        rw [Finset.mem_singleton.mp hp]
        dsimp only [lv]
        rw [if_neg (fun h => by cases h), if_neg (fun ⟨d, hd⟩ => hq d hd)])
      (fun g u hg => by
        rcases O₀_pos hg with ⟨d, rfl⟩ | ⟨d, rfl⟩
        · dsimp only [lv]; rw [if_neg (recv_ne_bar _), if_pos ⟨_, rfl⟩]; decide
        · dsimp only [lv]; rw [if_pos rfl]; decide)
  · rw [MayWait_zero]; iintro -; iempintro

/-- info: 'Cert.KernelIdeal.Halo.mayWait_bar' depends on axioms: [propext, Classical.choice, Quot.sound] -/
#guard_msgs in #print axioms mayWait_bar

/-- info: 'Cert.KernelIdeal.Halo.mayWait_low' depends on axioms: [propext, Classical.choice, Quot.sound] -/
#guard_msgs in #print axioms mayWait_low

end Cert.KernelIdeal.Halo

end
-- ==== Proof.HaloLaunchAlloc.lean ====
/-
  The launch of the halo exchange, first part: the ghost state every device starts from.

  The launch element is a pair: the pipeline's own, and the protocol's, funded over the thirteen cells of every device
  with one duty token per device, direction and kind of cell (barrier, send, receive). Every cell's invariant is
  allocated from its counter at zero, all devices' at once, and the names are collected. The tokens are then dealt to the
  devices that PAY them: the token of device `n`'s barrier duty `e` and of its receive duty `e` go to the neighbour
  `nbr e n`, for which they are the duties of direction `opp e`; the send token stays. A device without a neighbour in
  a direction lets that direction's tokens go.
-/
import proofs.«900441_g7700000000000442_dist_halo3d_v7x_xyz2x4x4_s64_f32_1_alg».proof.Proof.HaloData
import proofs.«900441_g7700000000000442_dist_halo3d_v7x_xyz2x4x4_s64_f32_1_alg».proof.Proof.HaloWaits

noncomputable section

namespace Cert.KernelIdeal.Halo

open Cert.KernelIdeal Cert.KernelIdeal.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (outAt : Dev nD → (cc0_stg1_0 : Ref sig .tc).ty.Contents (Elt F))

/-! ## The cells and the tokens -/

/-- The kernel's own (scoped) semaphores: the six send and six receive semaphores, cell numbers 1 … 12. -/
abbrev osem : Fin 12 → SemLoc sig := fun k => csem k.succ

theorem ownSemFacts : Pipeline.OwnSemFacts cfg0.spec osem := by decide

theorem share_eq (c : Dev nD) (w : Fin cfg0.W) : (dats m outAt 0 c).share w = fullShare := by
  unfold Dat.share; split <;> rfl

theorem kcell_injective : Function.Injective (kcell : Dev nD × Fin 13 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def haloCells : Finset (GSem nD τ sig) := Finset.univ.map ⟨kcell, kcell_injective⟩

theorem kcell_bar (n : Dev nD) : kcell (n, kBar) = barCell n := rfl
theorem kcell_send (n : Dev nD) (d : Fin 6) : kcell (n, kSend d) = sendCell n d := by
  show ((n : Thread nD τ), csem (kSend d)) = _; rw [csem_send]
theorem kcell_recv (n : Dev nD) (d : Fin 6) : kcell (n, kRecv d) = recvCell n d := by
  show ((n : Thread nD τ), csem (kRecv d)) = _; rw [csem_recv]

/-- The three duty tokens of device `x.1` for direction `x.2`, as minted. -/
abbrev tokB (x : Dev nD × Fin 6) : sProp 𝕄 := dutyTok ER (barCell x.1) 0 x.2
abbrev tokS (x : Dev nD × Fin 6) : sProp 𝕄 := dutyTok ER (sendCell x.1 x.2) 0 x.2
abbrev tokR (x : Dev nD × Fin 6) : sProp 𝕄 := dutyTok ER (recvCell x.1 x.2) 0 x.2

abbrev tokOf (x : Dev nD × Fin 6 × Fin 3) : GSem nD τ sig × ℕ × Fin 6 := match x.2.2 with
  | 0 => (barCell x.1, 0, x.2.1) | 1 => (sendCell x.1 x.2.1, 0, x.2.1) | 2 => (recvCell x.1 x.2.1, 0, x.2.1)

theorem tokOf_injective : Function.Injective (tokOf : Dev nD × Fin 6 × Fin 3 → GSem nD τ sig × ℕ × Fin 6) := by
  rintro ⟨c, d, j⟩ ⟨c', d', j'⟩ h
  have h1 : c = c' := by
    have := congrArg (fun x : GSem nD τ sig × ℕ × Fin 6 => x.1.1.1) h
    fin_cases j <;> fin_cases j' <;> exact this
  subst h1
  have h2 : d = d' := by
    have := congrArg (fun x : GSem nD τ sig × ℕ × Fin 6 => x.2.2) h
    fin_cases j <;> fin_cases j' <;> exact this
  subst h2
  have h3 := congrArg (fun x : GSem nD τ sig × ℕ × Fin 6 => x.1.2) h
  have : j = j' := by
    fin_cases j <;> fin_cases j' <;> first
      | rfl
      | exact absurd h3 (send_ne_bar _).symm
      | exact absurd h3 (send_ne_bar _)
      | exact absurd h3 (recv_ne_bar _).symm
      | exact absurd h3 (recv_ne_bar _)
      | exact absurd h3 (send_ne_recv _ _)
      | exact absurd h3 (recv_ne_send _ _)
  subst this; rfl

def haloToks : Finset (GSem nD τ sig × ℕ × Fin 6) := Finset.univ.map ⟨tokOf, tokOf_injective⟩

def u₀ : UU :=
  (initOf (Pipeline.cells cfgs cellOf_inj) (Pipeline.launchToks cfgs cellOf_inj), initOf haloCells haloToks)

/-- The duty tokens of device `c`'s own cells. -/
def toks (c : Dev nD) : sProp 𝕄 :=
  bigSep Finset.univ fun d : Fin 6 => iprop(tokB (F := F) (c, d) ∗ tokS (F := F) (c, d) ∗ tokR (F := F) (c, d))

/-- What the launch element deals device `c`. -/
def G (c : Dev nD) : sProp 𝕄 :=
  iprop((bigSep Finset.univ fun k : Fin 13 => roundState ER (haloRd m) (kcell (c, k)) 0)
    ∗ (bigSep Finset.univ fun k : Fin 13 => iprop(atPos ER (kcell (c, k)) 0 ∅ 0 ∗ reached ER (kcell (c, k)) 0)) ∗ toks (F := F) c)

/-- What the global step makes of it. -/
def G' (c : Dev nD) : sProp 𝕄 := iprop(∃ K, ghost m K c)

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin6 (Φ : Fin 6 → sProp 𝕄) : bigSep Finset.univ Φ = sep6 Φ :=
  bigSep_univ_eq_bigSepL [0, 1, 2, 3, 4, 5] (by decide) (by decide) Φ

theorem fund_halo : BI.own (ER (initOf haloCells haloToks)) ⊢ (|==> bigSep Finset.univ (G m) : sProp 𝕄) := by
  have hX (Φ : GSem nD τ sig → sProp 𝕄) : bigSep haloCells Φ = bigSep Finset.univ fun c : Dev nD => bigSep Finset.univ fun k : Fin 13 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by
      unfold toks; rw [bigSep_univ_prod]
      exact bigSep_congr fun d _ => by rw [bigSep_fin3]; rfl
  iintro HX
  imod (Rounds.fund ER (haloRd m) haloCells haloToks) $$ HX with ⟨Hst, Hr, Hat, Htok⟩
  imodintro
  ihave Hst' := (Entails.of_eq (hX fun g => roundState ER (haloRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Thirteen cells: the barrier cell, six send cells, six receive cells -/

/-- Cell numbers against "barrier, or send `d`, or receive `d`". -/
def cellSum : Fin 13 ≃ Unit ⊕ (Fin 6 ⊕ Fin 6) where
  toFun k := if h0 : k.val = 0 then .inl () else if h1 : k.val < 7 then .inr (.inl ⟨k.val - 1, by omega⟩)
    else .inr (.inr ⟨k.val - 7, by have := k.isLt; omega⟩)
  invFun := Sum.elim (fun _ => kBar) (Sum.elim kSend kRecv)
  left_inv := by decide
  right_inv := by decide

/-- Something said of each of a device's thirteen cells, sorted by kind. -/
theorem bigSep_cells (Φ : Fin 13 → sProp 𝕄) :
    bigSep Finset.univ Φ
      = iprop(Φ kBar ∗ (bigSep Finset.univ fun d : Fin 6 => Φ (kSend d)) ∗ bigSep Finset.univ fun d : Fin 6 => Φ (kRecv d)) := by
  rw [bigSep_univ_equiv cellSum.symm Φ, bigSep_univ_sum, bigSep_univ_sum, bigSep_univ_of_subsingleton ()]
  rfl

/-- The kernel's own twelve semaphores sorted: six send, six receive. -/
def own12 : Fin 6 ⊕ Fin 6 → Fin 12 :=
  Sum.elim (fun d => (⟨d.val, by omega⟩ : Fin 12)) (fun d => (⟨6 + d.val, by omega⟩ : Fin 12))
theorem own12_injective : Function.Injective own12 := by decide
theorem univ12 : (Finset.univ : Finset (Fin 12)) = (Finset.univ : Finset (Fin 6 ⊕ Fin 6)).map ⟨own12, own12_injective⟩ := by decide

/-- The send and receive semaphores are the kernel's own twelve; -/
theorem ownSems0_eq (c : Dev nD) : (Pipeline.ownSems0 (Ix := Unit) (Name := ℕ) (U := UU) (Lvl := ℕ) (Val := Elt F) (τ := τ) osem c : sProp 𝕄)
    = iprop((bigSep Finset.univ fun d : Fin 6 => semVal (kcell (c, kSend d)) 0) ∗ bigSep Finset.univ fun d : Fin 6 => semVal (kcell (c, kRecv d)) 0) := by
  unfold Pipeline.ownSems0
  rw [univ12, bigSep_map, bigSep_univ_sum]
  refine congrArg₂ _ (bigSep_congr fun d _ => ?_) (bigSep_congr fun d _ => ?_)
  · show semVal ((c : Thread nD τ), csem (Fin.succ ⟨d.val, _⟩)) 0 = semVal ((c : Thread nD τ), csem (kSend d)) 0
    exact congrArg (fun k => semVal ((c : Thread nD τ), csem k) 0) (Fin.ext (by show d.val + 1 = 1 + d.val; omega))
  · show semVal ((c : Thread nD τ), csem (Fin.succ ⟨6 + d.val, _⟩)) 0 = semVal ((c : Thread nD τ), csem (kRecv d)) 0
    exact congrArg (fun k => semVal ((c : Thread nD τ), csem k) 0) (Fin.ext (by show 6 + d.val + 1 = 7 + d.val; omega))

/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [ownSems0_eq, unscopedSems0_eq, bigSep_cells]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0) ∗ bigSep Finset.univ fun k : Fin 13 => roundState ER (haloRd m) (kcell (c, k)) 0)
      ⊢ (|={Set.univ}=> bigSep Finset.univ fun k => iprop(∃ κ : ℕ, cellInv ER (haloRd m) κ (kcell (c, k))) : sProp 𝕄) from by
        rw [← bigSep_sep']
        exact (bigSep_mono fun k _ => (Rounds.body_intro ER (haloRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The names collected, and what every device reads of them -/

def records (K : Dev nD × Fin 13 → ℕ) : sProp 𝕄 :=
  iprop((bigSep Finset.univ fun ck : Dev nD × Fin 13 => cellInv ER (haloRd m) (K ck) (kcell ck))
    ∗ bigSep Finset.univ fun ck : Dev nD × Fin 13 => reached ER (kcell ck) 0)

instance records_persistent (K : Dev nD × Fin 13 → ℕ) : BI.Persistent (records m K) := by unfold records; infer_instance

theorem inv_at (K : Dev nD × Fin 13 → ℕ) (ck : Dev nD × Fin 13) :
    (bigSep Finset.univ fun ck : Dev nD × Fin 13 => (cellInv ER (haloRd m) (K ck) (kcell ck) : sProp 𝕄)) ⊢ cellInv ER (haloRd m) (K ck) (kcell ck) :=
  bigSep_elim (Finset.mem_univ ck)
theorem reached_at (ck : Dev nD × Fin 13) :
    (bigSep Finset.univ fun ck : Dev nD × Fin 13 => (reached ER (kcell ck) 0 : sProp 𝕄)) ⊢ reached ER (kcell ck) 0 :=
  bigSep_elim (Finset.mem_univ ck)

theorem inv_bar (K : Dev nD × Fin 13 → ℕ) (n : Dev nD) : records m K ⊢ cellInv ER (haloRd m) (K (n, kBar)) (barCell n) := by
  unfold records; iintro ⟨#HI, -⟩; iapply (inv_at m K (n, kBar)); iexact HI
theorem inv_send (K : Dev nD × Fin 13 → ℕ) (n : Dev nD) (d : Fin 6) : records m K ⊢ cellInv ER (haloRd m) (K (n, kSend d)) (sendCell n d) := by
  rw [← kcell_send n d]; unfold records; iintro ⟨#HI, -⟩; iapply (inv_at m K (n, kSend d)); iexact HI
theorem inv_recv (K : Dev nD × Fin 13 → ℕ) (n : Dev nD) (d : Fin 6) : records m K ⊢ cellInv ER (haloRd m) (K (n, kRecv d)) (recvCell n d) := by
  rw [← kcell_recv n d]; unfold records; iintro ⟨#HI, -⟩; iapply (inv_at m K (n, kRecv d)); iexact HI
theorem reached_bar (K : Dev nD × Fin 13 → ℕ) (n : Dev nD) : records m K ⊢ reached ER (barCell n) 0 := by
  unfold records; iintro ⟨-, #HR⟩; iapply (reached_at (F := F) (n, kBar)); iexact HR
theorem reached_send (K : Dev nD × Fin 13 → ℕ) (n : Dev nD) (d : Fin 6) : records m K ⊢ reached ER (sendCell n d) 0 := by
  rw [← kcell_send n d]; unfold records; iintro ⟨-, #HR⟩; iapply (reached_at (F := F) (n, kSend d)); iexact HR
theorem reached_recv (K : Dev nD × Fin 13 → ℕ) (n : Dev nD) (d : Fin 6) : records m K ⊢ reached ER (recvCell n d) 0 := by
  rw [← kcell_recv n d]; unfold records; iintro ⟨-, #HR⟩; iapply (reached_at (F := F) (n, kRecv d)); iexact HR

theorem persDir_intro (K : Dev nD × Fin 13 → ℕ) (c : Dev nD) (d : Fin 6) : records m K ⊢ persDir m K c d := by
  unfold persDir
  iintro #H
  isplitr; · iapply (inv_bar m K (nbr d c)); iexact H
  isplitr; · iapply (inv_recv m K (nbr d c) (opp d)); iexact H
  isplitr; · iapply (inv_send m K c d); iexact H
  isplitr; · iapply (inv_recv m K c d); iexact H
  isplitr; · iapply (reached_bar m K (nbr d c)); iexact H
  isplitr; · iapply (reached_recv m K (nbr d c) (opp d)); iexact H
  isplitr; · iapply (reached_send m K c d); iexact H
  iapply (reached_recv m K c d); iexact H

theorem pers_intro (K : Dev nD × Fin 13 → ℕ) (c : Dev nD) : records m K ⊢ pers m K c := by
  unfold pers
  rw [← bigSep_fin6]
  iintro #H
  isplitr; · iapply (inv_bar m K c); iexact H
  iapply (bigSep_intro_persistent fun d _ => persDir_intro m K c d); iexact H

/-! ## The tokens dealt to the devices that pay them -/

/-- The pair (device, direction) seen from the other end: the neighbour and the opposite direction; a pair without a
    neighbour is left where it is. -/
def flip (x : Dev nD × Fin 6) : Dev nD × Fin 6 := if has x.2 x.1 = true then (nbr x.2 x.1, opp x.2) else x
theorem flip_flip : ∀ x : Dev nD × Fin 6, flip (flip x) = x := by decide
def flipE : Dev nD × Fin 6 ≃ Dev nD × Fin 6 := ⟨flip, flip, flip_flip, flip_flip⟩

/-- The three tokens device `x.1` pays with in direction `x.2`. -/
abbrev payB (x : Dev nD × Fin 6) : sProp 𝕄 := onDir x.1 x.2 (dutyTok ER (barCell (nbr x.2 x.1)) 0 (opp x.2))
abbrev payR (x : Dev nD × Fin 6) : sProp 𝕄 := onDir x.1 x.2 (dutyTok ER (recvCell (nbr x.2 x.1) (opp x.2)) 0 (opp x.2))
abbrev payS (x : Dev nD × Fin 6) : sProp 𝕄 := onDir x.1 x.2 (dutyTok ER (sendCell x.1 x.2) 0 x.2)

def payToks (c : Dev nD) : sProp 𝕄 :=
  bigSep Finset.univ fun d : Fin 6 => iprop(payB (F := F) (c, d) ∗ payR (F := F) (c, d) ∗ payS (F := F) (c, d))

theorem tokB_flip (x : Dev nD × Fin 6) : tokB (F := F) (flipE x) ⊢ payB (F := F) x := by
  show tokB (F := F) (flip x) ⊢ onDir x.1 x.2 _
  unfold flip onDir
  by_cases h : has x.2 x.1 = true
  · rw [if_pos h, if_pos h]
  · rw [if_neg h, if_neg h]; iintro -; iempintro

theorem tokR_flip (x : Dev nD × Fin 6) : tokR (F := F) (flipE x) ⊢ payR (F := F) x := by
  show tokR (F := F) (flip x) ⊢ onDir x.1 x.2 _
  unfold flip onDir
  by_cases h : has x.2 x.1 = true
  · rw [if_pos h, if_pos h]
  · rw [if_neg h, if_neg h]; iintro -; iempintro

theorem tokS_pay (x : Dev nD × Fin 6) : tokS (F := F) x ⊢ payS (F := F) x := by
  show _ ⊢ onDir x.1 x.2 _
  unfold onDir
  by_cases h : has x.2 x.1 = true
  · rw [if_pos h]
  · rw [if_neg h]; iintro -; iempintro

theorem toks_around : (bigSep Finset.univ fun c : Dev nD => (toks c : sProp 𝕄)) ⊢ bigSep Finset.univ fun c : Dev nD => payToks c := by
  unfold toks payToks
  rw [← bigSep_univ_prod (fun x : Dev nD × Fin 6 => iprop(tokB (F := F) x ∗ tokS (F := F) x ∗ tokR (F := F) x)),
    ← bigSep_univ_prod (fun x : Dev nD × Fin 6 => iprop(payB (F := F) x ∗ payR (F := F) x ∗ payS (F := F) x)),
    bigSep_sep', bigSep_sep', bigSep_sep', bigSep_sep',
    bigSep_univ_equiv flipE (fun x => tokB (F := F) x), bigSep_univ_equiv flipE (fun x => tokR (F := F) x)]
  have hB : (bigSep Finset.univ fun x : Dev nD × Fin 6 => tokB (F := F) (flipE x)) ⊢ bigSep Finset.univ fun x => payB (F := F) x :=
    bigSep_mono fun x _ => tokB_flip (F := F) x
  have hR : (bigSep Finset.univ fun x : Dev nD × Fin 6 => tokR (F := F) (flipE x)) ⊢ bigSep Finset.univ fun x => payR (F := F) x :=
    bigSep_mono fun x _ => tokR_flip (F := F) x
  have hS : (bigSep Finset.univ fun x : Dev nD × Fin 6 => tokS (F := F) x) ⊢ bigSep Finset.univ fun x => payS (F := F) x :=
    bigSep_mono fun x _ => tokS_pay (F := F) x
  iintro ⟨HB, HS, HR⟩
  isplitl [HB]; · iapply hB; iexact HB
  isplitl [HR]; · iapply hR; iexact HR
  iapply hS; iexact HS

/-! ## What stays with a device, and its ghost state -/

abbrev linear (c : Dev nD) : sProp 𝕄 :=
  iprop((bigSep Finset.univ fun k : Fin 13 => atPos ER (kcell (c, k)) 0 ∅ 0) ∗ payToks (F := F) c)

theorem linDirs_intro (c : Dev nD) :
    linear (F := F) c ⊢ iprop(atPos ER (barCell c) 0 ∅ 0 ∗ sep6 (linDir (F := F) c)) := by
  have eS : (bigSep Finset.univ fun d : Fin 6 => (atPos ER (kcell (c, kSend d)) 0 ∅ 0 : sProp 𝕄))
      = bigSep Finset.univ fun d : Fin 6 => atPos ER (sendCell c d) 0 ∅ 0 :=
    bigSep_congr fun d _ => congrArg (fun g => (atPos ER g 0 ∅ 0 : sProp 𝕄)) (kcell_send c d)
  have eR : (bigSep Finset.univ fun d : Fin 6 => (atPos ER (kcell (c, kRecv d)) 0 ∅ 0 : sProp 𝕄))
      = bigSep Finset.univ fun d : Fin 6 => atPos ER (recvCell c d) 0 ∅ 0 :=
    bigSep_congr fun d _ => congrArg (fun g => (atPos ER g 0 ∅ 0 : sProp 𝕄)) (kcell_recv c d)
  unfold linear payToks
  rw [bigSep_cells, eS, eR, ← bigSep_fin6]
  unfold linDir
  simp only [bigSep_sep']
  iintro ⟨⟨HaB, HaS, HaR⟩, HtB, HtR, HtS⟩
  isplitl [HaB]; · iexact HaB
  isplitl [HtB]; · iexact HtB
  isplitl [HtR]; · iexact HtR
  isplitl [HtS]; · iexact HtS
  isplitl [HaS] <;> iassumption

theorem ghost_intro (K : Dev nD × Fin 13 → ℕ) (c : Dev nD) : iprop(records m K ∗ linear (F := F) c) ⊢ G' m c := by
  unfold G' ghost
  iintro ⟨#HR, HL⟩
  iexists K
  isplitr; · iapply (pers_intro m K c); iexact HR
  iapply (linDirs_intro (F := F) c); iexact HL

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × Fin 13 => iprop(∃ κ : ℕ, cellInv ER (haloRd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (haloRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Fin 13 => (atPos ER (kcell (c, k)) 0 ∅ 0 : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelIdeal.Halo.fund_halo' depends on axioms: [propext, Classical.choice, Quot.sound] -/
#guard_msgs in #print axioms fund_halo

/-- info: 'Cert.KernelIdeal.Halo.glob' depends on axioms: [propext, Classical.choice, Quot.sound] -/
#guard_msgs in #print axioms glob

end Cert.KernelIdeal.Halo

end
-- ==== Proof.HaloLaunchCred.lean ====
/-
  The launch of the halo exchange, second part: the launch credit.

  Every unit a device owes at launch stands at a cell of one of its neighbours: in each direction `d` with a neighbour,
  one unit at the neighbour's barrier cell and a plane's credit at the neighbour's receive cell `opp d`. Summed over the
  devices, a device's barrier cell is owed one unit by each of its neighbours — as many units as it has neighbours — and
  its receive cell `h` a plane's credit exactly when it has a neighbour in direction `h`. These sums are the credit
  tokens the launch deals the device.
-/
import proofs.«900441_g7700000000000442_dist_halo3d_v7x_xyz2x4x4_s64_f32_1_alg».proof.Proof.HaloGhost

noncomputable section

namespace Cert.KernelIdeal.Halo

open Cert.KernelIdeal Cert.KernelIdeal.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## What one device owes one cell -/

theorem barCell_inj {a b : Dev nD} (h : barCell a = barCell b) : a = b :=
  Fin.ext (congrArg (fun g : GSem nD τ sig => g.1.1.val) h)
theorem recvCell_inj {a b : Dev nD} {d e : Fin 6} (h : recvCell a d = recvCell b e) : a = b ∧ d = e :=
  ⟨Fin.ext (congrArg (fun g : GSem nD τ sig => g.1.1.val) h), recv_inj d e (congrArg Prod.snd h)⟩

/-- Device `n`'s direction `d` leads to device `c`; and with `opp d = h` besides. -/
def bq (n : Dev nD) (d : Fin 6) (c : Dev nD) : ℕ := if has d n = true ∧ nbr d n = c then 1 else 0
def rq (n : Dev nD) (d : Fin 6) (c : Dev nD) (h : Fin 6) : ℕ := if has d n = true ∧ nbr d n = c ∧ opp d = h then 1 else 0

theorem sigOwe_bar (n : Dev nD) (d : Fin 6) (c : Dev nD) : sigOwe n d (barCell c) () = bq n d c := by
  unfold sigOwe bq
  by_cases hd : has d n = true
  · rw [if_pos hd, tallyAt_apply]
    by_cases hc : nbr d n = c
    · rw [if_pos ⟨by rw [hc], rfl⟩, if_pos ⟨hd, hc⟩]
    · rw [if_neg (fun h => hc (barCell_inj h.1).symm), if_neg (fun h => hc h.2)]
  · rw [if_neg hd, if_neg (fun h => hd h.1)]; rfl

theorem sndOwe_bar (n : Dev nD) (d : Fin 6) (c : Dev nD) : sndOwe n d (barCell c) () = 0 := by
  unfold sndOwe
  by_cases hd : has d n = true
  · rw [if_pos hd, tallyAt_ne_cell (fun h => recv_ne_bar _ (congrArg Prod.snd h).symm)]; rfl
  · rw [if_neg hd]; rfl

theorem sigOwe_recv (n : Dev nD) (d : Fin 6) (c : Dev nD) (h : Fin 6) : sigOwe n d (recvCell c h) () = 0 := by
  unfold sigOwe
  by_cases hd : has d n = true
  · rw [if_pos hd, tallyAt_ne_cell (fun e => recv_ne_bar _ (congrArg Prod.snd e))]; rfl
  · rw [if_neg hd]; rfl

theorem sndOwe_recv (n : Dev nD) (d : Fin 6) (c : Dev nD) (h : Fin 6) : sndOwe n d (recvCell c h) () = rq n d c h * N := by
  unfold sndOwe rq
  by_cases hd : has d n = true
  · rw [if_pos hd, tallyAt_apply]
    by_cases hc : nbr d n = c ∧ opp d = h
    · rw [if_pos ⟨by rw [hc.1, hc.2], rfl⟩, if_pos ⟨hd, hc⟩, Nat.one_mul]
    · rw [if_neg (fun e => hc ⟨(recvCell_inj e.1).1.symm, (recvCell_inj e.1).2.symm⟩), if_neg (fun e => hc e.2), Nat.zero_mul]
  · rw [if_neg hd, if_neg (fun e => hd e.1), Nat.zero_mul]; rfl

theorem owed_bar (n c : Dev nD) :
    O₀ n (barCell c) () = bq n 5 c + bq n 4 c + bq n 3 c + bq n 2 c + bq n 1 c + bq n 0 c := by
  unfold O₀
  simp only [Pi.add_apply, Finsupp.add_apply, Pi.zero_apply, Finsupp.coe_zero, sigOwe_bar, sndOwe_bar, Nat.zero_add, Nat.add_zero]

theorem owed_recv (n c : Dev nD) (h : Fin 6) :
    O₀ n (recvCell c h) () = (rq n 5 c h + rq n 4 c h + rq n 3 c h + rq n 2 c h + rq n 1 c h + rq n 0 c h) * N := by
  unfold O₀
  simp only [Pi.add_apply, Finsupp.add_apply, Pi.zero_apply, Finsupp.coe_zero, sigOwe_recv, sndOwe_recv, Nat.zero_add, Nat.add_zero,
    Nat.add_mul]

/-! ## Summed over the devices -/

theorem bar_count : ∀ c : Dev nD,
    (∑ n : Dev nD, (bq n 5 c + bq n 4 c + bq n 3 c + bq n 2 c + bq n 1 c + bq n 0 c)) = nNbr c := by decide +kernel

theorem recv_count : ∀ (c : Dev nD) (h : Fin 6),
    (∑ n : Dev nD, (rq n 5 c h + rq n 4 c h + rq n 3 c h + rq n 2 c h + rq n 1 c h + rq n 0 c h))
      = if has h c = true then 1 else 0 := by decide +kernel

theorem launch_bar (c : Dev nD) :
    tallyOn (barCell c) (launchCredit (Pipeline.owing O₀) 0 (barCell c)) = (tallyAt (barCell c) () (nNbr c) : CellTallies nD τ sig Unit) := by
  unfold tallyAt; refine congrArg _ (Finsupp.ext fun u => ?_); cases u
  rw [Pipeline.launchCredit_owing, Finsupp.single_eq_same, Finset.sum_congr rfl fun n _ => owed_bar n c, bar_count]

theorem launch_recv (c : Dev nD) (h : Fin 6) :
    tallyOn (recvCell c h) (launchCredit (Pipeline.owing O₀) 0 (recvCell c h))
      = (tallyAt (recvCell c h) () ((if has h c = true then 1 else 0) * N) : CellTallies nD τ sig Unit) := by
  unfold tallyAt; refine congrArg _ (Finsupp.ext fun u => ?_); cases u
  rw [Pipeline.launchCredit_owing, Finsupp.single_eq_same, Finset.sum_congr rfl fun n _ => owed_recv n c h, ← Finset.sum_mul, recv_count]

/-! ## The credit tokens a device is dealt -/

/-- The seven cells of a device that are owed anything: its barrier cell and its six receive cells. -/
def owedSem : Unit ⊕ Fin 6 → SemLoc sig := Sum.elim (fun _ => .reg barS) (fun h => .dma (recvSem h))
theorem owedSem_injective : Function.Injective owedSem := by
  rintro (a | a) (b | b) h
  · rfl
  · exact absurd h.symm (recv_ne_bar b)
  · exact absurd h (recv_ne_bar a)
  · rw [recv_inj a b h]

theorem cred_recv (c : Dev nD) (h : Fin 6) :
    (cred (tallyAt (recvCell c h) () ((if has h c = true then 1 else 0) * N)) : sProp 𝕄) = credDir (F := F) c h := by
  unfold credDir onDir
  by_cases hh : has h c = true
  · rw [if_pos hh, if_pos hh, Nat.one_mul]
  · rw [if_neg hh, if_neg hh, Nat.zero_mul]
    have : (tallyAt (recvCell c h) () 0 : CellTallies nD τ sig Unit) = 0 := by
      unfold tallyAt tallyOn; simp
    rw [this]
    exact cred_zero

theorem creds (c : Dev nD) :
    (Pipeline.launchCred O₀ c : sProp 𝕄) ⊢ iprop(cred (tallyAt (barCell c) () (nNbr c)) ∗ sep6 (credDir (F := F) c)) := by
  unfold Pipeline.launchCred
  refine (bigSep_subset (Finset.subset_univ (Finset.univ.map ⟨owedSem, owedSem_injective⟩))).trans ?_
  rw [bigSep_map, bigSep_univ_sum, bigSep_univ_of_subsingleton ()]
  have e6 : ∀ Φ : Fin 6 → sProp 𝕄, bigSep Finset.univ Φ = sep6 Φ := fun Φ =>
    bigSep_univ_eq_bigSepL [0, 1, 2, 3, 4, 5] (by decide) (by decide) Φ
  have eR : (bigSep Finset.univ fun h : Fin 6 =>
        (cred (tallyOn (recvCell c h) (launchCredit (Pipeline.owing O₀) 0 (recvCell c h))) : sProp 𝕄))
      = bigSep Finset.univ fun h : Fin 6 => credDir (F := F) c h :=
    bigSep_congr fun h _ => by rw [launch_recv, cred_recv]
  have e : (iprop(cred (tallyOn (barCell c) (launchCredit (Pipeline.owing O₀) 0 (barCell c)))
      ∗ bigSep Finset.univ fun h : Fin 6 => cred (tallyOn (recvCell c h) (launchCredit (Pipeline.owing O₀) 0 (recvCell c h)))) : sProp 𝕄)
      = iprop(cred (tallyAt (barCell c) () (nNbr c)) ∗ sep6 (credDir (F := F) c)) := by
    rw [launch_bar, eR, e6]
  exact Entails.of_eq e

/-- info: 'Cert.KernelIdeal.Halo.creds' depends on axioms: [propext, Classical.choice, Quot.sound] -/
#guard_msgs in #print axioms creds

end Cert.KernelIdeal.Halo

end
-- ==== Proof.HaloLaunch.lean ====
/-
  The launch of the halo exchange, last part: what every device's body starts from and hands back, the pipeline's own
  waits, and the run of @main read back at the two arrays.
-/
import proofs.«900441_g7700000000000442_dist_halo3d_v7x_xyz2x4x4_s64_f32_1_alg».proof.Proof.HaloLaunchAlloc
import proofs.«900441_g7700000000000442_dist_halo3d_v7x_xyz2x4x4_s64_f32_1_alg».proof.Proof.HaloLaunchCred
import proofs.«900441_g7700000000000442_dist_halo3d_v7x_xyz2x4x4_s64_f32_1_alg».proof.Proof.Gen.KernelIdeal.Points

noncomputable section

namespace Cert.KernelIdeal.Halo

open Cert.KernelIdeal Cert.KernelIdeal.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (outAt : Dev nD → (cc0_stg1_0 : Ref sig .tc).ty.Contents (Elt F))

/-! ## The scratch planes and the own semaphores, as the launch hands them over and takes them back -/

/-- The twelve scratch planes, one by one. -/
theorem rest_eq (c : Dev nD) :
    (Pipeline.scopedRest (Ix := Unit) (Name := ℕ) (U := UU) (Lvl := ℕ) (Val := Elt F) cfg0.spec c : sProp 𝕄)
      = iprop((∃ f, haloPts (F := F) c 0 f) ∗ (∃ f, haloPts (F := F) c 1 f) ∗ (∃ f, haloPts (F := F) c 2 f)
          ∗ (∃ f, haloPts (F := F) c 3 f) ∗ (∃ f, haloPts (F := F) c 4 f) ∗ (∃ f, haloPts (F := F) c 5 f)
          ∗ (∃ f, stagePts (F := F) c 0 f) ∗ (∃ f, stagePts (F := F) c 1 f) ∗ (∃ f, stagePts (F := F) c 2 f)
          ∗ (∃ f, stagePts (F := F) c 3 f) ∗ (∃ f, stagePts (F := F) c 4 f) ∗ (∃ f, stagePts (F := F) c 5 f)) := by
  rw [scopedRest0_eq]; rfl

/-- The own semaphores at zero, sorted by kind. -/
theorem ownSems0_ownZero (c : Dev nD) :
    (Pipeline.ownSems0 (Ix := Unit) (Name := ℕ) (U := UU) (Lvl := ℕ) (Val := Elt F) (τ := τ) osem c : sProp 𝕄) = ownZero (F := F) c := by
  have eS : (bigSep Finset.univ fun d : Fin 6 => (semVal (kcell (c, kSend d)) 0 : sProp 𝕄))
      = bigSep Finset.univ fun d : Fin 6 => semVal (sendCell c d) 0 :=
    bigSep_congr fun d _ => congrArg (fun g => (semVal g 0 : sProp 𝕄)) (kcell_send c d)
  have eR : (bigSep Finset.univ fun d : Fin 6 => (semVal (kcell (c, kRecv d)) 0 : sProp 𝕄))
      = bigSep Finset.univ fun d : Fin 6 => semVal (recvCell c d) 0 :=
    bigSep_congr fun d _ => congrArg (fun g => (semVal g 0 : sProp 𝕄)) (kcell_recv c d)
  rw [ownSems0_eq, eS, eR, bigSep_fin6, bigSep_fin6]
  rfl

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m outAt 0 c).Φ 0 := by
  rw [show (dats m outAt 0 c).Φ 0 = Φ₀ m c from rfl, rest_eq]
  unfold Φ₀ scratch
  iintro ⟨Hs, -, A0, A1, A2, A3, A4, A5, B0, B1, B2, B3, B4, B5⟩
  isplitl [Hs]; · iexact Hs
  isplitl [A0 A1 A2 A3 A4 A5]
  · isplitl [A0]; · iexact A0
    isplitl [A1]; · iexact A1
    isplitl [A2]; · iexact A2
    isplitl [A3]; · iexact A3
    isplitl [A4]; · iexact A4
    iexact A5
  · isplitl [B0]; · iexact B0
    isplitl [B1]; · iexact B1
    isplitl [B2]; · iexact B2
    isplitl [B3]; · iexact B3
    isplitl [B4]; · iexact B4
    iexact B5

theorem phi1_exit (c : Dev nD) :
    (dats m outAt 0 c).Φ (Fin.last cfg0.N) ⊢ iprop(emp ∗ Pipeline.ownSems0 osem c ∗ Pipeline.scopedRest cfg0.spec c) := by
  rw [show (dats m outAt 0 c).Φ (Fin.last cfg0.N) = Φ₁ (F := F) c from rfl, rest_eq, ownSems0_ownZero]
  unfold Φ₁ scratch
  iintro ⟨⟨⟨A0, A1, A2, A3, A4, A5⟩, B0, B1, B2, B3, B4, B5⟩, HZ⟩
  isplitr; · iempintro
  isplitl [HZ]; · iexact HZ
  isplitl [A0]; · iexact A0
  isplitl [A1]; · iexact A1
  isplitl [A2]; · iexact A2
  isplitl [A3]; · iexact A3
  isplitl [A4]; · iexact A4
  isplitl [A5]; · iexact A5
  isplitl [B0]; · iexact B0
  isplitl [B1]; · iexact B1
  isplitl [B2]; · iexact B2
  isplitl [B3]; · iexact B3
  isplitl [B4]; · iexact B4
  iexact B5

/-- The pipeline's own waits, on its two staging cells, are on cells of level 0. -/
theorem waits (c : Dev nD) : (levAts L lv : sProp 𝕄) ⊢ Pipeline.cellsWaits cfgs (dats m outAt) () 0 c :=
  Pipeline.cellsWaits_intro cfgs (dats m outAt) () 0 c fun w s t =>
    mayWait_low c _ (by fin_cases w <;> fin_cases s <;> decide) _ (by
      rcases t with ⟨_ | _, ht⟩
      · exact Or.inl rfl
      · exact Or.inr rfl)

/-! ## The run -/

/-- The output window's one block is the whole array: read back through it, an array is itself. -/
theorem read_out (c : Dev nD) (f : Buf (Elt F) ((c : Thread nD τ).loc main_v1)) :
    (win0_1.blk t0_0).view.read (Elt F) f = f :=
  Memref.read_access_unit_zero (Elt F) main_v1
    (show (fun a => (win0_1.index t0_0) a * main_v1.ty.shape.size a) = fun _ => 0 from
      funext fun a => by fin_cases a <;> decide) (fun a => by fin_cases a <;> decide) f

/-- What the output window writes back at the one point is what the body left (the window is uncut). -/
theorem flushed_out (c : Dev nD) : (dats m outAt 0 c).flushed 1 t0_0 = outAt c := by
  show (cfg0.win 1).cut _ ((dats m outAt 0 c).after 1 t0_0) = _
  exact funext fun _ => rfl

/-- The output array after the one point: the device's result, written over the whole array. -/
theorem final_out (c : Dev nD) : (dats m outAt 0 c).arrAt (1 : Fin 2) cfg0.N = outAt c := by
  have hw : ((cfg0.win 1).blk t0_0).view.read (Elt F) ((dats m outAt 0 c).arrAt 1 cfg0.N)
      = (dats m outAt 0 c).flushed 1 t0_0 := by
    rw [show cfg0.N = t0_0.val + 1 from rfl, (dats m outAt 0 c).arrAt_succ (1 : Fin 2) t0_0, flush0_1, if_pos rfl]
    exact View.read_write_univ _ _
  rw [flushed_out] at hw
  exact (read_out c _).symm.trans hw

set_option maxRecDepth 8000 in
/-- From any memory with zero counters, given the body's obligation on every device: every weakly fair execution of
    @main terminates with each device's result array at `outAt c` and its argument array unchanged. -/
theorem run_named (hbody : ∀ c, BodyObligation (dats (F := F) m outAt 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m outAt) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m outAt)
    (hdistinct := winFacts0.arr_inj)
    (O₀ := O₀) (howed₀ := fun _ => rfl) (howedN := fun _ => rfl)
    (L := L) (lv := lv) (hL := L_of_ne) (hwaits := waits m outAt)
    (G := G m) (G' := G' m) (u₀ := u₀)
    (hu₀ := by
      unfold u₀
      iintro Hu
      ihave H := (ownU_pair _ _) $$ Hu
      icases H with ⟨HP, HX⟩
      imod (fund_halo m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m outAt) (hout := phi1_exit m outAt)
    (QY := fun _ _ => True)
    (hY := fun c s' => by
      iintro ⟨-, -, HSI⟩
      imodintro
      isplitr; · ipureintro; trivial
      iexact HSI)
    (hQ := fun s h c => ⟨((h c).1 1).trans (final_out m outAt c),
      ((h c).1 0).trans ((dats (F := F) m outAt 0 c).arrAt_in (0 : Fin 2) rfl _)⟩)

/-- info: 'Cert.KernelIdeal.Halo.run_named' depends on axioms: [propext, Classical.choice, Quot.sound] -/
#guard_msgs in #print axioms run_named

end Cert.KernelIdeal.Halo

end
-- ==== Proof.HaloRules2.lean ====
/-
  The copy to a neighbour and the three waits of the halo exchange, each stated once for any device and direction,
  and the closing of a send or receive cell once its only round is over.
-/
import proofs.«900441_g7700000000000442_dist_halo3d_v7x_xyz2x4x4_s64_f32_1_alg».proof.Proof.HaloRules

noncomputable section

namespace Cert.KernelIdeal.Halo

open Cert.KernelIdeal Cert.KernelIdeal.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The copy to a neighbour -/

omit [FloatOps F] in
theorem d_mem_send (c : Dev nD) (d : Fin 6) (hd : has d c = true) : d ∈ (haloRd (F := F) m).duties (sendCell c d) 0 := by
  rw [duties_send, if_pos hd]; exact Finset.mem_singleton_self _
omit [FloatOps F] in
theorem opp_mem_recv (c : Dev nD) (d : Fin 6) (hd : has d c = true) :
    opp d ∈ (haloRd (F := F) m).duties (recvCell (nbr d c) (opp d)) 0 := by
  rw [duties_recv, if_pos (has_opp_nbr d c hd)]; exact Finset.mem_singleton_self _

omit [FloatOps F] in
/-- What lands in the neighbour's plane `opp d` is `c`'s boundary plane `d`. -/
theorem landed_nbr (c : Dev nD) (d : Fin 6) (hd : has d c = true) : landed m (nbr d c) (opp d) = faceOf (xstg m c) d := by
  unfold landed; rw [nbr_opp_nbr d c hd, opp_opp]

/-- The copy in direction 0, over the two planes' own buffers. -/
private theorem wp_snd_0 (c : Dev nD) (hd : has 0 c = true)
    {hsc : ((Memref.whole cc0_scratch1 : Memref sig .tc .vmem S1x64x64 .f32) : Memref sig (Dev.tc (nbr 0 c) : Thread nD τ).2.kind .vmem S1x64x64 .f32).view.ref.isScScratch = false}
    {hsrc : (Memref.whole cc0_scratch6 : Memref sig .tc .vmem S1x64x64 .f32).view.WordExact} {hdst : (Memref.whole cc0_scratch1 : Memref sig .tc .vmem S1x64x64 .f32).view.WordExact}
    {hsem : DmaTarget.Typed .vmem (.dma (recvSem 1)) (.remote (Dev.tc (nbr 0 c) : Thread nD τ) (Memref.whole cc0_scratch1 : Memref sig .tc .vmem S1x64x64 .f32) (.dma (sendSem 0)) hsc)}
    {α : Type} {Q : α → sProp 𝕄} {k : PUnit → Prog (TpuEff nD τ sig (Elt F) Λ₀ .tc) α}
    (κ₁ κ₂ : ℕ) (fn : FVec F S1x64x64 .f32) (O : CellTallies nD τ sig Unit) (W : Waits sig Unit) :
    iprop(cellInv ER (haloRd m) κ₁ (sendCell c 0) ∗ cellInv ER (haloRd m) κ₂ (recvCell (nbr 0 c) 1)
        ∗ (((c : Thread nD τ).loc cc0_scratch6) ↦{fullShare} (faceOf (xstg m c) 0))
        ∗ (((nbr 0 c : Thread nD τ).loc cc0_scratch1) ↦{fullShare} fn)
        ∗ owes (c : Thread nD τ) (O + tallyAt (recvCell (nbr 0 c) 1) () N) W
        ∗ dutyTok ER (sendCell c 0) 0 0 ∗ reached ER (sendCell c 0) 0
        ∗ dutyTok ER (recvCell (nbr 0 c) 1) 0 1 ∗ reached ER (recvCell (nbr 0 c) 1) 0)
      ⊢ iprop(((cred (tallyAt (sendCell c 0) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch6 : Memref sig .tc .vmem S1x64x64 .f32) (.remote (Dev.tc (nbr 0 c) : Thread nD τ) (Memref.whole cc0_scratch1 : Memref sig .tc .vmem S1x64x64 .f32) (.dma (sendSem 0)) hsc)
                (.dma (recvSem 1)) hsrc hdst hsem) k) Q) := by
  have hl : landed m (nbr 0 c) 1 = faceOf (xstg m c) 0 := landed_nbr m c 0 hd
  have eS : (Memref.whole cc0_scratch6 : Memref sig .tc .vmem S1x64x64 .f32).view.set = Finset.univ := View.set_whole _
  have eH : (Memref.whole cc0_scratch1 : Memref sig .tc .vmem S1x64x64 .f32).view.set = Finset.univ := View.set_whole _
  have key := Rounds.wp_send_pointsTo (defs := defs₀ (F := F)) (Γ := .empty) (Q := Q) 𝒱₀ ER (haloRd m) (c : Thread nD τ) none
    (c' := (nbr 0 c : Thread nD τ)) (src := (Memref.whole cc0_scratch6 : Memref sig .tc .vmem S1x64x64 .f32)) (dst := (Memref.whole cc0_scratch1 : Memref sig .tc .vmem S1x64x64 .f32)) (hsc := hsc) (sS := .dma (sendSem 0)) (sem := .dma (recvSem 1))
    (hsrc := hsrc) (hdst := hdst) (hsem := hsem) (k := k) (q := fullShare) (fs := faceOf (xstg m c) 0) (fd := fn)
    (r₁ := 0) (r₂ := 0) (d₁ := 0) (d₂ := 1) (κ₁ := κ₁) (κ₂ := κ₂)
    (d_mem_send m c 0 hd) (opp_mem_recv m c 0 hd) () () N rfl (amount_send m c 0 0) (amount_recv m (nbr 0 c) 1 1)
    O rfl (W := W) (Es := Set.univ)
    (by rw [payload_send, eS]
        show _ ⊢ iprop(∃ f, (((c : Thread nD τ).loc cc0_scratch6) ↦{fullShare} f))
        iintro H; iexists _; iexact H)
    (by rw [payload_recv, eH]
        unfold recvPay
        rw [hl]
        show ((((nbr 0 c : Thread nD τ).loc cc0_scratch1) ↦{fullShare}
            ((View.whole cc0_scratch1).write (Elt F) fn (faceOf (xstg m c) 0) Finset.univ)) : sProp 𝕄)
          ⊢ (((nbr 0 c : Thread nD τ).loc cc0_scratch1) ↦{fullShare} (faceOf (xstg m c) 0))
        rw [View.write_whole_univ])
  rw [eS, eH] at key
  exact key

/-- The copy in direction 1, over the two planes' own buffers. -/
private theorem wp_snd_1 (c : Dev nD) (hd : has 1 c = true)
    {hsc : ((Memref.whole cc0_scratch0 : Memref sig .tc .vmem S1x64x64 .f32) : Memref sig (Dev.tc (nbr 1 c) : Thread nD τ).2.kind .vmem S1x64x64 .f32).view.ref.isScScratch = false}
    {hsrc : (Memref.whole cc0_scratch7 : Memref sig .tc .vmem S1x64x64 .f32).view.WordExact} {hdst : (Memref.whole cc0_scratch0 : Memref sig .tc .vmem S1x64x64 .f32).view.WordExact}
    {hsem : DmaTarget.Typed .vmem (.dma (recvSem 0)) (.remote (Dev.tc (nbr 1 c) : Thread nD τ) (Memref.whole cc0_scratch0 : Memref sig .tc .vmem S1x64x64 .f32) (.dma (sendSem 1)) hsc)}
    {α : Type} {Q : α → sProp 𝕄} {k : PUnit → Prog (TpuEff nD τ sig (Elt F) Λ₀ .tc) α}
    (κ₁ κ₂ : ℕ) (fn : FVec F S1x64x64 .f32) (O : CellTallies nD τ sig Unit) (W : Waits sig Unit) :
    iprop(cellInv ER (haloRd m) κ₁ (sendCell c 1) ∗ cellInv ER (haloRd m) κ₂ (recvCell (nbr 1 c) 0)
        ∗ (((c : Thread nD τ).loc cc0_scratch7) ↦{fullShare} (faceOf (xstg m c) 1))
        ∗ (((nbr 1 c : Thread nD τ).loc cc0_scratch0) ↦{fullShare} fn)
        ∗ owes (c : Thread nD τ) (O + tallyAt (recvCell (nbr 1 c) 0) () N) W
        ∗ dutyTok ER (sendCell c 1) 0 1 ∗ reached ER (sendCell c 1) 0
        ∗ dutyTok ER (recvCell (nbr 1 c) 0) 0 0 ∗ reached ER (recvCell (nbr 1 c) 0) 0)
      ⊢ iprop(((cred (tallyAt (sendCell c 1) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch7 : Memref sig .tc .vmem S1x64x64 .f32) (.remote (Dev.tc (nbr 1 c) : Thread nD τ) (Memref.whole cc0_scratch0 : Memref sig .tc .vmem S1x64x64 .f32) (.dma (sendSem 1)) hsc)
                (.dma (recvSem 0)) hsrc hdst hsem) k) Q) := by
  have hl : landed m (nbr 1 c) 0 = faceOf (xstg m c) 1 := landed_nbr m c 1 hd
  have eS : (Memref.whole cc0_scratch7 : Memref sig .tc .vmem S1x64x64 .f32).view.set = Finset.univ := View.set_whole _
  have eH : (Memref.whole cc0_scratch0 : Memref sig .tc .vmem S1x64x64 .f32).view.set = Finset.univ := View.set_whole _
  have key := Rounds.wp_send_pointsTo (defs := defs₀ (F := F)) (Γ := .empty) (Q := Q) 𝒱₀ ER (haloRd m) (c : Thread nD τ) none
    (c' := (nbr 1 c : Thread nD τ)) (src := (Memref.whole cc0_scratch7 : Memref sig .tc .vmem S1x64x64 .f32)) (dst := (Memref.whole cc0_scratch0 : Memref sig .tc .vmem S1x64x64 .f32)) (hsc := hsc) (sS := .dma (sendSem 1)) (sem := .dma (recvSem 0))
    (hsrc := hsrc) (hdst := hdst) (hsem := hsem) (k := k) (q := fullShare) (fs := faceOf (xstg m c) 1) (fd := fn)
    (r₁ := 0) (r₂ := 0) (d₁ := 1) (d₂ := 0) (κ₁ := κ₁) (κ₂ := κ₂)
    (d_mem_send m c 1 hd) (opp_mem_recv m c 1 hd) () () N rfl (amount_send m c 1 1) (amount_recv m (nbr 1 c) 0 0)
    O rfl (W := W) (Es := Set.univ)
    (by rw [payload_send, eS]
        show _ ⊢ iprop(∃ f, (((c : Thread nD τ).loc cc0_scratch7) ↦{fullShare} f))
        iintro H; iexists _; iexact H)
    (by rw [payload_recv, eH]
        unfold recvPay
        rw [hl]
        show ((((nbr 1 c : Thread nD τ).loc cc0_scratch0) ↦{fullShare}
            ((View.whole cc0_scratch0).write (Elt F) fn (faceOf (xstg m c) 1) Finset.univ)) : sProp 𝕄)
          ⊢ (((nbr 1 c : Thread nD τ).loc cc0_scratch0) ↦{fullShare} (faceOf (xstg m c) 1))
        rw [View.write_whole_univ])
  rw [eS, eH] at key
  exact key

/-- The copy in direction 2, over the two planes' own buffers. -/
private theorem wp_snd_2 (c : Dev nD) (hd : has 2 c = true)
    {hsc : ((Memref.whole cc0_scratch3 : Memref sig .tc .vmem S1x64x64 .f32) : Memref sig (Dev.tc (nbr 2 c) : Thread nD τ).2.kind .vmem S1x64x64 .f32).view.ref.isScScratch = false}
    {hsrc : (Memref.whole cc0_scratch8 : Memref sig .tc .vmem S1x64x64 .f32).view.WordExact} {hdst : (Memref.whole cc0_scratch3 : Memref sig .tc .vmem S1x64x64 .f32).view.WordExact}
    {hsem : DmaTarget.Typed .vmem (.dma (recvSem 3)) (.remote (Dev.tc (nbr 2 c) : Thread nD τ) (Memref.whole cc0_scratch3 : Memref sig .tc .vmem S1x64x64 .f32) (.dma (sendSem 2)) hsc)}
    {α : Type} {Q : α → sProp 𝕄} {k : PUnit → Prog (TpuEff nD τ sig (Elt F) Λ₀ .tc) α}
    (κ₁ κ₂ : ℕ) (fn : FVec F S1x64x64 .f32) (O : CellTallies nD τ sig Unit) (W : Waits sig Unit) :
    iprop(cellInv ER (haloRd m) κ₁ (sendCell c 2) ∗ cellInv ER (haloRd m) κ₂ (recvCell (nbr 2 c) 3)
        ∗ (((c : Thread nD τ).loc cc0_scratch8) ↦{fullShare} (faceOf (xstg m c) 2))
        ∗ (((nbr 2 c : Thread nD τ).loc cc0_scratch3) ↦{fullShare} fn)
        ∗ owes (c : Thread nD τ) (O + tallyAt (recvCell (nbr 2 c) 3) () N) W
        ∗ dutyTok ER (sendCell c 2) 0 2 ∗ reached ER (sendCell c 2) 0
        ∗ dutyTok ER (recvCell (nbr 2 c) 3) 0 3 ∗ reached ER (recvCell (nbr 2 c) 3) 0)
      ⊢ iprop(((cred (tallyAt (sendCell c 2) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch8 : Memref sig .tc .vmem S1x64x64 .f32) (.remote (Dev.tc (nbr 2 c) : Thread nD τ) (Memref.whole cc0_scratch3 : Memref sig .tc .vmem S1x64x64 .f32) (.dma (sendSem 2)) hsc)
                (.dma (recvSem 3)) hsrc hdst hsem) k) Q) := by
  have hl : landed m (nbr 2 c) 3 = faceOf (xstg m c) 2 := landed_nbr m c 2 hd
  have eS : (Memref.whole cc0_scratch8 : Memref sig .tc .vmem S1x64x64 .f32).view.set = Finset.univ := View.set_whole _
  have eH : (Memref.whole cc0_scratch3 : Memref sig .tc .vmem S1x64x64 .f32).view.set = Finset.univ := View.set_whole _
  have key := Rounds.wp_send_pointsTo (defs := defs₀ (F := F)) (Γ := .empty) (Q := Q) 𝒱₀ ER (haloRd m) (c : Thread nD τ) none
    (c' := (nbr 2 c : Thread nD τ)) (src := (Memref.whole cc0_scratch8 : Memref sig .tc .vmem S1x64x64 .f32)) (dst := (Memref.whole cc0_scratch3 : Memref sig .tc .vmem S1x64x64 .f32)) (hsc := hsc) (sS := .dma (sendSem 2)) (sem := .dma (recvSem 3))
    (hsrc := hsrc) (hdst := hdst) (hsem := hsem) (k := k) (q := fullShare) (fs := faceOf (xstg m c) 2) (fd := fn)
    (r₁ := 0) (r₂ := 0) (d₁ := 2) (d₂ := 3) (κ₁ := κ₁) (κ₂ := κ₂)
    (d_mem_send m c 2 hd) (opp_mem_recv m c 2 hd) () () N rfl (amount_send m c 2 2) (amount_recv m (nbr 2 c) 3 3)
    O rfl (W := W) (Es := Set.univ)
    (by rw [payload_send, eS]
        show _ ⊢ iprop(∃ f, (((c : Thread nD τ).loc cc0_scratch8) ↦{fullShare} f))
        iintro H; iexists _; iexact H)
    (by rw [payload_recv, eH]
        unfold recvPay
        rw [hl]
        show ((((nbr 2 c : Thread nD τ).loc cc0_scratch3) ↦{fullShare}
            ((View.whole cc0_scratch3).write (Elt F) fn (faceOf (xstg m c) 2) Finset.univ)) : sProp 𝕄)
          ⊢ (((nbr 2 c : Thread nD τ).loc cc0_scratch3) ↦{fullShare} (faceOf (xstg m c) 2))
        rw [View.write_whole_univ])
  rw [eS, eH] at key
  exact key

/-- The copy in direction 3, over the two planes' own buffers. -/
private theorem wp_snd_3 (c : Dev nD) (hd : has 3 c = true)
    {hsc : ((Memref.whole cc0_scratch2 : Memref sig .tc .vmem S1x64x64 .f32) : Memref sig (Dev.tc (nbr 3 c) : Thread nD τ).2.kind .vmem S1x64x64 .f32).view.ref.isScScratch = false}
    {hsrc : (Memref.whole cc0_scratch9 : Memref sig .tc .vmem S1x64x64 .f32).view.WordExact} {hdst : (Memref.whole cc0_scratch2 : Memref sig .tc .vmem S1x64x64 .f32).view.WordExact}
    {hsem : DmaTarget.Typed .vmem (.dma (recvSem 2)) (.remote (Dev.tc (nbr 3 c) : Thread nD τ) (Memref.whole cc0_scratch2 : Memref sig .tc .vmem S1x64x64 .f32) (.dma (sendSem 3)) hsc)}
    {α : Type} {Q : α → sProp 𝕄} {k : PUnit → Prog (TpuEff nD τ sig (Elt F) Λ₀ .tc) α}
    (κ₁ κ₂ : ℕ) (fn : FVec F S1x64x64 .f32) (O : CellTallies nD τ sig Unit) (W : Waits sig Unit) :
    iprop(cellInv ER (haloRd m) κ₁ (sendCell c 3) ∗ cellInv ER (haloRd m) κ₂ (recvCell (nbr 3 c) 2)
        ∗ (((c : Thread nD τ).loc cc0_scratch9) ↦{fullShare} (faceOf (xstg m c) 3))
        ∗ (((nbr 3 c : Thread nD τ).loc cc0_scratch2) ↦{fullShare} fn)
        ∗ owes (c : Thread nD τ) (O + tallyAt (recvCell (nbr 3 c) 2) () N) W
        ∗ dutyTok ER (sendCell c 3) 0 3 ∗ reached ER (sendCell c 3) 0
        ∗ dutyTok ER (recvCell (nbr 3 c) 2) 0 2 ∗ reached ER (recvCell (nbr 3 c) 2) 0)
      ⊢ iprop(((cred (tallyAt (sendCell c 3) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch9 : Memref sig .tc .vmem S1x64x64 .f32) (.remote (Dev.tc (nbr 3 c) : Thread nD τ) (Memref.whole cc0_scratch2 : Memref sig .tc .vmem S1x64x64 .f32) (.dma (sendSem 3)) hsc)
                (.dma (recvSem 2)) hsrc hdst hsem) k) Q) := by
  have hl : landed m (nbr 3 c) 2 = faceOf (xstg m c) 3 := landed_nbr m c 3 hd
  have eS : (Memref.whole cc0_scratch9 : Memref sig .tc .vmem S1x64x64 .f32).view.set = Finset.univ := View.set_whole _
  have eH : (Memref.whole cc0_scratch2 : Memref sig .tc .vmem S1x64x64 .f32).view.set = Finset.univ := View.set_whole _
  have key := Rounds.wp_send_pointsTo (defs := defs₀ (F := F)) (Γ := .empty) (Q := Q) 𝒱₀ ER (haloRd m) (c : Thread nD τ) none
    (c' := (nbr 3 c : Thread nD τ)) (src := (Memref.whole cc0_scratch9 : Memref sig .tc .vmem S1x64x64 .f32)) (dst := (Memref.whole cc0_scratch2 : Memref sig .tc .vmem S1x64x64 .f32)) (hsc := hsc) (sS := .dma (sendSem 3)) (sem := .dma (recvSem 2))
    (hsrc := hsrc) (hdst := hdst) (hsem := hsem) (k := k) (q := fullShare) (fs := faceOf (xstg m c) 3) (fd := fn)
    (r₁ := 0) (r₂ := 0) (d₁ := 3) (d₂ := 2) (κ₁ := κ₁) (κ₂ := κ₂)
    (d_mem_send m c 3 hd) (opp_mem_recv m c 3 hd) () () N rfl (amount_send m c 3 3) (amount_recv m (nbr 3 c) 2 2)
    O rfl (W := W) (Es := Set.univ)
    (by rw [payload_send, eS]
        show _ ⊢ iprop(∃ f, (((c : Thread nD τ).loc cc0_scratch9) ↦{fullShare} f))
        iintro H; iexists _; iexact H)
    (by rw [payload_recv, eH]
        unfold recvPay
        rw [hl]
        show ((((nbr 3 c : Thread nD τ).loc cc0_scratch2) ↦{fullShare}
            ((View.whole cc0_scratch2).write (Elt F) fn (faceOf (xstg m c) 3) Finset.univ)) : sProp 𝕄)
          ⊢ (((nbr 3 c : Thread nD τ).loc cc0_scratch2) ↦{fullShare} (faceOf (xstg m c) 3))
        rw [View.write_whole_univ])
  rw [eS, eH] at key
  exact key

/-- The copy in direction 4, over the two planes' own buffers. -/
private theorem wp_snd_4 (c : Dev nD) (hd : has 4 c = true)
    {hsc : ((Memref.whole cc0_scratch5 : Memref sig .tc .vmem S1x64x64 .f32) : Memref sig (Dev.tc (nbr 4 c) : Thread nD τ).2.kind .vmem S1x64x64 .f32).view.ref.isScScratch = false}
    {hsrc : (Memref.whole cc0_scratch10 : Memref sig .tc .vmem S1x64x64 .f32).view.WordExact} {hdst : (Memref.whole cc0_scratch5 : Memref sig .tc .vmem S1x64x64 .f32).view.WordExact}
    {hsem : DmaTarget.Typed .vmem (.dma (recvSem 5)) (.remote (Dev.tc (nbr 4 c) : Thread nD τ) (Memref.whole cc0_scratch5 : Memref sig .tc .vmem S1x64x64 .f32) (.dma (sendSem 4)) hsc)}
    {α : Type} {Q : α → sProp 𝕄} {k : PUnit → Prog (TpuEff nD τ sig (Elt F) Λ₀ .tc) α}
    (κ₁ κ₂ : ℕ) (fn : FVec F S1x64x64 .f32) (O : CellTallies nD τ sig Unit) (W : Waits sig Unit) :
    iprop(cellInv ER (haloRd m) κ₁ (sendCell c 4) ∗ cellInv ER (haloRd m) κ₂ (recvCell (nbr 4 c) 5)
        ∗ (((c : Thread nD τ).loc cc0_scratch10) ↦{fullShare} (faceOf (xstg m c) 4))
        ∗ (((nbr 4 c : Thread nD τ).loc cc0_scratch5) ↦{fullShare} fn)
        ∗ owes (c : Thread nD τ) (O + tallyAt (recvCell (nbr 4 c) 5) () N) W
        ∗ dutyTok ER (sendCell c 4) 0 4 ∗ reached ER (sendCell c 4) 0
        ∗ dutyTok ER (recvCell (nbr 4 c) 5) 0 5 ∗ reached ER (recvCell (nbr 4 c) 5) 0)
      ⊢ iprop(((cred (tallyAt (sendCell c 4) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch10 : Memref sig .tc .vmem S1x64x64 .f32) (.remote (Dev.tc (nbr 4 c) : Thread nD τ) (Memref.whole cc0_scratch5 : Memref sig .tc .vmem S1x64x64 .f32) (.dma (sendSem 4)) hsc)
                (.dma (recvSem 5)) hsrc hdst hsem) k) Q) := by
  have hl : landed m (nbr 4 c) 5 = faceOf (xstg m c) 4 := landed_nbr m c 4 hd
  have eS : (Memref.whole cc0_scratch10 : Memref sig .tc .vmem S1x64x64 .f32).view.set = Finset.univ := View.set_whole _
  have eH : (Memref.whole cc0_scratch5 : Memref sig .tc .vmem S1x64x64 .f32).view.set = Finset.univ := View.set_whole _
  have key := Rounds.wp_send_pointsTo (defs := defs₀ (F := F)) (Γ := .empty) (Q := Q) 𝒱₀ ER (haloRd m) (c : Thread nD τ) none
    (c' := (nbr 4 c : Thread nD τ)) (src := (Memref.whole cc0_scratch10 : Memref sig .tc .vmem S1x64x64 .f32)) (dst := (Memref.whole cc0_scratch5 : Memref sig .tc .vmem S1x64x64 .f32)) (hsc := hsc) (sS := .dma (sendSem 4)) (sem := .dma (recvSem 5))
    (hsrc := hsrc) (hdst := hdst) (hsem := hsem) (k := k) (q := fullShare) (fs := faceOf (xstg m c) 4) (fd := fn)
    (r₁ := 0) (r₂ := 0) (d₁ := 4) (d₂ := 5) (κ₁ := κ₁) (κ₂ := κ₂)
    (d_mem_send m c 4 hd) (opp_mem_recv m c 4 hd) () () N rfl (amount_send m c 4 4) (amount_recv m (nbr 4 c) 5 5)
    O rfl (W := W) (Es := Set.univ)
    (by rw [payload_send, eS]
        show _ ⊢ iprop(∃ f, (((c : Thread nD τ).loc cc0_scratch10) ↦{fullShare} f))
        iintro H; iexists _; iexact H)
    (by rw [payload_recv, eH]
        unfold recvPay
        rw [hl]
        show ((((nbr 4 c : Thread nD τ).loc cc0_scratch5) ↦{fullShare}
            ((View.whole cc0_scratch5).write (Elt F) fn (faceOf (xstg m c) 4) Finset.univ)) : sProp 𝕄)
          ⊢ (((nbr 4 c : Thread nD τ).loc cc0_scratch5) ↦{fullShare} (faceOf (xstg m c) 4))
        rw [View.write_whole_univ])
  rw [eS, eH] at key
  exact key

/-- The copy in direction 5, over the two planes' own buffers. -/
private theorem wp_snd_5 (c : Dev nD) (hd : has 5 c = true)
    {hsc : ((Memref.whole cc0_scratch4 : Memref sig .tc .vmem S1x64x64 .f32) : Memref sig (Dev.tc (nbr 5 c) : Thread nD τ).2.kind .vmem S1x64x64 .f32).view.ref.isScScratch = false}
    {hsrc : (Memref.whole cc0_scratch11 : Memref sig .tc .vmem S1x64x64 .f32).view.WordExact} {hdst : (Memref.whole cc0_scratch4 : Memref sig .tc .vmem S1x64x64 .f32).view.WordExact}
    {hsem : DmaTarget.Typed .vmem (.dma (recvSem 4)) (.remote (Dev.tc (nbr 5 c) : Thread nD τ) (Memref.whole cc0_scratch4 : Memref sig .tc .vmem S1x64x64 .f32) (.dma (sendSem 5)) hsc)}
    {α : Type} {Q : α → sProp 𝕄} {k : PUnit → Prog (TpuEff nD τ sig (Elt F) Λ₀ .tc) α}
    (κ₁ κ₂ : ℕ) (fn : FVec F S1x64x64 .f32) (O : CellTallies nD τ sig Unit) (W : Waits sig Unit) :
    iprop(cellInv ER (haloRd m) κ₁ (sendCell c 5) ∗ cellInv ER (haloRd m) κ₂ (recvCell (nbr 5 c) 4)
        ∗ (((c : Thread nD τ).loc cc0_scratch11) ↦{fullShare} (faceOf (xstg m c) 5))
        ∗ (((nbr 5 c : Thread nD τ).loc cc0_scratch4) ↦{fullShare} fn)
        ∗ owes (c : Thread nD τ) (O + tallyAt (recvCell (nbr 5 c) 4) () N) W
        ∗ dutyTok ER (sendCell c 5) 0 5 ∗ reached ER (sendCell c 5) 0
        ∗ dutyTok ER (recvCell (nbr 5 c) 4) 0 4 ∗ reached ER (recvCell (nbr 5 c) 4) 0)
      ⊢ iprop(((cred (tallyAt (sendCell c 5) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch11 : Memref sig .tc .vmem S1x64x64 .f32) (.remote (Dev.tc (nbr 5 c) : Thread nD τ) (Memref.whole cc0_scratch4 : Memref sig .tc .vmem S1x64x64 .f32) (.dma (sendSem 5)) hsc)
                (.dma (recvSem 4)) hsrc hdst hsem) k) Q) := by
  have hl : landed m (nbr 5 c) 4 = faceOf (xstg m c) 5 := landed_nbr m c 5 hd
  have eS : (Memref.whole cc0_scratch11 : Memref sig .tc .vmem S1x64x64 .f32).view.set = Finset.univ := View.set_whole _
  have eH : (Memref.whole cc0_scratch4 : Memref sig .tc .vmem S1x64x64 .f32).view.set = Finset.univ := View.set_whole _
  have key := Rounds.wp_send_pointsTo (defs := defs₀ (F := F)) (Γ := .empty) (Q := Q) 𝒱₀ ER (haloRd m) (c : Thread nD τ) none
    (c' := (nbr 5 c : Thread nD τ)) (src := (Memref.whole cc0_scratch11 : Memref sig .tc .vmem S1x64x64 .f32)) (dst := (Memref.whole cc0_scratch4 : Memref sig .tc .vmem S1x64x64 .f32)) (hsc := hsc) (sS := .dma (sendSem 5)) (sem := .dma (recvSem 4))
    (hsrc := hsrc) (hdst := hdst) (hsem := hsem) (k := k) (q := fullShare) (fs := faceOf (xstg m c) 5) (fd := fn)
    (r₁ := 0) (r₂ := 0) (d₁ := 5) (d₂ := 4) (κ₁ := κ₁) (κ₂ := κ₂)
    (d_mem_send m c 5 hd) (opp_mem_recv m c 5 hd) () () N rfl (amount_send m c 5 5) (amount_recv m (nbr 5 c) 4 4)
    O rfl (W := W) (Es := Set.univ)
    (by rw [payload_send, eS]
        show _ ⊢ iprop(∃ f, (((c : Thread nD τ).loc cc0_scratch11) ↦{fullShare} f))
        iintro H; iexists _; iexact H)
    (by rw [payload_recv, eH]
        unfold recvPay
        rw [hl]
        show ((((nbr 5 c : Thread nD τ).loc cc0_scratch4) ↦{fullShare}
            ((View.whole cc0_scratch4).write (Elt F) fn (faceOf (xstg m c) 5) Finset.univ)) : sProp 𝕄)
          ⊢ (((nbr 5 c : Thread nD τ).loc cc0_scratch4) ↦{fullShare} (faceOf (xstg m c) 5))
        rw [View.write_whole_univ])
  rw [eS, eH] at key
  exact key

/-- The copy of boundary plane `d` into the direction-`d` neighbour's halo plane `opp d`: it takes the boundary plane at
    `c`'s own face and the neighbour's plane (received with the barrier), pays the neighbour's receive cell, and leaves
    the credit for `c`'s send cell. The program's memrefs and semaphores are given with their equations to the names here. -/
theorem wp_snd (c n : Dev nD) (d : Fin 6) (hd : has d c = true) (hn : n = nbr d c)
    (src dst : Memref sig .tc .vmem S1x64x64 .f32) (hs : src = stageM d) (hdm : dst = haloM (opp d))
    (sS sR : SemLoc sig) (hsS : sS = .dma (sendSem d)) (hsR : sR = .dma (recvSem (opp d)))
    {hsc : (dst : Memref sig (Dev.tc n : Thread nD τ).2.kind .vmem S1x64x64 .f32).view.ref.isScScratch = false}
    {hsrc : src.view.WordExact} {hdst : dst.view.WordExact}
    {hsem : DmaTarget.Typed .vmem sR (.remote (Dev.tc n : Thread nD τ) dst sS hsc)}
    {α : Type} {Q : α → sProp 𝕄} {k : PUnit → Prog (TpuEff nD τ sig (Elt F) Λ₀ .tc) α}
    (κ₁ κ₂ : ℕ) (fn : FVec F S1x64x64 .f32) (O : CellTallies nD τ sig Unit) (W : Waits sig Unit) :
    iprop(cellInv ER (haloRd m) κ₁ (sendCell c d) ∗ cellInv ER (haloRd m) κ₂ (recvCell (nbr d c) (opp d))
        ∗ stagePts c d (faceOf (xstg m c) d) ∗ haloPts (nbr d c) (opp d) fn
        ∗ owes (c : Thread nD τ) (O + tallyAt (recvCell (nbr d c) (opp d)) () N) W
        ∗ dutyTok ER (sendCell c d) 0 d ∗ reached ER (sendCell c d) 0
        ∗ dutyTok ER (recvCell (nbr d c) (opp d)) 0 (opp d) ∗ reached ER (recvCell (nbr d c) (opp d)) 0)
      ⊢ iprop(((cred (tallyAt (sendCell c d) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sR hsrc hdst hsem) k) Q) := by
  subst hn hs hdm hsS hsR
  revert hd hsc hsrc hdst hsem
  match d with
  | ⟨0, _⟩ => intro hd hsc hsrc hdst hsem; exact wp_snd_0 m c hd κ₁ κ₂ fn O W
  | ⟨1, _⟩ => intro hd hsc hsrc hdst hsem; exact wp_snd_1 m c hd κ₁ κ₂ fn O W
  | ⟨2, _⟩ => intro hd hsc hsrc hdst hsem; exact wp_snd_2 m c hd κ₁ κ₂ fn O W
  | ⟨3, _⟩ => intro hd hsc hsrc hdst hsem; exact wp_snd_3 m c hd κ₁ κ₂ fn O W
  | ⟨4, _⟩ => intro hd hsc hsrc hdst hsem; exact wp_snd_4 m c hd κ₁ κ₂ fn O W
  | ⟨5, _⟩ => intro hd hsc hsrc hdst hsem; exact wp_snd_5 m c hd κ₁ κ₂ fn O W

/-! ## The waits -/

omit [FloatOps F] in
/-- What the wait on receive cell `d` hands over: the one duty's payload. -/
theorem rest_recv (c : Dev nD) (d : Fin 6) (hd : has d c = true) :
    bigSep ((haloRd (F := F) m).duties (recvCell c d) 0 \ ∅) (fun e => (haloRd m).payload (recvCell c d) 0 e)
      = haloPts c d (landed m c d) := by
  rw [Finset.sdiff_empty, duties_recv, if_pos hd, bigSep_singleton, payload_recv]; rfl

omit [FloatOps F] in
/-- What the wait on send cell `d` hands over: the one duty's payload. -/
theorem rest_send (c : Dev nD) (d : Fin 6) (hd : has d c = true) :
    bigSep ((haloRd (F := F) m).duties (sendCell c d) 0 \ ∅) (fun e => (haloRd m).payload (sendCell c d) 0 e)
      = iprop(∃ f, stagePts c d f) := by
  rw [Finset.sdiff_empty, duties_send, if_pos hd, bigSep_singleton, payload_send]; rfl

omit [FloatOps F] in
/-- What the wait on the barrier cell hands over: every neighbour's payload. -/
theorem rest_bar (c : Dev nD) :
    bigSep ((haloRd (F := F) m).duties (barCell c) 0 \ ∅) (fun e => (haloRd m).payload (barCell c) 0 e)
      = bigSep (Finset.univ.filter fun d : Fin 6 => has d c = true) (fun d => barPay c d) := by
  rw [Finset.sdiff_empty, duties_bar]
  exact bigSep_congr fun d _ => payload_bar m c d

/-- The wait on receive cell `d`: halo plane `d` comes back holding the neighbour's boundary plane facing `c`. -/
theorem wp_wrecv (c : Dev nD) (d : Fin 6) (hd : has d c = true)
    {src : Memref sig .tc .vmem S1x64x64 .f32} {dst : Memref sig .tc .vmem S1x64x64 .f32}
    {hsrc : src.view.WordExact} {hdst : dst.view.WordExact} (sem : DmaSem sig) (hsem : sem = recvSem d)
    (hamt : dst.view.dmaCredit = N)
    {α : Type} {Q : α → sProp 𝕄} {k : PUnit → Prog (TpuEff nD τ sig (Elt F) Λ₀ .tc) α}
    (κ : ℕ) (W : Waits sig Unit) :
    iprop(cellInv ER (haloRd m) κ (recvCell c d) ∗ cred (tallyAt (recvCell c d) () N) ∗ owes (c : Thread nD τ) 0 W
        ∗ atPos ER (recvCell c d) 0 ∅ 0)
      ⊢ iprop(((owes (c : Thread nD τ) 0 (insert (SemLoc.dma (recvSem d), ()) W)
              ∗ atPos ER (recvCell c d) 1 ∅ 0 ∗ haloPts c d (landed m c d))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem src dst hsrc hdst) k) Q) := by
  subst hsem
  iintro ⟨#HI, Hc, HO, Hat⟩ Hk
  iapply (Rounds.wp_wait_rest_token 𝒱₀ ER (haloRd m) (c : Thread nD τ) none (κ := κ) (sm := .dma (recvSem d)) (k' := N)
      (fun K => (wpE_waitDma2_eq 𝒱₀ (c : Thread nD τ) none Set.univ K).trans (by rw [hamt])) (Set.mem_univ _) ()
      (O := 0) (W := W) (R := 0) (m := 0) (T := ∅)
      (by rw [Nat.zero_add, expect_recv m c d hd])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c d hd)) $$ Hpay
  iapply Hk
  isplitl [HO]; · iexact HO
  isplitl [Hat]; · iexact Hat
  iexact Hp

/-- The wait on send cell `d`: the boundary plane comes back. -/
theorem wp_wsend (c : Dev nD) (d : Fin 6) (hd : has d c = true)
    {src : Memref sig .tc .vmem S1x64x64 .f32} {dst : Memref sig .tc .vmem S1x64x64 .f32}
    {hsrc : src.view.WordExact} {hdst : dst.view.WordExact} (sem : DmaSem sig) (hsem : sem = sendSem d)
    (hamt : dst.view.dmaCredit = N)
    {α : Type} {Q : α → sProp 𝕄} {k : PUnit → Prog (TpuEff nD τ sig (Elt F) Λ₀ .tc) α}
    (κ : ℕ) (W : Waits sig Unit) :
    iprop(cellInv ER (haloRd m) κ (sendCell c d) ∗ cred (tallyAt (sendCell c d) () N) ∗ owes (c : Thread nD τ) 0 W
        ∗ atPos ER (sendCell c d) 0 ∅ 0)
      ⊢ iprop(((owes (c : Thread nD τ) 0 (insert (SemLoc.dma (sendSem d), ()) W)
              ∗ atPos ER (sendCell c d) 1 ∅ 0 ∗ (∃ f, stagePts c d f))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem src dst hsrc hdst) k) Q) := by
  subst hsem
  iintro ⟨#HI, Hc, HO, Hat⟩ Hk
  iapply (Rounds.wp_wait_rest_token 𝒱₀ ER (haloRd m) (c : Thread nD τ) none (κ := κ) (sm := .dma (sendSem d)) (k' := N)
      (fun K => (wpE_waitDma2_eq 𝒱₀ (c : Thread nD τ) none Set.univ K).trans (by rw [hamt])) (Set.mem_univ _) ()
      (O := 0) (W := W) (R := 0) (m := 0) (T := ∅)
      (by rw [Nat.zero_add, expect_send m c d hd])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c d hd)) $$ Hpay
  iapply Hk
  isplitl [HO]; · iexact HO
  isplitl [Hat]; · iexact Hat
  iexact Hp

/-- The wait on the device's own barrier cell, for as many units as it has neighbours, while it still owes `O`: every
    neighbour's payload comes with it. That the barrier cell sits below everything still owed is a hypothesis. -/
theorem wp_wbar (c : Dev nD) (L : GSem nD τ sig → Finset Unit) (lv : GSem nD τ sig → Unit → ℕ)
    (O : CellTallies nD τ sig Unit)
    (hmw : (levAts L lv : sProp 𝕄) ⊢ MayWait (c : Thread nD τ) (.reg barS) () O)
    {k' : ℕ} (hk : k' = nNbr c)
    {α : Type} {Q : α → sProp 𝕄} {k : PUnit → Prog (TpuEff nD τ sig (Elt F) Λ₀ .tc) α}
    (κ : ℕ) (W : Waits sig Unit) :
    iprop(cellInv ER (haloRd m) κ (barCell c) ∗ cred (tallyAt (barCell c) () (nNbr c)) ∗ owes (c : Thread nD τ) O W
        ∗ levAts L lv ∗ atPos ER (barCell c) 0 ∅ 0)
      ⊢ iprop(((owes (c : Thread nD τ) O (insert (SemLoc.reg barS, ()) W)
              ∗ atPos ER (barCell c) 1 ∅ 0
              ∗ bigSep (Finset.univ.filter fun d : Fin 6 => has d c = true) (fun d => barPay c d))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS k') k) Q) := by
  subst hk
  iintro ⟨#HI, Hc, HO, #Hlev, Hat⟩ Hk
  iapply (Rounds.wp_wait_rest_token 𝒱₀ ER (haloRd m) (c : Thread nD τ) none (κ := κ) (sm := .reg barS) (k' := nNbr c)
      (wpE_semWait_eq 𝒱₀ (c : Thread nD τ) none Set.univ) (Set.mem_univ _) ()
      (O := O) (W := W) (R := 0) (m := 0) (T := ∅)
      (by rw [Nat.zero_add, expect_bar])) $$ [Hc HO Hat]
  · isplitr; · iexact HI
    isplitl [Hc]; · iexact Hc
    isplitl [HO]; · iexact HO
    isplitr; · iapply hmw; iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-! ## Closing a send or receive cell -/

omit [FloatOps F] in
/-- From the round a device's send cell stops at, no round has a duty: round 1 on when it has the neighbour, round 0
    on when it has none. -/
theorem send_no_duty (c : Dev nD) (d : Fin 6) (R : ℕ) (hR : R = if has d c = true then 1 else 0) :
    ∀ r, R ≤ r → (haloRd (F := F) m).duties (sendCell c d) r = ∅ := by
  intro r hr
  by_cases hd : has d c = true
  · rw [if_pos hd] at hR; exact duties_later m _ r (by omega)
  · by_cases h0 : r = 0
    · subst h0; rw [duties_send, if_neg hd]
    · exact duties_later m _ r (by omega)

omit [FloatOps F] in
/-- The same for a receive cell. -/
theorem recv_no_duty (c : Dev nD) (d : Fin 6) (R : ℕ) (hR : R = if has d c = true then 1 else 0) :
    ∀ r, R ≤ r → (haloRd (F := F) m).duties (recvCell c d) r = ∅ := by
  intro r hr
  by_cases hd : has d c = true
  · rw [if_pos hd] at hR; exact duties_later m _ r (by omega)
  · by_cases h0 : r = 0
    · subst h0; rw [duties_recv, if_neg hd]
    · exact duties_later m _ r (by omega)

/-- The send cell closes: its counter, at zero, is the device's again. -/
theorem close_send (c : Dev nD) (d : Fin 6) (R : ℕ) (hR : R = if has d c = true then 1 else 0) (κ : ℕ) :
    iprop(cellInv ER (haloRd m) κ (sendCell c d) ∗ atPos ER (sendCell c d) R ∅ 0)
      ⊢ iprop(|={Set.univ}=> semVal (sendCell c d) 0) :=
  Rounds.cell_close ER (haloRd m) (Set.mem_univ κ) (fun h => h) (send_no_duty m c d R hR)

/-- The receive cell closes likewise. -/
theorem close_recv (c : Dev nD) (d : Fin 6) (R : ℕ) (hR : R = if has d c = true then 1 else 0) (κ : ℕ) :
    iprop(cellInv ER (haloRd m) κ (recvCell c d) ∗ atPos ER (recvCell c d) R ∅ 0)
      ⊢ iprop(|={Set.univ}=> semVal (recvCell c d) 0) :=
  Rounds.cell_close ER (haloRd m) (Set.mem_univ κ) (fun h => h) (recv_no_duty m c d R hR)

/-! ## Axioms -/

/-- info: 'Cert.KernelIdeal.Halo.wp_snd' depends on axioms: [propext, Classical.choice, Quot.sound] -/
#guard_msgs in #print axioms wp_snd

/-- info: 'Cert.KernelIdeal.Halo.wp_wrecv' depends on axioms: [propext, Classical.choice, Quot.sound] -/
#guard_msgs in #print axioms wp_wrecv

/-- info: 'Cert.KernelIdeal.Halo.wp_wsend' depends on axioms: [propext, Classical.choice, Quot.sound] -/
#guard_msgs in #print axioms wp_wsend

/-- info: 'Cert.KernelIdeal.Halo.wp_wbar' depends on axioms: [propext, Classical.choice, Quot.sound] -/
#guard_msgs in #print axioms wp_wbar

/-- info: 'Cert.KernelIdeal.Halo.close_send' depends on axioms: [propext, Classical.choice, Quot.sound] -/
#guard_msgs in #print axioms close_send

/-- info: 'Cert.KernelIdeal.Halo.close_recv' depends on axioms: [propext, Classical.choice, Quot.sound] -/
#guard_msgs in #print axioms close_recv

end Cert.KernelIdeal.Halo

end
-- ==== Proof.HaloGuard2.lean ====
/-
  The device-dependent copy and waits of the halo exchange, each taken once for any device, and the barrier wait with
  what it hands over regrouped by direction.

  The copy in direction `d`, the wait on receive cell `d` and the wait on send cell `d` stand in the program under the
  test "the device has a neighbour in direction `d`". Each is stated here for the whole branch: what it needs and
  what it leaves carry the test inside them, so the same sentence holds whichever way the test goes. The barrier wait
  is not under a test; what it hands over, one payload per direction in which there is a neighbour, is restated as six
  things side by side, each held only if that direction has a neighbour.
-/
import proofs.«900441_g7700000000000442_dist_halo3d_v7x_xyz2x4x4_s64_f32_1_alg».proof.Proof.HaloRules2
import proofs.«900441_g7700000000000442_dist_halo3d_v7x_xyz2x4x4_s64_f32_1_alg».proof.Proof.HaloGhost

noncomputable section

namespace Cert.KernelIdeal.Halo

open Cert.KernelIdeal Cert.KernelIdeal.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## Held only if, held only if not -/

omit [FloatOps F] in
/-- Something held only if there is a neighbour and the same thing held only if there is none: it is held. -/
theorem onDir_offDir (c : Dev nD) (d : Fin 6) (P : sProp 𝕄) : iprop(onDir c d P ∗ offDir c d P) ⊢ P := by
  unfold onDir offDir
  by_cases hd : has d c = true
  · rw [if_pos hd, if_pos hd]; iintro ⟨H, -⟩; iexact H
  · rw [if_neg hd, if_neg hd]; iintro ⟨-, H⟩; iexact H

omit [FloatOps F] in
/-- Halo plane `d`, whether it came back with the wait or was never given away. -/
theorem halo_merge (c : Dev nD) (d : Fin 6) :
    iprop(onDir c d iprop(∃ f, haloPts (F := F) c d f) ∗ offDir c d iprop(∃ f, haloPts (F := F) c d f))
      ⊢ iprop(∃ f, haloPts (F := F) c d f) := onDir_offDir c d _

omit [FloatOps F] in
/-- Boundary plane `d` likewise. -/
theorem stage_merge (c : Dev nD) (d : Fin 6) :
    iprop(onDir c d iprop(∃ f, stagePts (F := F) c d f) ∗ offDir c d iprop(∃ f, stagePts (F := F) c d f))
      ⊢ iprop(∃ f, stagePts (F := F) c d f) := onDir_offDir c d _

omit [FloatOps F] in
/-- What is held only if there is a neighbour may be weakened. -/
theorem onDir_mono (c : Dev nD) (d : Fin 6) {P P' : sProp 𝕄} (h : P ⊢ P') : onDir c d P ⊢ onDir c d P' := by
  unfold onDir
  by_cases hd : has d c = true
  · rw [if_pos hd, if_pos hd]; exact h
  · rw [if_neg hd, if_neg hd]

omit [FloatOps F] in
theorem offDir_mono (c : Dev nD) (d : Fin 6) {P P' : sProp 𝕄} (h : P ⊢ P') : offDir c d P ⊢ offDir c d P' := by
  unfold offDir
  by_cases hd : has d c = true
  · rw [if_pos hd, if_pos hd]
  · rw [if_neg hd, if_neg hd]; exact h

/-! ## Six directions side by side -/

omit [FloatOps F] in
/-- A product over all six directions, written out. -/
theorem bigSep_fin_six (Φ : Fin 6 → sProp 𝕄) : bigSep Finset.univ Φ = sep6 Φ := by
  rw [show (Finset.univ : Finset (Fin 6)) = {0, 1, 2, 3, 4, 5} by decide,
    bigSep_insert (by decide), bigSep_insert (by decide), bigSep_insert (by decide), bigSep_insert (by decide),
    bigSep_insert (by decide), bigSep_singleton]
  rfl

omit [FloatOps F] in
/-- A product over the directions in which the device has a neighbour is the six-fold product of things each held only
    if its direction has one. -/
theorem bigSep_dirs (c : Dev nD) (P : Fin 6 → sProp 𝕄) :
    bigSep (Finset.univ.filter fun d : Fin 6 => has d c = true) P = sep6 (fun d => onDir c d (P d)) := by
  rw [bigSep_filter, bigSep_fin_six]; rfl

omit [FloatOps F] in
/-- Of what one neighbour's signal hands over, the plane. -/
theorem barPay_plane (c : Dev nD) (d : Fin 6) :
    barPay (F := F) c d ⊢ iprop(∃ f, haloPts (F := F) (nbr d c) (opp d) f) := by
  unfold barPay
  iintro ⟨H, -⟩
  iexact H

omit [FloatOps F] in
/-- What the barrier wait hands over, by direction, keeping only the planes. -/
theorem bar_regroup (c : Dev nD) :
    bigSep (Finset.univ.filter fun d : Fin 6 => has d c = true) (fun d => barPay (F := F) c d)
      ⊢ sep6 (fun d => onDir c d iprop(∃ f, haloPts (F := F) (nbr d c) (opp d) f)) :=
  (bigSep_mono (fun d _ => barPay_plane c d)).trans (Entails.of_eq (bigSep_dirs c _))

/-! ## The barrier wait -/

/-- The wait on the device's own barrier cell while it still owes its six copies: every neighbour's plane facing it
    comes with it, one per direction. -/
theorem wp_wbar_g (c : Dev nD)
    (hmw : (levAts L lv : sProp 𝕄) ⊢ MayWait (c : Thread nD τ) (.reg barS) () (Osnd c))
    {k' : ℕ} (hk : k' = nNbr c)
    {α : Type} {Q : α → sProp 𝕄} {k : PUnit → Prog (TpuEff nD τ sig (Elt F) Λ₀ .tc) α}
    (κ : ℕ) (W : Waits sig Unit) :
    iprop(cellInv ER (haloRd m) κ (barCell c) ∗ cred (tallyAt (barCell c) () (nNbr c)) ∗ owes (c : Thread nD τ) (Osnd c) W
        ∗ levAts L lv ∗ atPos ER (barCell c) 0 ∅ 0)
      ⊢ iprop(((owes (c : Thread nD τ) (Osnd c) (insert (SemLoc.reg barS, ()) W)
              ∗ atPos ER (barCell c) 1 ∅ 0
              ∗ sep6 (fun d => onDir c d iprop(∃ f, haloPts (F := F) (nbr d c) (opp d) f)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS k') k) Q) := by
  iintro H Hk
  iapply (wp_wbar m c L lv (Osnd c) hmw hk κ W) $$ H
  iintro ⟨HO, Hat, Hp⟩
  iapply Hk
  isplitl [HO]; · iexact HO
  isplitl [Hat]; · iexact Hat
  iapply (bar_regroup c)
  iexact Hp

/-! ## The guarded copy -/

/-- The branch "if there is a neighbour in direction `d`, copy boundary plane `d` into its halo plane `opp d`": from what
    the device owes with that plane's credit among it, the two tokens and the neighbour's plane if there is a
    neighbour, and its own boundary plane, the rest `R` of the program runs owing the credit less, holding its send
    cell's credit if there was a neighbour and the boundary plane itself if there was none. -/
theorem wp_snd_g (c : Dev nD) (d : Fin 6) {C : Prop} [Decidable C] (hC : C ↔ has d c = true)
    (n : C → Dev nD) (hn : ∀ h, n h = nbr d c)
    (src dst : Memref sig .tc .vmem S1x64x64 .f32) (hs : src = stageM d) (hdm : dst = haloM (opp d))
    (sS sR : SemLoc sig) (hsS : sS = .dma (sendSem d)) (hsR : sR = .dma (recvSem (opp d)))
    (hsc : ∀ h : C, (dst : Memref sig (Dev.tc (n h) : Thread nD τ).2.kind .vmem S1x64x64 .f32).view.ref.isScScratch = false)
    (hsrc : src.view.WordExact) (hdst : dst.view.WordExact)
    (hsem : ∀ h : C, DmaTarget.Typed .vmem sR (.remote (Dev.tc (n h) : Thread nD τ) dst sS (hsc h)))
    {α : Type} {Q : α → sProp 𝕄} (R : Prog (TpuEff nD τ sig (Elt F) Λ₀ .tc) α)
    (pt : C → Prog (TpuEff nD τ sig (Elt F) Λ₀ .tc) α) (pe : Prog (TpuEff nD τ sig (Elt F) Λ₀ .tc) α)
    (hpt : ∀ h, pt h = Prog.bind (Prog.lift (.enqueueDma src (.remote (Dev.tc (n h) : Thread nD τ) dst sS (hsc h)) sR hsrc hdst (hsem h)))
      (fun _ => R)) (hpe : pe = R)
    (κ₁ κ₂ : ℕ) (O : CellTallies nD τ sig Unit) (W : Waits sig Unit) :
    iprop(cellInv ER (haloRd m) κ₁ (sendCell c d) ∗ cellInv ER (haloRd m) κ₂ (recvCell (nbr d c) (opp d))
        ∗ reached ER (sendCell c d) 0 ∗ reached ER (recvCell (nbr d c) (opp d)) 0
        ∗ owes (c : Thread nD τ) (O + sndOwe c d) W
        ∗ onDir c d (dutyTok ER (sendCell c d) 0 d) ∗ onDir c d (dutyTok ER (recvCell (nbr d c) (opp d)) 0 (opp d))
        ∗ onDir c d iprop(∃ fn, haloPts (F := F) (nbr d c) (opp d) fn) ∗ stagePts c d (faceOf (xstg m c) d)
        ∗ ((owes (c : Thread nD τ) O W ∗ onDir c d (cred (tallyAt (sendCell c d) () N))
              ∗ offDir c d (stagePts c d (faceOf (xstg m c) d)))
            -∗ wp frame (wpE (defs₀ (F := F)) 𝒱₀ (c : Thread nD τ) none) Set.univ R Q))
      ⊢ wp frame (wpE (defs₀ (F := F)) 𝒱₀ (c : Thread nD τ) none) Set.univ (if h : C then pt h else pe) Q := by
  by_cases h : C
  · have hd := hC.mp h
    rw [dif_pos h, hpt h]
    unfold onDir offDir sndOwe
    simp only [if_pos hd]
    simp only [Prog.lift, Prog.bind_op, Prog.bind_ret]
    iintro ⟨#HI1, #HI2, #Hr1, #Hr2, HO, Ht1, Ht2, ⟨%fn, Hh⟩, Hs, Hk⟩
    iapply (wp_snd m c (n h) d hd (hn h) src dst hs hdm sS sR hsS hsR κ₁ κ₂ fn O W) $$ [HO Ht1 Ht2 Hh Hs]
    · isplitr; · iexact HI1
      isplitr; · iexact HI2
      isplitl [Hs]; · iexact Hs
      isplitl [Hh]; · iexact Hh
      isplitl [HO]; · iexact HO
      isplitl [Ht1]; · iexact Ht1
      isplitr; · iexact Hr1
      isplitl [Ht2]; · iexact Ht2
      iexact Hr2
    iintro ⟨Hc, HO⟩
    iapply Hk
    isplitl [HO]; · iexact HO
    isplitl [Hc]; · iexact Hc
    iempintro
  · have hd : ¬ has d c = true := fun hd => h (hC.mpr hd)
    rw [dif_neg h, hpe]
    unfold onDir offDir sndOwe
    simp only [if_neg hd]
    rw [add_zero]
    iintro ⟨-, -, -, -, HO, -, -, -, Hs, Hk⟩
    iapply Hk
    isplitl [HO]; · iexact HO
    isplitr; · iempintro
    iexact Hs

/-! ## The guarded waits -/

/-- The branch "if there is a neighbour in direction `d`, wait on receive cell `d`": the rest `R` of the program runs with the wait recorded and the cell one round on if there was a neighbour, and then holding halo plane `d` at the neighbour's boundary plane. -/
theorem wp_wrecv_g (c : Dev nD) (d : Fin 6) {C : Prop} [Decidable C] (hC : C ↔ has d c = true)
    (src dst : Memref sig .tc .vmem S1x64x64 .f32) (hsrc : src.view.WordExact) (hdst : dst.view.WordExact)
    (sem : DmaSem sig) (hsem : sem = recvSem d) (hamt : dst.view.dmaCredit = N)
    {α : Type} {Q : α → sProp 𝕄} (R : Prog (TpuEff nD τ sig (Elt F) Λ₀ .tc) α)
    (pt : C → Prog (TpuEff nD τ sig (Elt F) Λ₀ .tc) α) (pe : Prog (TpuEff nD τ sig (Elt F) Λ₀ .tc) α)
    (hpt : ∀ h, pt h = Prog.bind (Prog.lift (.waitDma2 sem src dst hsrc hdst)) (fun _ => R)) (hpe : pe = R)
    (κ : ℕ) (W : Waits sig Unit) :
    iprop(cellInv ER (haloRd m) κ (recvCell c d) ∗ onDir c d (cred (tallyAt (recvCell c d) () N)) ∗ owes (c : Thread nD τ) 0 W
        ∗ atPos ER (recvCell c d) 0 ∅ 0
        ∗ ((owes (c : Thread nD τ) 0 (if has d c = true then insert (SemLoc.dma (recvSem d), ()) W else W)
              ∗ atPos ER (recvCell c d) (if has d c = true then 1 else 0) ∅ 0
              ∗ onDir c d (haloPts c d (landed m c d)))
            -∗ wp frame (wpE (defs₀ (F := F)) 𝒱₀ (c : Thread nD τ) none) Set.univ R Q))
      ⊢ wp frame (wpE (defs₀ (F := F)) 𝒱₀ (c : Thread nD τ) none) Set.univ (if h : C then pt h else pe) Q := by
  by_cases h : C
  · have hd := hC.mp h
    rw [dif_pos h, hpt h]
    unfold onDir
    simp only [if_pos hd]
    simp only [Prog.lift, Prog.bind_op, Prog.bind_ret]
    iintro ⟨#HI, Hc, HO, Hat, Hk⟩
    iapply (wp_wrecv m c d hd sem hsem hamt κ W) $$ [Hc HO Hat]
    · isplitr; · iexact HI
      isplitl [Hc]; · iexact Hc
      isplitl [HO]; · iexact HO
      iexact Hat
    iexact Hk
  · have hd : ¬ has d c = true := fun hd => h (hC.mpr hd)
    rw [dif_neg h, hpe]
    unfold onDir
    simp only [if_neg hd]
    iintro ⟨-, -, HO, Hat, Hk⟩
    iapply Hk
    isplitl [HO]; · iexact HO
    isplitl [Hat]; · iexact Hat
    iempintro

/-- The branch "if there is a neighbour in direction `d`, wait on send cell `d`": likewise, and then holding boundary plane `d` again. -/
theorem wp_wsend_g (c : Dev nD) (d : Fin 6) {C : Prop} [Decidable C] (hC : C ↔ has d c = true)
    (src dst : Memref sig .tc .vmem S1x64x64 .f32) (hsrc : src.view.WordExact) (hdst : dst.view.WordExact)
    (sem : DmaSem sig) (hsem : sem = sendSem d) (hamt : dst.view.dmaCredit = N)
    {α : Type} {Q : α → sProp 𝕄} (R : Prog (TpuEff nD τ sig (Elt F) Λ₀ .tc) α)
    (pt : C → Prog (TpuEff nD τ sig (Elt F) Λ₀ .tc) α) (pe : Prog (TpuEff nD τ sig (Elt F) Λ₀ .tc) α)
    (hpt : ∀ h, pt h = Prog.bind (Prog.lift (.waitDma2 sem src dst hsrc hdst)) (fun _ => R)) (hpe : pe = R)
    (κ : ℕ) (W : Waits sig Unit) :
    iprop(cellInv ER (haloRd m) κ (sendCell c d) ∗ onDir c d (cred (tallyAt (sendCell c d) () N)) ∗ owes (c : Thread nD τ) 0 W
        ∗ atPos ER (sendCell c d) 0 ∅ 0
        ∗ ((owes (c : Thread nD τ) 0 (if has d c = true then insert (SemLoc.dma (sendSem d), ()) W else W)
              ∗ atPos ER (sendCell c d) (if has d c = true then 1 else 0) ∅ 0
              ∗ onDir c d iprop(∃ f, stagePts (F := F) c d f))
            -∗ wp frame (wpE (defs₀ (F := F)) 𝒱₀ (c : Thread nD τ) none) Set.univ R Q))
      ⊢ wp frame (wpE (defs₀ (F := F)) 𝒱₀ (c : Thread nD τ) none) Set.univ (if h : C then pt h else pe) Q := by
  by_cases h : C
  · have hd := hC.mp h
    rw [dif_pos h, hpt h]
    unfold onDir
    simp only [if_pos hd]
    simp only [Prog.lift, Prog.bind_op, Prog.bind_ret]
    iintro ⟨#HI, Hc, HO, Hat, Hk⟩
    iapply (wp_wsend m c d hd sem hsem hamt κ W) $$ [Hc HO Hat]
    · isplitr; · iexact HI
      isplitl [Hc]; · iexact Hc
      isplitl [HO]; · iexact HO
      iexact Hat
    iexact Hk
  · have hd : ¬ has d c = true := fun hd => h (hC.mpr hd)
    rw [dif_neg h, hpe]
    unfold onDir
    simp only [if_neg hd]
    iintro ⟨-, -, HO, Hat, Hk⟩
    iapply Hk
    isplitl [HO]; · iexact HO
    isplitl [Hat]; · iexact Hat
    iempintro

/-! ## Axioms -/

/-- info: 'Cert.KernelIdeal.Halo.wp_wbar_g' depends on axioms: [propext, Classical.choice, Quot.sound] -/
#guard_msgs in #print axioms wp_wbar_g

/-- info: 'Cert.KernelIdeal.Halo.wp_snd_g' depends on axioms: [propext, Classical.choice, Quot.sound] -/
#guard_msgs in #print axioms wp_snd_g

/-- info: 'Cert.KernelIdeal.Halo.wp_wrecv_g' depends on axioms: [propext, Classical.choice, Quot.sound] -/
#guard_msgs in #print axioms wp_wrecv_g

/-- info: 'Cert.KernelIdeal.Halo.wp_wsend_g' depends on axioms: [propext, Classical.choice, Quot.sound] -/
#guard_msgs in #print axioms wp_wsend_g

/-- info: 'Cert.KernelIdeal.Halo.halo_merge' depends on axioms: [propext, Classical.choice, Quot.sound] -/
#guard_msgs in #print axioms halo_merge

/-- info: 'Cert.KernelIdeal.Halo.stage_merge' depends on axioms: [propext, Classical.choice, Quot.sound] -/
#guard_msgs in #print axioms stage_merge

/-- info: 'Cert.KernelIdeal.Halo.onDir_mono' depends on axioms: [propext, Classical.choice, Quot.sound] -/
#guard_msgs in #print axioms onDir_mono

end Cert.KernelIdeal.Halo

end
-- ==== Proof.HaloStores.lean ====
/-
  The twelve stores into the output block that stand under a test, taken one at a time so that the block's contents
  stay ONE chain of writes.

  After the stencil of the whole block is stored, the body rewrites faces of the output block under tests on the
  device's place in the mesh: six times "if the device is on this outer face of the mesh, zero the face", then six
  times "if the device has a neighbour across this face, add the plane received from it to the face". Each such step
  either writes a plane through a rectangle of the block or leaves the block alone. `gw` is that one step on the
  block's contents; the lemmas run one region of the program and leave the block at `gw` of what it was; the chain
  `outRaw0 … outRaw12` is the thirteen contents in program order, the tests and the masks spelt through the device's
  three mesh coordinates as the program computes them.
-/
import proofs.«900441_g7700000000000442_dist_halo3d_v7x_xyz2x4x4_s64_f32_1_alg».proof.Proof.HaloGuard2

noncomputable section

namespace Cert.KernelIdeal.Halo

open Cert.KernelIdeal Cert.KernelIdeal.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The block, and one guarded write -/

/-- The contents of the output block. -/
abbrev BlockC (F : FTy → Type) : Type := (cc0_stg1_0 : Ref sig .tc).ty.Contents (Elt F)

/-- The output block held whole at contents `o`. -/
abbrev blockPts (c : Dev nD) (o : BlockC F) : sProp 𝕄 :=
  ((Memref.whole cc0_stg1_0 : Memref sig .tc .vmem S64x64x64 .f32).view.loc (c : Thread nD τ) ↦{fullShare} o)

/-- The whole 1 × 64 × 64 plane, as a rectangle of a plane's own buffer. -/
abbrev rP : Rect S1x64x64 := Rect.unit (s := S1x64x64) ![0, 0, 0] S1x64x64.size inb_S1x64x64_S1x64x64_0_0_0
/-- The whole block, as a rectangle of the block's own buffer. -/
abbrev rW : Rect S64x64x64 := Rect.unit (s := S64x64x64) ![0, 0, 0] S64x64x64.size inb_S64x64x64_S64x64x64_0_0_0

/-- One guarded write: if `C`, the vector `v` written through the rectangle `R` of the block; otherwise the block as it was. -/
def gw (C : Prop) [Decidable C] (R : Rect S64x64x64) (v : R.shape.Idx → Elt F .f32) (o : BlockC F) : BlockC F :=
  if C then ((oM : Memref sig .tc .vmem S64x64x64 .f32).access R : View sig .tc _ _ _).write (Elt F) o v Finset.univ else o

/-- A store through a rectangle of the block, the block held whole. -/
theorem wp_store_block (c : Dev nD) (R : Rect S64x64x64) (v : R.shape.Idx → Elt F .f32)
    {hs1 : ((oM : Memref sig .tc .vmem S64x64x64 .f32).access R).Stores Finset.univ}
    {hs2 : (Finset.univ : Finset R.shape.Idx) = Finset.univ ∨ ∀ a, R.stride a = 1}
    {α : Type} {Q : α → sProp 𝕄} {k : PUnit → Prog (TpuEff nD τ sig (Elt F) Λ₀ .tc) α} (o : BlockC F) :
    blockPts c o
      ⊢ iprop((blockPts c (((oM : Memref sig .tc .vmem S64x64x64 .f32).access R : View sig .tc _ _ _).write (Elt F) o v Finset.univ)
            -∗ wp frame (wpE (defs₀ (F := F)) 𝒱₀ (c : Thread nD τ) none) Set.univ (k ⟨⟩) Q)
          -∗ wp frame (wpE (defs₀ (F := F)) 𝒱₀ (c : Thread nD τ) none) Set.univ (.op (.store oM R v Finset.univ hs1 hs2) k) Q) :=
  wp_store 𝒱₀ (c : Thread nD τ) none Set.univ (m := oM) (r := R) (Finset.subset_univ _)

/-! ## A region that zeroes a face -/

/-- The branch "if `C`, load the face (unused) and store `v` through it": the rest `R'` of the program runs with the
    block at the guarded write. -/
theorem wp_zero_face (c : Dev nD) {C : Prop} [Decidable C] (R : Rect S64x64x64) (v : R.shape.Idx → Elt F .f32)
    {hl : (oM : Memref sig .tc .vmem S64x64x64 .f32).view.LoadsAt R.toLoadRect}
    {hs1 : ((oM : Memref sig .tc .vmem S64x64x64 .f32).access R).Stores Finset.univ}
    {hs2 : (Finset.univ : Finset R.shape.Idx) = Finset.univ ∨ ∀ a, R.stride a = 1}
    {α : Type} {Q : α → sProp 𝕄} (R' : Prog (TpuEff nD τ sig (Elt F) Λ₀ .tc) α)
    (pt : C → Prog (TpuEff nD τ sig (Elt F) Λ₀ .tc) α) (pe : Prog (TpuEff nD τ sig (Elt F) Λ₀ .tc) α)
    (hpt : ∀ h, pt h = Prog.bind (Prog.lift (.load oM R.toLoadRect hl))
      (fun _ => Prog.bind (Prog.lift (.store oM R v Finset.univ hs1 hs2)) (fun _ => R')))
    (hpe : pe = R') (o : BlockC F) :
    iprop(blockPts c o
        ∗ (blockPts c (gw C R v o) -∗ wp frame (wpE (defs₀ (F := F)) 𝒱₀ (c : Thread nD τ) none) Set.univ R' Q))
      ⊢ wp frame (wpE (defs₀ (F := F)) 𝒱₀ (c : Thread nD τ) none) Set.univ (if h : C then pt h else pe) Q := by
  by_cases h : C
  · rw [dif_pos h, hpt h]
    unfold gw
    rw [if_pos h]
    simp only [Prog.lift, Prog.bind_op, Prog.bind_ret]
    iintro ⟨Ho, Hk⟩
    iapply (wp_load 𝒱₀ (c : Thread nD τ) none Set.univ (m := oM) (Finset.subset_univ _)) $$ Ho
    iintro Ho
    iapply (wp_store_block c R v o) $$ Ho
    iintro Ho
    iapply Hk
    iexact Ho
  · rw [dif_neg h, hpe]
    unfold gw
    rw [if_neg h]
    iintro ⟨Ho, Hk⟩
    iapply Hk
    iexact Ho

/-! ## A region that adds a received plane to a face -/

/-- The taken branch of an add region, over any buffer `hM` holding the received plane: load the face, load the plane,
    load the face again (unused), store `pay` of the two loaded values through the face. -/
theorem wp_add_taken (c : Dev nD) (R : Rect S64x64x64) (hM : Memref sig .tc .vmem S1x64x64 .f32)
    (pay : (R.shape.Idx → Elt F .f32) → Vec F S1x64x64 .f32 → (R.shape.Idx → Elt F .f32))
    {hl hl' : (oM : Memref sig .tc .vmem S64x64x64 .f32).view.LoadsAt R.toLoadRect}
    {hlh : hM.view.LoadsAt rP.toLoadRect}
    {hs1 : ((oM : Memref sig .tc .vmem S64x64x64 .f32).access R).Stores Finset.univ}
    {hs2 : (Finset.univ : Finset R.shape.Idx) = Finset.univ ∨ ∀ a, R.stride a = 1}
    {α : Type} {Q : α → sProp 𝕄} (R' : Prog (TpuEff nD τ sig (Elt F) Λ₀ .tc) α)
    (o : BlockC F) (f : Buf (Elt F) (hM.view.loc (c : Thread nD τ))) :
    iprop(blockPts c o ∗ (hM.view.loc (c : Thread nD τ) ↦{fullShare} f)
        ∗ ((blockPts c (((oM : Memref sig .tc .vmem S64x64x64 .f32).access R : View sig .tc _ _ _).write (Elt F) o
                (pay ((oM : Memref sig .tc .vmem S64x64x64 .f32).view.readAt (Elt F) R.toLoadRect o)
                  (hM.view.readAt (Elt F) rP.toLoadRect f)) Finset.univ)
              ∗ (hM.view.loc (c : Thread nD τ) ↦{fullShare} f))
            -∗ wp frame (wpE (defs₀ (F := F)) 𝒱₀ (c : Thread nD τ) none) Set.univ R' Q))
      ⊢ wp frame (wpE (defs₀ (F := F)) 𝒱₀ (c : Thread nD τ) none) Set.univ
          (Prog.bind (Prog.lift (.load oM R.toLoadRect hl)) (fun v233 =>
            Prog.bind (Prog.lift (.load hM rP.toLoadRect hlh)) (fun v235 =>
              Prog.bind (Prog.lift (.load oM R.toLoadRect hl')) (fun _ =>
                Prog.bind (Prog.lift (.store oM R (pay v233 v235) Finset.univ hs1 hs2)) (fun _ => R'))))) Q := by
  simp only [Prog.lift, Prog.bind_op, Prog.bind_ret]
  iintro ⟨Ho, Hh, Hk⟩
  iapply (wp_load 𝒱₀ (c : Thread nD τ) none Set.univ (m := oM) (Finset.subset_univ _)) $$ Ho
  iintro Ho
  iapply (wp_load 𝒱₀ (c : Thread nD τ) none Set.univ (m := hM) (Finset.subset_univ _)) $$ Hh
  iintro Hh
  iapply (wp_load 𝒱₀ (c : Thread nD τ) none Set.univ (m := oM) (Finset.subset_univ _)) $$ Ho
  iintro Ho
  iapply (wp_store_block c R _ o) $$ Ho
  iintro Ho
  iapply Hk
  isplitl [Ho]; · iexact Ho
  iexact Hh

omit [FloatOps F] in
theorem zero3 : (![0, 0, 0] : Fin 3 → ℕ) = fun _ => 0 :=
  funext fun a => match a with | ⟨0, _⟩ => rfl | ⟨1, _⟩ => rfl | ⟨2, _⟩ => rfl

/-- The branch "if there is a neighbour in direction `d`, add its plane to the face": the rest `R'` of the program runs
    with the block at the guarded write of `pay` of the face as it was and the received plane, the plane kept. -/
theorem wp_add_face (c : Dev nD) (d : Fin 6) {C : Prop} [Decidable C] (hC : C ↔ has d c = true)
    (R : Rect S64x64x64) (hM : Memref sig .tc .vmem S1x64x64 .f32) (hhm : hM = haloM d)
    (pay : (R.shape.Idx → Elt F .f32) → Vec F S1x64x64 .f32 → (R.shape.Idx → Elt F .f32))
    {hl hl' : (oM : Memref sig .tc .vmem S64x64x64 .f32).view.LoadsAt R.toLoadRect}
    {hlh : hM.view.LoadsAt rP.toLoadRect}
    {hs1 : ((oM : Memref sig .tc .vmem S64x64x64 .f32).access R).Stores Finset.univ}
    {hs2 : (Finset.univ : Finset R.shape.Idx) = Finset.univ ∨ ∀ a, R.stride a = 1}
    {α : Type} {Q : α → sProp 𝕄} (R' : Prog (TpuEff nD τ sig (Elt F) Λ₀ .tc) α)
    (pt : C → Prog (TpuEff nD τ sig (Elt F) Λ₀ .tc) α) (pe : Prog (TpuEff nD τ sig (Elt F) Λ₀ .tc) α)
    (hpt : ∀ h, pt h = Prog.bind (Prog.lift (.load oM R.toLoadRect hl)) (fun v233 =>
            Prog.bind (Prog.lift (.load hM rP.toLoadRect hlh)) (fun v235 =>
              Prog.bind (Prog.lift (.load oM R.toLoadRect hl')) (fun _ =>
                Prog.bind (Prog.lift (.store oM R (pay v233 v235) Finset.univ hs1 hs2)) (fun _ => R')))))
    (hpe : pe = R') (o : BlockC F) (hv : FVec F S1x64x64 .f32) :
    iprop(blockPts c o ∗ onDir c d (haloPts c d hv)
        ∗ ((blockPts c (gw C R (pay ((oM : Memref sig .tc .vmem S64x64x64 .f32).view.readAt (Elt F) R.toLoadRect o) hv) o)
              ∗ onDir c d (haloPts c d hv))
            -∗ wp frame (wpE (defs₀ (F := F)) 𝒱₀ (c : Thread nD τ) none) Set.univ R' Q))
      ⊢ wp frame (wpE (defs₀ (F := F)) 𝒱₀ (c : Thread nD τ) none) Set.univ (if h : C then pt h else pe) Q := by
  subst hhm
  by_cases h : C
  · have hd := hC.mp h
    rw [dif_pos h, hpt h]
    unfold gw onDir
    rw [if_pos h]
    simp only [if_pos hd]
    clear hpt hC hd
    revert hlh
    match d with
    | ⟨0, _⟩ =>
      intro hlh
      have e : ((Memref.whole cc0_scratch0 : Memref sig .tc .vmem S1x64x64 .f32).view.readAt (Elt F) rP.toLoadRect hv) = hv :=
        Memref.readAt_unit_zero (Elt F) cc0_scratch0 zero3 _ hv
      have key := wp_add_taken (Q := Q) c R (Memref.whole cc0_scratch0 : Memref sig .tc .vmem S1x64x64 .f32) pay
        (hl := hl) (hl' := hl') (hlh := hlh) (hs1 := hs1) (hs2 := hs2) R' o hv
      rw [e] at key
      exact key
    | ⟨1, _⟩ =>
      intro hlh
      have e : ((Memref.whole cc0_scratch1 : Memref sig .tc .vmem S1x64x64 .f32).view.readAt (Elt F) rP.toLoadRect hv) = hv :=
        Memref.readAt_unit_zero (Elt F) cc0_scratch1 zero3 _ hv
      have key := wp_add_taken (Q := Q) c R (Memref.whole cc0_scratch1 : Memref sig .tc .vmem S1x64x64 .f32) pay
        (hl := hl) (hl' := hl') (hlh := hlh) (hs1 := hs1) (hs2 := hs2) R' o hv
      rw [e] at key
      exact key
    | ⟨2, _⟩ =>
      intro hlh
      have e : ((Memref.whole cc0_scratch2 : Memref sig .tc .vmem S1x64x64 .f32).view.readAt (Elt F) rP.toLoadRect hv) = hv :=
        Memref.readAt_unit_zero (Elt F) cc0_scratch2 zero3 _ hv
      have key := wp_add_taken (Q := Q) c R (Memref.whole cc0_scratch2 : Memref sig .tc .vmem S1x64x64 .f32) pay
        (hl := hl) (hl' := hl') (hlh := hlh) (hs1 := hs1) (hs2 := hs2) R' o hv
      rw [e] at key
      exact key
    | ⟨3, _⟩ =>
      intro hlh
      have e : ((Memref.whole cc0_scratch3 : Memref sig .tc .vmem S1x64x64 .f32).view.readAt (Elt F) rP.toLoadRect hv) = hv :=
        Memref.readAt_unit_zero (Elt F) cc0_scratch3 zero3 _ hv
      have key := wp_add_taken (Q := Q) c R (Memref.whole cc0_scratch3 : Memref sig .tc .vmem S1x64x64 .f32) pay
        (hl := hl) (hl' := hl') (hlh := hlh) (hs1 := hs1) (hs2 := hs2) R' o hv
      rw [e] at key
      exact key
    | ⟨4, _⟩ =>
      intro hlh
      have e : ((Memref.whole cc0_scratch4 : Memref sig .tc .vmem S1x64x64 .f32).view.readAt (Elt F) rP.toLoadRect hv) = hv :=
        Memref.readAt_unit_zero (Elt F) cc0_scratch4 zero3 _ hv
      have key := wp_add_taken (Q := Q) c R (Memref.whole cc0_scratch4 : Memref sig .tc .vmem S1x64x64 .f32) pay
        (hl := hl) (hl' := hl') (hlh := hlh) (hs1 := hs1) (hs2 := hs2) R' o hv
      rw [e] at key
      exact key
    | ⟨5, _⟩ =>
      intro hlh
      have e : ((Memref.whole cc0_scratch5 : Memref sig .tc .vmem S1x64x64 .f32).view.readAt (Elt F) rP.toLoadRect hv) = hv :=
        Memref.readAt_unit_zero (Elt F) cc0_scratch5 zero3 _ hv
      have key := wp_add_taken (Q := Q) c R (Memref.whole cc0_scratch5 : Memref sig .tc .vmem S1x64x64 .f32) pay
        (hl := hl) (hl' := hl') (hlh := hlh) (hs1 := hs1) (hs2 := hs2) R' o hv
      rw [e] at key
      exact key
  · have hd : ¬ has d c = true := fun hd => h (hC.mpr hd)
    rw [dif_neg h, hpe]
    unfold gw onDir
    rw [if_neg h]
    simp only [if_neg hd]
    iintro ⟨Ho, -, Hk⟩
    iapply Hk
    isplitl [Ho]; · iexact Ho
    iempintro

/-! ## The chain of the block's contents -/

/-- The device's three mesh coordinates, as the body computes them from the device's number. -/
abbrev cw2 (c : Dev nD) : BitVec 32 := Scalar.remsi (Scalar.divsi (Dev.word c) 16#32) 2#32
abbrev cw5 (c : Dev nD) : BitVec 32 := Scalar.remsi (Scalar.divsi (Dev.word c) 4#32) 4#32
abbrev cw8 (c : Dev nD) : BitVec 32 := Scalar.remsi (Scalar.divsi (Dev.word c) 1#32) 4#32

/-- The test "the coordinate `w` is `k`", as the body forms it: the bit widened and compared with zero. -/
abbrev onFace (w k : BitVec 32) : Prop := Scalar.cmpi .ne (Scalar.extui (Scalar.cmpi .eq w k) : BitVec 32) 0#32 = 1#1
/-- The test on a bit "there is a neighbour", formed the same way. -/
abbrev bitSet (b : BitVec 1) : Prop := Scalar.cmpi .ne (Scalar.extui b : BitVec 32) 0#32 = 1#1

/-- The row and column numbers of a 64 × 64 face, and the three masks at the device's coordinates. -/
abbrev io0 : IVec S64x64 32 := iota .tc S64x64 32 [0] iota_S64x64_d0_w32
abbrev io1 : IVec S64x64 32 := iota .tc S64x64 32 [1] iota_S64x64_d1_w32
abbrev mskX (c : Dev nD) : IVec S64x64 1 := k0_pay20 (cw5 c) (cw8 c)
abbrev mskY (c : Dev nD) : IVec S64x64 1 := k0_pay23 (cw2 c) (cw8 c) io0 io1 k0_pay21 (k0_pay22 (cw2 c))
abbrev mskZ (c : Dev nD) : IVec S64x64 1 := k0_pay24 (cw2 c) (cw5 c) io0 io1

/-- A face of the block as a load through its rectangle reads it. -/
abbrev faceAt (R : Rect S64x64x64) (o : BlockC F) : R.shape.Idx → Elt F .f32 :=
  (oM : Memref sig .tc .vmem S64x64x64 .f32).view.readAt (Elt F) R.toLoadRect o

variable (c : Dev nD) (x : (cc0_stg0_0 : Ref sig .tc).ty.Contents (Elt F)) (hal : Fin 6 → FVec F S1x64x64 .f32)

/-- The stencil of the whole input block. -/
def outRaw0 : BlockC F := k0_pay13 ((xM : Memref sig .tc .vmem S64x64x64 .f32).view.readAt (Elt F) rW.toLoadRect x)
/-- The six outer faces zeroed, where the device lies on that face of the mesh. -/
def outRaw1 : BlockC F := gw (onFace (cw2 c) 0#32) rX0 (k0_pay14 (F := F)) (outRaw0 x)
def outRaw2 : BlockC F := gw (onFace (cw2 c) 1#32) rX63 (k0_pay15 (F := F)) (outRaw1 c x)
def outRaw3 : BlockC F := gw (onFace (cw5 c) 0#32) rY0 (k0_pay16 (F := F)) (outRaw2 c x)
def outRaw4 : BlockC F := gw (onFace (cw5 c) 3#32) rY63 (k0_pay17 (F := F)) (outRaw3 c x)
def outRaw5 : BlockC F := gw (onFace (cw8 c) 0#32) rZ0 (k0_pay18 (F := F)) (outRaw4 c x)
def outRaw6 : BlockC F := gw (onFace (cw8 c) 3#32) rZ63 (k0_pay19 (F := F)) (outRaw5 c x)
/-- The six received planes added, where the device has a neighbour across that face. -/
def outRaw7 : BlockC F :=
  gw (bitSet (Scalar.cmpi .sgt (cw2 c) 0#32)) rX0 (k0_pay25 (mskX c) (faceAt rX0 (outRaw6 c x)) (hal 0)) (outRaw6 c x)
def outRaw8 : BlockC F :=
  gw (bitSet (Scalar.cmpi .slt (cw2 c) 1#32)) rX63 (k0_pay1 (mskX c) (faceAt rX63 (outRaw7 c x hal)) (hal 1)) (outRaw7 c x hal)
def outRaw9 : BlockC F :=
  gw (bitSet (Scalar.cmpi .sgt (cw5 c) 0#32)) rY0 (k0_pay2 (mskY c) (faceAt rY0 (outRaw8 c x hal)) (hal 2)) (outRaw8 c x hal)
def outRaw10 : BlockC F :=
  gw (bitSet (Scalar.cmpi .slt (cw5 c) 3#32)) rY63 (k0_pay3 (mskY c) (faceAt rY63 (outRaw9 c x hal)) (hal 3)) (outRaw9 c x hal)
def outRaw11 : BlockC F :=
  gw (bitSet (Scalar.cmpi .sgt (cw8 c) 0#32)) rZ0 (k0_pay4 (mskZ c) (faceAt rZ0 (outRaw10 c x hal)) (hal 4)) (outRaw10 c x hal)
def outRaw12 : BlockC F :=
  gw (bitSet (Scalar.cmpi .slt (cw8 c) 3#32)) rZ63 (k0_pay5 (mskZ c) (faceAt rZ63 (outRaw11 c x hal)) (hal 5)) (outRaw11 c x hal)

/-- What the body leaves in the output block. -/
def outRaw : BlockC F := outRaw12 c x hal

/-! ## Axioms -/

/-- info: 'Cert.KernelIdeal.Halo.wp_store_block' depends on axioms: [propext, Classical.choice, Quot.sound] -/
#guard_msgs in #print axioms wp_store_block

/-- info: 'Cert.KernelIdeal.Halo.wp_zero_face' depends on axioms: [propext, Classical.choice, Quot.sound] -/
#guard_msgs in #print axioms wp_zero_face

/-- info: 'Cert.KernelIdeal.Halo.wp_add_taken' depends on axioms: [propext, Classical.choice, Quot.sound] -/
#guard_msgs in #print axioms wp_add_taken

/-- info: 'Cert.KernelIdeal.Halo.wp_add_face' depends on axioms: [propext, Classical.choice, Quot.sound] -/
#guard_msgs in #print axioms wp_add_face

end Cert.KernelIdeal.Halo

end
-- ==== Proof.HaloOblig.lean ====
/-
  From the body's run to the pipeline's obligation, and the run of @main with the body's result named.

  The pipeline asks, at its one point: from what a device starts from, what it owes, and its two staged blocks — the
  input window's at the device's block of the argument, the output window's at anything — the body runs to the scratch
  planes and own semaphores handed back, nothing owed, the input block in place and the output block at the body's
  result. That is the body's run with its pieces regrouped.
-/
import proofs.«900441_g7700000000000442_dist_halo3d_v7x_xyz2x4x4_s64_f32_1_alg».proof.Proof.HaloLaunch
import proofs.«900441_g7700000000000442_dist_halo3d_v7x_xyz2x4x4_s64_f32_1_alg».proof.Proof.HaloStores

noncomputable section

namespace Cert.KernelIdeal.Halo

open Cert.KernelIdeal Cert.KernelIdeal.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- The body's run: from the device's ghost state, its launch credit, the level facts, the scratch planes, what it owes
    and its two staged blocks, the body runs to the scratch planes and own semaphores back, nothing owed, the input
    block in place and the output block at the chain of its stores. -/
abbrev SoundBody : Prop :=
  ∀ (K : Dev nD × Fin 13 → ℕ) (c : Dev nD) (Kt : PUnit → sProp 𝕄) (W : Waits sig Unit) (fo : Buf (Elt F) ((c : Thread nD τ).loc cc0_stg1_0)),
    iprop(pers m K c ∗ atPos ER (barCell c) 0 ∅ 0 ∗ sep6 (linDir (F := F) c)
        ∗ cred (tallyAt (barCell c) () (nNbr c)) ∗ sep6 (credDir (F := F) c) ∗ levAts L lv
        ∗ scratch (F := F) c ∗ owes (c : Thread nD τ) (O₀ c) W
        ∗ ((Memref.whole cc0_stg0_0 : Memref sig .tc .vmem S64x64x64 .f32).view.loc (c : Thread nD τ) ↦{fullShare} xstg m c)
        ∗ ((Memref.whole cc0_stg1_0 : Memref sig .tc .vmem S64x64x64 .f32).view.loc (c : Thread nD τ) ↦{fullShare} fo)
        ∗ ((scratch (F := F) c ∗ ownZero (F := F) c ∗ (∃ W', owes (c : Thread nD τ) 0 W')
              ∗ ((Memref.whole cc0_stg0_0 : Memref sig .tc .vmem S64x64x64 .f32).view.loc (c : Thread nD τ) ↦{fullShare} xstg m c)
              ∗ blockPts c (outRaw c (xstg m c) (landed m c))) -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _) (Memref.whole cc0_scratch11) (Memref.isWhole_whole _)
            cc0_scratch12 cc0_scratch13) Kt

/-- A whole staged buffer held at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The body's result on every device. -/
abbrev outR (c : Dev nD) : (cc0_stg1_0 : Ref sig .tc).ty.Contents (Elt F) := outRaw c (xstg m c) (landed m c)

def bodyPre' (c : Dev nD) : sProp 𝕄 :=
  iprop(Φ₀ m c ∗ (dats m (outR m) 0 c).owesAt () t0_0.castSucc
    ∗ (∃ d, stg c cc0_stg0_0 ((dats m (outR m) 0 c).before (0 : Fin 2) t0_0 d))
    ∗ (∃ d, stg c cc0_stg1_0 ((dats m (outR m) 0 c).before (1 : Fin 2) t0_0 d)))

def bodyPost (c : Dev nD) : sProp 𝕄 :=
  iprop(Φ₁ (F := F) c ∗ (dats m (outR m) 0 c).owesAt () t0_0.succ ∗ stg c cc0_stg0_0 (xstg m c) ∗ stg c cc0_stg1_0 (outR m c))

set_option maxRecDepth 4000 in
/-- The pipeline's body obligation on device `c`, from the body's run. -/
theorem body_obligation_of (hsb : SoundBody m) (c : Dev nD) :
    BodyObligation (dats (F := F) m (fun c => outRaw c (xstg m c) (landed m c)) 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) (Memref.whole cc0_scratch9) (Memref.isWhole_whole _)
      (Memref.whole cc0_scratch10) (Memref.isWhole_whole _) (Memref.whole cc0_scratch11) (Memref.isWhole_whole _)
      cc0_scratch12 cc0_scratch13) (fun _ => bodyPost m c)
  unfold bodyPre' Φ₀ start ghost
  iintro ⟨⟨⟨⟨%K, Hp, HaB, HL⟩, HcB, HcR, Hlev⟩, Hscr⟩, Ho, ⟨%d0, %g0, %hg0, Hx⟩, ⟨%d1, %g1, %hg1, Hout⟩⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m (outR m) 0 c).owed t0_0.castSucc = O₀ c from rfl]
  iapply (hsb K c (fun _ => bodyPost m c) W g1)
  isplitl [Hp]; · iexact Hp
  isplitl [HaB]; · iexact HaB
  isplitl [HL]; · iexact HL
  isplitl [HcB]; · iexact HcB
  isplitl [HcR]; · iexact HcR
  isplitl [Hlev]; · iexact Hlev
  isplitl [Hscr]; · iexact Hscr
  isplitl [HO]; · iexact HO
  isplitl [Hx]; · iexact Hx
  isplitl [Hout]; · iexact Hout
  iintro ⟨Hscr, Hz, ⟨%W', HO'⟩, Hx, Hout⟩
  unfold bodyPost Φ₁ Dat.owesAt Pipeline.owesWithin
  rw [show (dats m (outR m) 0 c).owed t0_0.succ = 0 from rfl]
  isplitl [Hscr Hz]
  · isplitl [Hscr]; · iexact Hscr
    iexact Hz
  isplitl [HO']
  · iexists W'
    isplitr; · ipureintro; exact fun _ _ => Or.inl trivial
    iexact HO'
  isplitl [Hx]
  · iexists _; isplitr; · (ipureintro; rfl)
    iexact Hx
  iexists _; isplitr; · (ipureintro; rfl)
  iexact Hout

/-- From the body's run: every execution of @main ends with each device's result array at the chain of the body's
    stores and its argument array unchanged. -/
theorem run_out (hsb : SoundBody m) :
    θ_run defs (onTc (τ := τ) (main (F := F))) ⟨m, fun _ => 0, ρ⟩ (fun r => ∀ c : Dev nD,
      r.2.mem ((c.tc : Thread nD τ).loc main_v1) = outRaw c (xstg m c) (landed m c)
      ∧ r.2.mem ((c.tc : Thread nD τ).loc main_arg0) = m ((c.tc : Thread nD τ).loc main_arg0)) :=
  run_named m ρ _ (body_obligation_of m hsb)

/-- info: 'Cert.KernelIdeal.Halo.body_obligation_of' depends on axioms: [propext, Classical.choice, Quot.sound] -/
#guard_msgs in #print axioms body_obligation_of

/-- info: 'Cert.KernelIdeal.Halo.run_out' depends on axioms: [propext, Classical.choice, Quot.sound] -/
#guard_msgs in #print axioms run_out

end Cert.KernelIdeal.Halo

end
-- ==== Proof.HaloBody.lean ====
/-
  One device's body, run once for any device of the mesh.

  The body does the same things on every device, in this order; each device-dependent branch is taken with "if the device
  has a neighbour in that direction" kept inside what is held, so that one run serves all thirty-two devices.
  1. It copies the six boundary planes of its block into six planes of their own.
  2. It signals each neighbour's barrier cell, handing over with the signal its own halo plane on that side.
  3. It writes the stencil of its block, a neighbour beyond a face counting as zero, and zeroes the faces that lie on the
     outer faces of the whole array.
  4. It waits on its own barrier cell for as many units as it has neighbours: each neighbour's halo plane facing it comes
     with them. What it still owes then is only the credit of its six copies, owed to receive cells, which lie above its
     barrier cell.
  5. It copies each boundary plane into the neighbour's halo plane; it waits on its own receive cells, and each halo plane
     comes back holding the neighbour's boundary plane; it adds each on the face it belongs to; it waits on its send cells,
     and the boundary planes come back.
  6. Every own cell has then consumed its one round, or never had a duty: all twelve counters are at zero again.
  What is left in the output buffer is the chain of these stores, `outRaw` of the block and of the six planes that landed.
-/
import proofs.«900441_g7700000000000442_dist_halo3d_v7x_xyz2x4x4_s64_f32_1_alg».proof.Proof.HaloOblig

noncomputable section

namespace Cert.KernelIdeal.Halo

open Cert.KernelIdeal Cert.KernelIdeal.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

abbrev Bf (c : Dev nD) (b : Ref sig .tc) : Type := Buf (Elt F) ((c : Thread nD τ).loc b)
abbrev pt (c : Dev nD) (b : Ref sig .tc) (f : Bf (F := F) c b) : sProp 𝕄 :=
  (Memref.whole b : Memref sig .tc b.space b.ty.shape b.ty.elt).view.loc (c : Thread nD τ) ↦{fullShare} f

omit [FloatOps F] in
theorem stagePts_0 (c : Dev nD) (f : FVec F S1x64x64 .f32) :
    stagePts (F := F) c 0 f = ((Memref.whole cc0_scratch6 : Memref sig .tc .vmem S1x64x64 .f32).view.loc (c : Thread nD τ) ↦{fullShare} f) := rfl
omit [FloatOps F] in
theorem stagePts_1 (c : Dev nD) (f : FVec F S1x64x64 .f32) :
    stagePts (F := F) c 1 f = ((Memref.whole cc0_scratch7 : Memref sig .tc .vmem S1x64x64 .f32).view.loc (c : Thread nD τ) ↦{fullShare} f) := rfl
omit [FloatOps F] in
theorem stagePts_2 (c : Dev nD) (f : FVec F S1x64x64 .f32) :
    stagePts (F := F) c 2 f = ((Memref.whole cc0_scratch8 : Memref sig .tc .vmem S1x64x64 .f32).view.loc (c : Thread nD τ) ↦{fullShare} f) := rfl
omit [FloatOps F] in
theorem stagePts_3 (c : Dev nD) (f : FVec F S1x64x64 .f32) :
    stagePts (F := F) c 3 f = ((Memref.whole cc0_scratch9 : Memref sig .tc .vmem S1x64x64 .f32).view.loc (c : Thread nD τ) ↦{fullShare} f) := rfl
omit [FloatOps F] in
theorem stagePts_4 (c : Dev nD) (f : FVec F S1x64x64 .f32) :
    stagePts (F := F) c 4 f = ((Memref.whole cc0_scratch10 : Memref sig .tc .vmem S1x64x64 .f32).view.loc (c : Thread nD τ) ↦{fullShare} f) := rfl
omit [FloatOps F] in
theorem stagePts_5 (c : Dev nD) (f : FVec F S1x64x64 .f32) :
    stagePts (F := F) c 5 f = ((Memref.whole cc0_scratch11 : Memref sig .tc .vmem S1x64x64 .f32).view.loc (c : Thread nD τ) ↦{fullShare} f) := rfl

omit [FloatOps F] in
theorem hz3 : (![0, 0, 0] : Fin 3 → Nat) = fun _ => 0 := funext fun a => by fin_cases a <;> rfl

omit [FloatOps F] in
/-- A full write through the whole rectangle of boundary plane 0 leaves the written vector; so a plane held at such a
    write is held at the vector. -/
theorem stage_writes_0 (f w : FVec F S1x64x64 .f32) :
    (Memref.whole cc0_scratch6 : Memref sig .tc .vmem S1x64x64 .f32).view.writes (Elt F) f
      [⟨Rect.unit (s := S1x64x64) ![0, 0, 0] S1x64x64.size inb_S1x64x64_S1x64x64_0_0_0, w⟩] = w :=
  by
  show ((Memref.whole cc0_scratch6 : Memref sig .tc .vmem S1x64x64 .f32).access
      (Rect.unit (s := S1x64x64) ![0, 0, 0] S1x64x64.size inb_S1x64x64_S1x64x64_0_0_0) : View sig .tc _ _ _).write (Elt F) f w Finset.univ = w
  exact Memref.write_access_unit_zero_univ (Elt F) cc0_scratch6 hz3 _ f w
omit [FloatOps F] in
theorem stage_conv_0 (c : Dev nD) (f : FVec F S1x64x64 .f32) (L : List (View.Piece (Elt F) S1x64x64 .f32)) (w : FVec F S1x64x64 .f32)
    (h : (Memref.whole cc0_scratch6 : Memref sig .tc .vmem S1x64x64 .f32).view.writes (Elt F) f L = w) :
    ((Memref.whole cc0_scratch6 : Memref sig .tc .vmem S1x64x64 .f32).view.loc (c : Thread nD τ)
        ↦{fullShare} (Memref.whole cc0_scratch6 : Memref sig .tc .vmem S1x64x64 .f32).view.writes (Elt F) f L : sProp 𝕄)
      ⊢ stagePts (F := F) c 0 w := by
  rw [h]; exact Entails.of_eq (stagePts_0 c w).symm
omit [FloatOps F] in
/-- A full write through the whole rectangle of boundary plane 1 leaves the written vector; so a plane held at such a
    write is held at the vector. -/
theorem stage_writes_1 (f w : FVec F S1x64x64 .f32) :
    (Memref.whole cc0_scratch7 : Memref sig .tc .vmem S1x64x64 .f32).view.writes (Elt F) f
      [⟨Rect.unit (s := S1x64x64) ![0, 0, 0] S1x64x64.size inb_S1x64x64_S1x64x64_0_0_0, w⟩] = w :=
  by
  show ((Memref.whole cc0_scratch7 : Memref sig .tc .vmem S1x64x64 .f32).access
      (Rect.unit (s := S1x64x64) ![0, 0, 0] S1x64x64.size inb_S1x64x64_S1x64x64_0_0_0) : View sig .tc _ _ _).write (Elt F) f w Finset.univ = w
  exact Memref.write_access_unit_zero_univ (Elt F) cc0_scratch7 hz3 _ f w
omit [FloatOps F] in
theorem stage_conv_1 (c : Dev nD) (f : FVec F S1x64x64 .f32) (L : List (View.Piece (Elt F) S1x64x64 .f32)) (w : FVec F S1x64x64 .f32)
    (h : (Memref.whole cc0_scratch7 : Memref sig .tc .vmem S1x64x64 .f32).view.writes (Elt F) f L = w) :
    ((Memref.whole cc0_scratch7 : Memref sig .tc .vmem S1x64x64 .f32).view.loc (c : Thread nD τ)
        ↦{fullShare} (Memref.whole cc0_scratch7 : Memref sig .tc .vmem S1x64x64 .f32).view.writes (Elt F) f L : sProp 𝕄)
      ⊢ stagePts (F := F) c 1 w := by
  rw [h]; exact Entails.of_eq (stagePts_1 c w).symm
omit [FloatOps F] in
/-- A full write through the whole rectangle of boundary plane 2 leaves the written vector; so a plane held at such a
    write is held at the vector. -/
theorem stage_writes_2 (f w : FVec F S1x64x64 .f32) :
    (Memref.whole cc0_scratch8 : Memref sig .tc .vmem S1x64x64 .f32).view.writes (Elt F) f
      [⟨Rect.unit (s := S1x64x64) ![0, 0, 0] S1x64x64.size inb_S1x64x64_S1x64x64_0_0_0, w⟩] = w :=
  by
  show ((Memref.whole cc0_scratch8 : Memref sig .tc .vmem S1x64x64 .f32).access
      (Rect.unit (s := S1x64x64) ![0, 0, 0] S1x64x64.size inb_S1x64x64_S1x64x64_0_0_0) : View sig .tc _ _ _).write (Elt F) f w Finset.univ = w
  exact Memref.write_access_unit_zero_univ (Elt F) cc0_scratch8 hz3 _ f w
omit [FloatOps F] in
theorem stage_conv_2 (c : Dev nD) (f : FVec F S1x64x64 .f32) (L : List (View.Piece (Elt F) S1x64x64 .f32)) (w : FVec F S1x64x64 .f32)
    (h : (Memref.whole cc0_scratch8 : Memref sig .tc .vmem S1x64x64 .f32).view.writes (Elt F) f L = w) :
    ((Memref.whole cc0_scratch8 : Memref sig .tc .vmem S1x64x64 .f32).view.loc (c : Thread nD τ)
        ↦{fullShare} (Memref.whole cc0_scratch8 : Memref sig .tc .vmem S1x64x64 .f32).view.writes (Elt F) f L : sProp 𝕄)
      ⊢ stagePts (F := F) c 2 w := by
  rw [h]; exact Entails.of_eq (stagePts_2 c w).symm
omit [FloatOps F] in
/-- A full write through the whole rectangle of boundary plane 3 leaves the written vector; so a plane held at such a
    write is held at the vector. -/
theorem stage_writes_3 (f w : FVec F S1x64x64 .f32) :
    (Memref.whole cc0_scratch9 : Memref sig .tc .vmem S1x64x64 .f32).view.writes (Elt F) f
      [⟨Rect.unit (s := S1x64x64) ![0, 0, 0] S1x64x64.size inb_S1x64x64_S1x64x64_0_0_0, w⟩] = w :=
  by
  show ((Memref.whole cc0_scratch9 : Memref sig .tc .vmem S1x64x64 .f32).access
      (Rect.unit (s := S1x64x64) ![0, 0, 0] S1x64x64.size inb_S1x64x64_S1x64x64_0_0_0) : View sig .tc _ _ _).write (Elt F) f w Finset.univ = w
  exact Memref.write_access_unit_zero_univ (Elt F) cc0_scratch9 hz3 _ f w
omit [FloatOps F] in
theorem stage_conv_3 (c : Dev nD) (f : FVec F S1x64x64 .f32) (L : List (View.Piece (Elt F) S1x64x64 .f32)) (w : FVec F S1x64x64 .f32)
    (h : (Memref.whole cc0_scratch9 : Memref sig .tc .vmem S1x64x64 .f32).view.writes (Elt F) f L = w) :
    ((Memref.whole cc0_scratch9 : Memref sig .tc .vmem S1x64x64 .f32).view.loc (c : Thread nD τ)
        ↦{fullShare} (Memref.whole cc0_scratch9 : Memref sig .tc .vmem S1x64x64 .f32).view.writes (Elt F) f L : sProp 𝕄)
      ⊢ stagePts (F := F) c 3 w := by
  rw [h]; exact Entails.of_eq (stagePts_3 c w).symm
omit [FloatOps F] in
/-- A full write through the whole rectangle of boundary plane 4 leaves the written vector; so a plane held at such a
    write is held at the vector. -/
theorem stage_writes_4 (f w : FVec F S1x64x64 .f32) :
    (Memref.whole cc0_scratch10 : Memref sig .tc .vmem S1x64x64 .f32).view.writes (Elt F) f
      [⟨Rect.unit (s := S1x64x64) ![0, 0, 0] S1x64x64.size inb_S1x64x64_S1x64x64_0_0_0, w⟩] = w :=
  by
  show ((Memref.whole cc0_scratch10 : Memref sig .tc .vmem S1x64x64 .f32).access
      (Rect.unit (s := S1x64x64) ![0, 0, 0] S1x64x64.size inb_S1x64x64_S1x64x64_0_0_0) : View sig .tc _ _ _).write (Elt F) f w Finset.univ = w
  exact Memref.write_access_unit_zero_univ (Elt F) cc0_scratch10 hz3 _ f w
omit [FloatOps F] in
theorem stage_conv_4 (c : Dev nD) (f : FVec F S1x64x64 .f32) (L : List (View.Piece (Elt F) S1x64x64 .f32)) (w : FVec F S1x64x64 .f32)
    (h : (Memref.whole cc0_scratch10 : Memref sig .tc .vmem S1x64x64 .f32).view.writes (Elt F) f L = w) :
    ((Memref.whole cc0_scratch10 : Memref sig .tc .vmem S1x64x64 .f32).view.loc (c : Thread nD τ)
        ↦{fullShare} (Memref.whole cc0_scratch10 : Memref sig .tc .vmem S1x64x64 .f32).view.writes (Elt F) f L : sProp 𝕄)
      ⊢ stagePts (F := F) c 4 w := by
  rw [h]; exact Entails.of_eq (stagePts_4 c w).symm
omit [FloatOps F] in
/-- A full write through the whole rectangle of boundary plane 5 leaves the written vector; so a plane held at such a
    write is held at the vector. -/
theorem stage_writes_5 (f w : FVec F S1x64x64 .f32) :
    (Memref.whole cc0_scratch11 : Memref sig .tc .vmem S1x64x64 .f32).view.writes (Elt F) f
      [⟨Rect.unit (s := S1x64x64) ![0, 0, 0] S1x64x64.size inb_S1x64x64_S1x64x64_0_0_0, w⟩] = w :=
  by
  show ((Memref.whole cc0_scratch11 : Memref sig .tc .vmem S1x64x64 .f32).access
      (Rect.unit (s := S1x64x64) ![0, 0, 0] S1x64x64.size inb_S1x64x64_S1x64x64_0_0_0) : View sig .tc _ _ _).write (Elt F) f w Finset.univ = w
  exact Memref.write_access_unit_zero_univ (Elt F) cc0_scratch11 hz3 _ f w
omit [FloatOps F] in
theorem stage_conv_5 (c : Dev nD) (f : FVec F S1x64x64 .f32) (L : List (View.Piece (Elt F) S1x64x64 .f32)) (w : FVec F S1x64x64 .f32)
    (h : (Memref.whole cc0_scratch11 : Memref sig .tc .vmem S1x64x64 .f32).view.writes (Elt F) f L = w) :
    ((Memref.whole cc0_scratch11 : Memref sig .tc .vmem S1x64x64 .f32).view.loc (c : Thread nD τ)
        ↦{fullShare} (Memref.whole cc0_scratch11 : Memref sig .tc .vmem S1x64x64 .f32).view.writes (Elt F) f L : sProp 𝕄)
      ⊢ stagePts (F := F) c 5 w := by
  rw [h]; exact Entails.of_eq (stagePts_5 c w).symm

omit [FloatOps F] in
/-- Every halo plane and every boundary plane carries the same credit. -/
theorem halo_credit (d : Fin 6) : (haloM d : Memref sig .tc .vmem S1x64x64 .f32).view.dmaCredit = N := by fin_cases d <;> rfl
omit [FloatOps F] in
theorem stage_credit (d : Fin 6) : (stageM d : Memref sig .tc .vmem S1x64x64 .f32).view.dmaCredit = N := by fin_cases d <;> rfl

omit [FloatOps F] in
/-- A halo plane that came back holding a neighbour's plane, or that was never given away, is held at something. -/
theorem halo_back (c : Dev nD) (d : Fin 6) (v : FVec F S1x64x64 .f32) :
    iprop(onDir c d (haloPts c d v) ∗ offDir c d iprop(∃ f, haloPts (F := F) c d f)) ⊢ iprop(∃ f, haloPts (F := F) c d f) :=
  (sep_mono_left (onDir_mono c d (by iintro H; iexists v; iexact H))).trans (halo_merge c d)
omit [FloatOps F] in
/-- The same for a boundary plane: back from its send wait, or never sent. -/
theorem stage_back (c : Dev nD) (d : Fin 6) (v : FVec F S1x64x64 .f32) :
    iprop(onDir c d iprop(∃ f, stagePts (F := F) c d f) ∗ offDir c d (stagePts c d v)) ⊢ iprop(∃ f, stagePts (F := F) c d f) :=
  (sep_mono_right (offDir_mono c d (by iintro H; iexists v; iexact H))).trans (stage_merge c d)

omit [FloatOps F] in
/-- A full write through the whole rectangle of the output block leaves the written block. -/
theorem block_writes (f w : BlockC F) :
    (Memref.whole cc0_stg1_0 : Memref sig .tc .vmem S64x64x64 .f32).view.writes (Elt F) f
      [⟨Rect.unit (s := S64x64x64) ![0, 0, 0] S64x64x64.size inb_S64x64x64_S64x64x64_0_0_0, w⟩] = w := by
  show ((Memref.whole cc0_stg1_0 : Memref sig .tc .vmem S64x64x64 .f32).access
      (Rect.unit (s := S64x64x64) ![0, 0, 0] S64x64x64.size inb_S64x64x64_S64x64x64_0_0_0) : View sig .tc _ _ _).write (Elt F) f w Finset.univ = w
  exact Memref.write_access_unit_zero_univ (Elt F) cc0_stg1_0 hz3 _ f w
omit [FloatOps F] in
/-- The output block held at contents equal to others is held at those. -/
theorem block_conv (c : Dev nD) (o o' : BlockC F) (h : o = o') : blockPts (F := F) c o ⊢ blockPts (F := F) c o' := by
  rw [h]

theorem hbit0 : ∀ c : Dev nD, bitSet (Scalar.cmpi .sgt (cw2 c) 0#32) ↔ has 0 c = true := by decide +kernel
theorem hbit1 : ∀ c : Dev nD, bitSet (Scalar.cmpi .slt (cw2 c) 1#32) ↔ has 1 c = true := by decide +kernel
theorem hbit2 : ∀ c : Dev nD, bitSet (Scalar.cmpi .sgt (cw5 c) 0#32) ↔ has 2 c = true := by decide +kernel
theorem hbit3 : ∀ c : Dev nD, bitSet (Scalar.cmpi .slt (cw5 c) 3#32) ↔ has 3 c = true := by decide +kernel
theorem hbit4 : ∀ c : Dev nD, bitSet (Scalar.cmpi .sgt (cw8 c) 0#32) ↔ has 4 c = true := by decide +kernel
theorem hbit5 : ∀ c : Dev nD, bitSet (Scalar.cmpi .slt (cw8 c) 3#32) ↔ has 5 c = true := by decide +kernel

set_option maxHeartbeats 16000000 in
/-- One device's body, for any device of the mesh: from what a device starts with (its cells' invariants and round-0
    marks, its positions and the tokens of the neighbours it has, its launch credit, the twelve scratch planes, what it
    owes, its input block staged and the output staging buffer at anything) the body runs to its return, where the
    scratch planes are held again, the twelve own semaphores are back at zero, nothing is owed, the input block is as
    it was and the output staging buffer holds `outRaw` of the block and of the six planes that landed. -/
theorem sound_body : SoundBody m := by
  intro K c Kt W fo
  unfold pers scratch ownZero
  rw [show O₀ c = Osnd c + sigOwe c 5 + sigOwe c 4 + sigOwe c 3 + sigOwe c 2 + sigOwe c 1 + sigOwe c 0 from rfl]
  unfold sep6
  unfold persDir linDir credDir
  iintro ⟨⟨#HIb, ⟨#HIbn0, #HIrn0, #HIs0, #HIr0, #Rbn0, #Rrn0, #Rs0, #Rr0⟩, ⟨#HIbn1, #HIrn1, #HIs1, #HIr1, #Rbn1, #Rrn1, #Rs1, #Rr1⟩, ⟨#HIbn2, #HIrn2, #HIs2, #HIr2, #Rbn2, #Rrn2, #Rs2, #Rr2⟩, ⟨#HIbn3, #HIrn3, #HIs3, #HIr3, #Rbn3, #Rrn3, #Rs3, #Rr3⟩, ⟨#HIbn4, #HIrn4, #HIs4, #HIr4, #Rbn4, #Rrn4, #Rs4, #Rr4⟩, ⟨#HIbn5, #HIrn5, #HIs5, #HIr5, #Rbn5, #Rrn5, #Rs5, #Rr5⟩⟩, Hatb,
    ⟨⟨Tb0, Tr0, Ts0, As0, Ar0⟩, ⟨Tb1, Tr1, Ts1, As1, Ar1⟩, ⟨Tb2, Tr2, Ts2, As2, Ar2⟩, ⟨Tb3, Tr3, Ts3, As3, Ar3⟩, ⟨Tb4, Tr4, Ts4, As4, Ar4⟩, ⟨Tb5, Tr5, Ts5, As5, Ar5⟩⟩, Hcb, ⟨Cr0, Cr1, Cr2, Cr3, Cr4, Cr5⟩, #Hlev,
    ⟨⟨⟨%h0, Hh0⟩, ⟨%h1, Hh1⟩, ⟨%h2, Hh2⟩, ⟨%h3, Hh3⟩, ⟨%h4, Hh4⟩, ⟨%h5, Hh5⟩⟩, ⟨⟨%s0, Hs0⟩, ⟨%s1, Hs1⟩, ⟨%s2, Hs2⟩, ⟨%s3, Hs3⟩, ⟨%s4, Hs4⟩, ⟨%s5, Hs5⟩⟩⟩, HO, Hx, Ho, Hk⟩
  ihave Hs0 := (Entails.of_eq (stagePts_0 (F := F) c s0)) $$ Hs0
  ihave Hs1 := (Entails.of_eq (stagePts_1 (F := F) c s1)) $$ Hs1
  ihave Hs2 := (Entails.of_eq (stagePts_2 (F := F) c s2)) $$ Hs2
  ihave Hs3 := (Entails.of_eq (stagePts_3 (F := F) c s3)) $$ Hs3
  ihave Hs4 := (Entails.of_eq (stagePts_4 (F := F) c s4)) $$ Hs4
  ihave Hs5 := (Entails.of_eq (stagePts_5 (F := F) c s5)) $$ Hs5
  sl_exec_parts (disch := decide)
  iapply (wp_sig_g m c 0 (cond1_iff c) (fun h => ⟨k0_dev1 c, k0_dev1_lt c h⟩) (fun h => dev1_eq c h) _ _ _ (fun h => rfl) rfl (K (nbr 0 c, kBar)) _ W)
  isplitr; · iexact HIbn0
  isplitr; · iexact Rr0
  isplitr; · iexact Rbn0
  isplitl [HO]; · iexact HO
  isplitl [Tb0]; · iexact Tb0
  isplitl [Hh0]; · iexists h0; iexact Hh0
  iintro ⟨HO, Hh0⟩
  sl_exec_parts (disch := decide)
  iapply (wp_sig_g m c 1 (cond2_iff c) (fun h => ⟨k0_dev2 c, k0_dev2_lt c h⟩) (fun h => dev2_eq c h) _ _ _ (fun h => rfl) rfl (K (nbr 1 c, kBar)) _ W)
  isplitr; · iexact HIbn1
  isplitr; · iexact Rr1
  isplitr; · iexact Rbn1
  isplitl [HO]; · iexact HO
  isplitl [Tb1]; · iexact Tb1
  isplitl [Hh1]; · iexists h1; iexact Hh1
  iintro ⟨HO, Hh1⟩
  sl_exec_parts (disch := decide)
  iapply (wp_sig_g m c 2 (cond3_iff c) (fun h => ⟨k0_dev3 c, k0_dev3_lt c h⟩) (fun h => dev3_eq c h) _ _ _ (fun h => rfl) rfl (K (nbr 2 c, kBar)) _ W)
  isplitr; · iexact HIbn2
  isplitr; · iexact Rr2
  isplitr; · iexact Rbn2
  isplitl [HO]; · iexact HO
  isplitl [Tb2]; · iexact Tb2
  isplitl [Hh2]; · iexists h2; iexact Hh2
  iintro ⟨HO, Hh2⟩
  sl_exec_parts (disch := decide)
  iapply (wp_sig_g m c 3 (cond4_iff c) (fun h => ⟨k0_dev4 c, k0_dev4_lt c h⟩) (fun h => dev4_eq c h) _ _ _ (fun h => rfl) rfl (K (nbr 3 c, kBar)) _ W)
  isplitr; · iexact HIbn3
  isplitr; · iexact Rr3
  isplitr; · iexact Rbn3
  isplitl [HO]; · iexact HO
  isplitl [Tb3]; · iexact Tb3
  isplitl [Hh3]; · iexists h3; iexact Hh3
  iintro ⟨HO, Hh3⟩
  sl_exec_parts (disch := decide)
  iapply (wp_sig_g m c 4 (cond5_iff c) (fun h => ⟨k0_dev5 c, k0_dev5_lt c h⟩) (fun h => dev5_eq c h) _ _ _ (fun h => rfl) rfl (K (nbr 4 c, kBar)) _ W)
  isplitr; · iexact HIbn4
  isplitr; · iexact Rr4
  isplitr; · iexact Rbn4
  isplitl [HO]; · iexact HO
  isplitl [Tb4]; · iexact Tb4
  isplitl [Hh4]; · iexists h4; iexact Hh4
  iintro ⟨HO, Hh4⟩
  sl_exec_parts (disch := decide)
  iapply (wp_sig_g m c 5 (cond6_iff c) (fun h => ⟨k0_dev6 c, k0_dev6_lt c h⟩) (fun h => dev6_eq c h) _ _ _ (fun h => rfl) rfl (K (nbr 5 c, kBar)) _ W)
  isplitr; · iexact HIbn5
  isplitr; · iexact Rr5
  isplitr; · iexact Rbn5
  isplitl [HO]; · iexact HO
  isplitl [Tb5]; · iexact Tb5
  isplitl [Hh5]; · iexists h5; iexact Hh5
  iintro ⟨HO, Hh5⟩
  set_option sl_exec.stopBefore "v98" in sl_exec_parts (disch := decide)
  ihave Ho := (block_conv c _ (outRaw0 (xstg m c)) (block_writes fo _)) $$ [Ho]
  · iexact Ho
  iapply (wp_zero_face c rX0 (k0_pay14 (F := F)) _ _ _ (fun h => rfl) rfl _)
  isplitl [Ho]; · iexact Ho
  iintro Ho
  ihave Ho := (block_conv c _ (outRaw1 c (xstg m c)) rfl) $$ [Ho]
  · iexact Ho
  set_option sl_exec.stopBefore "v101" in sl_exec_parts (disch := decide)
  iapply (wp_zero_face c rX63 (k0_pay15 (F := F)) _ _ _ (fun h => rfl) rfl _)
  isplitl [Ho]; · iexact Ho
  iintro Ho
  ihave Ho := (block_conv c _ (outRaw2 c (xstg m c)) rfl) $$ [Ho]
  · iexact Ho
  set_option sl_exec.stopBefore "v104" in sl_exec_parts (disch := decide)
  iapply (wp_zero_face c rY0 (k0_pay16 (F := F)) _ _ _ (fun h => rfl) rfl _)
  isplitl [Ho]; · iexact Ho
  iintro Ho
  ihave Ho := (block_conv c _ (outRaw3 c (xstg m c)) rfl) $$ [Ho]
  · iexact Ho
  set_option sl_exec.stopBefore "v107" in sl_exec_parts (disch := decide)
  iapply (wp_zero_face c rY63 (k0_pay17 (F := F)) _ _ _ (fun h => rfl) rfl _)
  isplitl [Ho]; · iexact Ho
  iintro Ho
  ihave Ho := (block_conv c _ (outRaw4 c (xstg m c)) rfl) $$ [Ho]
  · iexact Ho
  set_option sl_exec.stopBefore "v110" in sl_exec_parts (disch := decide)
  iapply (wp_zero_face c rZ0 (k0_pay18 (F := F)) _ _ _ (fun h => rfl) rfl _)
  isplitl [Ho]; · iexact Ho
  iintro Ho
  ihave Ho := (block_conv c _ (outRaw5 c (xstg m c)) rfl) $$ [Ho]
  · iexact Ho
  set_option sl_exec.stopBefore "v113" in sl_exec_parts (disch := decide)
  iapply (wp_zero_face c rZ63 (k0_pay19 (F := F)) _ _ _ (fun h => rfl) rfl _)
  isplitl [Ho]; · iexact Ho
  iintro Ho
  ihave Ho := (block_conv c _ (outRaw6 c (xstg m c)) rfl) $$ [Ho]
  · iexact Ho
  sl_exec_parts (disch := decide)
  iapply (wp_wbar_g m c (mayWait_bar c) (amt1_eq c) (K (c, kBar)) W) $$ [Hcb HO Hatb]
  · isplitr; · iexact HIb
    isplitl [Hcb]; · iexact Hcb
    isplitl [HO]; · iexact HO
    isplitr; · iexact Hlev
    iexact Hatb
  iintro ⟨HO, Hatb, ⟨Pn0, Pn1, Pn2, Pn3, Pn4, Pn5⟩⟩
  rw [show Osnd c = 0 + sndOwe c 5 + sndOwe c 4 + sndOwe c 3 + sndOwe c 2 + sndOwe c 1 + sndOwe c 0 from rfl]
  sl_exec_parts (disch := decide)
  iapply (wp_snd_g m c 0 (cond13_iff c) (fun h => ⟨k0_dev7 c, k0_dev7_lt c h⟩) (fun h => dev7_eq c h) _ _ rfl rfl _ _ rfl rfl _ _ _ _ _ _ _ (fun h => rfl) rfl (K (c, kSend 0)) (K (nbr 0 c, kRecv (opp 0))) _ _)
  isplitr; · iexact HIs0
  isplitr; · iexact HIrn0
  isplitr; · iexact Rs0
  isplitr; · iexact Rrn0
  isplitl [HO]; · iexact HO
  isplitl [Ts0]; · iexact Ts0
  isplitl [Tr0]; · iexact Tr0
  isplitl [Pn0]; · iexact Pn0
  isplitl [Hs0]; · iapply (stage_conv_0 c _ _ _ (stage_writes_0 _ _)); iexact Hs0
  iintro ⟨HO, Cs0, Hs0⟩
  sl_exec_parts (disch := decide)
  iapply (wp_snd_g m c 1 (cond14_iff c) (fun h => ⟨k0_dev8 c, k0_dev8_lt c h⟩) (fun h => dev8_eq c h) _ _ rfl rfl _ _ rfl rfl _ _ _ _ _ _ _ (fun h => rfl) rfl (K (c, kSend 1)) (K (nbr 1 c, kRecv (opp 1))) _ _)
  isplitr; · iexact HIs1
  isplitr; · iexact HIrn1
  isplitr; · iexact Rs1
  isplitr; · iexact Rrn1
  isplitl [HO]; · iexact HO
  isplitl [Ts1]; · iexact Ts1
  isplitl [Tr1]; · iexact Tr1
  isplitl [Pn1]; · iexact Pn1
  isplitl [Hs1]; · iapply (stage_conv_1 c _ _ _ (stage_writes_1 _ _)); iexact Hs1
  iintro ⟨HO, Cs1, Hs1⟩
  sl_exec_parts (disch := decide)
  iapply (wp_snd_g m c 2 (cond15_iff c) (fun h => ⟨k0_dev9 c, k0_dev9_lt c h⟩) (fun h => dev9_eq c h) _ _ rfl rfl _ _ rfl rfl _ _ _ _ _ _ _ (fun h => rfl) rfl (K (c, kSend 2)) (K (nbr 2 c, kRecv (opp 2))) _ _)
  isplitr; · iexact HIs2
  isplitr; · iexact HIrn2
  isplitr; · iexact Rs2
  isplitr; · iexact Rrn2
  isplitl [HO]; · iexact HO
  isplitl [Ts2]; · iexact Ts2
  isplitl [Tr2]; · iexact Tr2
  isplitl [Pn2]; · iexact Pn2
  isplitl [Hs2]; · iapply (stage_conv_2 c _ _ _ (stage_writes_2 _ _)); iexact Hs2
  iintro ⟨HO, Cs2, Hs2⟩
  sl_exec_parts (disch := decide)
  iapply (wp_snd_g m c 3 (cond16_iff c) (fun h => ⟨k0_dev10 c, k0_dev10_lt c h⟩) (fun h => dev10_eq c h) _ _ rfl rfl _ _ rfl rfl _ _ _ _ _ _ _ (fun h => rfl) rfl (K (c, kSend 3)) (K (nbr 3 c, kRecv (opp 3))) _ _)
  isplitr; · iexact HIs3
  isplitr; · iexact HIrn3
  isplitr; · iexact Rs3
  isplitr; · iexact Rrn3
  isplitl [HO]; · iexact HO
  isplitl [Ts3]; · iexact Ts3
  isplitl [Tr3]; · iexact Tr3
  isplitl [Pn3]; · iexact Pn3
  isplitl [Hs3]; · iapply (stage_conv_3 c _ _ _ (stage_writes_3 _ _)); iexact Hs3
  iintro ⟨HO, Cs3, Hs3⟩
  sl_exec_parts (disch := decide)
  iapply (wp_snd_g m c 4 (cond17_iff c) (fun h => ⟨k0_dev11 c, k0_dev11_lt c h⟩) (fun h => dev11_eq c h) _ _ rfl rfl _ _ rfl rfl _ _ _ _ _ _ _ (fun h => rfl) rfl (K (c, kSend 4)) (K (nbr 4 c, kRecv (opp 4))) _ _)
  isplitr; · iexact HIs4
  isplitr; · iexact HIrn4
  isplitr; · iexact Rs4
  isplitr; · iexact Rrn4
  isplitl [HO]; · iexact HO
  isplitl [Ts4]; · iexact Ts4
  isplitl [Tr4]; · iexact Tr4
  isplitl [Pn4]; · iexact Pn4
  isplitl [Hs4]; · iapply (stage_conv_4 c _ _ _ (stage_writes_4 _ _)); iexact Hs4
  iintro ⟨HO, Cs4, Hs4⟩
  sl_exec_parts (disch := decide)
  iapply (wp_snd_g m c 5 (cond18_iff c) (fun h => ⟨k0_dev12 c, k0_dev12_lt c h⟩) (fun h => dev12_eq c h) _ _ rfl rfl _ _ rfl rfl _ _ _ _ _ _ _ (fun h => rfl) rfl (K (c, kSend 5)) (K (nbr 5 c, kRecv (opp 5))) _ _)
  isplitr; · iexact HIs5
  isplitr; · iexact HIrn5
  isplitr; · iexact Rs5
  isplitr; · iexact Rrn5
  isplitl [HO]; · iexact HO
  isplitl [Ts5]; · iexact Ts5
  isplitl [Tr5]; · iexact Tr5
  isplitl [Pn5]; · iexact Pn5
  isplitl [Hs5]; · iapply (stage_conv_5 c _ _ _ (stage_writes_5 _ _)); iexact Hs5
  iintro ⟨HO, Cs5, Hs5⟩
  sl_exec_parts (disch := decide)
  iapply (wp_wrecv_g m c 0 (hbit0 c) (Memref.whole cc0_scratch6) (Memref.whole cc0_scratch0) _ _ _ rfl (halo_credit 0) _ _ _ (fun h => rfl) rfl (K (c, kRecv 0)) _)
  isplitr; · iexact HIr0
  isplitl [Cr0]; · iexact Cr0
  isplitl [HO]; · iexact HO
  isplitl [Ar0]; · iexact Ar0
  iintro ⟨HO, Ar0, Hl0⟩
  sl_exec_parts (disch := decide)
  iapply (wp_wrecv_g m c 1 (hbit1 c) (Memref.whole cc0_scratch7) (Memref.whole cc0_scratch1) _ _ _ rfl (halo_credit 1) _ _ _ (fun h => rfl) rfl (K (c, kRecv 1)) _)
  isplitr; · iexact HIr1
  isplitl [Cr1]; · iexact Cr1
  isplitl [HO]; · iexact HO
  isplitl [Ar1]; · iexact Ar1
  iintro ⟨HO, Ar1, Hl1⟩
  sl_exec_parts (disch := decide)
  iapply (wp_wrecv_g m c 2 (hbit2 c) (Memref.whole cc0_scratch8) (Memref.whole cc0_scratch2) _ _ _ rfl (halo_credit 2) _ _ _ (fun h => rfl) rfl (K (c, kRecv 2)) _)
  isplitr; · iexact HIr2
  isplitl [Cr2]; · iexact Cr2
  isplitl [HO]; · iexact HO
  isplitl [Ar2]; · iexact Ar2
  iintro ⟨HO, Ar2, Hl2⟩
  sl_exec_parts (disch := decide)
  iapply (wp_wrecv_g m c 3 (hbit3 c) (Memref.whole cc0_scratch9) (Memref.whole cc0_scratch3) _ _ _ rfl (halo_credit 3) _ _ _ (fun h => rfl) rfl (K (c, kRecv 3)) _)
  isplitr; · iexact HIr3
  isplitl [Cr3]; · iexact Cr3
  isplitl [HO]; · iexact HO
  isplitl [Ar3]; · iexact Ar3
  iintro ⟨HO, Ar3, Hl3⟩
  sl_exec_parts (disch := decide)
  iapply (wp_wrecv_g m c 4 (hbit4 c) (Memref.whole cc0_scratch10) (Memref.whole cc0_scratch4) _ _ _ rfl (halo_credit 4) _ _ _ (fun h => rfl) rfl (K (c, kRecv 4)) _)
  isplitr; · iexact HIr4
  isplitl [Cr4]; · iexact Cr4
  isplitl [HO]; · iexact HO
  isplitl [Ar4]; · iexact Ar4
  iintro ⟨HO, Ar4, Hl4⟩
  sl_exec_parts (disch := decide)
  iapply (wp_wrecv_g m c 5 (hbit5 c) (Memref.whole cc0_scratch11) (Memref.whole cc0_scratch5) _ _ _ rfl (halo_credit 5) _ _ _ (fun h => rfl) rfl (K (c, kRecv 5)) _)
  isplitr; · iexact HIr5
  isplitl [Cr5]; · iexact Cr5
  isplitl [HO]; · iexact HO
  isplitl [Ar5]; · iexact Ar5
  iintro ⟨HO, Ar5, Hl5⟩
  sl_exec_parts (disch := decide)
  iapply (wp_add_face c 0 (hbit0 c) rX0 (haloM 0) rfl _ _ _ _ (fun h => rfl) rfl _ _)
  isplitl [Ho]; · iexact Ho
  isplitl [Hl0]; · iexact Hl0
  iintro ⟨Ho, Hl0⟩
  ihave Ho := (block_conv c _ (outRaw7 c (xstg m c) (landed m c)) rfl) $$ [Ho]
  · iexact Ho
  sl_exec_parts (disch := decide)
  iapply (wp_add_face c 1 (hbit1 c) rX63 (haloM 1) rfl _ _ _ _ (fun h => rfl) rfl _ _)
  isplitl [Ho]; · iexact Ho
  isplitl [Hl1]; · iexact Hl1
  iintro ⟨Ho, Hl1⟩
  ihave Ho := (block_conv c _ (outRaw8 c (xstg m c) (landed m c)) rfl) $$ [Ho]
  · iexact Ho
  sl_exec_parts (disch := decide)
  iapply (wp_add_face c 2 (hbit2 c) rY0 (haloM 2) rfl _ _ _ _ (fun h => rfl) rfl _ _)
  isplitl [Ho]; · iexact Ho
  isplitl [Hl2]; · iexact Hl2
  iintro ⟨Ho, Hl2⟩
  ihave Ho := (block_conv c _ (outRaw9 c (xstg m c) (landed m c)) rfl) $$ [Ho]
  · iexact Ho
  sl_exec_parts (disch := decide)
  iapply (wp_add_face c 3 (hbit3 c) rY63 (haloM 3) rfl _ _ _ _ (fun h => rfl) rfl _ _)
  isplitl [Ho]; · iexact Ho
  isplitl [Hl3]; · iexact Hl3
  iintro ⟨Ho, Hl3⟩
  ihave Ho := (block_conv c _ (outRaw10 c (xstg m c) (landed m c)) rfl) $$ [Ho]
  · iexact Ho
  sl_exec_parts (disch := decide)
  iapply (wp_add_face c 4 (hbit4 c) rZ0 (haloM 4) rfl _ _ _ _ (fun h => rfl) rfl _ _)
  isplitl [Ho]; · iexact Ho
  isplitl [Hl4]; · iexact Hl4
  iintro ⟨Ho, Hl4⟩
  ihave Ho := (block_conv c _ (outRaw11 c (xstg m c) (landed m c)) rfl) $$ [Ho]
  · iexact Ho
  sl_exec_parts (disch := decide)
  iapply (wp_add_face c 5 (hbit5 c) rZ63 (haloM 5) rfl _ _ _ _ (fun h => rfl) rfl _ _)
  isplitl [Ho]; · iexact Ho
  isplitl [Hl5]; · iexact Hl5
  iintro ⟨Ho, Hl5⟩
  ihave Ho := (block_conv c _ (outRaw12 c (xstg m c) (landed m c)) rfl) $$ [Ho]
  · iexact Ho
  sl_exec_parts (disch := decide)
  iapply (wp_wsend_g m c 0 (hbit0 c) (Memref.whole cc0_scratch1) (Memref.whole cc0_scratch6) _ _ _ rfl (stage_credit 0) _ _ _ (fun h => rfl) rfl (K (c, kSend 0)) _)
  isplitr; · iexact HIs0
  isplitl [Cs0]; · iexact Cs0
  isplitl [HO]; · iexact HO
  isplitl [As0]; · iexact As0
  iintro ⟨HO, As0, Hw0⟩
  sl_exec_parts (disch := decide)
  iapply (wp_wsend_g m c 1 (hbit1 c) (Memref.whole cc0_scratch0) (Memref.whole cc0_scratch7) _ _ _ rfl (stage_credit 1) _ _ _ (fun h => rfl) rfl (K (c, kSend 1)) _)
  isplitr; · iexact HIs1
  isplitl [Cs1]; · iexact Cs1
  isplitl [HO]; · iexact HO
  isplitl [As1]; · iexact As1
  iintro ⟨HO, As1, Hw1⟩
  sl_exec_parts (disch := decide)
  iapply (wp_wsend_g m c 2 (hbit2 c) (Memref.whole cc0_scratch3) (Memref.whole cc0_scratch8) _ _ _ rfl (stage_credit 2) _ _ _ (fun h => rfl) rfl (K (c, kSend 2)) _)
  isplitr; · iexact HIs2
  isplitl [Cs2]; · iexact Cs2
  isplitl [HO]; · iexact HO
  isplitl [As2]; · iexact As2
  iintro ⟨HO, As2, Hw2⟩
  sl_exec_parts (disch := decide)
  iapply (wp_wsend_g m c 3 (hbit3 c) (Memref.whole cc0_scratch2) (Memref.whole cc0_scratch9) _ _ _ rfl (stage_credit 3) _ _ _ (fun h => rfl) rfl (K (c, kSend 3)) _)
  isplitr; · iexact HIs3
  isplitl [Cs3]; · iexact Cs3
  isplitl [HO]; · iexact HO
  isplitl [As3]; · iexact As3
  iintro ⟨HO, As3, Hw3⟩
  sl_exec_parts (disch := decide)
  iapply (wp_wsend_g m c 4 (hbit4 c) (Memref.whole cc0_scratch5) (Memref.whole cc0_scratch10) _ _ _ rfl (stage_credit 4) _ _ _ (fun h => rfl) rfl (K (c, kSend 4)) _)
  isplitr; · iexact HIs4
  isplitl [Cs4]; · iexact Cs4
  isplitl [HO]; · iexact HO
  isplitl [As4]; · iexact As4
  iintro ⟨HO, As4, Hw4⟩
  sl_exec_parts (disch := decide)
  iapply (wp_wsend_g m c 5 (hbit5 c) (Memref.whole cc0_scratch4) (Memref.whole cc0_scratch11) _ _ _ rfl (stage_credit 5) _ _ _ (fun h => rfl) rfl (K (c, kSend 5)) _)
  isplitr; · iexact HIs5
  isplitl [Cs5]; · iexact Cs5
  isplitl [HO]; · iexact HO
  isplitl [As5]; · iexact As5
  iintro ⟨HO, As5, Hw5⟩
  sl_exec_parts (disch := decide)
  imod (close_send m c 0 _ rfl (K (c, kSend 0))) $$ [As0] with Zs0
  · isplitr; · iexact HIs0
    iexact As0
  imod (close_recv m c 0 _ rfl (K (c, kRecv 0))) $$ [Ar0] with Zr0
  · isplitr; · iexact HIr0
    iexact Ar0
  imod (close_send m c 1 _ rfl (K (c, kSend 1))) $$ [As1] with Zs1
  · isplitr; · iexact HIs1
    iexact As1
  imod (close_recv m c 1 _ rfl (K (c, kRecv 1))) $$ [Ar1] with Zr1
  · isplitr; · iexact HIr1
    iexact Ar1
  imod (close_send m c 2 _ rfl (K (c, kSend 2))) $$ [As2] with Zs2
  · isplitr; · iexact HIs2
    iexact As2
  imod (close_recv m c 2 _ rfl (K (c, kRecv 2))) $$ [Ar2] with Zr2
  · isplitr; · iexact HIr2
    iexact Ar2
  imod (close_send m c 3 _ rfl (K (c, kSend 3))) $$ [As3] with Zs3
  · isplitr; · iexact HIs3
    iexact As3
  imod (close_recv m c 3 _ rfl (K (c, kRecv 3))) $$ [Ar3] with Zr3
  · isplitr; · iexact HIr3
    iexact Ar3
  imod (close_send m c 4 _ rfl (K (c, kSend 4))) $$ [As4] with Zs4
  · isplitr; · iexact HIs4
    iexact As4
  imod (close_recv m c 4 _ rfl (K (c, kRecv 4))) $$ [Ar4] with Zr4
  · isplitr; · iexact HIr4
    iexact Ar4
  imod (close_send m c 5 _ rfl (K (c, kSend 5))) $$ [As5] with Zs5
  · isplitr; · iexact HIs5
    iexact As5
  imod (close_recv m c 5 _ rfl (K (c, kRecv 5))) $$ [Ar5] with Zr5
  · isplitr; · iexact HIr5
    iexact Ar5
  sl_step
  iapply Hk
  isplitl [Hl0 Hh0 Hl1 Hh1 Hl2 Hh2 Hl3 Hh3 Hl4 Hh4 Hl5 Hh5 Hw0 Hs0 Hw1 Hs1 Hw2 Hs2 Hw3 Hs3 Hw4 Hs4 Hw5 Hs5]
  · isplitl [Hl0 Hh0 Hl1 Hh1 Hl2 Hh2 Hl3 Hh3 Hl4 Hh4 Hl5 Hh5]
    · isplitl [Hl0 Hh0]
      · iapply (halo_back c 0 _)
        isplitl [Hl0]; · iexact Hl0
        iexact Hh0
      isplitl [Hl1 Hh1]
      · iapply (halo_back c 1 _)
        isplitl [Hl1]; · iexact Hl1
        iexact Hh1
      isplitl [Hl2 Hh2]
      · iapply (halo_back c 2 _)
        isplitl [Hl2]; · iexact Hl2
        iexact Hh2
      isplitl [Hl3 Hh3]
      · iapply (halo_back c 3 _)
        isplitl [Hl3]; · iexact Hl3
        iexact Hh3
      isplitl [Hl4 Hh4]
      · iapply (halo_back c 4 _)
        isplitl [Hl4]; · iexact Hl4
        iexact Hh4
      iapply (halo_back c 5 _)
      isplitl [Hl5]; · iexact Hl5
      iexact Hh5
    · isplitl [Hw0 Hs0]
      · iapply (stage_back c 0 _)
        isplitl [Hw0]; · iexact Hw0
        iexact Hs0
      isplitl [Hw1 Hs1]
      · iapply (stage_back c 1 _)
        isplitl [Hw1]; · iexact Hw1
        iexact Hs1
      isplitl [Hw2 Hs2]
      · iapply (stage_back c 2 _)
        isplitl [Hw2]; · iexact Hw2
        iexact Hs2
      isplitl [Hw3 Hs3]
      · iapply (stage_back c 3 _)
        isplitl [Hw3]; · iexact Hw3
        iexact Hs3
      isplitl [Hw4 Hs4]
      · iapply (stage_back c 4 _)
        isplitl [Hw4]; · iexact Hw4
        iexact Hs4
      iapply (stage_back c 5 _)
      isplitl [Hw5]; · iexact Hw5
      iexact Hs5
  isplitl [Zs0 Zs1 Zs2 Zs3 Zs4 Zs5 Zr0 Zr1 Zr2 Zr3 Zr4 Zr5]
  · isplitl [Zs0 Zs1 Zs2 Zs3 Zs4 Zs5]
    · isplitl [Zs0]; · iexact Zs0
      isplitl [Zs1]; · iexact Zs1
      isplitl [Zs2]; · iexact Zs2
      isplitl [Zs3]; · iexact Zs3
      isplitl [Zs4]; · iexact Zs4
      iexact Zs5
    · isplitl [Zr0]; · iexact Zr0
      isplitl [Zr1]; · iexact Zr1
      isplitl [Zr2]; · iexact Zr2
      isplitl [Zr3]; · iexact Zr3
      isplitl [Zr4]; · iexact Zr4
      iexact Zr5
  isplitl [HO]; · iexists _; iexact HO
  isplitl [Hx]; · iexact Hx
  iexact Ho

/-- info: 'Cert.KernelIdeal.Halo.sound_body' depends on axioms: [propext, Classical.choice, Quot.sound] -/
#guard_msgs in #print axioms sound_body

end Cert.KernelIdeal.Halo

end
-- ==== Proof.K.HaloSched.lean ====
/-
  The halo exchange's protocol, as a schedule of rounds.

  Every device has thirteen semaphores that matter: the barrier semaphore, six send semaphores (one per direction) and six
  receive semaphores (one per halo plane). Everything happens in one round, round 0.
  * The barrier cell of device `c` has one duty per direction `d` in which `c` has a neighbour: the neighbour `nbr d c`
    signals one unit, and with it hands `c` the halo plane of its own that `c`'s copy in direction `d` lands in (plane
    `opp d` of the neighbour), together with the fact that the neighbour's receive cell for that plane is at round 0.
  * The receive cell `h` of device `c`, when `c` has a neighbour in direction `h`, has one duty: the neighbour's copy
    landing, which hands `c` its halo plane `h` holding the neighbour's boundary plane facing `c`.
  * The send cell `d` of device `c`, when `c` has a neighbour in direction `d`, has one duty: `c`'s own copy having
    been read out, which hands back the boundary plane it was read from.
  A cell in a direction without a neighbour has no duty at all.
-/
import proofs.«900441_g7700000000000442_dist_halo3d_v7x_xyz2x4x4_s64_f32_1_alg».proof.Proof.Gen.Kernel
import proofs.«900441_g7700000000000442_dist_halo3d_v7x_xyz2x4x4_s64_f32_1_alg».proof.Proof.Gen.Kernel.Skeleton
import proofs.«900441_g7700000000000442_dist_halo3d_v7x_xyz2x4x4_s64_f32_1_alg».proof.Proof.Gen.Kernel.Launch
import proofs.«900441_g7700000000000442_dist_halo3d_v7x_xyz2x4x4_s64_f32_1_alg».proof.Proof.MeshNbr
import Idealize.ShloMosaic.Lib.Pipeline.Launch
import Idealize.ShloMosaic.Lib.Pipeline.Kit
import Idealize.ShloMosaic.Lib.Tactic

noncomputable section

namespace Cert.Kernel.Halo

open Cert.Kernel Cert.Kernel.Gen Cert.Halo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's (duties named by direction) -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The memrefs and the cells -/

abbrev xM : Memref sig .tc .vmem S64x64x64 .f32 := Memref.whole cc0_stg0_0
abbrev oM : Memref sig .tc .vmem S64x64x64 .f32 := Memref.whole cc0_stg1_0

/-- Halo plane `h` (scratch operands 0 … 5) and boundary plane `d` (scratch operands 6 … 11). -/
def haloM (h : Fin 6) : Memref sig .tc .vmem S1x64x64 .f32 := match h with
  | ⟨0, _⟩ => Memref.whole cc0_scratch0 | ⟨1, _⟩ => Memref.whole cc0_scratch1 | ⟨2, _⟩ => Memref.whole cc0_scratch2
  | ⟨3, _⟩ => Memref.whole cc0_scratch3 | ⟨4, _⟩ => Memref.whole cc0_scratch4 | ⟨_ + 5, _⟩ => Memref.whole cc0_scratch5
def stageM (d : Fin 6) : Memref sig .tc .vmem S1x64x64 .f32 := match d with
  | ⟨0, _⟩ => Memref.whole cc0_scratch6 | ⟨1, _⟩ => Memref.whole cc0_scratch7 | ⟨2, _⟩ => Memref.whole cc0_scratch8
  | ⟨3, _⟩ => Memref.whole cc0_scratch9 | ⟨4, _⟩ => Memref.whole cc0_scratch10 | ⟨_ + 5, _⟩ => Memref.whole cc0_scratch11

abbrev barS : Sem sig := (SemArray.scalar (sig.barrier 0 rfl) : Sems sig S_).sem
/-- Send semaphore `d` is DMA semaphore 2 + d, receive semaphore `h` is 8 + h. -/
def sendSem (d : Fin 6) : DmaSem sig := ⟨2 + d.val, by have := d.isLt; show 2 + d.val < 14; omega⟩
def recvSem (h : Fin 6) : DmaSem sig := ⟨8 + h.val, by have := h.isLt; show 8 + h.val < 14; omega⟩

abbrev barCell (c : Dev nD) : GSem nD τ sig := ((c : Thread nD τ), .reg barS)
abbrev sendCell (c : Dev nD) (d : Fin 6) : GSem nD τ sig := ((c : Thread nD τ), .dma (sendSem d))
abbrev recvCell (c : Dev nD) (h : Fin 6) : GSem nD τ sig := ((c : Thread nD τ), .dma (recvSem h))

abbrev N : ℕ := (haloM 0 : Memref sig .tc .vmem S1x64x64 .f32).view.dmaCredit
theorem N_pos : 0 < N := View.dmaCredit_pos _ (by decide)

/-! ## Contents -/

/-- Device `c`'s block of the argument array, as its input window stages it. -/
def xstg (c : Dev nD) : (cc0_stg0_0 : Ref sig .tc).ty.Contents (Elt F) :=
  (win0_0.blk (0 : Fin 1)).view.read (Elt F) (m ((c : Thread nD τ).loc main_arg0))

abbrev rX0 : Rect S64x64x64 := Rect.unit (s := S64x64x64) ![0, 0, 0] S1x64x64.size inb_S64x64x64_S1x64x64_0_0_0
abbrev rX63 : Rect S64x64x64 := Rect.unit (s := S64x64x64) ![63, 0, 0] S1x64x64.size inb_S64x64x64_S1x64x64_63_0_0
abbrev rY0 : Rect S64x64x64 := Rect.unit (s := S64x64x64) ![0, 0, 0] S64x1x64.size inb_S64x64x64_S64x1x64_0_0_0
abbrev rY63 : Rect S64x64x64 := Rect.unit (s := S64x64x64) ![0, 63, 0] S64x1x64.size inb_S64x64x64_S64x1x64_0_63_0
abbrev rZ0 : Rect S64x64x64 := Rect.unit (s := S64x64x64) ![0, 0, 0] S64x64x1.size inb_S64x64x64_S64x64x1_0_0_0
abbrev rZ63 : Rect S64x64x64 := Rect.unit (s := S64x64x64) ![0, 0, 63] S64x64x1.size inb_S64x64x64_S64x64x1_0_0_63

/-- The boundary plane of a block `x` facing direction `d`, as the body lays it out in its 1 × 64 × 64 scratch. -/
def faceOf (x : (cc0_stg0_0 : Ref sig .tc).ty.Contents (Elt F)) (d : Fin 6) : FVec F S1x64x64 .f32 := match d with
  | ⟨0, _⟩ => k0_pay6 ((xM : Memref sig .tc .vmem S64x64x64 .f32).view.readAt (Elt F) rX0.toLoadRect x)
  | ⟨1, _⟩ => k0_pay7 ((xM : Memref sig .tc .vmem S64x64x64 .f32).view.readAt (Elt F) rX63.toLoadRect x)
  | ⟨2, _⟩ => k0_pay8 ((xM : Memref sig .tc .vmem S64x64x64 .f32).view.readAt (Elt F) rY0.toLoadRect x)
  | ⟨3, _⟩ => k0_pay10 (k0_pay9 ((xM : Memref sig .tc .vmem S64x64x64 .f32).view.readAt (Elt F) rY63.toLoadRect x))
  | ⟨4, _⟩ => k0_pay11 ((xM : Memref sig .tc .vmem S64x64x64 .f32).view.readAt (Elt F) rZ0.toLoadRect x)
  | ⟨_ + 5, _⟩ => k0_pay12 ((xM : Memref sig .tc .vmem S64x64x64 .f32).view.readAt (Elt F) rZ63.toLoadRect x)

/-- What lands in halo plane `h` of device `c`: its direction-`h` neighbour's boundary plane facing back. -/
def landed (c : Dev nD) (h : Fin 6) : FVec F S1x64x64 .f32 := faceOf (xstg m (nbr h c)) (opp h)

/-- Halo plane `h` of device `c` held whole at contents `f`; boundary plane `d` likewise. -/
def haloPts (c : Dev nD) (h : Fin 6) (f : FVec F S1x64x64 .f32) : sProp 𝕄 := match h with
  | ⟨0, _⟩ => ((Memref.whole cc0_scratch0 : Memref sig .tc .vmem S1x64x64 .f32).view.loc (c : Thread nD τ) ↦{fullShare} f) | ⟨1, _⟩ => ((Memref.whole cc0_scratch1 : Memref sig .tc .vmem S1x64x64 .f32).view.loc (c : Thread nD τ) ↦{fullShare} f)
  | ⟨2, _⟩ => ((Memref.whole cc0_scratch2 : Memref sig .tc .vmem S1x64x64 .f32).view.loc (c : Thread nD τ) ↦{fullShare} f) | ⟨3, _⟩ => ((Memref.whole cc0_scratch3 : Memref sig .tc .vmem S1x64x64 .f32).view.loc (c : Thread nD τ) ↦{fullShare} f)
  | ⟨4, _⟩ => ((Memref.whole cc0_scratch4 : Memref sig .tc .vmem S1x64x64 .f32).view.loc (c : Thread nD τ) ↦{fullShare} f) | ⟨_ + 5, _⟩ => ((Memref.whole cc0_scratch5 : Memref sig .tc .vmem S1x64x64 .f32).view.loc (c : Thread nD τ) ↦{fullShare} f)
def stagePts (c : Dev nD) (d : Fin 6) (f : FVec F S1x64x64 .f32) : sProp 𝕄 := match d with
  | ⟨0, _⟩ => ((Memref.whole cc0_scratch6 : Memref sig .tc .vmem S1x64x64 .f32).view.loc (c : Thread nD τ) ↦{fullShare} f) | ⟨1, _⟩ => ((Memref.whole cc0_scratch7 : Memref sig .tc .vmem S1x64x64 .f32).view.loc (c : Thread nD τ) ↦{fullShare} f)
  | ⟨2, _⟩ => ((Memref.whole cc0_scratch8 : Memref sig .tc .vmem S1x64x64 .f32).view.loc (c : Thread nD τ) ↦{fullShare} f) | ⟨3, _⟩ => ((Memref.whole cc0_scratch9 : Memref sig .tc .vmem S1x64x64 .f32).view.loc (c : Thread nD τ) ↦{fullShare} f)
  | ⟨4, _⟩ => ((Memref.whole cc0_scratch10 : Memref sig .tc .vmem S1x64x64 .f32).view.loc (c : Thread nD τ) ↦{fullShare} f) | ⟨_ + 5, _⟩ => ((Memref.whole cc0_scratch11 : Memref sig .tc .vmem S1x64x64 .f32).view.loc (c : Thread nD τ) ↦{fullShare} f)

omit [FloatOps F] in
instance haloPts_storable (c : Dev nD) (h : Fin 6) (f) : BI.Storable (upEmb : UEmb _ 𝕄) (haloPts (F := F) c h f) := by
  unfold haloPts; split <;> infer_instance
omit [FloatOps F] in
instance stagePts_storable (c : Dev nD) (d : Fin 6) (f) : BI.Storable (upEmb : UEmb _ 𝕄) (stagePts (F := F) c d f) := by
  unfold stagePts; split <;> infer_instance

/-! ## The schedule -/

/-- What the direction-`d` neighbour's signal hands `c`: the neighbour's halo plane `opp d`, and that the neighbour's
    receive cell for it stands at round 0. -/
def barPay (c : Dev nD) (d : Fin 6) : sProp 𝕄 :=
  iprop((∃ f, haloPts (nbr d c) (opp d) f) ∗ reached ER (recvCell (nbr d c) (opp d)) 0)
/-- What the landing on receive cell `h` hands `c`: its halo plane `h` at the neighbour's boundary plane. -/
def recvPay (c : Dev nD) (h : Fin 6) : sProp 𝕄 := haloPts c h (landed m c h)
/-- What the departure on send cell `d` hands back: the boundary plane it read. -/
def sendPay (c : Dev nD) (d : Fin 6) : sProp 𝕄 := iprop(∃ f, stagePts c d f)

/-- One round. A barrier cell's duties are the directions its device has a neighbour in; send cell `d` and receive cell
    `d` have the duty `d` when the device has a neighbour in direction `d`. -/
def haloRd : Rounds.Schedule (GSem nD τ sig) (Fin 6) 𝕄 where
  duties g r :=
    if r = 0 ∧ g.1.2 = .tc then
      (if g.2 = .reg barS then Finset.univ.filter fun d => has d g.1.1 = true
       else Finset.univ.filter fun d => has d g.1.1 = true ∧ (g.2 = .dma (sendSem d) ∨ g.2 = .dma (recvSem d)))
    else ∅
  unitless _ := False
  amount g _ _ := if g.2 = .reg barS then 1 else N
  payload g _ d :=
    if g.2 = .reg barS then barPay g.1.1 d
    else if g.2 = .dma (recvSem d) then recvPay m g.1.1 d
    else if g.2 = .dma (sendSem d) then sendPay g.1.1 d
    else iprop(emp)
  amount_pos g _ _ _ := by
    by_cases h : g.2 = .reg barS
    · rw [if_pos h]; exact Nat.one_pos
    · rw [if_neg h]; exact N_pos

instance haloRd_payload_storable (g : GSem nD τ sig) (r : ℕ) (d : Fin 6) :
    BI.Storable (upEmb : UEmb _ 𝕄) ((haloRd (F := F) m).payload g r d) := by
  show BI.Storable upEmb (if g.2 = .reg barS then barPay g.1.1 d else if g.2 = .dma (recvSem d) then recvPay m g.1.1 d
    else if g.2 = .dma (sendSem d) then sendPay g.1.1 d else iprop(emp))
  unfold barPay recvPay sendPay
  (repeat' split) <;> infer_instance

section Sched
variable (c : Dev nD)

theorem send_ne_bar (d : Fin 6) : (SemLoc.dma (sendSem d) : SemLoc sig) ≠ .reg barS := fun h => by cases h
theorem recv_ne_bar (d : Fin 6) : (SemLoc.dma (recvSem d) : SemLoc sig) ≠ .reg barS := fun h => by cases h
theorem send_ne_recv : ∀ d e : Fin 6, (SemLoc.dma (sendSem d) : SemLoc sig) ≠ .dma (recvSem e) := by decide
theorem recv_ne_send : ∀ d e : Fin 6, (SemLoc.dma (recvSem d) : SemLoc sig) ≠ .dma (sendSem e) := by decide
theorem send_inj : ∀ d e : Fin 6, (SemLoc.dma (sendSem d) : SemLoc sig) = .dma (sendSem e) → d = e := by decide
theorem recv_inj : ∀ d e : Fin 6, (SemLoc.dma (recvSem d) : SemLoc sig) = .dma (recvSem e) → d = e := by decide

omit [FloatOps F] in
theorem duties_bar : (haloRd (F := F) m).duties (barCell c) 0 = Finset.univ.filter fun d => has d c = true := by
  dsimp only [haloRd]; rw [if_pos ⟨rfl, rfl⟩, if_pos rfl]
omit [FloatOps F] in
theorem duties_send (d : Fin 6) : (haloRd (F := F) m).duties (sendCell c d) 0 = if has d c = true then {d} else ∅ := by
  dsimp only [haloRd]; rw [if_pos ⟨rfl, rfl⟩, if_neg (send_ne_bar d)]
  ext e
  simp only [Finset.mem_filter, Finset.mem_univ, true_and]
  constructor
  · rintro ⟨he, h | h⟩
    · have := send_inj d e h; subst this; rw [if_pos he]; exact Finset.mem_singleton_self _
    · exact absurd h (send_ne_recv d e)
  · intro h
    by_cases hd : has d c = true
    · rw [if_pos hd] at h; rw [Finset.mem_singleton.mp h]; exact ⟨hd, .inl rfl⟩
    · rw [if_neg hd] at h; exact absurd h (Finset.notMem_empty _)
omit [FloatOps F] in
theorem duties_recv (d : Fin 6) : (haloRd (F := F) m).duties (recvCell c d) 0 = if has d c = true then {d} else ∅ := by
  dsimp only [haloRd]; rw [if_pos ⟨rfl, rfl⟩, if_neg (recv_ne_bar d)]
  ext e
  simp only [Finset.mem_filter, Finset.mem_univ, true_and]
  constructor
  · rintro ⟨he, h | h⟩
    · exact absurd h (recv_ne_send d e)
    · have := recv_inj d e h; subst this; rw [if_pos he]; exact Finset.mem_singleton_self _
  · intro h
    by_cases hd : has d c = true
    · rw [if_pos hd] at h; rw [Finset.mem_singleton.mp h]; exact ⟨hd, .inr rfl⟩
    · rw [if_neg hd] at h; exact absurd h (Finset.notMem_empty _)
omit [FloatOps F] in
theorem duties_later (g : GSem nD τ sig) : ∀ r, 1 ≤ r → (haloRd (F := F) m).duties g r = ∅ :=
  fun r hr => by dsimp only [haloRd]; rw [if_neg fun h => by omega]

omit [FloatOps F] in
theorem amount_bar (d : Fin 6) : (haloRd (F := F) m).amount (barCell c) 0 d = 1 := by dsimp only [haloRd]; exact if_pos rfl
omit [FloatOps F] in
theorem amount_send (d e : Fin 6) : (haloRd (F := F) m).amount (sendCell c d) 0 e = N := by dsimp only [haloRd]; exact if_neg (send_ne_bar d)
omit [FloatOps F] in
theorem amount_recv (d e : Fin 6) : (haloRd (F := F) m).amount (recvCell c d) 0 e = N := by dsimp only [haloRd]; exact if_neg (recv_ne_bar d)

omit [FloatOps F] in
theorem expect_bar : (haloRd (F := F) m).expect (barCell c) 0 = nNbr c := by
  unfold Schedule.expect Schedule.amountOf nNbr
  rw [duties_bar, Finset.sum_congr rfl fun d _ => amount_bar m c d, Finset.sum_const, smul_eq_mul, Nat.mul_one]
omit [FloatOps F] in
theorem expect_send (d : Fin 6) (hd : has d c = true) : (haloRd (F := F) m).expect (sendCell c d) 0 = N := by
  unfold Schedule.expect Schedule.amountOf; rw [duties_send, if_pos hd, Finset.sum_singleton, amount_send]
omit [FloatOps F] in
theorem expect_recv (d : Fin 6) (hd : has d c = true) : (haloRd (F := F) m).expect (recvCell c d) 0 = N := by
  unfold Schedule.expect Schedule.amountOf; rw [duties_recv, if_pos hd, Finset.sum_singleton, amount_recv]

omit [FloatOps F] in
theorem payload_bar (d : Fin 6) : (haloRd (F := F) m).payload (barCell c) 0 d = barPay c d := by dsimp only [haloRd]; rw [if_pos rfl]
omit [FloatOps F] in
theorem payload_send (d : Fin 6) : (haloRd (F := F) m).payload (sendCell c d) 0 d = sendPay c d := by
  dsimp only [haloRd]; rw [if_neg (send_ne_bar d), if_neg (send_ne_recv d d), if_pos rfl]
omit [FloatOps F] in
theorem payload_recv (d : Fin 6) : (haloRd (F := F) m).payload (recvCell c d) 0 d = recvPay m c d := by
  dsimp only [haloRd]; rw [if_neg (recv_ne_bar d), if_pos rfl]

end Sched

end Cert.Kernel.Halo

end
-- ==== Proof.K.HaloRules.lean ====
/-
  The five kinds of cross-device step of the halo exchange, each stated once for any device `c` and any direction `d` in
  which `c` has a neighbour `n = nbr d c`:
  * the signal to the neighbour's barrier cell, which hands the neighbour `c`'s own halo plane `d` (the plane the
    neighbour's copy lands in) and that `c`'s receive cell `d` stands at round 0;
  * the wait on `c`'s own barrier cell for as many units as `c` has neighbours, which hands `c` every neighbour's
    plane facing it;
  * the copy of boundary plane `d` into the neighbour's halo plane `opp d`, paying the neighbour's receive cell;
  * the wait on receive cell `d`: halo plane `d` comes back holding the neighbour's boundary plane;
  * the wait on send cell `d`: the boundary plane comes back.
-/
import proofs.«900441_g7700000000000442_dist_halo3d_v7x_xyz2x4x4_s64_f32_1_alg».proof.Proof.K.HaloSched

noncomputable section

namespace Cert.Kernel.Halo

open Cert.Kernel Cert.Kernel.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

abbrev 𝒱₀ : Variants := Variants.none

omit [FloatOps F] in
theorem opp_mem_bar (c : Dev nD) (d : Fin 6) (hd : has d c = true) :
    opp d ∈ (haloRd (F := F) m).duties (barCell (nbr d c)) 0 := by
  rw [duties_bar]; exact Finset.mem_filter.mpr ⟨Finset.mem_univ _, has_opp_nbr d c hd⟩

omit [FloatOps F] in
/-- The payload of the signal `c` sends its direction-`d` neighbour: `c`'s own halo plane `d` and its receive cell's mark. -/
theorem payload_sig (c : Dev nD) (d : Fin 6) (hd : has d c = true) :
    (haloRd (F := F) m).payload (barCell (nbr d c)) 0 (opp d) = iprop((∃ f, haloPts c d f) ∗ reached ER (recvCell c d) 0) := by
  rw [payload_bar]; unfold barPay; rw [nbr_opp_nbr d c hd, opp_opp]

/-- The signal to the direction-`d` neighbour's barrier cell. -/
theorem wp_sig (c n : Dev nD) (d : Fin 6) (hd : has d c = true) (hn : n = nbr d c)
    {α : Type} {Q : α → sProp 𝕄} {k : PUnit → Prog (TpuEff nD τ sig (Elt F) Λ₀ .tc) α}
    (κ : ℕ) (O : CellTallies nD τ sig Unit) (W : Waits sig Unit) :
    iprop(cellInv ER (haloRd m) κ (barCell (nbr d c)) ∗ owes (c : Thread nD τ) (O + tallyAt (barCell (nbr d c)) () 1) W
        ∗ dutyTok ER (barCell (nbr d c)) 0 (opp d) ∗ (∃ f, haloPts c d f) ∗ reached ER (recvCell c d) 0
        ∗ reached ER (barCell (nbr d c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS (1#32).toNat) k) Q) := by
  subst hn
  iintro ⟨#HI, HO, Ht, Hp, #Hrv, #Hrb⟩
  iapply (Rounds.wp_signal 𝒱₀ ER (haloRd m) (c : Thread nD τ) none (dst := (nbr d c : Thread nD τ)) (κ := κ)
      (d := opp d) (opp_mem_bar m c d hd) ((amount_bar m (nbr d c) (opp d)).trans (by decide)) () O rfl) $$ [HO Ht Hp]
  isplitr; · iexact HI
  isplitl [HO]; · iexact HO
  isplitl [Ht]; · iexact Ht
  isplitl [Hp]
  · rw [payload_sig m c d hd]
    isplitl [Hp]; · iexact Hp
    iexact Hrv
  · iexact Hrb

end Cert.Kernel.Halo

end
-- ==== Proof.K.HaloGuard.lean ====
/-
  The device-dependent branches of the halo exchange, one direction at a time.

  The program tests, for each direction, whether the device has a neighbour there, and only then signals, copies or waits.
  Each such branch is taken here ONCE for any device: what it needs and what it leaves are stated with "if the device
  has a neighbour in direction `d`" inside them (`onDir`: something held only then; `offDir`: something held only
  otherwise), so that the same sentence holds on both sides of the branch.
-/
import proofs.«900441_g7700000000000442_dist_halo3d_v7x_xyz2x4x4_s64_f32_1_alg».proof.Proof.K.HaloRules

noncomputable section

namespace Cert.Kernel.Halo

open Cert.Kernel Cert.Kernel.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- `P` if device `c` has a neighbour in direction `d`, nothing otherwise; and the other way round. -/
def onDir (c : Dev nD) (d : Fin 6) (P : sProp 𝕄) : sProp 𝕄 := if has d c = true then P else iprop(emp)
def offDir (c : Dev nD) (d : Fin 6) (P : sProp 𝕄) : sProp 𝕄 := if has d c = true then iprop(emp) else P

/-- What device `c` owes in direction `d`: one unit to the neighbour's barrier cell, and the plane's credit to the
    neighbour's receive cell. -/
def sigOwe (c : Dev nD) (d : Fin 6) : CellTallies nD τ sig Unit := if has d c = true then tallyAt (barCell (nbr d c)) () 1 else 0
def sndOwe (c : Dev nD) (d : Fin 6) : CellTallies nD τ sig Unit := if has d c = true then tallyAt (recvCell (nbr d c) (opp d)) () N else 0

/-! ## The program's tests and device numbers, decided over the mesh -/

theorem cond1_iff : ∀ c : Dev nD, k0_cond1 c = 1#1 ↔ has 0 c = true := by decide +kernel
theorem cond2_iff : ∀ c : Dev nD, k0_cond2 c = 1#1 ↔ has 1 c = true := by decide +kernel
theorem cond3_iff : ∀ c : Dev nD, k0_cond3 c = 1#1 ↔ has 2 c = true := by decide +kernel
theorem cond4_iff : ∀ c : Dev nD, k0_cond4 c = 1#1 ↔ has 3 c = true := by decide +kernel
theorem cond5_iff : ∀ c : Dev nD, k0_cond5 c = 1#1 ↔ has 4 c = true := by decide +kernel
theorem cond6_iff : ∀ c : Dev nD, k0_cond6 c = 1#1 ↔ has 5 c = true := by decide +kernel
theorem cond13_iff : ∀ c : Dev nD, k0_cond13 c = 1#1 ↔ has 0 c = true := by decide +kernel
theorem cond14_iff : ∀ c : Dev nD, k0_cond14 c = 1#1 ↔ has 1 c = true := by decide +kernel
theorem cond15_iff : ∀ c : Dev nD, k0_cond15 c = 1#1 ↔ has 2 c = true := by decide +kernel
theorem cond16_iff : ∀ c : Dev nD, k0_cond16 c = 1#1 ↔ has 3 c = true := by decide +kernel
theorem cond17_iff : ∀ c : Dev nD, k0_cond17 c = 1#1 ↔ has 4 c = true := by decide +kernel
theorem cond18_iff : ∀ c : Dev nD, k0_cond18 c = 1#1 ↔ has 5 c = true := by decide +kernel

theorem dev1_eq : ∀ (c : Dev nD) (h : k0_cond1 c = 1#1), (⟨k0_dev1 c, k0_dev1_lt c h⟩ : Dev nD) = nbr 0 c := by decide +kernel
theorem dev2_eq : ∀ (c : Dev nD) (h : k0_cond2 c = 1#1), (⟨k0_dev2 c, k0_dev2_lt c h⟩ : Dev nD) = nbr 1 c := by decide +kernel
theorem dev3_eq : ∀ (c : Dev nD) (h : k0_cond3 c = 1#1), (⟨k0_dev3 c, k0_dev3_lt c h⟩ : Dev nD) = nbr 2 c := by decide +kernel
theorem dev4_eq : ∀ (c : Dev nD) (h : k0_cond4 c = 1#1), (⟨k0_dev4 c, k0_dev4_lt c h⟩ : Dev nD) = nbr 3 c := by decide +kernel
theorem dev5_eq : ∀ (c : Dev nD) (h : k0_cond5 c = 1#1), (⟨k0_dev5 c, k0_dev5_lt c h⟩ : Dev nD) = nbr 4 c := by decide +kernel
theorem dev6_eq : ∀ (c : Dev nD) (h : k0_cond6 c = 1#1), (⟨k0_dev6 c, k0_dev6_lt c h⟩ : Dev nD) = nbr 5 c := by decide +kernel
theorem dev7_eq : ∀ (c : Dev nD) (h : k0_cond13 c = 1#1), (⟨k0_dev7 c, k0_dev7_lt c h⟩ : Dev nD) = nbr 0 c := by decide +kernel
theorem dev8_eq : ∀ (c : Dev nD) (h : k0_cond14 c = 1#1), (⟨k0_dev8 c, k0_dev8_lt c h⟩ : Dev nD) = nbr 1 c := by decide +kernel
theorem dev9_eq : ∀ (c : Dev nD) (h : k0_cond15 c = 1#1), (⟨k0_dev9 c, k0_dev9_lt c h⟩ : Dev nD) = nbr 2 c := by decide +kernel
theorem dev10_eq : ∀ (c : Dev nD) (h : k0_cond16 c = 1#1), (⟨k0_dev10 c, k0_dev10_lt c h⟩ : Dev nD) = nbr 3 c := by decide +kernel
theorem dev11_eq : ∀ (c : Dev nD) (h : k0_cond17 c = 1#1), (⟨k0_dev11 c, k0_dev11_lt c h⟩ : Dev nD) = nbr 4 c := by decide +kernel
theorem dev12_eq : ∀ (c : Dev nD) (h : k0_cond18 c = 1#1), (⟨k0_dev12 c, k0_dev12_lt c h⟩ : Dev nD) = nbr 5 c := by decide +kernel
/-- The barrier wait's amount is the number of neighbours. -/
theorem amt1_eq : ∀ c : Dev nD, (k0_amt1 c).toNat = nNbr c := by decide +kernel

/-! ## The guarded signal -/

/-- The branch "if there is a neighbour in direction `d`, signal its barrier cell": from what the device owes with that
    unit among it, the signal's token if there is a neighbour, and its own halo plane `d`, the rest `R` of the program
    runs owing the unit less and holding the plane only if there was no neighbour to hand it to. -/
theorem wp_sig_g (c : Dev nD) (d : Fin 6) {C : Prop} [Decidable C] (hC : C ↔ has d c = true)
    (n : C → Dev nD) (hn : ∀ h, n h = nbr d c)
    {α : Type} {Q : α → sProp 𝕄} (R : Prog (TpuEff nD τ sig (Elt F) Λ₀ .tc) α)
    (pt : C → Prog (TpuEff nD τ sig (Elt F) Λ₀ .tc) α) (pe : Prog (TpuEff nD τ sig (Elt F) Λ₀ .tc) α)
    (hpt : ∀ h, pt h = Prog.bind (semSignalWord (n h) barS 1#32 hamt_1) (fun _ => R)) (hpe : pe = R)
    (κ : ℕ) (O : CellTallies nD τ sig Unit) (W : Waits sig Unit) :
    iprop(cellInv ER (haloRd m) κ (barCell (nbr d c)) ∗ reached ER (recvCell c d) 0 ∗ reached ER (barCell (nbr d c)) 0
        ∗ owes (c : Thread nD τ) (O + sigOwe c d) W ∗ onDir c d (dutyTok ER (barCell (nbr d c)) 0 (opp d)) ∗ (∃ f, haloPts c d f)
        ∗ ((owes (c : Thread nD τ) O W ∗ offDir c d iprop(∃ f, haloPts (F := F) c d f))
            -∗ wp frame (wpE (defs₀ (F := F)) 𝒱₀ (c : Thread nD τ) none) Set.univ R Q))
      ⊢ wp frame (wpE (defs₀ (F := F)) 𝒱₀ (c : Thread nD τ) none) Set.univ (if h : C then pt h else pe) Q := by
  by_cases h : C
  · have hd := hC.mp h
    rw [dif_pos h, hpt h]
    unfold onDir offDir sigOwe semSignalWord
    rw [if_pos hd, if_pos hd, if_pos hd]
    simp only [Prog.bind_op, Prog.bind_ret]
    iintro ⟨#HI, #Hrv, #Hrb, HO, Ht, Hp, Hk⟩
    iapply (wp_sig m c (n h) d hd (hn h) κ O W) $$ [HO Ht Hp]
    · isplitr; · iexact HI
      isplitl [HO]; · iexact HO
      isplitl [Ht]; · iexact Ht
      isplitl [Hp]; · iexact Hp
      isplitr; · iexact Hrv
      iexact Hrb
    iintro HO
    iapply Hk
    isplitl [HO]; · iexact HO
    iempintro
  · have hd : ¬ has d c = true := fun hd => h (hC.mpr hd)
    rw [dif_neg h, hpe]
    unfold onDir offDir sigOwe
    rw [if_neg hd, if_neg hd, if_neg hd, add_zero]
    iintro ⟨-, -, -, HO, -, Hp, Hk⟩
    iapply Hk
    isplitl [HO]; · iexact HO
    iexact Hp

end Cert.Kernel.Halo

end
-- ==== Proof.K.HaloGhost.lean ====
/-
  What every device holds when its body starts and when it ends.

  The thirteen cells of a device are numbered: 0 the barrier cell, 1 + d send cell `d`, 7 + d receive cell `d`. Every cell
  of every device has its invariant allocated at launch, at the name `K (device, number)`.
  A device starts with
  * the persistent part: its barrier cell's invariant and, per direction `d`, the invariants of the four cells that
    direction's steps touch (the neighbour's barrier cell and receive cell `opp d`, its own send cell `d` and receive cell
    `d`) and that each of them stands at round 0;
  * the linear part: its position at round 0 of each of its thirteen cells and, per direction in which it has a
    neighbour, the three duty tokens it pays with (the neighbour's barrier duty `opp d`, the neighbour's receive duty
    `opp d`, its own send duty `d`);
  * the launch credit: as many units on its barrier cell as it has neighbours, and a plane's credit on receive cell `d`
    for each neighbour;
  * what it owes: per neighbour, a unit to that barrier cell and a plane's credit to that receive cell. The sum is nested
    so that the steps peel it from the right in program order: the six signals first, then the six copies.
-/
import proofs.«900441_g7700000000000442_dist_halo3d_v7x_xyz2x4x4_s64_f32_1_alg».proof.Proof.K.HaloGuard

noncomputable section

namespace Cert.Kernel.Halo

open Cert.Kernel Cert.Kernel.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The cells, numbered -/

def kBar : Fin 13 := 0
def kSend (d : Fin 6) : Fin 13 := ⟨1 + d.val, by have := d.isLt; omega⟩
def kRecv (d : Fin 6) : Fin 13 := ⟨7 + d.val, by have := d.isLt; omega⟩

def csem (k : Fin 13) : SemLoc sig :=
  if h0 : k.val = 0 then .reg barS
  else if h1 : k.val < 7 then .dma (sendSem ⟨k.val - 1, by omega⟩)
  else .dma (recvSem ⟨k.val - 7, by have := k.isLt; omega⟩)
abbrev kcell (ck : Dev nD × Fin 13) : GSem nD τ sig := ((ck.1 : Thread nD τ), csem ck.2)

theorem csem_bar : csem kBar = .reg barS := rfl
theorem csem_send : ∀ d : Fin 6, csem (kSend d) = .dma (sendSem d) := by decide
theorem csem_recv : ∀ d : Fin 6, csem (kRecv d) = .dma (recvSem d) := by decide
theorem csem_injective : Function.Injective csem := by decide

/-- Six things side by side, one per direction. -/
abbrev sep6 (P : Fin 6 → sProp 𝕄) : sProp 𝕄 := iprop(P 0 ∗ P 1 ∗ P 2 ∗ P 3 ∗ P 4 ∗ P 5)

/-! ## What a device starts from -/

/-- The persistent part for direction `d`. -/
def persDir (K : Dev nD × Fin 13 → ℕ) (c : Dev nD) (d : Fin 6) : sProp 𝕄 :=
  iprop(cellInv ER (haloRd m) (K (nbr d c, kBar)) (barCell (nbr d c))
    ∗ cellInv ER (haloRd m) (K (nbr d c, kRecv (opp d))) (recvCell (nbr d c) (opp d))
    ∗ cellInv ER (haloRd m) (K (c, kSend d)) (sendCell c d) ∗ cellInv ER (haloRd m) (K (c, kRecv d)) (recvCell c d)
    ∗ reached ER (barCell (nbr d c)) 0 ∗ reached ER (recvCell (nbr d c) (opp d)) 0
    ∗ reached ER (sendCell c d) 0 ∗ reached ER (recvCell c d) 0)
instance persDir_persistent (K : Dev nD × Fin 13 → ℕ) (c : Dev nD) (d : Fin 6) : BI.Persistent (persDir m K c d) := by
  unfold persDir; infer_instance

def pers (K : Dev nD × Fin 13 → ℕ) (c : Dev nD) : sProp 𝕄 :=
  iprop(cellInv ER (haloRd m) (K (c, kBar)) (barCell c) ∗ sep6 (persDir m K c))
instance pers_persistent (K : Dev nD × Fin 13 → ℕ) (c : Dev nD) : BI.Persistent (pers m K c) := by unfold pers; infer_instance

/-- The linear part for direction `d`: the three tokens (if there is a neighbour) and the two positions. -/
def linDir (c : Dev nD) (d : Fin 6) : sProp 𝕄 :=
  iprop(onDir c d (dutyTok ER (barCell (nbr d c)) 0 (opp d)) ∗ onDir c d (dutyTok ER (recvCell (nbr d c) (opp d)) 0 (opp d))
    ∗ onDir c d (dutyTok ER (sendCell c d) 0 d)
    ∗ atPos ER (sendCell c d) 0 ∅ 0 ∗ atPos ER (recvCell c d) 0 ∅ 0)

def ghost (K : Dev nD × Fin 13 → ℕ) (c : Dev nD) : sProp 𝕄 :=
  iprop(pers m K c ∗ atPos ER (barCell c) 0 ∅ 0 ∗ sep6 (linDir (F := F) c))

/-- The launch credit on receive cell `d`. -/
def credDir (c : Dev nD) (d : Fin 6) : sProp 𝕄 := onDir c d (cred (tallyAt (recvCell c d) () N))

/-- What device `c` owes at launch, nested for peeling from the right: signals 0 … 5, then copies 0 … 5. -/
def O₀ (c : Dev nD) : CellTallies nD τ sig Unit :=
  0 + sndOwe c 5 + sndOwe c 4 + sndOwe c 3 + sndOwe c 2 + sndOwe c 1 + sndOwe c 0
    + sigOwe c 5 + sigOwe c 4 + sigOwe c 3 + sigOwe c 2 + sigOwe c 1 + sigOwe c 0
/-- What it still owes at its barrier wait: the six copies. -/
def Osnd (c : Dev nD) : CellTallies nD τ sig Unit :=
  0 + sndOwe c 5 + sndOwe c 4 + sndOwe c 3 + sndOwe c 2 + sndOwe c 1 + sndOwe c 0

/-- The levels: barrier cells at 1, receive cells at 2, everything else (staging, send) at 0. -/
def L (g : GSem nD τ sig) : Finset Unit := if g.1.2 = .tc then {()} else ∅
def lv (g : GSem nD τ sig) (_ : Unit) : ℕ :=
  if g.2 = .reg barS then 1 else if ∃ d : Fin 6, g.2 = .dma (recvSem d) then 2 else 0

theorem L_of_ne (g : GSem nD τ sig) (h : g.1.2 ≠ .tc) : L g = ∅ := if_neg h
theorem L_tc (c : Dev nD) (sm : SemLoc sig) : L ((c : Thread nD τ), sm) = {()} := if_pos rfl

/-- What device `c`'s body starts from, besides the staged windows and the scratch buffers. -/
def start (c : Dev nD) : sProp 𝕄 :=
  iprop((∃ K, ghost m K c) ∗ cred (tallyAt (barCell c) () (nNbr c)) ∗ sep6 (credDir (F := F) c) ∗ levAts L lv)

/-- The twelve scratch planes, each held whole at something. -/
def scratch (c : Dev nD) : sProp 𝕄 :=
  iprop(sep6 (fun h => iprop(∃ f, haloPts (F := F) c h f)) ∗ sep6 (fun d => iprop(∃ f, stagePts (F := F) c d f)))

/-- The twelve own semaphores back at zero. -/
def ownZero (c : Dev nD) : sProp 𝕄 :=
  iprop(sep6 (fun d => (semVal (sendCell c d) 0 : sProp 𝕄)) ∗ sep6 (fun d => (semVal (recvCell c d) 0 : sProp 𝕄)))

def Φ₀ (c : Dev nD) : sProp 𝕄 := iprop(start m c ∗ scratch (F := F) c)
def Φ₁ (c : Dev nD) : sProp 𝕄 := iprop(scratch (F := F) c ∗ ownZero (F := F) c)

end Cert.Kernel.Halo

end
-- ==== Proof.K.HaloData.lean ====
/-
  The pipeline's proof data for the one-point region: the input window stages the device's block and is left in place; the
  output window's staging buffer ends at the device's result `outAt c`; the invariant goes from what a device starts from
  to the scratch planes and own semaphores handed back; the device owes its neighbours before the point and nothing after.
-/
import proofs.«900441_g7700000000000442_dist_halo3d_v7x_xyz2x4x4_s64_f32_1_alg».proof.Proof.K.HaloGhost

noncomputable section

namespace Cert.Kernel.Halo

open Cert.Kernel Cert.Kernel.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (outAt : Dev nD → (cc0_stg1_0 : Ref sig .tc).ty.Contents (Elt F))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

end Cert.Kernel.Halo

end
-- ==== Proof.K.HaloWaits.lean ====
/-
  Which waits the levels allow. Barrier cells stand at level 1, receive cells at level 2, every other cell at level 0.
  A device that has sent its signals owes only receive cells of its neighbours, all above its own barrier cell, so it
  may wait there; and whatever a device owes at any time stands at a barrier cell or a receive cell, above level 0, so
  it may always wait on a cell of level 0.
-/
import proofs.«900441_g7700000000000442_dist_halo3d_v7x_xyz2x4x4_s64_f32_1_alg».proof.Proof.K.HaloGhost

noncomputable section

namespace Cert.Kernel.Halo

open Cert.Kernel Cert.Kernel.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## Where a device owes: only at receive cells of its neighbours once the signals are sent -/

theorem sndOwe_pos {c : Dev nD} {d : Fin 6} {g : GSem nD τ sig} {u : Unit} (h : 0 < sndOwe c d g u) :
    g = recvCell (nbr d c) (opp d) := by
  unfold sndOwe at h
  by_cases hd : has d c = true
  · rw [if_pos hd, tallyAt_apply] at h
    by_contra hn
    rw [if_neg (fun h' => hn h'.1)] at h
    exact Nat.lt_irrefl 0 h
  · rw [if_neg hd] at h
    exact absurd h (Nat.lt_irrefl 0)

theorem Osnd_pos {c : Dev nD} {g : GSem nD τ sig} {u : Unit} (h : 0 < Osnd c g u) :
    ∃ d : Fin 6, g = recvCell (nbr d c) (opp d) := by
  unfold Osnd at h
  simp only [Pi.add_apply, Finsupp.add_apply, Pi.zero_apply, Finsupp.coe_zero] at h
  by_contra hn
  have z : ∀ d, sndOwe c d g u = 0 := fun d =>
    Nat.eq_zero_of_not_pos (fun hp => hn ⟨d, sndOwe_pos hp⟩)
  rw [z 5, z 4, z 3, z 2, z 1, z 0] at h
  exact Nat.lt_irrefl 0 h

omit [FloatOps F] in
/-- At its barrier wait a device owes only receive cells, which stand above its barrier cell. -/
theorem mayWait_bar (c : Dev nD) :
    (levAts L lv : sProp 𝕄) ⊢ MayWait (c : Thread nD τ) (.reg barS) () (Osnd c) :=
  MayOwe.of_cut (L := L) (lev := lv) 1
    (fun p hp => by rw [Finset.mem_singleton.mp hp, L_tc]; exact Finset.mem_singleton_self _)
    (fun g u hg => by obtain ⟨d, rfl⟩ := Osnd_pos hg; rw [L_tc]; exact Finset.mem_singleton_self _)
    (fun p hp => by rw [Finset.mem_singleton.mp hp]; dsimp only [lv]; rw [if_pos rfl])
    (fun g u hg => by
      obtain ⟨d, rfl⟩ := Osnd_pos hg
      dsimp only [lv]
      rw [if_neg (recv_ne_bar _), if_pos ⟨_, rfl⟩]
      decide)

/-! ## What a device owes at launch stands at barrier cells and receive cells -/

theorem sigOwe_pos {c : Dev nD} {d : Fin 6} {g : GSem nD τ sig} {u : Unit} (h : 0 < sigOwe c d g u) :
    g = barCell (nbr d c) := by
  unfold sigOwe at h
  by_cases hd : has d c = true
  · rw [if_pos hd, tallyAt_apply] at h
    by_contra hn
    rw [if_neg (fun h' => hn h'.1)] at h
    exact Nat.lt_irrefl 0 h
  · rw [if_neg hd] at h
    exact absurd h (Nat.lt_irrefl 0)

theorem O₀_pos {c : Dev nD} {g : GSem nD τ sig} {u : Unit} (h : 0 < O₀ c g u) :
    (∃ d : Fin 6, g = recvCell (nbr d c) (opp d)) ∨ ∃ d : Fin 6, g = barCell (nbr d c) := by
  unfold O₀ at h
  simp only [Pi.add_apply, Finsupp.add_apply, Pi.zero_apply, Finsupp.coe_zero] at h
  by_contra hn
  rw [not_or] at hn
  have z : ∀ d, sndOwe c d g u = 0 := fun d =>
    Nat.eq_zero_of_not_pos (fun hp => hn.1 ⟨d, sndOwe_pos hp⟩)
  have y : ∀ d, sigOwe c d g u = 0 := fun d =>
    Nat.eq_zero_of_not_pos (fun hp => hn.2 ⟨d, sigOwe_pos hp⟩)
  rw [z 5, z 4, z 3, z 2, z 1, z 0, y 5, y 4, y 3, y 2, y 1, y 0] at h
  exact Nat.lt_irrefl 0 h

omit [FloatOps F] in
/-- A cell of level 0 — any DMA semaphore that is not a receive semaphore — may be waited on whatever the device owes
    of its launch debt, or nothing. -/
theorem mayWait_low (c : Dev nD) (q : DmaSem sig) (hq : ∀ d : Fin 6, SemLoc.dma q ≠ .dma (recvSem d))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases O₀_pos hg with ⟨d, rfl⟩ | ⟨d, rfl⟩ <;> (rw [L_tc]; exact Finset.mem_singleton_self _))
      (fun p hp => by
        rw [Finset.mem_singleton.mp hp]
        dsimp only [lv]
        rw [if_neg (fun h => by cases h), if_neg (fun ⟨d, hd⟩ => hq d hd)])
      (fun g u hg => by
        rcases O₀_pos hg with ⟨d, rfl⟩ | ⟨d, rfl⟩
        · dsimp only [lv]; rw [if_neg (recv_ne_bar _), if_pos ⟨_, rfl⟩]; decide
        · dsimp only [lv]; rw [if_pos rfl]; decide)
  · rw [MayWait_zero]; iintro -; iempintro

/-- info: 'Cert.Kernel.Halo.mayWait_bar' depends on axioms: [propext, Classical.choice, Quot.sound] -/
#guard_msgs in #print axioms mayWait_bar

/-- info: 'Cert.Kernel.Halo.mayWait_low' depends on axioms: [propext, Classical.choice, Quot.sound] -/
#guard_msgs in #print axioms mayWait_low

end Cert.Kernel.Halo

end
-- ==== Proof.K.HaloLaunchAlloc.lean ====
/-
  The launch of the halo exchange, first part: the ghost state every device starts from.

  The launch element is a pair: the pipeline's own, and the protocol's, funded over the thirteen cells of every device
  with one duty token per device, direction and kind of cell (barrier, send, receive). Every cell's invariant is
  allocated from its counter at zero, all devices' at once, and the names are collected. The tokens are then dealt to the
  devices that PAY them: the token of device `n`'s barrier duty `e` and of its receive duty `e` go to the neighbour
  `nbr e n`, for which they are the duties of direction `opp e`; the send token stays. A device without a neighbour in
  a direction lets that direction's tokens go.
-/
import proofs.«900441_g7700000000000442_dist_halo3d_v7x_xyz2x4x4_s64_f32_1_alg».proof.Proof.K.HaloData
import proofs.«900441_g7700000000000442_dist_halo3d_v7x_xyz2x4x4_s64_f32_1_alg».proof.Proof.K.HaloWaits

noncomputable section

namespace Cert.Kernel.Halo

open Cert.Kernel Cert.Kernel.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (outAt : Dev nD → (cc0_stg1_0 : Ref sig .tc).ty.Contents (Elt F))

/-! ## The cells and the tokens -/

/-- The kernel's own (scoped) semaphores: the six send and six receive semaphores, cell numbers 1 … 12. -/
abbrev osem : Fin 12 → SemLoc sig := fun k => csem k.succ

theorem ownSemFacts : Pipeline.OwnSemFacts cfg0.spec osem := by decide

theorem share_eq (c : Dev nD) (w : Fin cfg0.W) : (dats m outAt 0 c).share w = fullShare := by
  unfold Dat.share; split <;> rfl

theorem kcell_injective : Function.Injective (kcell : Dev nD × Fin 13 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def haloCells : Finset (GSem nD τ sig) := Finset.univ.map ⟨kcell, kcell_injective⟩

theorem kcell_bar (n : Dev nD) : kcell (n, kBar) = barCell n := rfl
theorem kcell_send (n : Dev nD) (d : Fin 6) : kcell (n, kSend d) = sendCell n d := by
  show ((n : Thread nD τ), csem (kSend d)) = _; rw [csem_send]
theorem kcell_recv (n : Dev nD) (d : Fin 6) : kcell (n, kRecv d) = recvCell n d := by
  show ((n : Thread nD τ), csem (kRecv d)) = _; rw [csem_recv]

/-- The three duty tokens of device `x.1` for direction `x.2`, as minted. -/
abbrev tokB (x : Dev nD × Fin 6) : sProp 𝕄 := dutyTok ER (barCell x.1) 0 x.2
abbrev tokS (x : Dev nD × Fin 6) : sProp 𝕄 := dutyTok ER (sendCell x.1 x.2) 0 x.2
abbrev tokR (x : Dev nD × Fin 6) : sProp 𝕄 := dutyTok ER (recvCell x.1 x.2) 0 x.2

abbrev tokOf (x : Dev nD × Fin 6 × Fin 3) : GSem nD τ sig × ℕ × Fin 6 := match x.2.2 with
  | 0 => (barCell x.1, 0, x.2.1) | 1 => (sendCell x.1 x.2.1, 0, x.2.1) | 2 => (recvCell x.1 x.2.1, 0, x.2.1)

theorem tokOf_injective : Function.Injective (tokOf : Dev nD × Fin 6 × Fin 3 → GSem nD τ sig × ℕ × Fin 6) := by
  rintro ⟨c, d, j⟩ ⟨c', d', j'⟩ h
  have h1 : c = c' := by
    have := congrArg (fun x : GSem nD τ sig × ℕ × Fin 6 => x.1.1.1) h
    fin_cases j <;> fin_cases j' <;> exact this
  subst h1
  have h2 : d = d' := by
    have := congrArg (fun x : GSem nD τ sig × ℕ × Fin 6 => x.2.2) h
    fin_cases j <;> fin_cases j' <;> exact this
  subst h2
  have h3 := congrArg (fun x : GSem nD τ sig × ℕ × Fin 6 => x.1.2) h
  have : j = j' := by
    fin_cases j <;> fin_cases j' <;> first
      | rfl
      | exact absurd h3 (send_ne_bar _).symm
      | exact absurd h3 (send_ne_bar _)
      | exact absurd h3 (recv_ne_bar _).symm
      | exact absurd h3 (recv_ne_bar _)
      | exact absurd h3 (send_ne_recv _ _)
      | exact absurd h3 (recv_ne_send _ _)
  subst this; rfl

def haloToks : Finset (GSem nD τ sig × ℕ × Fin 6) := Finset.univ.map ⟨tokOf, tokOf_injective⟩

def u₀ : UU :=
  (initOf (Pipeline.cells cfgs cellOf_inj) (Pipeline.launchToks cfgs cellOf_inj), initOf haloCells haloToks)

/-- The duty tokens of device `c`'s own cells. -/
def toks (c : Dev nD) : sProp 𝕄 :=
  bigSep Finset.univ fun d : Fin 6 => iprop(tokB (F := F) (c, d) ∗ tokS (F := F) (c, d) ∗ tokR (F := F) (c, d))

/-- What the launch element deals device `c`. -/
def G (c : Dev nD) : sProp 𝕄 :=
  iprop((bigSep Finset.univ fun k : Fin 13 => roundState ER (haloRd m) (kcell (c, k)) 0)
    ∗ (bigSep Finset.univ fun k : Fin 13 => iprop(atPos ER (kcell (c, k)) 0 ∅ 0 ∗ reached ER (kcell (c, k)) 0)) ∗ toks (F := F) c)

/-- What the global step makes of it. -/
def G' (c : Dev nD) : sProp 𝕄 := iprop(∃ K, ghost m K c)

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin6 (Φ : Fin 6 → sProp 𝕄) : bigSep Finset.univ Φ = sep6 Φ :=
  bigSep_univ_eq_bigSepL [0, 1, 2, 3, 4, 5] (by decide) (by decide) Φ

theorem fund_halo : BI.own (ER (initOf haloCells haloToks)) ⊢ (|==> bigSep Finset.univ (G m) : sProp 𝕄) := by
  have hX (Φ : GSem nD τ sig → sProp 𝕄) : bigSep haloCells Φ = bigSep Finset.univ fun c : Dev nD => bigSep Finset.univ fun k : Fin 13 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by
      unfold toks; rw [bigSep_univ_prod]
      exact bigSep_congr fun d _ => by rw [bigSep_fin3]; rfl
  iintro HX
  imod (Rounds.fund ER (haloRd m) haloCells haloToks) $$ HX with ⟨Hst, Hr, Hat, Htok⟩
  imodintro
  ihave Hst' := (Entails.of_eq (hX fun g => roundState ER (haloRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Thirteen cells: the barrier cell, six send cells, six receive cells -/

/-- Cell numbers against "barrier, or send `d`, or receive `d`". -/
def cellSum : Fin 13 ≃ Unit ⊕ (Fin 6 ⊕ Fin 6) where
  toFun k := if h0 : k.val = 0 then .inl () else if h1 : k.val < 7 then .inr (.inl ⟨k.val - 1, by omega⟩)
    else .inr (.inr ⟨k.val - 7, by have := k.isLt; omega⟩)
  invFun := Sum.elim (fun _ => kBar) (Sum.elim kSend kRecv)
  left_inv := by decide
  right_inv := by decide

/-- Something said of each of a device's thirteen cells, sorted by kind. -/
theorem bigSep_cells (Φ : Fin 13 → sProp 𝕄) :
    bigSep Finset.univ Φ
      = iprop(Φ kBar ∗ (bigSep Finset.univ fun d : Fin 6 => Φ (kSend d)) ∗ bigSep Finset.univ fun d : Fin 6 => Φ (kRecv d)) := by
  rw [bigSep_univ_equiv cellSum.symm Φ, bigSep_univ_sum, bigSep_univ_sum, bigSep_univ_of_subsingleton ()]
  rfl

/-- The kernel's own twelve semaphores sorted: six send, six receive. -/
def own12 : Fin 6 ⊕ Fin 6 → Fin 12 :=
  Sum.elim (fun d => (⟨d.val, by omega⟩ : Fin 12)) (fun d => (⟨6 + d.val, by omega⟩ : Fin 12))
theorem own12_injective : Function.Injective own12 := by decide
theorem univ12 : (Finset.univ : Finset (Fin 12)) = (Finset.univ : Finset (Fin 6 ⊕ Fin 6)).map ⟨own12, own12_injective⟩ := by decide

/-- The send and receive semaphores are the kernel's own twelve; -/
theorem ownSems0_eq (c : Dev nD) : (Pipeline.ownSems0 (Ix := Unit) (Name := ℕ) (U := UU) (Lvl := ℕ) (Val := Elt F) (τ := τ) osem c : sProp 𝕄)
    = iprop((bigSep Finset.univ fun d : Fin 6 => semVal (kcell (c, kSend d)) 0) ∗ bigSep Finset.univ fun d : Fin 6 => semVal (kcell (c, kRecv d)) 0) := by
  unfold Pipeline.ownSems0
  rw [univ12, bigSep_map, bigSep_univ_sum]
  refine congrArg₂ _ (bigSep_congr fun d _ => ?_) (bigSep_congr fun d _ => ?_)
  · show semVal ((c : Thread nD τ), csem (Fin.succ ⟨d.val, _⟩)) 0 = semVal ((c : Thread nD τ), csem (kSend d)) 0
    exact congrArg (fun k => semVal ((c : Thread nD τ), csem k) 0) (Fin.ext (by show d.val + 1 = 1 + d.val; omega))
  · show semVal ((c : Thread nD τ), csem (Fin.succ ⟨6 + d.val, _⟩)) 0 = semVal ((c : Thread nD τ), csem (kRecv d)) 0
    exact congrArg (fun k => semVal ((c : Thread nD τ), csem k) 0) (Fin.ext (by show 6 + d.val + 1 = 7 + d.val; omega))

/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [ownSems0_eq, unscopedSems0_eq, bigSep_cells]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0) ∗ bigSep Finset.univ fun k : Fin 13 => roundState ER (haloRd m) (kcell (c, k)) 0)
      ⊢ (|={Set.univ}=> bigSep Finset.univ fun k => iprop(∃ κ : ℕ, cellInv ER (haloRd m) κ (kcell (c, k))) : sProp 𝕄) from by
        rw [← bigSep_sep']
        exact (bigSep_mono fun k _ => (Rounds.body_intro ER (haloRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The names collected, and what every device reads of them -/

def records (K : Dev nD × Fin 13 → ℕ) : sProp 𝕄 :=
  iprop((bigSep Finset.univ fun ck : Dev nD × Fin 13 => cellInv ER (haloRd m) (K ck) (kcell ck))
    ∗ bigSep Finset.univ fun ck : Dev nD × Fin 13 => reached ER (kcell ck) 0)

instance records_persistent (K : Dev nD × Fin 13 → ℕ) : BI.Persistent (records m K) := by unfold records; infer_instance

theorem inv_at (K : Dev nD × Fin 13 → ℕ) (ck : Dev nD × Fin 13) :
    (bigSep Finset.univ fun ck : Dev nD × Fin 13 => (cellInv ER (haloRd m) (K ck) (kcell ck) : sProp 𝕄)) ⊢ cellInv ER (haloRd m) (K ck) (kcell ck) :=
  bigSep_elim (Finset.mem_univ ck)
theorem reached_at (ck : Dev nD × Fin 13) :
    (bigSep Finset.univ fun ck : Dev nD × Fin 13 => (reached ER (kcell ck) 0 : sProp 𝕄)) ⊢ reached ER (kcell ck) 0 :=
  bigSep_elim (Finset.mem_univ ck)

theorem inv_bar (K : Dev nD × Fin 13 → ℕ) (n : Dev nD) : records m K ⊢ cellInv ER (haloRd m) (K (n, kBar)) (barCell n) := by
  unfold records; iintro ⟨#HI, -⟩; iapply (inv_at m K (n, kBar)); iexact HI
theorem inv_send (K : Dev nD × Fin 13 → ℕ) (n : Dev nD) (d : Fin 6) : records m K ⊢ cellInv ER (haloRd m) (K (n, kSend d)) (sendCell n d) := by
  rw [← kcell_send n d]; unfold records; iintro ⟨#HI, -⟩; iapply (inv_at m K (n, kSend d)); iexact HI
theorem inv_recv (K : Dev nD × Fin 13 → ℕ) (n : Dev nD) (d : Fin 6) : records m K ⊢ cellInv ER (haloRd m) (K (n, kRecv d)) (recvCell n d) := by
  rw [← kcell_recv n d]; unfold records; iintro ⟨#HI, -⟩; iapply (inv_at m K (n, kRecv d)); iexact HI
theorem reached_bar (K : Dev nD × Fin 13 → ℕ) (n : Dev nD) : records m K ⊢ reached ER (barCell n) 0 := by
  unfold records; iintro ⟨-, #HR⟩; iapply (reached_at (F := F) (n, kBar)); iexact HR
theorem reached_send (K : Dev nD × Fin 13 → ℕ) (n : Dev nD) (d : Fin 6) : records m K ⊢ reached ER (sendCell n d) 0 := by
  rw [← kcell_send n d]; unfold records; iintro ⟨-, #HR⟩; iapply (reached_at (F := F) (n, kSend d)); iexact HR
theorem reached_recv (K : Dev nD × Fin 13 → ℕ) (n : Dev nD) (d : Fin 6) : records m K ⊢ reached ER (recvCell n d) 0 := by
  rw [← kcell_recv n d]; unfold records; iintro ⟨-, #HR⟩; iapply (reached_at (F := F) (n, kRecv d)); iexact HR

theorem persDir_intro (K : Dev nD × Fin 13 → ℕ) (c : Dev nD) (d : Fin 6) : records m K ⊢ persDir m K c d := by
  unfold persDir
  iintro #H
  isplitr; · iapply (inv_bar m K (nbr d c)); iexact H
  isplitr; · iapply (inv_recv m K (nbr d c) (opp d)); iexact H
  isplitr; · iapply (inv_send m K c d); iexact H
  isplitr; · iapply (inv_recv m K c d); iexact H
  isplitr; · iapply (reached_bar m K (nbr d c)); iexact H
  isplitr; · iapply (reached_recv m K (nbr d c) (opp d)); iexact H
  isplitr; · iapply (reached_send m K c d); iexact H
  iapply (reached_recv m K c d); iexact H

theorem pers_intro (K : Dev nD × Fin 13 → ℕ) (c : Dev nD) : records m K ⊢ pers m K c := by
  unfold pers
  rw [← bigSep_fin6]
  iintro #H
  isplitr; · iapply (inv_bar m K c); iexact H
  iapply (bigSep_intro_persistent fun d _ => persDir_intro m K c d); iexact H

/-! ## The tokens dealt to the devices that pay them -/

/-- The pair (device, direction) seen from the other end: the neighbour and the opposite direction; a pair without a
    neighbour is left where it is. -/
def flip (x : Dev nD × Fin 6) : Dev nD × Fin 6 := if has x.2 x.1 = true then (nbr x.2 x.1, opp x.2) else x
theorem flip_flip : ∀ x : Dev nD × Fin 6, flip (flip x) = x := by decide
def flipE : Dev nD × Fin 6 ≃ Dev nD × Fin 6 := ⟨flip, flip, flip_flip, flip_flip⟩

/-- The three tokens device `x.1` pays with in direction `x.2`. -/
abbrev payB (x : Dev nD × Fin 6) : sProp 𝕄 := onDir x.1 x.2 (dutyTok ER (barCell (nbr x.2 x.1)) 0 (opp x.2))
abbrev payR (x : Dev nD × Fin 6) : sProp 𝕄 := onDir x.1 x.2 (dutyTok ER (recvCell (nbr x.2 x.1) (opp x.2)) 0 (opp x.2))
abbrev payS (x : Dev nD × Fin 6) : sProp 𝕄 := onDir x.1 x.2 (dutyTok ER (sendCell x.1 x.2) 0 x.2)

def payToks (c : Dev nD) : sProp 𝕄 :=
  bigSep Finset.univ fun d : Fin 6 => iprop(payB (F := F) (c, d) ∗ payR (F := F) (c, d) ∗ payS (F := F) (c, d))

theorem tokB_flip (x : Dev nD × Fin 6) : tokB (F := F) (flipE x) ⊢ payB (F := F) x := by
  show tokB (F := F) (flip x) ⊢ onDir x.1 x.2 _
  unfold flip onDir
  by_cases h : has x.2 x.1 = true
  · rw [if_pos h, if_pos h]
  · rw [if_neg h, if_neg h]; iintro -; iempintro

theorem tokR_flip (x : Dev nD × Fin 6) : tokR (F := F) (flipE x) ⊢ payR (F := F) x := by
  show tokR (F := F) (flip x) ⊢ onDir x.1 x.2 _
  unfold flip onDir
  by_cases h : has x.2 x.1 = true
  · rw [if_pos h, if_pos h]
  · rw [if_neg h, if_neg h]; iintro -; iempintro

theorem tokS_pay (x : Dev nD × Fin 6) : tokS (F := F) x ⊢ payS (F := F) x := by
  show _ ⊢ onDir x.1 x.2 _
  unfold onDir
  by_cases h : has x.2 x.1 = true
  · rw [if_pos h]
  · rw [if_neg h]; iintro -; iempintro

theorem toks_around : (bigSep Finset.univ fun c : Dev nD => (toks c : sProp 𝕄)) ⊢ bigSep Finset.univ fun c : Dev nD => payToks c := by
  unfold toks payToks
  rw [← bigSep_univ_prod (fun x : Dev nD × Fin 6 => iprop(tokB (F := F) x ∗ tokS (F := F) x ∗ tokR (F := F) x)),
    ← bigSep_univ_prod (fun x : Dev nD × Fin 6 => iprop(payB (F := F) x ∗ payR (F := F) x ∗ payS (F := F) x)),
    bigSep_sep', bigSep_sep', bigSep_sep', bigSep_sep',
    bigSep_univ_equiv flipE (fun x => tokB (F := F) x), bigSep_univ_equiv flipE (fun x => tokR (F := F) x)]
  have hB : (bigSep Finset.univ fun x : Dev nD × Fin 6 => tokB (F := F) (flipE x)) ⊢ bigSep Finset.univ fun x => payB (F := F) x :=
    bigSep_mono fun x _ => tokB_flip (F := F) x
  have hR : (bigSep Finset.univ fun x : Dev nD × Fin 6 => tokR (F := F) (flipE x)) ⊢ bigSep Finset.univ fun x => payR (F := F) x :=
    bigSep_mono fun x _ => tokR_flip (F := F) x
  have hS : (bigSep Finset.univ fun x : Dev nD × Fin 6 => tokS (F := F) x) ⊢ bigSep Finset.univ fun x => payS (F := F) x :=
    bigSep_mono fun x _ => tokS_pay (F := F) x
  iintro ⟨HB, HS, HR⟩
  isplitl [HB]; · iapply hB; iexact HB
  isplitl [HR]; · iapply hR; iexact HR
  iapply hS; iexact HS

/-! ## What stays with a device, and its ghost state -/

abbrev linear (c : Dev nD) : sProp 𝕄 :=
  iprop((bigSep Finset.univ fun k : Fin 13 => atPos ER (kcell (c, k)) 0 ∅ 0) ∗ payToks (F := F) c)

theorem linDirs_intro (c : Dev nD) :
    linear (F := F) c ⊢ iprop(atPos ER (barCell c) 0 ∅ 0 ∗ sep6 (linDir (F := F) c)) := by
  have eS : (bigSep Finset.univ fun d : Fin 6 => (atPos ER (kcell (c, kSend d)) 0 ∅ 0 : sProp 𝕄))
      = bigSep Finset.univ fun d : Fin 6 => atPos ER (sendCell c d) 0 ∅ 0 :=
    bigSep_congr fun d _ => congrArg (fun g => (atPos ER g 0 ∅ 0 : sProp 𝕄)) (kcell_send c d)
  have eR : (bigSep Finset.univ fun d : Fin 6 => (atPos ER (kcell (c, kRecv d)) 0 ∅ 0 : sProp 𝕄))
      = bigSep Finset.univ fun d : Fin 6 => atPos ER (recvCell c d) 0 ∅ 0 :=
    bigSep_congr fun d _ => congrArg (fun g => (atPos ER g 0 ∅ 0 : sProp 𝕄)) (kcell_recv c d)
  unfold linear payToks
  rw [bigSep_cells, eS, eR, ← bigSep_fin6]
  unfold linDir
  simp only [bigSep_sep']
  iintro ⟨⟨HaB, HaS, HaR⟩, HtB, HtR, HtS⟩
  isplitl [HaB]; · iexact HaB
  isplitl [HtB]; · iexact HtB
  isplitl [HtR]; · iexact HtR
  isplitl [HtS]; · iexact HtS
  isplitl [HaS] <;> iassumption

theorem ghost_intro (K : Dev nD × Fin 13 → ℕ) (c : Dev nD) : iprop(records m K ∗ linear (F := F) c) ⊢ G' m c := by
  unfold G' ghost
  iintro ⟨#HR, HL⟩
  iexists K
  isplitr; · iapply (pers_intro m K c); iexact HR
  iapply (linDirs_intro (F := F) c); iexact HL

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × Fin 13 => iprop(∃ κ : ℕ, cellInv ER (haloRd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (haloRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Fin 13 => (atPos ER (kcell (c, k)) 0 ∅ 0 : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.Kernel.Halo.fund_halo' depends on axioms: [propext, Classical.choice, Quot.sound] -/
#guard_msgs in #print axioms fund_halo

/-- info: 'Cert.Kernel.Halo.glob' depends on axioms: [propext, Classical.choice, Quot.sound] -/
#guard_msgs in #print axioms glob

end Cert.Kernel.Halo

end
-- ==== Proof.K.HaloLaunchCred.lean ====
/-
  The launch of the halo exchange, second part: the launch credit.

  Every unit a device owes at launch stands at a cell of one of its neighbours: in each direction `d` with a neighbour,
  one unit at the neighbour's barrier cell and a plane's credit at the neighbour's receive cell `opp d`. Summed over the
  devices, a device's barrier cell is owed one unit by each of its neighbours — as many units as it has neighbours — and
  its receive cell `h` a plane's credit exactly when it has a neighbour in direction `h`. These sums are the credit
  tokens the launch deals the device.
-/
import proofs.«900441_g7700000000000442_dist_halo3d_v7x_xyz2x4x4_s64_f32_1_alg».proof.Proof.K.HaloGhost

noncomputable section

namespace Cert.Kernel.Halo

open Cert.Kernel Cert.Kernel.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## What one device owes one cell -/

theorem barCell_inj {a b : Dev nD} (h : barCell a = barCell b) : a = b :=
  Fin.ext (congrArg (fun g : GSem nD τ sig => g.1.1.val) h)
theorem recvCell_inj {a b : Dev nD} {d e : Fin 6} (h : recvCell a d = recvCell b e) : a = b ∧ d = e :=
  ⟨Fin.ext (congrArg (fun g : GSem nD τ sig => g.1.1.val) h), recv_inj d e (congrArg Prod.snd h)⟩

/-- Device `n`'s direction `d` leads to device `c`; and with `opp d = h` besides. -/
def bq (n : Dev nD) (d : Fin 6) (c : Dev nD) : ℕ := if has d n = true ∧ nbr d n = c then 1 else 0
def rq (n : Dev nD) (d : Fin 6) (c : Dev nD) (h : Fin 6) : ℕ := if has d n = true ∧ nbr d n = c ∧ opp d = h then 1 else 0

theorem sigOwe_bar (n : Dev nD) (d : Fin 6) (c : Dev nD) : sigOwe n d (barCell c) () = bq n d c := by
  unfold sigOwe bq
  by_cases hd : has d n = true
  · rw [if_pos hd, tallyAt_apply]
    by_cases hc : nbr d n = c
    · rw [if_pos ⟨by rw [hc], rfl⟩, if_pos ⟨hd, hc⟩]
    · rw [if_neg (fun h => hc (barCell_inj h.1).symm), if_neg (fun h => hc h.2)]
  · rw [if_neg hd, if_neg (fun h => hd h.1)]; rfl

theorem sndOwe_bar (n : Dev nD) (d : Fin 6) (c : Dev nD) : sndOwe n d (barCell c) () = 0 := by
  unfold sndOwe
  by_cases hd : has d n = true
  · rw [if_pos hd, tallyAt_ne_cell (fun h => recv_ne_bar _ (congrArg Prod.snd h).symm)]; rfl
  · rw [if_neg hd]; rfl

theorem sigOwe_recv (n : Dev nD) (d : Fin 6) (c : Dev nD) (h : Fin 6) : sigOwe n d (recvCell c h) () = 0 := by
  unfold sigOwe
  by_cases hd : has d n = true
  · rw [if_pos hd, tallyAt_ne_cell (fun e => recv_ne_bar _ (congrArg Prod.snd e))]; rfl
  · rw [if_neg hd]; rfl

theorem sndOwe_recv (n : Dev nD) (d : Fin 6) (c : Dev nD) (h : Fin 6) : sndOwe n d (recvCell c h) () = rq n d c h * N := by
  unfold sndOwe rq
  by_cases hd : has d n = true
  · rw [if_pos hd, tallyAt_apply]
    by_cases hc : nbr d n = c ∧ opp d = h
    · rw [if_pos ⟨by rw [hc.1, hc.2], rfl⟩, if_pos ⟨hd, hc⟩, Nat.one_mul]
    · rw [if_neg (fun e => hc ⟨(recvCell_inj e.1).1.symm, (recvCell_inj e.1).2.symm⟩), if_neg (fun e => hc e.2), Nat.zero_mul]
  · rw [if_neg hd, if_neg (fun e => hd e.1), Nat.zero_mul]; rfl

theorem owed_bar (n c : Dev nD) :
    O₀ n (barCell c) () = bq n 5 c + bq n 4 c + bq n 3 c + bq n 2 c + bq n 1 c + bq n 0 c := by
  unfold O₀
  simp only [Pi.add_apply, Finsupp.add_apply, Pi.zero_apply, Finsupp.coe_zero, sigOwe_bar, sndOwe_bar, Nat.zero_add, Nat.add_zero]

theorem owed_recv (n c : Dev nD) (h : Fin 6) :
    O₀ n (recvCell c h) () = (rq n 5 c h + rq n 4 c h + rq n 3 c h + rq n 2 c h + rq n 1 c h + rq n 0 c h) * N := by
  unfold O₀
  simp only [Pi.add_apply, Finsupp.add_apply, Pi.zero_apply, Finsupp.coe_zero, sigOwe_recv, sndOwe_recv, Nat.zero_add, Nat.add_zero,
    Nat.add_mul]

/-! ## Summed over the devices -/

theorem bar_count : ∀ c : Dev nD,
    (∑ n : Dev nD, (bq n 5 c + bq n 4 c + bq n 3 c + bq n 2 c + bq n 1 c + bq n 0 c)) = nNbr c := by decide +kernel

theorem recv_count : ∀ (c : Dev nD) (h : Fin 6),
    (∑ n : Dev nD, (rq n 5 c h + rq n 4 c h + rq n 3 c h + rq n 2 c h + rq n 1 c h + rq n 0 c h))
      = if has h c = true then 1 else 0 := by decide +kernel

theorem launch_bar (c : Dev nD) :
    tallyOn (barCell c) (launchCredit (Pipeline.owing O₀) 0 (barCell c)) = (tallyAt (barCell c) () (nNbr c) : CellTallies nD τ sig Unit) := by
  unfold tallyAt; refine congrArg _ (Finsupp.ext fun u => ?_); cases u
  rw [Pipeline.launchCredit_owing, Finsupp.single_eq_same, Finset.sum_congr rfl fun n _ => owed_bar n c, bar_count]

theorem launch_recv (c : Dev nD) (h : Fin 6) :
    tallyOn (recvCell c h) (launchCredit (Pipeline.owing O₀) 0 (recvCell c h))
      = (tallyAt (recvCell c h) () ((if has h c = true then 1 else 0) * N) : CellTallies nD τ sig Unit) := by
  unfold tallyAt; refine congrArg _ (Finsupp.ext fun u => ?_); cases u
  rw [Pipeline.launchCredit_owing, Finsupp.single_eq_same, Finset.sum_congr rfl fun n _ => owed_recv n c h, ← Finset.sum_mul, recv_count]

/-! ## The credit tokens a device is dealt -/

/-- The seven cells of a device that are owed anything: its barrier cell and its six receive cells. -/
def owedSem : Unit ⊕ Fin 6 → SemLoc sig := Sum.elim (fun _ => .reg barS) (fun h => .dma (recvSem h))
theorem owedSem_injective : Function.Injective owedSem := by
  rintro (a | a) (b | b) h
  · rfl
  · exact absurd h.symm (recv_ne_bar b)
  · exact absurd h (recv_ne_bar a)
  · rw [recv_inj a b h]

theorem cred_recv (c : Dev nD) (h : Fin 6) :
    (cred (tallyAt (recvCell c h) () ((if has h c = true then 1 else 0) * N)) : sProp 𝕄) = credDir (F := F) c h := by
  unfold credDir onDir
  by_cases hh : has h c = true
  · rw [if_pos hh, if_pos hh, Nat.one_mul]
  · rw [if_neg hh, if_neg hh, Nat.zero_mul]
    have : (tallyAt (recvCell c h) () 0 : CellTallies nD τ sig Unit) = 0 := by
      unfold tallyAt tallyOn; simp
    rw [this]
    exact cred_zero

theorem creds (c : Dev nD) :
    (Pipeline.launchCred O₀ c : sProp 𝕄) ⊢ iprop(cred (tallyAt (barCell c) () (nNbr c)) ∗ sep6 (credDir (F := F) c)) := by
  unfold Pipeline.launchCred
  refine (bigSep_subset (Finset.subset_univ (Finset.univ.map ⟨owedSem, owedSem_injective⟩))).trans ?_
  rw [bigSep_map, bigSep_univ_sum, bigSep_univ_of_subsingleton ()]
  have e6 : ∀ Φ : Fin 6 → sProp 𝕄, bigSep Finset.univ Φ = sep6 Φ := fun Φ =>
    bigSep_univ_eq_bigSepL [0, 1, 2, 3, 4, 5] (by decide) (by decide) Φ
  have eR : (bigSep Finset.univ fun h : Fin 6 =>
        (cred (tallyOn (recvCell c h) (launchCredit (Pipeline.owing O₀) 0 (recvCell c h))) : sProp 𝕄))
      = bigSep Finset.univ fun h : Fin 6 => credDir (F := F) c h :=
    bigSep_congr fun h _ => by rw [launch_recv, cred_recv]
  have e : (iprop(cred (tallyOn (barCell c) (launchCredit (Pipeline.owing O₀) 0 (barCell c)))
      ∗ bigSep Finset.univ fun h : Fin 6 => cred (tallyOn (recvCell c h) (launchCredit (Pipeline.owing O₀) 0 (recvCell c h)))) : sProp 𝕄)
      = iprop(cred (tallyAt (barCell c) () (nNbr c)) ∗ sep6 (credDir (F := F) c)) := by
    rw [launch_bar, eR, e6]
  exact Entails.of_eq e

/-- info: 'Cert.Kernel.Halo.creds' depends on axioms: [propext, Classical.choice, Quot.sound] -/
#guard_msgs in #print axioms creds

end Cert.Kernel.Halo

end
-- ==== Proof.K.HaloLaunch.lean ====
/-
  The launch of the halo exchange, last part: what every device's body starts from and hands back, the pipeline's own
  waits, and the run of @main read back at the two arrays.
-/
import proofs.«900441_g7700000000000442_dist_halo3d_v7x_xyz2x4x4_s64_f32_1_alg».proof.Proof.K.HaloLaunchAlloc
import proofs.«900441_g7700000000000442_dist_halo3d_v7x_xyz2x4x4_s64_f32_1_alg».proof.Proof.K.HaloLaunchCred
import proofs.«900441_g7700000000000442_dist_halo3d_v7x_xyz2x4x4_s64_f32_1_alg».proof.Proof.Gen.Kernel.Points

noncomputable section

namespace Cert.Kernel.Halo

open Cert.Kernel Cert.Kernel.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (outAt : Dev nD → (cc0_stg1_0 : Ref sig .tc).ty.Contents (Elt F))

/-! ## The scratch planes and the own semaphores, as the launch hands them over and takes them back -/

/-- The twelve scratch planes, one by one. -/
theorem rest_eq (c : Dev nD) :
    (Pipeline.scopedRest (Ix := Unit) (Name := ℕ) (U := UU) (Lvl := ℕ) (Val := Elt F) cfg0.spec c : sProp 𝕄)
      = iprop((∃ f, haloPts (F := F) c 0 f) ∗ (∃ f, haloPts (F := F) c 1 f) ∗ (∃ f, haloPts (F := F) c 2 f)
          ∗ (∃ f, haloPts (F := F) c 3 f) ∗ (∃ f, haloPts (F := F) c 4 f) ∗ (∃ f, haloPts (F := F) c 5 f)
          ∗ (∃ f, stagePts (F := F) c 0 f) ∗ (∃ f, stagePts (F := F) c 1 f) ∗ (∃ f, stagePts (F := F) c 2 f)
          ∗ (∃ f, stagePts (F := F) c 3 f) ∗ (∃ f, stagePts (F := F) c 4 f) ∗ (∃ f, stagePts (F := F) c 5 f)) := by
  rw [scopedRest0_eq]; rfl

/-- The own semaphores at zero, sorted by kind. -/
theorem ownSems0_ownZero (c : Dev nD) :
    (Pipeline.ownSems0 (Ix := Unit) (Name := ℕ) (U := UU) (Lvl := ℕ) (Val := Elt F) (τ := τ) osem c : sProp 𝕄) = ownZero (F := F) c := by
  have eS : (bigSep Finset.univ fun d : Fin 6 => (semVal (kcell (c, kSend d)) 0 : sProp 𝕄))
      = bigSep Finset.univ fun d : Fin 6 => semVal (sendCell c d) 0 :=
    bigSep_congr fun d _ => congrArg (fun g => (semVal g 0 : sProp 𝕄)) (kcell_send c d)
  have eR : (bigSep Finset.univ fun d : Fin 6 => (semVal (kcell (c, kRecv d)) 0 : sProp 𝕄))
      = bigSep Finset.univ fun d : Fin 6 => semVal (recvCell c d) 0 :=
    bigSep_congr fun d _ => congrArg (fun g => (semVal g 0 : sProp 𝕄)) (kcell_recv c d)
  rw [ownSems0_eq, eS, eR, bigSep_fin6, bigSep_fin6]
  rfl

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m outAt 0 c).Φ 0 := by
  rw [show (dats m outAt 0 c).Φ 0 = Φ₀ m c from rfl, rest_eq]
  unfold Φ₀ scratch
  iintro ⟨Hs, -, A0, A1, A2, A3, A4, A5, B0, B1, B2, B3, B4, B5⟩
  isplitl [Hs]; · iexact Hs
  isplitl [A0 A1 A2 A3 A4 A5]
  · isplitl [A0]; · iexact A0
    isplitl [A1]; · iexact A1
    isplitl [A2]; · iexact A2
    isplitl [A3]; · iexact A3
    isplitl [A4]; · iexact A4
    iexact A5
  · isplitl [B0]; · iexact B0
    isplitl [B1]; · iexact B1
    isplitl [B2]; · iexact B2
    isplitl [B3]; · iexact B3
    isplitl [B4]; · iexact B4
    iexact B5

theorem phi1_exit (c : Dev nD) :
    (dats m outAt 0 c).Φ (Fin.last cfg0.N) ⊢ iprop(emp ∗ Pipeline.ownSems0 osem c ∗ Pipeline.scopedRest cfg0.spec c) := by
  rw [show (dats m outAt 0 c).Φ (Fin.last cfg0.N) = Φ₁ (F := F) c from rfl, rest_eq, ownSems0_ownZero]
  unfold Φ₁ scratch
  iintro ⟨⟨⟨A0, A1, A2, A3, A4, A5⟩, B0, B1, B2, B3, B4, B5⟩, HZ⟩
  isplitr; · iempintro
  isplitl [HZ]; · iexact HZ
  isplitl [A0]; · iexact A0
  isplitl [A1]; · iexact A1
  isplitl [A2]; · iexact A2
  isplitl [A3]; · iexact A3
  isplitl [A4]; · iexact A4
  isplitl [A5]; · iexact A5
  isplitl [B0]; · iexact B0
  isplitl [B1]; · iexact B1
  isplitl [B2]; · iexact B2
  isplitl [B3]; · iexact B3
  isplitl [B4]; · iexact B4
  iexact B5

/-- The pipeline's own waits, on its two staging cells, are on cells of level 0. -/
theorem waits (c : Dev nD) : (levAts L lv : sProp 𝕄) ⊢ Pipeline.cellsWaits cfgs (dats m outAt) () 0 c :=
  Pipeline.cellsWaits_intro cfgs (dats m outAt) () 0 c fun w s t =>
    mayWait_low c _ (by fin_cases w <;> fin_cases s <;> decide) _ (by
      rcases t with ⟨_ | _, ht⟩
      · exact Or.inl rfl
      · exact Or.inr rfl)

/-! ## The run -/

/-- The output window's one block is the whole array: read back through it, an array is itself. -/
theorem read_out (c : Dev nD) (f : Buf (Elt F) ((c : Thread nD τ).loc main_v1)) :
    (win0_1.blk t0_0).view.read (Elt F) f = f :=
  Memref.read_access_unit_zero (Elt F) main_v1
    (show (fun a => (win0_1.index t0_0) a * main_v1.ty.shape.size a) = fun _ => 0 from
      funext fun a => by fin_cases a <;> decide) (fun a => by fin_cases a <;> decide) f

/-- What the output window writes back at the one point is what the body left (the window is uncut). -/
theorem flushed_out (c : Dev nD) : (dats m outAt 0 c).flushed 1 t0_0 = outAt c := by
  show (cfg0.win 1).cut _ ((dats m outAt 0 c).after 1 t0_0) = _
  exact funext fun _ => rfl

/-- The output array after the one point: the device's result, written over the whole array. -/
theorem final_out (c : Dev nD) : (dats m outAt 0 c).arrAt (1 : Fin 2) cfg0.N = outAt c := by
  have hw : ((cfg0.win 1).blk t0_0).view.read (Elt F) ((dats m outAt 0 c).arrAt 1 cfg0.N)
      = (dats m outAt 0 c).flushed 1 t0_0 := by
    rw [show cfg0.N = t0_0.val + 1 from rfl, (dats m outAt 0 c).arrAt_succ (1 : Fin 2) t0_0, flush0_1, if_pos rfl]
    exact View.read_write_univ _ _
  rw [flushed_out] at hw
  exact (read_out c _).symm.trans hw

set_option maxRecDepth 8000 in
/-- From any memory with zero counters, given the body's obligation on every device: every weakly fair execution of
    @main terminates with each device's result array at `outAt c` and its argument array unchanged. -/
theorem run_named (hbody : ∀ c, BodyObligation (dats (F := F) m outAt 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m outAt) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m outAt)
    (hdistinct := winFacts0.arr_inj)
    (O₀ := O₀) (howed₀ := fun _ => rfl) (howedN := fun _ => rfl)
    (L := L) (lv := lv) (hL := L_of_ne) (hwaits := waits m outAt)
    (G := G m) (G' := G' m) (u₀ := u₀)
    (hu₀ := by
      unfold u₀
      iintro Hu
      ihave H := (ownU_pair _ _) $$ Hu
      icases H with ⟨HP, HX⟩
      imod (fund_halo m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m outAt) (hout := phi1_exit m outAt)
    (QY := fun _ _ => True)
    (hY := fun c s' => by
      iintro ⟨-, -, HSI⟩
      imodintro
      isplitr; · ipureintro; trivial
      iexact HSI)
    (hQ := fun s h c => ⟨((h c).1 1).trans (final_out m outAt c),
      ((h c).1 0).trans ((dats (F := F) m outAt 0 c).arrAt_in (0 : Fin 2) rfl _)⟩)

/-- info: 'Cert.Kernel.Halo.run_named' depends on axioms: [propext, Classical.choice, Quot.sound] -/
#guard_msgs in #print axioms run_named

end Cert.Kernel.Halo

end
-- ==== Proof.K.HaloRules2.lean ====
/-
  The copy to a neighbour and the three waits of the halo exchange, each stated once for any device and direction,
  and the closing of a send or receive cell once its only round is over.
-/
import proofs.«900441_g7700000000000442_dist_halo3d_v7x_xyz2x4x4_s64_f32_1_alg».proof.Proof.K.HaloRules

noncomputable section

namespace Cert.Kernel.Halo

open Cert.Kernel Cert.Kernel.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The copy to a neighbour -/

omit [FloatOps F] in
theorem d_mem_send (c : Dev nD) (d : Fin 6) (hd : has d c = true) : d ∈ (haloRd (F := F) m).duties (sendCell c d) 0 := by
  rw [duties_send, if_pos hd]; exact Finset.mem_singleton_self _
omit [FloatOps F] in
theorem opp_mem_recv (c : Dev nD) (d : Fin 6) (hd : has d c = true) :
    opp d ∈ (haloRd (F := F) m).duties (recvCell (nbr d c) (opp d)) 0 := by
  rw [duties_recv, if_pos (has_opp_nbr d c hd)]; exact Finset.mem_singleton_self _

omit [FloatOps F] in
/-- What lands in the neighbour's plane `opp d` is `c`'s boundary plane `d`. -/
theorem landed_nbr (c : Dev nD) (d : Fin 6) (hd : has d c = true) : landed m (nbr d c) (opp d) = faceOf (xstg m c) d := by
  unfold landed; rw [nbr_opp_nbr d c hd, opp_opp]

/-- The copy in direction 0, over the two planes' own buffers. -/
private theorem wp_snd_0 (c : Dev nD) (hd : has 0 c = true)
    {hsc : ((Memref.whole cc0_scratch1 : Memref sig .tc .vmem S1x64x64 .f32) : Memref sig (Dev.tc (nbr 0 c) : Thread nD τ).2.kind .vmem S1x64x64 .f32).view.ref.isScScratch = false}
    {hsrc : (Memref.whole cc0_scratch6 : Memref sig .tc .vmem S1x64x64 .f32).view.WordExact} {hdst : (Memref.whole cc0_scratch1 : Memref sig .tc .vmem S1x64x64 .f32).view.WordExact}
    {hsem : DmaTarget.Typed .vmem (.dma (recvSem 1)) (.remote (Dev.tc (nbr 0 c) : Thread nD τ) (Memref.whole cc0_scratch1 : Memref sig .tc .vmem S1x64x64 .f32) (.dma (sendSem 0)) hsc)}
    {α : Type} {Q : α → sProp 𝕄} {k : PUnit → Prog (TpuEff nD τ sig (Elt F) Λ₀ .tc) α}
    (κ₁ κ₂ : ℕ) (fn : FVec F S1x64x64 .f32) (O : CellTallies nD τ sig Unit) (W : Waits sig Unit) :
    iprop(cellInv ER (haloRd m) κ₁ (sendCell c 0) ∗ cellInv ER (haloRd m) κ₂ (recvCell (nbr 0 c) 1)
        ∗ (((c : Thread nD τ).loc cc0_scratch6) ↦{fullShare} (faceOf (xstg m c) 0))
        ∗ (((nbr 0 c : Thread nD τ).loc cc0_scratch1) ↦{fullShare} fn)
        ∗ owes (c : Thread nD τ) (O + tallyAt (recvCell (nbr 0 c) 1) () N) W
        ∗ dutyTok ER (sendCell c 0) 0 0 ∗ reached ER (sendCell c 0) 0
        ∗ dutyTok ER (recvCell (nbr 0 c) 1) 0 1 ∗ reached ER (recvCell (nbr 0 c) 1) 0)
      ⊢ iprop(((cred (tallyAt (sendCell c 0) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch6 : Memref sig .tc .vmem S1x64x64 .f32) (.remote (Dev.tc (nbr 0 c) : Thread nD τ) (Memref.whole cc0_scratch1 : Memref sig .tc .vmem S1x64x64 .f32) (.dma (sendSem 0)) hsc)
                (.dma (recvSem 1)) hsrc hdst hsem) k) Q) := by
  have hl : landed m (nbr 0 c) 1 = faceOf (xstg m c) 0 := landed_nbr m c 0 hd
  have eS : (Memref.whole cc0_scratch6 : Memref sig .tc .vmem S1x64x64 .f32).view.set = Finset.univ := View.set_whole _
  have eH : (Memref.whole cc0_scratch1 : Memref sig .tc .vmem S1x64x64 .f32).view.set = Finset.univ := View.set_whole _
  have key := Rounds.wp_send_pointsTo (defs := defs₀ (F := F)) (Γ := .empty) (Q := Q) 𝒱₀ ER (haloRd m) (c : Thread nD τ) none
    (c' := (nbr 0 c : Thread nD τ)) (src := (Memref.whole cc0_scratch6 : Memref sig .tc .vmem S1x64x64 .f32)) (dst := (Memref.whole cc0_scratch1 : Memref sig .tc .vmem S1x64x64 .f32)) (hsc := hsc) (sS := .dma (sendSem 0)) (sem := .dma (recvSem 1))
    (hsrc := hsrc) (hdst := hdst) (hsem := hsem) (k := k) (q := fullShare) (fs := faceOf (xstg m c) 0) (fd := fn)
    (r₁ := 0) (r₂ := 0) (d₁ := 0) (d₂ := 1) (κ₁ := κ₁) (κ₂ := κ₂)
    (d_mem_send m c 0 hd) (opp_mem_recv m c 0 hd) () () N rfl (amount_send m c 0 0) (amount_recv m (nbr 0 c) 1 1)
    O rfl (W := W) (Es := Set.univ)
    (by rw [payload_send, eS]
        show _ ⊢ iprop(∃ f, (((c : Thread nD τ).loc cc0_scratch6) ↦{fullShare} f))
        iintro H; iexists _; iexact H)
    (by rw [payload_recv, eH]
        unfold recvPay
        rw [hl]
        show ((((nbr 0 c : Thread nD τ).loc cc0_scratch1) ↦{fullShare}
            ((View.whole cc0_scratch1).write (Elt F) fn (faceOf (xstg m c) 0) Finset.univ)) : sProp 𝕄)
          ⊢ (((nbr 0 c : Thread nD τ).loc cc0_scratch1) ↦{fullShare} (faceOf (xstg m c) 0))
        rw [View.write_whole_univ])
  rw [eS, eH] at key
  exact key

/-- The copy in direction 1, over the two planes' own buffers. -/
private theorem wp_snd_1 (c : Dev nD) (hd : has 1 c = true)
    {hsc : ((Memref.whole cc0_scratch0 : Memref sig .tc .vmem S1x64x64 .f32) : Memref sig (Dev.tc (nbr 1 c) : Thread nD τ).2.kind .vmem S1x64x64 .f32).view.ref.isScScratch = false}
    {hsrc : (Memref.whole cc0_scratch7 : Memref sig .tc .vmem S1x64x64 .f32).view.WordExact} {hdst : (Memref.whole cc0_scratch0 : Memref sig .tc .vmem S1x64x64 .f32).view.WordExact}
    {hsem : DmaTarget.Typed .vmem (.dma (recvSem 0)) (.remote (Dev.tc (nbr 1 c) : Thread nD τ) (Memref.whole cc0_scratch0 : Memref sig .tc .vmem S1x64x64 .f32) (.dma (sendSem 1)) hsc)}
    {α : Type} {Q : α → sProp 𝕄} {k : PUnit → Prog (TpuEff nD τ sig (Elt F) Λ₀ .tc) α}
    (κ₁ κ₂ : ℕ) (fn : FVec F S1x64x64 .f32) (O : CellTallies nD τ sig Unit) (W : Waits sig Unit) :
    iprop(cellInv ER (haloRd m) κ₁ (sendCell c 1) ∗ cellInv ER (haloRd m) κ₂ (recvCell (nbr 1 c) 0)
        ∗ (((c : Thread nD τ).loc cc0_scratch7) ↦{fullShare} (faceOf (xstg m c) 1))
        ∗ (((nbr 1 c : Thread nD τ).loc cc0_scratch0) ↦{fullShare} fn)
        ∗ owes (c : Thread nD τ) (O + tallyAt (recvCell (nbr 1 c) 0) () N) W
        ∗ dutyTok ER (sendCell c 1) 0 1 ∗ reached ER (sendCell c 1) 0
        ∗ dutyTok ER (recvCell (nbr 1 c) 0) 0 0 ∗ reached ER (recvCell (nbr 1 c) 0) 0)
      ⊢ iprop(((cred (tallyAt (sendCell c 1) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch7 : Memref sig .tc .vmem S1x64x64 .f32) (.remote (Dev.tc (nbr 1 c) : Thread nD τ) (Memref.whole cc0_scratch0 : Memref sig .tc .vmem S1x64x64 .f32) (.dma (sendSem 1)) hsc)
                (.dma (recvSem 0)) hsrc hdst hsem) k) Q) := by
  have hl : landed m (nbr 1 c) 0 = faceOf (xstg m c) 1 := landed_nbr m c 1 hd
  have eS : (Memref.whole cc0_scratch7 : Memref sig .tc .vmem S1x64x64 .f32).view.set = Finset.univ := View.set_whole _
  have eH : (Memref.whole cc0_scratch0 : Memref sig .tc .vmem S1x64x64 .f32).view.set = Finset.univ := View.set_whole _
  have key := Rounds.wp_send_pointsTo (defs := defs₀ (F := F)) (Γ := .empty) (Q := Q) 𝒱₀ ER (haloRd m) (c : Thread nD τ) none
    (c' := (nbr 1 c : Thread nD τ)) (src := (Memref.whole cc0_scratch7 : Memref sig .tc .vmem S1x64x64 .f32)) (dst := (Memref.whole cc0_scratch0 : Memref sig .tc .vmem S1x64x64 .f32)) (hsc := hsc) (sS := .dma (sendSem 1)) (sem := .dma (recvSem 0))
    (hsrc := hsrc) (hdst := hdst) (hsem := hsem) (k := k) (q := fullShare) (fs := faceOf (xstg m c) 1) (fd := fn)
    (r₁ := 0) (r₂ := 0) (d₁ := 1) (d₂ := 0) (κ₁ := κ₁) (κ₂ := κ₂)
    (d_mem_send m c 1 hd) (opp_mem_recv m c 1 hd) () () N rfl (amount_send m c 1 1) (amount_recv m (nbr 1 c) 0 0)
    O rfl (W := W) (Es := Set.univ)
    (by rw [payload_send, eS]
        show _ ⊢ iprop(∃ f, (((c : Thread nD τ).loc cc0_scratch7) ↦{fullShare} f))
        iintro H; iexists _; iexact H)
    (by rw [payload_recv, eH]
        unfold recvPay
        rw [hl]
        show ((((nbr 1 c : Thread nD τ).loc cc0_scratch0) ↦{fullShare}
            ((View.whole cc0_scratch0).write (Elt F) fn (faceOf (xstg m c) 1) Finset.univ)) : sProp 𝕄)
          ⊢ (((nbr 1 c : Thread nD τ).loc cc0_scratch0) ↦{fullShare} (faceOf (xstg m c) 1))
        rw [View.write_whole_univ])
  rw [eS, eH] at key
  exact key

/-- The copy in direction 2, over the two planes' own buffers. -/
private theorem wp_snd_2 (c : Dev nD) (hd : has 2 c = true)
    {hsc : ((Memref.whole cc0_scratch3 : Memref sig .tc .vmem S1x64x64 .f32) : Memref sig (Dev.tc (nbr 2 c) : Thread nD τ).2.kind .vmem S1x64x64 .f32).view.ref.isScScratch = false}
    {hsrc : (Memref.whole cc0_scratch8 : Memref sig .tc .vmem S1x64x64 .f32).view.WordExact} {hdst : (Memref.whole cc0_scratch3 : Memref sig .tc .vmem S1x64x64 .f32).view.WordExact}
    {hsem : DmaTarget.Typed .vmem (.dma (recvSem 3)) (.remote (Dev.tc (nbr 2 c) : Thread nD τ) (Memref.whole cc0_scratch3 : Memref sig .tc .vmem S1x64x64 .f32) (.dma (sendSem 2)) hsc)}
    {α : Type} {Q : α → sProp 𝕄} {k : PUnit → Prog (TpuEff nD τ sig (Elt F) Λ₀ .tc) α}
    (κ₁ κ₂ : ℕ) (fn : FVec F S1x64x64 .f32) (O : CellTallies nD τ sig Unit) (W : Waits sig Unit) :
    iprop(cellInv ER (haloRd m) κ₁ (sendCell c 2) ∗ cellInv ER (haloRd m) κ₂ (recvCell (nbr 2 c) 3)
        ∗ (((c : Thread nD τ).loc cc0_scratch8) ↦{fullShare} (faceOf (xstg m c) 2))
        ∗ (((nbr 2 c : Thread nD τ).loc cc0_scratch3) ↦{fullShare} fn)
        ∗ owes (c : Thread nD τ) (O + tallyAt (recvCell (nbr 2 c) 3) () N) W
        ∗ dutyTok ER (sendCell c 2) 0 2 ∗ reached ER (sendCell c 2) 0
        ∗ dutyTok ER (recvCell (nbr 2 c) 3) 0 3 ∗ reached ER (recvCell (nbr 2 c) 3) 0)
      ⊢ iprop(((cred (tallyAt (sendCell c 2) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch8 : Memref sig .tc .vmem S1x64x64 .f32) (.remote (Dev.tc (nbr 2 c) : Thread nD τ) (Memref.whole cc0_scratch3 : Memref sig .tc .vmem S1x64x64 .f32) (.dma (sendSem 2)) hsc)
                (.dma (recvSem 3)) hsrc hdst hsem) k) Q) := by
  have hl : landed m (nbr 2 c) 3 = faceOf (xstg m c) 2 := landed_nbr m c 2 hd
  have eS : (Memref.whole cc0_scratch8 : Memref sig .tc .vmem S1x64x64 .f32).view.set = Finset.univ := View.set_whole _
  have eH : (Memref.whole cc0_scratch3 : Memref sig .tc .vmem S1x64x64 .f32).view.set = Finset.univ := View.set_whole _
  have key := Rounds.wp_send_pointsTo (defs := defs₀ (F := F)) (Γ := .empty) (Q := Q) 𝒱₀ ER (haloRd m) (c : Thread nD τ) none
    (c' := (nbr 2 c : Thread nD τ)) (src := (Memref.whole cc0_scratch8 : Memref sig .tc .vmem S1x64x64 .f32)) (dst := (Memref.whole cc0_scratch3 : Memref sig .tc .vmem S1x64x64 .f32)) (hsc := hsc) (sS := .dma (sendSem 2)) (sem := .dma (recvSem 3))
    (hsrc := hsrc) (hdst := hdst) (hsem := hsem) (k := k) (q := fullShare) (fs := faceOf (xstg m c) 2) (fd := fn)
    (r₁ := 0) (r₂ := 0) (d₁ := 2) (d₂ := 3) (κ₁ := κ₁) (κ₂ := κ₂)
    (d_mem_send m c 2 hd) (opp_mem_recv m c 2 hd) () () N rfl (amount_send m c 2 2) (amount_recv m (nbr 2 c) 3 3)
    O rfl (W := W) (Es := Set.univ)
    (by rw [payload_send, eS]
        show _ ⊢ iprop(∃ f, (((c : Thread nD τ).loc cc0_scratch8) ↦{fullShare} f))
        iintro H; iexists _; iexact H)
    (by rw [payload_recv, eH]
        unfold recvPay
        rw [hl]
        show ((((nbr 2 c : Thread nD τ).loc cc0_scratch3) ↦{fullShare}
            ((View.whole cc0_scratch3).write (Elt F) fn (faceOf (xstg m c) 2) Finset.univ)) : sProp 𝕄)
          ⊢ (((nbr 2 c : Thread nD τ).loc cc0_scratch3) ↦{fullShare} (faceOf (xstg m c) 2))
        rw [View.write_whole_univ])
  rw [eS, eH] at key
  exact key

/-- The copy in direction 3, over the two planes' own buffers. -/
private theorem wp_snd_3 (c : Dev nD) (hd : has 3 c = true)
    {hsc : ((Memref.whole cc0_scratch2 : Memref sig .tc .vmem S1x64x64 .f32) : Memref sig (Dev.tc (nbr 3 c) : Thread nD τ).2.kind .vmem S1x64x64 .f32).view.ref.isScScratch = false}
    {hsrc : (Memref.whole cc0_scratch9 : Memref sig .tc .vmem S1x64x64 .f32).view.WordExact} {hdst : (Memref.whole cc0_scratch2 : Memref sig .tc .vmem S1x64x64 .f32).view.WordExact}
    {hsem : DmaTarget.Typed .vmem (.dma (recvSem 2)) (.remote (Dev.tc (nbr 3 c) : Thread nD τ) (Memref.whole cc0_scratch2 : Memref sig .tc .vmem S1x64x64 .f32) (.dma (sendSem 3)) hsc)}
    {α : Type} {Q : α → sProp 𝕄} {k : PUnit → Prog (TpuEff nD τ sig (Elt F) Λ₀ .tc) α}
    (κ₁ κ₂ : ℕ) (fn : FVec F S1x64x64 .f32) (O : CellTallies nD τ sig Unit) (W : Waits sig Unit) :
    iprop(cellInv ER (haloRd m) κ₁ (sendCell c 3) ∗ cellInv ER (haloRd m) κ₂ (recvCell (nbr 3 c) 2)
        ∗ (((c : Thread nD τ).loc cc0_scratch9) ↦{fullShare} (faceOf (xstg m c) 3))
        ∗ (((nbr 3 c : Thread nD τ).loc cc0_scratch2) ↦{fullShare} fn)
        ∗ owes (c : Thread nD τ) (O + tallyAt (recvCell (nbr 3 c) 2) () N) W
        ∗ dutyTok ER (sendCell c 3) 0 3 ∗ reached ER (sendCell c 3) 0
        ∗ dutyTok ER (recvCell (nbr 3 c) 2) 0 2 ∗ reached ER (recvCell (nbr 3 c) 2) 0)
      ⊢ iprop(((cred (tallyAt (sendCell c 3) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch9 : Memref sig .tc .vmem S1x64x64 .f32) (.remote (Dev.tc (nbr 3 c) : Thread nD τ) (Memref.whole cc0_scratch2 : Memref sig .tc .vmem S1x64x64 .f32) (.dma (sendSem 3)) hsc)
                (.dma (recvSem 2)) hsrc hdst hsem) k) Q) := by
  have hl : landed m (nbr 3 c) 2 = faceOf (xstg m c) 3 := landed_nbr m c 3 hd
  have eS : (Memref.whole cc0_scratch9 : Memref sig .tc .vmem S1x64x64 .f32).view.set = Finset.univ := View.set_whole _
  have eH : (Memref.whole cc0_scratch2 : Memref sig .tc .vmem S1x64x64 .f32).view.set = Finset.univ := View.set_whole _
  have key := Rounds.wp_send_pointsTo (defs := defs₀ (F := F)) (Γ := .empty) (Q := Q) 𝒱₀ ER (haloRd m) (c : Thread nD τ) none
    (c' := (nbr 3 c : Thread nD τ)) (src := (Memref.whole cc0_scratch9 : Memref sig .tc .vmem S1x64x64 .f32)) (dst := (Memref.whole cc0_scratch2 : Memref sig .tc .vmem S1x64x64 .f32)) (hsc := hsc) (sS := .dma (sendSem 3)) (sem := .dma (recvSem 2))
    (hsrc := hsrc) (hdst := hdst) (hsem := hsem) (k := k) (q := fullShare) (fs := faceOf (xstg m c) 3) (fd := fn)
    (r₁ := 0) (r₂ := 0) (d₁ := 3) (d₂ := 2) (κ₁ := κ₁) (κ₂ := κ₂)
    (d_mem_send m c 3 hd) (opp_mem_recv m c 3 hd) () () N rfl (amount_send m c 3 3) (amount_recv m (nbr 3 c) 2 2)
    O rfl (W := W) (Es := Set.univ)
    (by rw [payload_send, eS]
        show _ ⊢ iprop(∃ f, (((c : Thread nD τ).loc cc0_scratch9) ↦{fullShare} f))
        iintro H; iexists _; iexact H)
    (by rw [payload_recv, eH]
        unfold recvPay
        rw [hl]
        show ((((nbr 3 c : Thread nD τ).loc cc0_scratch2) ↦{fullShare}
            ((View.whole cc0_scratch2).write (Elt F) fn (faceOf (xstg m c) 3) Finset.univ)) : sProp 𝕄)
          ⊢ (((nbr 3 c : Thread nD τ).loc cc0_scratch2) ↦{fullShare} (faceOf (xstg m c) 3))
        rw [View.write_whole_univ])
  rw [eS, eH] at key
  exact key

/-- The copy in direction 4, over the two planes' own buffers. -/
private theorem wp_snd_4 (c : Dev nD) (hd : has 4 c = true)
    {hsc : ((Memref.whole cc0_scratch5 : Memref sig .tc .vmem S1x64x64 .f32) : Memref sig (Dev.tc (nbr 4 c) : Thread nD τ).2.kind .vmem S1x64x64 .f32).view.ref.isScScratch = false}
    {hsrc : (Memref.whole cc0_scratch10 : Memref sig .tc .vmem S1x64x64 .f32).view.WordExact} {hdst : (Memref.whole cc0_scratch5 : Memref sig .tc .vmem S1x64x64 .f32).view.WordExact}
    {hsem : DmaTarget.Typed .vmem (.dma (recvSem 5)) (.remote (Dev.tc (nbr 4 c) : Thread nD τ) (Memref.whole cc0_scratch5 : Memref sig .tc .vmem S1x64x64 .f32) (.dma (sendSem 4)) hsc)}
    {α : Type} {Q : α → sProp 𝕄} {k : PUnit → Prog (TpuEff nD τ sig (Elt F) Λ₀ .tc) α}
    (κ₁ κ₂ : ℕ) (fn : FVec F S1x64x64 .f32) (O : CellTallies nD τ sig Unit) (W : Waits sig Unit) :
    iprop(cellInv ER (haloRd m) κ₁ (sendCell c 4) ∗ cellInv ER (haloRd m) κ₂ (recvCell (nbr 4 c) 5)
        ∗ (((c : Thread nD τ).loc cc0_scratch10) ↦{fullShare} (faceOf (xstg m c) 4))
        ∗ (((nbr 4 c : Thread nD τ).loc cc0_scratch5) ↦{fullShare} fn)
        ∗ owes (c : Thread nD τ) (O + tallyAt (recvCell (nbr 4 c) 5) () N) W
        ∗ dutyTok ER (sendCell c 4) 0 4 ∗ reached ER (sendCell c 4) 0
        ∗ dutyTok ER (recvCell (nbr 4 c) 5) 0 5 ∗ reached ER (recvCell (nbr 4 c) 5) 0)
      ⊢ iprop(((cred (tallyAt (sendCell c 4) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch10 : Memref sig .tc .vmem S1x64x64 .f32) (.remote (Dev.tc (nbr 4 c) : Thread nD τ) (Memref.whole cc0_scratch5 : Memref sig .tc .vmem S1x64x64 .f32) (.dma (sendSem 4)) hsc)
                (.dma (recvSem 5)) hsrc hdst hsem) k) Q) := by
  have hl : landed m (nbr 4 c) 5 = faceOf (xstg m c) 4 := landed_nbr m c 4 hd
  have eS : (Memref.whole cc0_scratch10 : Memref sig .tc .vmem S1x64x64 .f32).view.set = Finset.univ := View.set_whole _
  have eH : (Memref.whole cc0_scratch5 : Memref sig .tc .vmem S1x64x64 .f32).view.set = Finset.univ := View.set_whole _
  have key := Rounds.wp_send_pointsTo (defs := defs₀ (F := F)) (Γ := .empty) (Q := Q) 𝒱₀ ER (haloRd m) (c : Thread nD τ) none
    (c' := (nbr 4 c : Thread nD τ)) (src := (Memref.whole cc0_scratch10 : Memref sig .tc .vmem S1x64x64 .f32)) (dst := (Memref.whole cc0_scratch5 : Memref sig .tc .vmem S1x64x64 .f32)) (hsc := hsc) (sS := .dma (sendSem 4)) (sem := .dma (recvSem 5))
    (hsrc := hsrc) (hdst := hdst) (hsem := hsem) (k := k) (q := fullShare) (fs := faceOf (xstg m c) 4) (fd := fn)
    (r₁ := 0) (r₂ := 0) (d₁ := 4) (d₂ := 5) (κ₁ := κ₁) (κ₂ := κ₂)
    (d_mem_send m c 4 hd) (opp_mem_recv m c 4 hd) () () N rfl (amount_send m c 4 4) (amount_recv m (nbr 4 c) 5 5)
    O rfl (W := W) (Es := Set.univ)
    (by rw [payload_send, eS]
        show _ ⊢ iprop(∃ f, (((c : Thread nD τ).loc cc0_scratch10) ↦{fullShare} f))
        iintro H; iexists _; iexact H)
    (by rw [payload_recv, eH]
        unfold recvPay
        rw [hl]
        show ((((nbr 4 c : Thread nD τ).loc cc0_scratch5) ↦{fullShare}
            ((View.whole cc0_scratch5).write (Elt F) fn (faceOf (xstg m c) 4) Finset.univ)) : sProp 𝕄)
          ⊢ (((nbr 4 c : Thread nD τ).loc cc0_scratch5) ↦{fullShare} (faceOf (xstg m c) 4))
        rw [View.write_whole_univ])
  rw [eS, eH] at key
  exact key

/-- The copy in direction 5, over the two planes' own buffers. -/
private theorem wp_snd_5 (c : Dev nD) (hd : has 5 c = true)
    {hsc : ((Memref.whole cc0_scratch4 : Memref sig .tc .vmem S1x64x64 .f32) : Memref sig (Dev.tc (nbr 5 c) : Thread nD τ).2.kind .vmem S1x64x64 .f32).view.ref.isScScratch = false}
    {hsrc : (Memref.whole cc0_scratch11 : Memref sig .tc .vmem S1x64x64 .f32).view.WordExact} {hdst : (Memref.whole cc0_scratch4 : Memref sig .tc .vmem S1x64x64 .f32).view.WordExact}
    {hsem : DmaTarget.Typed .vmem (.dma (recvSem 4)) (.remote (Dev.tc (nbr 5 c) : Thread nD τ) (Memref.whole cc0_scratch4 : Memref sig .tc .vmem S1x64x64 .f32) (.dma (sendSem 5)) hsc)}
    {α : Type} {Q : α → sProp 𝕄} {k : PUnit → Prog (TpuEff nD τ sig (Elt F) Λ₀ .tc) α}
    (κ₁ κ₂ : ℕ) (fn : FVec F S1x64x64 .f32) (O : CellTallies nD τ sig Unit) (W : Waits sig Unit) :
    iprop(cellInv ER (haloRd m) κ₁ (sendCell c 5) ∗ cellInv ER (haloRd m) κ₂ (recvCell (nbr 5 c) 4)
        ∗ (((c : Thread nD τ).loc cc0_scratch11) ↦{fullShare} (faceOf (xstg m c) 5))
        ∗ (((nbr 5 c : Thread nD τ).loc cc0_scratch4) ↦{fullShare} fn)
        ∗ owes (c : Thread nD τ) (O + tallyAt (recvCell (nbr 5 c) 4) () N) W
        ∗ dutyTok ER (sendCell c 5) 0 5 ∗ reached ER (sendCell c 5) 0
        ∗ dutyTok ER (recvCell (nbr 5 c) 4) 0 4 ∗ reached ER (recvCell (nbr 5 c) 4) 0)
      ⊢ iprop(((cred (tallyAt (sendCell c 5) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch11 : Memref sig .tc .vmem S1x64x64 .f32) (.remote (Dev.tc (nbr 5 c) : Thread nD τ) (Memref.whole cc0_scratch4 : Memref sig .tc .vmem S1x64x64 .f32) (.dma (sendSem 5)) hsc)
                (.dma (recvSem 4)) hsrc hdst hsem) k) Q) := by
  have hl : landed m (nbr 5 c) 4 = faceOf (xstg m c) 5 := landed_nbr m c 5 hd
  have eS : (Memref.whole cc0_scratch11 : Memref sig .tc .vmem S1x64x64 .f32).view.set = Finset.univ := View.set_whole _
  have eH : (Memref.whole cc0_scratch4 : Memref sig .tc .vmem S1x64x64 .f32).view.set = Finset.univ := View.set_whole _
  have key := Rounds.wp_send_pointsTo (defs := defs₀ (F := F)) (Γ := .empty) (Q := Q) 𝒱₀ ER (haloRd m) (c : Thread nD τ) none
    (c' := (nbr 5 c : Thread nD τ)) (src := (Memref.whole cc0_scratch11 : Memref sig .tc .vmem S1x64x64 .f32)) (dst := (Memref.whole cc0_scratch4 : Memref sig .tc .vmem S1x64x64 .f32)) (hsc := hsc) (sS := .dma (sendSem 5)) (sem := .dma (recvSem 4))
    (hsrc := hsrc) (hdst := hdst) (hsem := hsem) (k := k) (q := fullShare) (fs := faceOf (xstg m c) 5) (fd := fn)
    (r₁ := 0) (r₂ := 0) (d₁ := 5) (d₂ := 4) (κ₁ := κ₁) (κ₂ := κ₂)
    (d_mem_send m c 5 hd) (opp_mem_recv m c 5 hd) () () N rfl (amount_send m c 5 5) (amount_recv m (nbr 5 c) 4 4)
    O rfl (W := W) (Es := Set.univ)
    (by rw [payload_send, eS]
        show _ ⊢ iprop(∃ f, (((c : Thread nD τ).loc cc0_scratch11) ↦{fullShare} f))
        iintro H; iexists _; iexact H)
    (by rw [payload_recv, eH]
        unfold recvPay
        rw [hl]
        show ((((nbr 5 c : Thread nD τ).loc cc0_scratch4) ↦{fullShare}
            ((View.whole cc0_scratch4).write (Elt F) fn (faceOf (xstg m c) 5) Finset.univ)) : sProp 𝕄)
          ⊢ (((nbr 5 c : Thread nD τ).loc cc0_scratch4) ↦{fullShare} (faceOf (xstg m c) 5))
        rw [View.write_whole_univ])
  rw [eS, eH] at key
  exact key

/-- The copy of boundary plane `d` into the direction-`d` neighbour's halo plane `opp d`: it takes the boundary plane at
    `c`'s own face and the neighbour's plane (received with the barrier), pays the neighbour's receive cell, and leaves
    the credit for `c`'s send cell. The program's memrefs and semaphores are given with their equations to the names here. -/
theorem wp_snd (c n : Dev nD) (d : Fin 6) (hd : has d c = true) (hn : n = nbr d c)
    (src dst : Memref sig .tc .vmem S1x64x64 .f32) (hs : src = stageM d) (hdm : dst = haloM (opp d))
    (sS sR : SemLoc sig) (hsS : sS = .dma (sendSem d)) (hsR : sR = .dma (recvSem (opp d)))
    {hsc : (dst : Memref sig (Dev.tc n : Thread nD τ).2.kind .vmem S1x64x64 .f32).view.ref.isScScratch = false}
    {hsrc : src.view.WordExact} {hdst : dst.view.WordExact}
    {hsem : DmaTarget.Typed .vmem sR (.remote (Dev.tc n : Thread nD τ) dst sS hsc)}
    {α : Type} {Q : α → sProp 𝕄} {k : PUnit → Prog (TpuEff nD τ sig (Elt F) Λ₀ .tc) α}
    (κ₁ κ₂ : ℕ) (fn : FVec F S1x64x64 .f32) (O : CellTallies nD τ sig Unit) (W : Waits sig Unit) :
    iprop(cellInv ER (haloRd m) κ₁ (sendCell c d) ∗ cellInv ER (haloRd m) κ₂ (recvCell (nbr d c) (opp d))
        ∗ stagePts c d (faceOf (xstg m c) d) ∗ haloPts (nbr d c) (opp d) fn
        ∗ owes (c : Thread nD τ) (O + tallyAt (recvCell (nbr d c) (opp d)) () N) W
        ∗ dutyTok ER (sendCell c d) 0 d ∗ reached ER (sendCell c d) 0
        ∗ dutyTok ER (recvCell (nbr d c) (opp d)) 0 (opp d) ∗ reached ER (recvCell (nbr d c) (opp d)) 0)
      ⊢ iprop(((cred (tallyAt (sendCell c d) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sR hsrc hdst hsem) k) Q) := by
  subst hn hs hdm hsS hsR
  revert hd hsc hsrc hdst hsem
  match d with
  | ⟨0, _⟩ => intro hd hsc hsrc hdst hsem; exact wp_snd_0 m c hd κ₁ κ₂ fn O W
  | ⟨1, _⟩ => intro hd hsc hsrc hdst hsem; exact wp_snd_1 m c hd κ₁ κ₂ fn O W
  | ⟨2, _⟩ => intro hd hsc hsrc hdst hsem; exact wp_snd_2 m c hd κ₁ κ₂ fn O W
  | ⟨3, _⟩ => intro hd hsc hsrc hdst hsem; exact wp_snd_3 m c hd κ₁ κ₂ fn O W
  | ⟨4, _⟩ => intro hd hsc hsrc hdst hsem; exact wp_snd_4 m c hd κ₁ κ₂ fn O W
  | ⟨5, _⟩ => intro hd hsc hsrc hdst hsem; exact wp_snd_5 m c hd κ₁ κ₂ fn O W

/-! ## The waits -/

omit [FloatOps F] in
/-- What the wait on receive cell `d` hands over: the one duty's payload. -/
theorem rest_recv (c : Dev nD) (d : Fin 6) (hd : has d c = true) :
    bigSep ((haloRd (F := F) m).duties (recvCell c d) 0 \ ∅) (fun e => (haloRd m).payload (recvCell c d) 0 e)
      = haloPts c d (landed m c d) := by
  rw [Finset.sdiff_empty, duties_recv, if_pos hd, bigSep_singleton, payload_recv]; rfl

omit [FloatOps F] in
/-- What the wait on send cell `d` hands over: the one duty's payload. -/
theorem rest_send (c : Dev nD) (d : Fin 6) (hd : has d c = true) :
    bigSep ((haloRd (F := F) m).duties (sendCell c d) 0 \ ∅) (fun e => (haloRd m).payload (sendCell c d) 0 e)
      = iprop(∃ f, stagePts c d f) := by
  rw [Finset.sdiff_empty, duties_send, if_pos hd, bigSep_singleton, payload_send]; rfl

omit [FloatOps F] in
/-- What the wait on the barrier cell hands over: every neighbour's payload. -/
theorem rest_bar (c : Dev nD) :
    bigSep ((haloRd (F := F) m).duties (barCell c) 0 \ ∅) (fun e => (haloRd m).payload (barCell c) 0 e)
      = bigSep (Finset.univ.filter fun d : Fin 6 => has d c = true) (fun d => barPay c d) := by
  rw [Finset.sdiff_empty, duties_bar]
  exact bigSep_congr fun d _ => payload_bar m c d

/-- The wait on receive cell `d`: halo plane `d` comes back holding the neighbour's boundary plane facing `c`. -/
theorem wp_wrecv (c : Dev nD) (d : Fin 6) (hd : has d c = true)
    {src : Memref sig .tc .vmem S1x64x64 .f32} {dst : Memref sig .tc .vmem S1x64x64 .f32}
    {hsrc : src.view.WordExact} {hdst : dst.view.WordExact} (sem : DmaSem sig) (hsem : sem = recvSem d)
    (hamt : dst.view.dmaCredit = N)
    {α : Type} {Q : α → sProp 𝕄} {k : PUnit → Prog (TpuEff nD τ sig (Elt F) Λ₀ .tc) α}
    (κ : ℕ) (W : Waits sig Unit) :
    iprop(cellInv ER (haloRd m) κ (recvCell c d) ∗ cred (tallyAt (recvCell c d) () N) ∗ owes (c : Thread nD τ) 0 W
        ∗ atPos ER (recvCell c d) 0 ∅ 0)
      ⊢ iprop(((owes (c : Thread nD τ) 0 (insert (SemLoc.dma (recvSem d), ()) W)
              ∗ atPos ER (recvCell c d) 1 ∅ 0 ∗ haloPts c d (landed m c d))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem src dst hsrc hdst) k) Q) := by
  subst hsem
  iintro ⟨#HI, Hc, HO, Hat⟩ Hk
  iapply (Rounds.wp_wait_rest_token 𝒱₀ ER (haloRd m) (c : Thread nD τ) none (κ := κ) (sm := .dma (recvSem d)) (k' := N)
      (fun K => (wpE_waitDma2_eq 𝒱₀ (c : Thread nD τ) none Set.univ K).trans (by rw [hamt])) (Set.mem_univ _) ()
      (O := 0) (W := W) (R := 0) (m := 0) (T := ∅)
      (by rw [Nat.zero_add, expect_recv m c d hd])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c d hd)) $$ Hpay
  iapply Hk
  isplitl [HO]; · iexact HO
  isplitl [Hat]; · iexact Hat
  iexact Hp

/-- The wait on send cell `d`: the boundary plane comes back. -/
theorem wp_wsend (c : Dev nD) (d : Fin 6) (hd : has d c = true)
    {src : Memref sig .tc .vmem S1x64x64 .f32} {dst : Memref sig .tc .vmem S1x64x64 .f32}
    {hsrc : src.view.WordExact} {hdst : dst.view.WordExact} (sem : DmaSem sig) (hsem : sem = sendSem d)
    (hamt : dst.view.dmaCredit = N)
    {α : Type} {Q : α → sProp 𝕄} {k : PUnit → Prog (TpuEff nD τ sig (Elt F) Λ₀ .tc) α}
    (κ : ℕ) (W : Waits sig Unit) :
    iprop(cellInv ER (haloRd m) κ (sendCell c d) ∗ cred (tallyAt (sendCell c d) () N) ∗ owes (c : Thread nD τ) 0 W
        ∗ atPos ER (sendCell c d) 0 ∅ 0)
      ⊢ iprop(((owes (c : Thread nD τ) 0 (insert (SemLoc.dma (sendSem d), ()) W)
              ∗ atPos ER (sendCell c d) 1 ∅ 0 ∗ (∃ f, stagePts c d f))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem src dst hsrc hdst) k) Q) := by
  subst hsem
  iintro ⟨#HI, Hc, HO, Hat⟩ Hk
  iapply (Rounds.wp_wait_rest_token 𝒱₀ ER (haloRd m) (c : Thread nD τ) none (κ := κ) (sm := .dma (sendSem d)) (k' := N)
      (fun K => (wpE_waitDma2_eq 𝒱₀ (c : Thread nD τ) none Set.univ K).trans (by rw [hamt])) (Set.mem_univ _) ()
      (O := 0) (W := W) (R := 0) (m := 0) (T := ∅)
      (by rw [Nat.zero_add, expect_send m c d hd])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c d hd)) $$ Hpay
  iapply Hk
  isplitl [HO]; · iexact HO
  isplitl [Hat]; · iexact Hat
  iexact Hp

/-- The wait on the device's own barrier cell, for as many units as it has neighbours, while it still owes `O`: every
    neighbour's payload comes with it. That the barrier cell sits below everything still owed is a hypothesis. -/
theorem wp_wbar (c : Dev nD) (L : GSem nD τ sig → Finset Unit) (lv : GSem nD τ sig → Unit → ℕ)
    (O : CellTallies nD τ sig Unit)
    (hmw : (levAts L lv : sProp 𝕄) ⊢ MayWait (c : Thread nD τ) (.reg barS) () O)
    {k' : ℕ} (hk : k' = nNbr c)
    {α : Type} {Q : α → sProp 𝕄} {k : PUnit → Prog (TpuEff nD τ sig (Elt F) Λ₀ .tc) α}
    (κ : ℕ) (W : Waits sig Unit) :
    iprop(cellInv ER (haloRd m) κ (barCell c) ∗ cred (tallyAt (barCell c) () (nNbr c)) ∗ owes (c : Thread nD τ) O W
        ∗ levAts L lv ∗ atPos ER (barCell c) 0 ∅ 0)
      ⊢ iprop(((owes (c : Thread nD τ) O (insert (SemLoc.reg barS, ()) W)
              ∗ atPos ER (barCell c) 1 ∅ 0
              ∗ bigSep (Finset.univ.filter fun d : Fin 6 => has d c = true) (fun d => barPay c d))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS k') k) Q) := by
  subst hk
  iintro ⟨#HI, Hc, HO, #Hlev, Hat⟩ Hk
  iapply (Rounds.wp_wait_rest_token 𝒱₀ ER (haloRd m) (c : Thread nD τ) none (κ := κ) (sm := .reg barS) (k' := nNbr c)
      (wpE_semWait_eq 𝒱₀ (c : Thread nD τ) none Set.univ) (Set.mem_univ _) ()
      (O := O) (W := W) (R := 0) (m := 0) (T := ∅)
      (by rw [Nat.zero_add, expect_bar])) $$ [Hc HO Hat]
  · isplitr; · iexact HI
    isplitl [Hc]; · iexact Hc
    isplitl [HO]; · iexact HO
    isplitr; · iapply hmw; iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-! ## Closing a send or receive cell -/

omit [FloatOps F] in
/-- From the round a device's send cell stops at, no round has a duty: round 1 on when it has the neighbour, round 0
    on when it has none. -/
theorem send_no_duty (c : Dev nD) (d : Fin 6) (R : ℕ) (hR : R = if has d c = true then 1 else 0) :
    ∀ r, R ≤ r → (haloRd (F := F) m).duties (sendCell c d) r = ∅ := by
  intro r hr
  by_cases hd : has d c = true
  · rw [if_pos hd] at hR; exact duties_later m _ r (by omega)
  · by_cases h0 : r = 0
    · subst h0; rw [duties_send, if_neg hd]
    · exact duties_later m _ r (by omega)

omit [FloatOps F] in
/-- The same for a receive cell. -/
theorem recv_no_duty (c : Dev nD) (d : Fin 6) (R : ℕ) (hR : R = if has d c = true then 1 else 0) :
    ∀ r, R ≤ r → (haloRd (F := F) m).duties (recvCell c d) r = ∅ := by
  intro r hr
  by_cases hd : has d c = true
  · rw [if_pos hd] at hR; exact duties_later m _ r (by omega)
  · by_cases h0 : r = 0
    · subst h0; rw [duties_recv, if_neg hd]
    · exact duties_later m _ r (by omega)

/-- The send cell closes: its counter, at zero, is the device's again. -/
theorem close_send (c : Dev nD) (d : Fin 6) (R : ℕ) (hR : R = if has d c = true then 1 else 0) (κ : ℕ) :
    iprop(cellInv ER (haloRd m) κ (sendCell c d) ∗ atPos ER (sendCell c d) R ∅ 0)
      ⊢ iprop(|={Set.univ}=> semVal (sendCell c d) 0) :=
  Rounds.cell_close ER (haloRd m) (Set.mem_univ κ) (fun h => h) (send_no_duty m c d R hR)

/-- The receive cell closes likewise. -/
theorem close_recv (c : Dev nD) (d : Fin 6) (R : ℕ) (hR : R = if has d c = true then 1 else 0) (κ : ℕ) :
    iprop(cellInv ER (haloRd m) κ (recvCell c d) ∗ atPos ER (recvCell c d) R ∅ 0)
      ⊢ iprop(|={Set.univ}=> semVal (recvCell c d) 0) :=
  Rounds.cell_close ER (haloRd m) (Set.mem_univ κ) (fun h => h) (recv_no_duty m c d R hR)

/-! ## Axioms -/

/-- info: 'Cert.Kernel.Halo.wp_snd' depends on axioms: [propext, Classical.choice, Quot.sound] -/
#guard_msgs in #print axioms wp_snd

/-- info: 'Cert.Kernel.Halo.wp_wrecv' depends on axioms: [propext, Classical.choice, Quot.sound] -/
#guard_msgs in #print axioms wp_wrecv

/-- info: 'Cert.Kernel.Halo.wp_wsend' depends on axioms: [propext, Classical.choice, Quot.sound] -/
#guard_msgs in #print axioms wp_wsend

/-- info: 'Cert.Kernel.Halo.wp_wbar' depends on axioms: [propext, Classical.choice, Quot.sound] -/
#guard_msgs in #print axioms wp_wbar

/-- info: 'Cert.Kernel.Halo.close_send' depends on axioms: [propext, Classical.choice, Quot.sound] -/
#guard_msgs in #print axioms close_send

/-- info: 'Cert.Kernel.Halo.close_recv' depends on axioms: [propext, Classical.choice, Quot.sound] -/
#guard_msgs in #print axioms close_recv

end Cert.Kernel.Halo

end
-- ==== Proof.K.HaloGuard2.lean ====
/-
  The device-dependent copy and waits of the halo exchange, each taken once for any device, and the barrier wait with
  what it hands over regrouped by direction.

  The copy in direction `d`, the wait on receive cell `d` and the wait on send cell `d` stand in the program under the
  test "the device has a neighbour in direction `d`". Each is stated here for the whole branch: what it needs and
  what it leaves carry the test inside them, so the same sentence holds whichever way the test goes. The barrier wait
  is not under a test; what it hands over, one payload per direction in which there is a neighbour, is restated as six
  things side by side, each held only if that direction has a neighbour.
-/
import proofs.«900441_g7700000000000442_dist_halo3d_v7x_xyz2x4x4_s64_f32_1_alg».proof.Proof.K.HaloRules2
import proofs.«900441_g7700000000000442_dist_halo3d_v7x_xyz2x4x4_s64_f32_1_alg».proof.Proof.K.HaloGhost

noncomputable section

namespace Cert.Kernel.Halo

open Cert.Kernel Cert.Kernel.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## Held only if, held only if not -/

omit [FloatOps F] in
/-- Something held only if there is a neighbour and the same thing held only if there is none: it is held. -/
theorem onDir_offDir (c : Dev nD) (d : Fin 6) (P : sProp 𝕄) : iprop(onDir c d P ∗ offDir c d P) ⊢ P := by
  unfold onDir offDir
  by_cases hd : has d c = true
  · rw [if_pos hd, if_pos hd]; iintro ⟨H, -⟩; iexact H
  · rw [if_neg hd, if_neg hd]; iintro ⟨-, H⟩; iexact H

omit [FloatOps F] in
/-- Halo plane `d`, whether it came back with the wait or was never given away. -/
theorem halo_merge (c : Dev nD) (d : Fin 6) :
    iprop(onDir c d iprop(∃ f, haloPts (F := F) c d f) ∗ offDir c d iprop(∃ f, haloPts (F := F) c d f))
      ⊢ iprop(∃ f, haloPts (F := F) c d f) := onDir_offDir c d _

omit [FloatOps F] in
/-- Boundary plane `d` likewise. -/
theorem stage_merge (c : Dev nD) (d : Fin 6) :
    iprop(onDir c d iprop(∃ f, stagePts (F := F) c d f) ∗ offDir c d iprop(∃ f, stagePts (F := F) c d f))
      ⊢ iprop(∃ f, stagePts (F := F) c d f) := onDir_offDir c d _

omit [FloatOps F] in
/-- What is held only if there is a neighbour may be weakened. -/
theorem onDir_mono (c : Dev nD) (d : Fin 6) {P P' : sProp 𝕄} (h : P ⊢ P') : onDir c d P ⊢ onDir c d P' := by
  unfold onDir
  by_cases hd : has d c = true
  · rw [if_pos hd, if_pos hd]; exact h
  · rw [if_neg hd, if_neg hd]

omit [FloatOps F] in
theorem offDir_mono (c : Dev nD) (d : Fin 6) {P P' : sProp 𝕄} (h : P ⊢ P') : offDir c d P ⊢ offDir c d P' := by
  unfold offDir
  by_cases hd : has d c = true
  · rw [if_pos hd, if_pos hd]
  · rw [if_neg hd, if_neg hd]; exact h

/-! ## Six directions side by side -/

omit [FloatOps F] in
/-- A product over all six directions, written out. -/
theorem bigSep_fin_six (Φ : Fin 6 → sProp 𝕄) : bigSep Finset.univ Φ = sep6 Φ := by
  rw [show (Finset.univ : Finset (Fin 6)) = {0, 1, 2, 3, 4, 5} by decide,
    bigSep_insert (by decide), bigSep_insert (by decide), bigSep_insert (by decide), bigSep_insert (by decide),
    bigSep_insert (by decide), bigSep_singleton]
  rfl

omit [FloatOps F] in
/-- A product over the directions in which the device has a neighbour is the six-fold product of things each held only
    if its direction has one. -/
theorem bigSep_dirs (c : Dev nD) (P : Fin 6 → sProp 𝕄) :
    bigSep (Finset.univ.filter fun d : Fin 6 => has d c = true) P = sep6 (fun d => onDir c d (P d)) := by
  rw [bigSep_filter, bigSep_fin_six]; rfl

omit [FloatOps F] in
/-- Of what one neighbour's signal hands over, the plane. -/
theorem barPay_plane (c : Dev nD) (d : Fin 6) :
    barPay (F := F) c d ⊢ iprop(∃ f, haloPts (F := F) (nbr d c) (opp d) f) := by
  unfold barPay
  iintro ⟨H, -⟩
  iexact H

omit [FloatOps F] in
/-- What the barrier wait hands over, by direction, keeping only the planes. -/
theorem bar_regroup (c : Dev nD) :
    bigSep (Finset.univ.filter fun d : Fin 6 => has d c = true) (fun d => barPay (F := F) c d)
      ⊢ sep6 (fun d => onDir c d iprop(∃ f, haloPts (F := F) (nbr d c) (opp d) f)) :=
  (bigSep_mono (fun d _ => barPay_plane c d)).trans (Entails.of_eq (bigSep_dirs c _))

/-! ## The barrier wait -/

/-- The wait on the device's own barrier cell while it still owes its six copies: every neighbour's plane facing it
    comes with it, one per direction. -/
theorem wp_wbar_g (c : Dev nD)
    (hmw : (levAts L lv : sProp 𝕄) ⊢ MayWait (c : Thread nD τ) (.reg barS) () (Osnd c))
    {k' : ℕ} (hk : k' = nNbr c)
    {α : Type} {Q : α → sProp 𝕄} {k : PUnit → Prog (TpuEff nD τ sig (Elt F) Λ₀ .tc) α}
    (κ : ℕ) (W : Waits sig Unit) :
    iprop(cellInv ER (haloRd m) κ (barCell c) ∗ cred (tallyAt (barCell c) () (nNbr c)) ∗ owes (c : Thread nD τ) (Osnd c) W
        ∗ levAts L lv ∗ atPos ER (barCell c) 0 ∅ 0)
      ⊢ iprop(((owes (c : Thread nD τ) (Osnd c) (insert (SemLoc.reg barS, ()) W)
              ∗ atPos ER (barCell c) 1 ∅ 0
              ∗ sep6 (fun d => onDir c d iprop(∃ f, haloPts (F := F) (nbr d c) (opp d) f)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS k') k) Q) := by
  iintro H Hk
  iapply (wp_wbar m c L lv (Osnd c) hmw hk κ W) $$ H
  iintro ⟨HO, Hat, Hp⟩
  iapply Hk
  isplitl [HO]; · iexact HO
  isplitl [Hat]; · iexact Hat
  iapply (bar_regroup c)
  iexact Hp

/-! ## The guarded copy -/

/-- The branch "if there is a neighbour in direction `d`, copy boundary plane `d` into its halo plane `opp d`": from what
    the device owes with that plane's credit among it, the two tokens and the neighbour's plane if there is a
    neighbour, and its own boundary plane, the rest `R` of the program runs owing the credit less, holding its send
    cell's credit if there was a neighbour and the boundary plane itself if there was none. -/
theorem wp_snd_g (c : Dev nD) (d : Fin 6) {C : Prop} [Decidable C] (hC : C ↔ has d c = true)
    (n : C → Dev nD) (hn : ∀ h, n h = nbr d c)
    (src dst : Memref sig .tc .vmem S1x64x64 .f32) (hs : src = stageM d) (hdm : dst = haloM (opp d))
    (sS sR : SemLoc sig) (hsS : sS = .dma (sendSem d)) (hsR : sR = .dma (recvSem (opp d)))
    (hsc : ∀ h : C, (dst : Memref sig (Dev.tc (n h) : Thread nD τ).2.kind .vmem S1x64x64 .f32).view.ref.isScScratch = false)
    (hsrc : src.view.WordExact) (hdst : dst.view.WordExact)
    (hsem : ∀ h : C, DmaTarget.Typed .vmem sR (.remote (Dev.tc (n h) : Thread nD τ) dst sS (hsc h)))
    {α : Type} {Q : α → sProp 𝕄} (R : Prog (TpuEff nD τ sig (Elt F) Λ₀ .tc) α)
    (pt : C → Prog (TpuEff nD τ sig (Elt F) Λ₀ .tc) α) (pe : Prog (TpuEff nD τ sig (Elt F) Λ₀ .tc) α)
    (hpt : ∀ h, pt h = Prog.bind (Prog.lift (.enqueueDma src (.remote (Dev.tc (n h) : Thread nD τ) dst sS (hsc h)) sR hsrc hdst (hsem h)))
      (fun _ => R)) (hpe : pe = R)
    (κ₁ κ₂ : ℕ) (O : CellTallies nD τ sig Unit) (W : Waits sig Unit) :
    iprop(cellInv ER (haloRd m) κ₁ (sendCell c d) ∗ cellInv ER (haloRd m) κ₂ (recvCell (nbr d c) (opp d))
        ∗ reached ER (sendCell c d) 0 ∗ reached ER (recvCell (nbr d c) (opp d)) 0
        ∗ owes (c : Thread nD τ) (O + sndOwe c d) W
        ∗ onDir c d (dutyTok ER (sendCell c d) 0 d) ∗ onDir c d (dutyTok ER (recvCell (nbr d c) (opp d)) 0 (opp d))
        ∗ onDir c d iprop(∃ fn, haloPts (F := F) (nbr d c) (opp d) fn) ∗ stagePts c d (faceOf (xstg m c) d)
        ∗ ((owes (c : Thread nD τ) O W ∗ onDir c d (cred (tallyAt (sendCell c d) () N))
              ∗ offDir c d (stagePts c d (faceOf (xstg m c) d)))
            -∗ wp frame (wpE (defs₀ (F := F)) 𝒱₀ (c : Thread nD τ) none) Set.univ R Q))
      ⊢ wp frame (wpE (defs₀ (F := F)) 𝒱₀ (c : Thread nD τ) none) Set.univ (if h : C then pt h else pe) Q := by
  by_cases h : C
  · have hd := hC.mp h
    rw [dif_pos h, hpt h]
    unfold onDir offDir sndOwe
    simp only [if_pos hd]
    simp only [Prog.lift, Prog.bind_op, Prog.bind_ret]
    iintro ⟨#HI1, #HI2, #Hr1, #Hr2, HO, Ht1, Ht2, ⟨%fn, Hh⟩, Hs, Hk⟩
    iapply (wp_snd m c (n h) d hd (hn h) src dst hs hdm sS sR hsS hsR κ₁ κ₂ fn O W) $$ [HO Ht1 Ht2 Hh Hs]
    · isplitr; · iexact HI1
      isplitr; · iexact HI2
      isplitl [Hs]; · iexact Hs
      isplitl [Hh]; · iexact Hh
      isplitl [HO]; · iexact HO
      isplitl [Ht1]; · iexact Ht1
      isplitr; · iexact Hr1
      isplitl [Ht2]; · iexact Ht2
      iexact Hr2
    iintro ⟨Hc, HO⟩
    iapply Hk
    isplitl [HO]; · iexact HO
    isplitl [Hc]; · iexact Hc
    iempintro
  · have hd : ¬ has d c = true := fun hd => h (hC.mpr hd)
    rw [dif_neg h, hpe]
    unfold onDir offDir sndOwe
    simp only [if_neg hd]
    rw [add_zero]
    iintro ⟨-, -, -, -, HO, -, -, -, Hs, Hk⟩
    iapply Hk
    isplitl [HO]; · iexact HO
    isplitr; · iempintro
    iexact Hs

/-! ## The guarded waits -/

/-- The branch "if there is a neighbour in direction `d`, wait on receive cell `d`": the rest `R` of the program runs with the wait recorded and the cell one round on if there was a neighbour, and then holding halo plane `d` at the neighbour's boundary plane. -/
theorem wp_wrecv_g (c : Dev nD) (d : Fin 6) {C : Prop} [Decidable C] (hC : C ↔ has d c = true)
    (src dst : Memref sig .tc .vmem S1x64x64 .f32) (hsrc : src.view.WordExact) (hdst : dst.view.WordExact)
    (sem : DmaSem sig) (hsem : sem = recvSem d) (hamt : dst.view.dmaCredit = N)
    {α : Type} {Q : α → sProp 𝕄} (R : Prog (TpuEff nD τ sig (Elt F) Λ₀ .tc) α)
    (pt : C → Prog (TpuEff nD τ sig (Elt F) Λ₀ .tc) α) (pe : Prog (TpuEff nD τ sig (Elt F) Λ₀ .tc) α)
    (hpt : ∀ h, pt h = Prog.bind (Prog.lift (.waitDma2 sem src dst hsrc hdst)) (fun _ => R)) (hpe : pe = R)
    (κ : ℕ) (W : Waits sig Unit) :
    iprop(cellInv ER (haloRd m) κ (recvCell c d) ∗ onDir c d (cred (tallyAt (recvCell c d) () N)) ∗ owes (c : Thread nD τ) 0 W
        ∗ atPos ER (recvCell c d) 0 ∅ 0
        ∗ ((owes (c : Thread nD τ) 0 (if has d c = true then insert (SemLoc.dma (recvSem d), ()) W else W)
              ∗ atPos ER (recvCell c d) (if has d c = true then 1 else 0) ∅ 0
              ∗ onDir c d (haloPts c d (landed m c d)))
            -∗ wp frame (wpE (defs₀ (F := F)) 𝒱₀ (c : Thread nD τ) none) Set.univ R Q))
      ⊢ wp frame (wpE (defs₀ (F := F)) 𝒱₀ (c : Thread nD τ) none) Set.univ (if h : C then pt h else pe) Q := by
  by_cases h : C
  · have hd := hC.mp h
    rw [dif_pos h, hpt h]
    unfold onDir
    simp only [if_pos hd]
    simp only [Prog.lift, Prog.bind_op, Prog.bind_ret]
    iintro ⟨#HI, Hc, HO, Hat, Hk⟩
    iapply (wp_wrecv m c d hd sem hsem hamt κ W) $$ [Hc HO Hat]
    · isplitr; · iexact HI
      isplitl [Hc]; · iexact Hc
      isplitl [HO]; · iexact HO
      iexact Hat
    iexact Hk
  · have hd : ¬ has d c = true := fun hd => h (hC.mpr hd)
    rw [dif_neg h, hpe]
    unfold onDir
    simp only [if_neg hd]
    iintro ⟨-, -, HO, Hat, Hk⟩
    iapply Hk
    isplitl [HO]; · iexact HO
    isplitl [Hat]; · iexact Hat
    iempintro

/-- The branch "if there is a neighbour in direction `d`, wait on send cell `d`": likewise, and then holding boundary plane `d` again. -/
theorem wp_wsend_g (c : Dev nD) (d : Fin 6) {C : Prop} [Decidable C] (hC : C ↔ has d c = true)
    (src dst : Memref sig .tc .vmem S1x64x64 .f32) (hsrc : src.view.WordExact) (hdst : dst.view.WordExact)
    (sem : DmaSem sig) (hsem : sem = sendSem d) (hamt : dst.view.dmaCredit = N)
    {α : Type} {Q : α → sProp 𝕄} (R : Prog (TpuEff nD τ sig (Elt F) Λ₀ .tc) α)
    (pt : C → Prog (TpuEff nD τ sig (Elt F) Λ₀ .tc) α) (pe : Prog (TpuEff nD τ sig (Elt F) Λ₀ .tc) α)
    (hpt : ∀ h, pt h = Prog.bind (Prog.lift (.waitDma2 sem src dst hsrc hdst)) (fun _ => R)) (hpe : pe = R)
    (κ : ℕ) (W : Waits sig Unit) :
    iprop(cellInv ER (haloRd m) κ (sendCell c d) ∗ onDir c d (cred (tallyAt (sendCell c d) () N)) ∗ owes (c : Thread nD τ) 0 W
        ∗ atPos ER (sendCell c d) 0 ∅ 0
        ∗ ((owes (c : Thread nD τ) 0 (if has d c = true then insert (SemLoc.dma (sendSem d), ()) W else W)
              ∗ atPos ER (sendCell c d) (if has d c = true then 1 else 0) ∅ 0
              ∗ onDir c d iprop(∃ f, stagePts (F := F) c d f))
            -∗ wp frame (wpE (defs₀ (F := F)) 𝒱₀ (c : Thread nD τ) none) Set.univ R Q))
      ⊢ wp frame (wpE (defs₀ (F := F)) 𝒱₀ (c : Thread nD τ) none) Set.univ (if h : C then pt h else pe) Q := by
  by_cases h : C
  · have hd := hC.mp h
    rw [dif_pos h, hpt h]
    unfold onDir
    simp only [if_pos hd]
    simp only [Prog.lift, Prog.bind_op, Prog.bind_ret]
    iintro ⟨#HI, Hc, HO, Hat, Hk⟩
    iapply (wp_wsend m c d hd sem hsem hamt κ W) $$ [Hc HO Hat]
    · isplitr; · iexact HI
      isplitl [Hc]; · iexact Hc
      isplitl [HO]; · iexact HO
      iexact Hat
    iexact Hk
  · have hd : ¬ has d c = true := fun hd => h (hC.mpr hd)
    rw [dif_neg h, hpe]
    unfold onDir
    simp only [if_neg hd]
    iintro ⟨-, -, HO, Hat, Hk⟩
    iapply Hk
    isplitl [HO]; · iexact HO
    isplitl [Hat]; · iexact Hat
    iempintro

/-! ## Axioms -/

/-- info: 'Cert.Kernel.Halo.wp_wbar_g' depends on axioms: [propext, Classical.choice, Quot.sound] -/
#guard_msgs in #print axioms wp_wbar_g

/-- info: 'Cert.Kernel.Halo.wp_snd_g' depends on axioms: [propext, Classical.choice, Quot.sound] -/
#guard_msgs in #print axioms wp_snd_g

/-- info: 'Cert.Kernel.Halo.wp_wrecv_g' depends on axioms: [propext, Classical.choice, Quot.sound] -/
#guard_msgs in #print axioms wp_wrecv_g

/-- info: 'Cert.Kernel.Halo.wp_wsend_g' depends on axioms: [propext, Classical.choice, Quot.sound] -/
#guard_msgs in #print axioms wp_wsend_g

/-- info: 'Cert.Kernel.Halo.halo_merge' depends on axioms: [propext, Classical.choice, Quot.sound] -/
#guard_msgs in #print axioms halo_merge

/-- info: 'Cert.Kernel.Halo.stage_merge' depends on axioms: [propext, Classical.choice, Quot.sound] -/
#guard_msgs in #print axioms stage_merge

/-- info: 'Cert.Kernel.Halo.onDir_mono' depends on axioms: [propext, Classical.choice, Quot.sound] -/
#guard_msgs in #print axioms onDir_mono

end Cert.Kernel.Halo

end
-- ==== Proof.K.HaloStores.lean ====
/-
  The twelve stores into the output block that stand under a test, taken one at a time so that the block's contents
  stay ONE chain of writes.

  After the stencil of the whole block is stored, the body rewrites faces of the output block under tests on the
  device's place in the mesh: six times "if the device is on this outer face of the mesh, zero the face", then six
  times "if the device has a neighbour across this face, add the plane received from it to the face". Each such step
  either writes a plane through a rectangle of the block or leaves the block alone. `gw` is that one step on the
  block's contents; the lemmas run one region of the program and leave the block at `gw` of what it was; the chain
  `outRaw0 … outRaw12` is the thirteen contents in program order, the tests and the masks spelt through the device's
  three mesh coordinates as the program computes them.
-/
import proofs.«900441_g7700000000000442_dist_halo3d_v7x_xyz2x4x4_s64_f32_1_alg».proof.Proof.K.HaloGuard2

noncomputable section

namespace Cert.Kernel.Halo

open Cert.Kernel Cert.Kernel.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The block, and one guarded write -/

/-- The contents of the output block. -/
abbrev BlockC (F : FTy → Type) : Type := (cc0_stg1_0 : Ref sig .tc).ty.Contents (Elt F)

/-- The output block held whole at contents `o`. -/
abbrev blockPts (c : Dev nD) (o : BlockC F) : sProp 𝕄 :=
  ((Memref.whole cc0_stg1_0 : Memref sig .tc .vmem S64x64x64 .f32).view.loc (c : Thread nD τ) ↦{fullShare} o)

/-- The whole 1 × 64 × 64 plane, as a rectangle of a plane's own buffer. -/
abbrev rP : Rect S1x64x64 := Rect.unit (s := S1x64x64) ![0, 0, 0] S1x64x64.size inb_S1x64x64_S1x64x64_0_0_0
/-- The whole block, as a rectangle of the block's own buffer. -/
abbrev rW : Rect S64x64x64 := Rect.unit (s := S64x64x64) ![0, 0, 0] S64x64x64.size inb_S64x64x64_S64x64x64_0_0_0

/-- One guarded write: if `C`, the vector `v` written through the rectangle `R` of the block; otherwise the block as it was. -/
def gw (C : Prop) [Decidable C] (R : Rect S64x64x64) (v : R.shape.Idx → Elt F .f32) (o : BlockC F) : BlockC F :=
  if C then ((oM : Memref sig .tc .vmem S64x64x64 .f32).access R : View sig .tc _ _ _).write (Elt F) o v Finset.univ else o

/-- A store through a rectangle of the block, the block held whole. -/
theorem wp_store_block (c : Dev nD) (R : Rect S64x64x64) (v : R.shape.Idx → Elt F .f32)
    {hs1 : ((oM : Memref sig .tc .vmem S64x64x64 .f32).access R).Stores Finset.univ}
    {hs2 : (Finset.univ : Finset R.shape.Idx) = Finset.univ ∨ ∀ a, R.stride a = 1}
    {α : Type} {Q : α → sProp 𝕄} {k : PUnit → Prog (TpuEff nD τ sig (Elt F) Λ₀ .tc) α} (o : BlockC F) :
    blockPts c o
      ⊢ iprop((blockPts c (((oM : Memref sig .tc .vmem S64x64x64 .f32).access R : View sig .tc _ _ _).write (Elt F) o v Finset.univ)
            -∗ wp frame (wpE (defs₀ (F := F)) 𝒱₀ (c : Thread nD τ) none) Set.univ (k ⟨⟩) Q)
          -∗ wp frame (wpE (defs₀ (F := F)) 𝒱₀ (c : Thread nD τ) none) Set.univ (.op (.store oM R v Finset.univ hs1 hs2) k) Q) :=
  wp_store 𝒱₀ (c : Thread nD τ) none Set.univ (m := oM) (r := R) (Finset.subset_univ _)

/-! ## A region that zeroes a face -/

/-- The branch "if `C`, load the face (unused) and store `v` through it": the rest `R'` of the program runs with the
    block at the guarded write. -/
theorem wp_zero_face (c : Dev nD) {C : Prop} [Decidable C] (R : Rect S64x64x64) (v : R.shape.Idx → Elt F .f32)
    {hl : (oM : Memref sig .tc .vmem S64x64x64 .f32).view.LoadsAt R.toLoadRect}
    {hs1 : ((oM : Memref sig .tc .vmem S64x64x64 .f32).access R).Stores Finset.univ}
    {hs2 : (Finset.univ : Finset R.shape.Idx) = Finset.univ ∨ ∀ a, R.stride a = 1}
    {α : Type} {Q : α → sProp 𝕄} (R' : Prog (TpuEff nD τ sig (Elt F) Λ₀ .tc) α)
    (pt : C → Prog (TpuEff nD τ sig (Elt F) Λ₀ .tc) α) (pe : Prog (TpuEff nD τ sig (Elt F) Λ₀ .tc) α)
    (hpt : ∀ h, pt h = Prog.bind (Prog.lift (.load oM R.toLoadRect hl))
      (fun _ => Prog.bind (Prog.lift (.store oM R v Finset.univ hs1 hs2)) (fun _ => R')))
    (hpe : pe = R') (o : BlockC F) :
    iprop(blockPts c o
        ∗ (blockPts c (gw C R v o) -∗ wp frame (wpE (defs₀ (F := F)) 𝒱₀ (c : Thread nD τ) none) Set.univ R' Q))
      ⊢ wp frame (wpE (defs₀ (F := F)) 𝒱₀ (c : Thread nD τ) none) Set.univ (if h : C then pt h else pe) Q := by
  by_cases h : C
  · rw [dif_pos h, hpt h]
    unfold gw
    rw [if_pos h]
    simp only [Prog.lift, Prog.bind_op, Prog.bind_ret]
    iintro ⟨Ho, Hk⟩
    iapply (wp_load 𝒱₀ (c : Thread nD τ) none Set.univ (m := oM) (Finset.subset_univ _)) $$ Ho
    iintro Ho
    iapply (wp_store_block c R v o) $$ Ho
    iintro Ho
    iapply Hk
    iexact Ho
  · rw [dif_neg h, hpe]
    unfold gw
    rw [if_neg h]
    iintro ⟨Ho, Hk⟩
    iapply Hk
    iexact Ho

/-! ## A region that adds a received plane to a face -/

/-- The taken branch of an add region, over any buffer `hM` holding the received plane: load the face, load the plane,
    load the face again (unused), store `pay` of the two loaded values through the face. -/
theorem wp_add_taken (c : Dev nD) (R : Rect S64x64x64) (hM : Memref sig .tc .vmem S1x64x64 .f32)
    (pay : (R.shape.Idx → Elt F .f32) → Vec F S1x64x64 .f32 → (R.shape.Idx → Elt F .f32))
    {hl hl' : (oM : Memref sig .tc .vmem S64x64x64 .f32).view.LoadsAt R.toLoadRect}
    {hlh : hM.view.LoadsAt rP.toLoadRect}
    {hs1 : ((oM : Memref sig .tc .vmem S64x64x64 .f32).access R).Stores Finset.univ}
    {hs2 : (Finset.univ : Finset R.shape.Idx) = Finset.univ ∨ ∀ a, R.stride a = 1}
    {α : Type} {Q : α → sProp 𝕄} (R' : Prog (TpuEff nD τ sig (Elt F) Λ₀ .tc) α)
    (o : BlockC F) (f : Buf (Elt F) (hM.view.loc (c : Thread nD τ))) :
    iprop(blockPts c o ∗ (hM.view.loc (c : Thread nD τ) ↦{fullShare} f)
        ∗ ((blockPts c (((oM : Memref sig .tc .vmem S64x64x64 .f32).access R : View sig .tc _ _ _).write (Elt F) o
                (pay ((oM : Memref sig .tc .vmem S64x64x64 .f32).view.readAt (Elt F) R.toLoadRect o)
                  (hM.view.readAt (Elt F) rP.toLoadRect f)) Finset.univ)
              ∗ (hM.view.loc (c : Thread nD τ) ↦{fullShare} f))
            -∗ wp frame (wpE (defs₀ (F := F)) 𝒱₀ (c : Thread nD τ) none) Set.univ R' Q))
      ⊢ wp frame (wpE (defs₀ (F := F)) 𝒱₀ (c : Thread nD τ) none) Set.univ
          (Prog.bind (Prog.lift (.load oM R.toLoadRect hl)) (fun v233 =>
            Prog.bind (Prog.lift (.load hM rP.toLoadRect hlh)) (fun v235 =>
              Prog.bind (Prog.lift (.load oM R.toLoadRect hl')) (fun _ =>
                Prog.bind (Prog.lift (.store oM R (pay v233 v235) Finset.univ hs1 hs2)) (fun _ => R'))))) Q := by
  simp only [Prog.lift, Prog.bind_op, Prog.bind_ret]
  iintro ⟨Ho, Hh, Hk⟩
  iapply (wp_load 𝒱₀ (c : Thread nD τ) none Set.univ (m := oM) (Finset.subset_univ _)) $$ Ho
  iintro Ho
  iapply (wp_load 𝒱₀ (c : Thread nD τ) none Set.univ (m := hM) (Finset.subset_univ _)) $$ Hh
  iintro Hh
  iapply (wp_load 𝒱₀ (c : Thread nD τ) none Set.univ (m := oM) (Finset.subset_univ _)) $$ Ho
  iintro Ho
  iapply (wp_store_block c R _ o) $$ Ho
  iintro Ho
  iapply Hk
  isplitl [Ho]; · iexact Ho
  iexact Hh

omit [FloatOps F] in
theorem zero3 : (![0, 0, 0] : Fin 3 → ℕ) = fun _ => 0 :=
  funext fun a => match a with | ⟨0, _⟩ => rfl | ⟨1, _⟩ => rfl | ⟨2, _⟩ => rfl

/-- The branch "if there is a neighbour in direction `d`, add its plane to the face": the rest `R'` of the program runs
    with the block at the guarded write of `pay` of the face as it was and the received plane, the plane kept. -/
theorem wp_add_face (c : Dev nD) (d : Fin 6) {C : Prop} [Decidable C] (hC : C ↔ has d c = true)
    (R : Rect S64x64x64) (hM : Memref sig .tc .vmem S1x64x64 .f32) (hhm : hM = haloM d)
    (pay : (R.shape.Idx → Elt F .f32) → Vec F S1x64x64 .f32 → (R.shape.Idx → Elt F .f32))
    {hl hl' : (oM : Memref sig .tc .vmem S64x64x64 .f32).view.LoadsAt R.toLoadRect}
    {hlh : hM.view.LoadsAt rP.toLoadRect}
    {hs1 : ((oM : Memref sig .tc .vmem S64x64x64 .f32).access R).Stores Finset.univ}
    {hs2 : (Finset.univ : Finset R.shape.Idx) = Finset.univ ∨ ∀ a, R.stride a = 1}
    {α : Type} {Q : α → sProp 𝕄} (R' : Prog (TpuEff nD τ sig (Elt F) Λ₀ .tc) α)
    (pt : C → Prog (TpuEff nD τ sig (Elt F) Λ₀ .tc) α) (pe : Prog (TpuEff nD τ sig (Elt F) Λ₀ .tc) α)
    (hpt : ∀ h, pt h = Prog.bind (Prog.lift (.load oM R.toLoadRect hl)) (fun v233 =>
            Prog.bind (Prog.lift (.load hM rP.toLoadRect hlh)) (fun v235 =>
              Prog.bind (Prog.lift (.load oM R.toLoadRect hl')) (fun _ =>
                Prog.bind (Prog.lift (.store oM R (pay v233 v235) Finset.univ hs1 hs2)) (fun _ => R')))))
    (hpe : pe = R') (o : BlockC F) (hv : FVec F S1x64x64 .f32) :
    iprop(blockPts c o ∗ onDir c d (haloPts c d hv)
        ∗ ((blockPts c (gw C R (pay ((oM : Memref sig .tc .vmem S64x64x64 .f32).view.readAt (Elt F) R.toLoadRect o) hv) o)
              ∗ onDir c d (haloPts c d hv))
            -∗ wp frame (wpE (defs₀ (F := F)) 𝒱₀ (c : Thread nD τ) none) Set.univ R' Q))
      ⊢ wp frame (wpE (defs₀ (F := F)) 𝒱₀ (c : Thread nD τ) none) Set.univ (if h : C then pt h else pe) Q := by
  subst hhm
  by_cases h : C
  · have hd := hC.mp h
    rw [dif_pos h, hpt h]
    unfold gw onDir
    rw [if_pos h]
    simp only [if_pos hd]
    clear hpt hC hd
    revert hlh
    match d with
    | ⟨0, _⟩ =>
      intro hlh
      have e : ((Memref.whole cc0_scratch0 : Memref sig .tc .vmem S1x64x64 .f32).view.readAt (Elt F) rP.toLoadRect hv) = hv :=
        Memref.readAt_unit_zero (Elt F) cc0_scratch0 zero3 _ hv
      have key := wp_add_taken (Q := Q) c R (Memref.whole cc0_scratch0 : Memref sig .tc .vmem S1x64x64 .f32) pay
        (hl := hl) (hl' := hl') (hlh := hlh) (hs1 := hs1) (hs2 := hs2) R' o hv
      rw [e] at key
      exact key
    | ⟨1, _⟩ =>
      intro hlh
      have e : ((Memref.whole cc0_scratch1 : Memref sig .tc .vmem S1x64x64 .f32).view.readAt (Elt F) rP.toLoadRect hv) = hv :=
        Memref.readAt_unit_zero (Elt F) cc0_scratch1 zero3 _ hv
      have key := wp_add_taken (Q := Q) c R (Memref.whole cc0_scratch1 : Memref sig .tc .vmem S1x64x64 .f32) pay
        (hl := hl) (hl' := hl') (hlh := hlh) (hs1 := hs1) (hs2 := hs2) R' o hv
      rw [e] at key
      exact key
    | ⟨2, _⟩ =>
      intro hlh
      have e : ((Memref.whole cc0_scratch2 : Memref sig .tc .vmem S1x64x64 .f32).view.readAt (Elt F) rP.toLoadRect hv) = hv :=
        Memref.readAt_unit_zero (Elt F) cc0_scratch2 zero3 _ hv
      have key := wp_add_taken (Q := Q) c R (Memref.whole cc0_scratch2 : Memref sig .tc .vmem S1x64x64 .f32) pay
        (hl := hl) (hl' := hl') (hlh := hlh) (hs1 := hs1) (hs2 := hs2) R' o hv
      rw [e] at key
      exact key
    | ⟨3, _⟩ =>
      intro hlh
      have e : ((Memref.whole cc0_scratch3 : Memref sig .tc .vmem S1x64x64 .f32).view.readAt (Elt F) rP.toLoadRect hv) = hv :=
        Memref.readAt_unit_zero (Elt F) cc0_scratch3 zero3 _ hv
      have key := wp_add_taken (Q := Q) c R (Memref.whole cc0_scratch3 : Memref sig .tc .vmem S1x64x64 .f32) pay
        (hl := hl) (hl' := hl') (hlh := hlh) (hs1 := hs1) (hs2 := hs2) R' o hv
      rw [e] at key
      exact key
    | ⟨4, _⟩ =>
      intro hlh
      have e : ((Memref.whole cc0_scratch4 : Memref sig .tc .vmem S1x64x64 .f32).view.readAt (Elt F) rP.toLoadRect hv) = hv :=
        Memref.readAt_unit_zero (Elt F) cc0_scratch4 zero3 _ hv
      have key := wp_add_taken (Q := Q) c R (Memref.whole cc0_scratch4 : Memref sig .tc .vmem S1x64x64 .f32) pay
        (hl := hl) (hl' := hl') (hlh := hlh) (hs1 := hs1) (hs2 := hs2) R' o hv
      rw [e] at key
      exact key
    | ⟨5, _⟩ =>
      intro hlh
      have e : ((Memref.whole cc0_scratch5 : Memref sig .tc .vmem S1x64x64 .f32).view.readAt (Elt F) rP.toLoadRect hv) = hv :=
        Memref.readAt_unit_zero (Elt F) cc0_scratch5 zero3 _ hv
      have key := wp_add_taken (Q := Q) c R (Memref.whole cc0_scratch5 : Memref sig .tc .vmem S1x64x64 .f32) pay
        (hl := hl) (hl' := hl') (hlh := hlh) (hs1 := hs1) (hs2 := hs2) R' o hv
      rw [e] at key
      exact key
  · have hd : ¬ has d c = true := fun hd => h (hC.mpr hd)
    rw [dif_neg h, hpe]
    unfold gw onDir
    rw [if_neg h]
    simp only [if_neg hd]
    iintro ⟨Ho, -, Hk⟩
    iapply Hk
    isplitl [Ho]; · iexact Ho
    iempintro

/-! ## The chain of the block's contents -/

/-- The device's three mesh coordinates, as the body computes them from the device's number. -/
abbrev cw2 (c : Dev nD) : BitVec 32 := Scalar.remsi (Scalar.divsi (Dev.word c) 16#32) 2#32
abbrev cw5 (c : Dev nD) : BitVec 32 := Scalar.remsi (Scalar.divsi (Dev.word c) 4#32) 4#32
abbrev cw8 (c : Dev nD) : BitVec 32 := Scalar.remsi (Scalar.divsi (Dev.word c) 1#32) 4#32

/-- The test "the coordinate `w` is `k`", as the body forms it: the bit widened and compared with zero. -/
abbrev onFace (w k : BitVec 32) : Prop := Scalar.cmpi .ne (Scalar.extui (Scalar.cmpi .eq w k) : BitVec 32) 0#32 = 1#1
/-- The test on a bit "there is a neighbour", formed the same way. -/
abbrev bitSet (b : BitVec 1) : Prop := Scalar.cmpi .ne (Scalar.extui b : BitVec 32) 0#32 = 1#1

/-- The row and column numbers of a 64 × 64 face, and the three masks at the device's coordinates. -/
abbrev io0 : IVec S64x64 32 := iota .tc S64x64 32 [0] iota_S64x64_d0_w32
abbrev io1 : IVec S64x64 32 := iota .tc S64x64 32 [1] iota_S64x64_d1_w32
abbrev mskX (c : Dev nD) : IVec S64x64 1 := k0_pay20 (cw5 c) (cw8 c)
abbrev mskY (c : Dev nD) : IVec S64x64 1 := k0_pay23 (cw2 c) (cw8 c) io0 io1 k0_pay21 (k0_pay22 (cw2 c))
abbrev mskZ (c : Dev nD) : IVec S64x64 1 := k0_pay24 (cw2 c) (cw5 c) io0 io1

/-- A face of the block as a load through its rectangle reads it. -/
abbrev faceAt (R : Rect S64x64x64) (o : BlockC F) : R.shape.Idx → Elt F .f32 :=
  (oM : Memref sig .tc .vmem S64x64x64 .f32).view.readAt (Elt F) R.toLoadRect o

variable (c : Dev nD) (x : (cc0_stg0_0 : Ref sig .tc).ty.Contents (Elt F)) (hal : Fin 6 → FVec F S1x64x64 .f32)

/-- The stencil of the whole input block. -/
def outRaw0 : BlockC F := k0_pay13 ((xM : Memref sig .tc .vmem S64x64x64 .f32).view.readAt (Elt F) rW.toLoadRect x)
/-- The six outer faces zeroed, where the device lies on that face of the mesh. -/
def outRaw1 : BlockC F := gw (onFace (cw2 c) 0#32) rX0 (k0_pay14 (F := F)) (outRaw0 x)
def outRaw2 : BlockC F := gw (onFace (cw2 c) 1#32) rX63 (k0_pay15 (F := F)) (outRaw1 c x)
def outRaw3 : BlockC F := gw (onFace (cw5 c) 0#32) rY0 (k0_pay16 (F := F)) (outRaw2 c x)
def outRaw4 : BlockC F := gw (onFace (cw5 c) 3#32) rY63 (k0_pay17 (F := F)) (outRaw3 c x)
def outRaw5 : BlockC F := gw (onFace (cw8 c) 0#32) rZ0 (k0_pay18 (F := F)) (outRaw4 c x)
def outRaw6 : BlockC F := gw (onFace (cw8 c) 3#32) rZ63 (k0_pay19 (F := F)) (outRaw5 c x)
/-- The six received planes added, where the device has a neighbour across that face. -/
def outRaw7 : BlockC F :=
  gw (bitSet (Scalar.cmpi .sgt (cw2 c) 0#32)) rX0 (k0_pay25 (mskX c) (faceAt rX0 (outRaw6 c x)) (hal 0)) (outRaw6 c x)
def outRaw8 : BlockC F :=
  gw (bitSet (Scalar.cmpi .slt (cw2 c) 1#32)) rX63 (k0_pay1 (mskX c) (faceAt rX63 (outRaw7 c x hal)) (hal 1)) (outRaw7 c x hal)
def outRaw9 : BlockC F :=
  gw (bitSet (Scalar.cmpi .sgt (cw5 c) 0#32)) rY0 (k0_pay2 (mskY c) (faceAt rY0 (outRaw8 c x hal)) (hal 2)) (outRaw8 c x hal)
def outRaw10 : BlockC F :=
  gw (bitSet (Scalar.cmpi .slt (cw5 c) 3#32)) rY63 (k0_pay3 (mskY c) (faceAt rY63 (outRaw9 c x hal)) (hal 3)) (outRaw9 c x hal)
def outRaw11 : BlockC F :=
  gw (bitSet (Scalar.cmpi .sgt (cw8 c) 0#32)) rZ0 (k0_pay4 (mskZ c) (faceAt rZ0 (outRaw10 c x hal)) (hal 4)) (outRaw10 c x hal)
def outRaw12 : BlockC F :=
  gw (bitSet (Scalar.cmpi .slt (cw8 c) 3#32)) rZ63 (k0_pay5 (mskZ c) (faceAt rZ63 (outRaw11 c x hal)) (hal 5)) (outRaw11 c x hal)

/-- What the body leaves in the output block. -/
def outRaw : BlockC F := outRaw12 c x hal

/-! ## Axioms -/

/-- info: 'Cert.Kernel.Halo.wp_store_block' depends on axioms: [propext, Classical.choice, Quot.sound] -/
#guard_msgs in #print axioms wp_store_block

/-- info: 'Cert.Kernel.Halo.wp_zero_face' depends on axioms: [propext, Classical.choice, Quot.sound] -/
#guard_msgs in #print axioms wp_zero_face

/-- info: 'Cert.Kernel.Halo.wp_add_taken' depends on axioms: [propext, Classical.choice, Quot.sound] -/
#guard_msgs in #print axioms wp_add_taken

/-- info: 'Cert.Kernel.Halo.wp_add_face' depends on axioms: [propext, Classical.choice, Quot.sound] -/
#guard_msgs in #print axioms wp_add_face

end Cert.Kernel.Halo

end
-- ==== Proof.K.HaloOblig.lean ====
/-
  From the body's run to the pipeline's obligation, and the run of @main with the body's result named.

  The pipeline asks, at its one point: from what a device starts from, what it owes, and its two staged blocks — the
  input window's at the device's block of the argument, the output window's at anything — the body runs to the scratch
  planes and own semaphores handed back, nothing owed, the input block in place and the output block at the body's
  result. That is the body's run with its pieces regrouped.
-/
import proofs.«900441_g7700000000000442_dist_halo3d_v7x_xyz2x4x4_s64_f32_1_alg».proof.Proof.K.HaloLaunch
import proofs.«900441_g7700000000000442_dist_halo3d_v7x_xyz2x4x4_s64_f32_1_alg».proof.Proof.K.HaloStores

noncomputable section

namespace Cert.Kernel.Halo

open Cert.Kernel Cert.Kernel.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- The body's run: from the device's ghost state, its launch credit, the level facts, the scratch planes, what it owes
    and its two staged blocks, the body runs to the scratch planes and own semaphores back, nothing owed, the input
    block in place and the output block at the chain of its stores. -/
abbrev SoundBody : Prop :=
  ∀ (K : Dev nD × Fin 13 → ℕ) (c : Dev nD) (Kt : PUnit → sProp 𝕄) (W : Waits sig Unit) (fo : Buf (Elt F) ((c : Thread nD τ).loc cc0_stg1_0)),
    iprop(pers m K c ∗ atPos ER (barCell c) 0 ∅ 0 ∗ sep6 (linDir (F := F) c)
        ∗ cred (tallyAt (barCell c) () (nNbr c)) ∗ sep6 (credDir (F := F) c) ∗ levAts L lv
        ∗ scratch (F := F) c ∗ owes (c : Thread nD τ) (O₀ c) W
        ∗ ((Memref.whole cc0_stg0_0 : Memref sig .tc .vmem S64x64x64 .f32).view.loc (c : Thread nD τ) ↦{fullShare} xstg m c)
        ∗ ((Memref.whole cc0_stg1_0 : Memref sig .tc .vmem S64x64x64 .f32).view.loc (c : Thread nD τ) ↦{fullShare} fo)
        ∗ ((scratch (F := F) c ∗ ownZero (F := F) c ∗ (∃ W', owes (c : Thread nD τ) 0 W')
              ∗ ((Memref.whole cc0_stg0_0 : Memref sig .tc .vmem S64x64x64 .f32).view.loc (c : Thread nD τ) ↦{fullShare} xstg m c)
              ∗ blockPts c (outRaw c (xstg m c) (landed m c))) -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _) (Memref.whole cc0_scratch11) (Memref.isWhole_whole _)
            cc0_scratch12 cc0_scratch13) Kt

/-- A whole staged buffer held at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The body's result on every device. -/
abbrev outR (c : Dev nD) : (cc0_stg1_0 : Ref sig .tc).ty.Contents (Elt F) := outRaw c (xstg m c) (landed m c)

def bodyPre' (c : Dev nD) : sProp 𝕄 :=
  iprop(Φ₀ m c ∗ (dats m (outR m) 0 c).owesAt () t0_0.castSucc
    ∗ (∃ d, stg c cc0_stg0_0 ((dats m (outR m) 0 c).before (0 : Fin 2) t0_0 d))
    ∗ (∃ d, stg c cc0_stg1_0 ((dats m (outR m) 0 c).before (1 : Fin 2) t0_0 d)))

def bodyPost (c : Dev nD) : sProp 𝕄 :=
  iprop(Φ₁ (F := F) c ∗ (dats m (outR m) 0 c).owesAt () t0_0.succ ∗ stg c cc0_stg0_0 (xstg m c) ∗ stg c cc0_stg1_0 (outR m c))

set_option maxRecDepth 4000 in
/-- The pipeline's body obligation on device `c`, from the body's run. -/
theorem body_obligation_of (hsb : SoundBody m) (c : Dev nD) :
    BodyObligation (dats (F := F) m (fun c => outRaw c (xstg m c) (landed m c)) 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) (Memref.whole cc0_scratch9) (Memref.isWhole_whole _)
      (Memref.whole cc0_scratch10) (Memref.isWhole_whole _) (Memref.whole cc0_scratch11) (Memref.isWhole_whole _)
      cc0_scratch12 cc0_scratch13) (fun _ => bodyPost m c)
  unfold bodyPre' Φ₀ start ghost
  iintro ⟨⟨⟨⟨%K, Hp, HaB, HL⟩, HcB, HcR, Hlev⟩, Hscr⟩, Ho, ⟨%d0, %g0, %hg0, Hx⟩, ⟨%d1, %g1, %hg1, Hout⟩⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m (outR m) 0 c).owed t0_0.castSucc = O₀ c from rfl]
  iapply (hsb K c (fun _ => bodyPost m c) W g1)
  isplitl [Hp]; · iexact Hp
  isplitl [HaB]; · iexact HaB
  isplitl [HL]; · iexact HL
  isplitl [HcB]; · iexact HcB
  isplitl [HcR]; · iexact HcR
  isplitl [Hlev]; · iexact Hlev
  isplitl [Hscr]; · iexact Hscr
  isplitl [HO]; · iexact HO
  isplitl [Hx]; · iexact Hx
  isplitl [Hout]; · iexact Hout
  iintro ⟨Hscr, Hz, ⟨%W', HO'⟩, Hx, Hout⟩
  unfold bodyPost Φ₁ Dat.owesAt Pipeline.owesWithin
  rw [show (dats m (outR m) 0 c).owed t0_0.succ = 0 from rfl]
  isplitl [Hscr Hz]
  · isplitl [Hscr]; · iexact Hscr
    iexact Hz
  isplitl [HO']
  · iexists W'
    isplitr; · ipureintro; exact fun _ _ => Or.inl trivial
    iexact HO'
  isplitl [Hx]
  · iexists _; isplitr; · (ipureintro; rfl)
    iexact Hx
  iexists _; isplitr; · (ipureintro; rfl)
  iexact Hout

/-- From the body's run: every execution of @main ends with each device's result array at the chain of the body's
    stores and its argument array unchanged. -/
theorem run_out (hsb : SoundBody m) :
    θ_run defs (onTc (τ := τ) (main (F := F))) ⟨m, fun _ => 0, ρ⟩ (fun r => ∀ c : Dev nD,
      r.2.mem ((c.tc : Thread nD τ).loc main_v1) = outRaw c (xstg m c) (landed m c)
      ∧ r.2.mem ((c.tc : Thread nD τ).loc main_arg0) = m ((c.tc : Thread nD τ).loc main_arg0)) :=
  run_named m ρ _ (body_obligation_of m hsb)

/-- info: 'Cert.Kernel.Halo.body_obligation_of' depends on axioms: [propext, Classical.choice, Quot.sound] -/
#guard_msgs in #print axioms body_obligation_of

/-- info: 'Cert.Kernel.Halo.run_out' depends on axioms: [propext, Classical.choice, Quot.sound] -/
#guard_msgs in #print axioms run_out

end Cert.Kernel.Halo

end
-- ==== Proof.K.HaloBody.lean ====
/-
  One device's body, run once for any device of the mesh.

  The body does the same things on every device, in this order; each device-dependent branch is taken with "if the device
  has a neighbour in that direction" kept inside what is held, so that one run serves all thirty-two devices.
  1. It copies the six boundary planes of its block into six planes of their own.
  2. It signals each neighbour's barrier cell, handing over with the signal its own halo plane on that side.
  3. It writes the stencil of its block, a neighbour beyond a face counting as zero, and zeroes the faces that lie on the
     outer faces of the whole array.
  4. It waits on its own barrier cell for as many units as it has neighbours: each neighbour's halo plane facing it comes
     with them. What it still owes then is only the credit of its six copies, owed to receive cells, which lie above its
     barrier cell.
  5. It copies each boundary plane into the neighbour's halo plane; it waits on its own receive cells, and each halo plane
     comes back holding the neighbour's boundary plane; it adds each on the face it belongs to; it waits on its send cells,
     and the boundary planes come back.
  6. Every own cell has then consumed its one round, or never had a duty: all twelve counters are at zero again.
  What is left in the output buffer is the chain of these stores, `outRaw` of the block and of the six planes that landed.
-/
import proofs.«900441_g7700000000000442_dist_halo3d_v7x_xyz2x4x4_s64_f32_1_alg».proof.Proof.K.HaloOblig

noncomputable section

namespace Cert.Kernel.Halo

open Cert.Kernel Cert.Kernel.Gen Cert.Halo
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

abbrev Bf (c : Dev nD) (b : Ref sig .tc) : Type := Buf (Elt F) ((c : Thread nD τ).loc b)
abbrev pt (c : Dev nD) (b : Ref sig .tc) (f : Bf (F := F) c b) : sProp 𝕄 :=
  (Memref.whole b : Memref sig .tc b.space b.ty.shape b.ty.elt).view.loc (c : Thread nD τ) ↦{fullShare} f

omit [FloatOps F] in
theorem stagePts_0 (c : Dev nD) (f : FVec F S1x64x64 .f32) :
    stagePts (F := F) c 0 f = ((Memref.whole cc0_scratch6 : Memref sig .tc .vmem S1x64x64 .f32).view.loc (c : Thread nD τ) ↦{fullShare} f) := rfl
omit [FloatOps F] in
theorem stagePts_1 (c : Dev nD) (f : FVec F S1x64x64 .f32) :
    stagePts (F := F) c 1 f = ((Memref.whole cc0_scratch7 : Memref sig .tc .vmem S1x64x64 .f32).view.loc (c : Thread nD τ) ↦{fullShare} f) := rfl
omit [FloatOps F] in
theorem stagePts_2 (c : Dev nD) (f : FVec F S1x64x64 .f32) :
    stagePts (F := F) c 2 f = ((Memref.whole cc0_scratch8 : Memref sig .tc .vmem S1x64x64 .f32).view.loc (c : Thread nD τ) ↦{fullShare} f) := rfl
omit [FloatOps F] in
theorem stagePts_3 (c : Dev nD) (f : FVec F S1x64x64 .f32) :
    stagePts (F := F) c 3 f = ((Memref.whole cc0_scratch9 : Memref sig .tc .vmem S1x64x64 .f32).view.loc (c : Thread nD τ) ↦{fullShare} f) := rfl
omit [FloatOps F] in
theorem stagePts_4 (c : Dev nD) (f : FVec F S1x64x64 .f32) :
    stagePts (F := F) c 4 f = ((Memref.whole cc0_scratch10 : Memref sig .tc .vmem S1x64x64 .f32).view.loc (c : Thread nD τ) ↦{fullShare} f) := rfl
omit [FloatOps F] in
theorem stagePts_5 (c : Dev nD) (f : FVec F S1x64x64 .f32) :
    stagePts (F := F) c 5 f = ((Memref.whole cc0_scratch11 : Memref sig .tc .vmem S1x64x64 .f32).view.loc (c : Thread nD τ) ↦{fullShare} f) := rfl

omit [FloatOps F] in
theorem hz3 : (![0, 0, 0] : Fin 3 → Nat) = fun _ => 0 := funext fun a => by fin_cases a <;> rfl

omit [FloatOps F] in
/-- A full write through the whole rectangle of boundary plane 0 leaves the written vector; so a plane held at such a
    write is held at the vector. -/
theorem stage_writes_0 (f w : FVec F S1x64x64 .f32) :
    (Memref.whole cc0_scratch6 : Memref sig .tc .vmem S1x64x64 .f32).view.writes (Elt F) f
      [⟨Rect.unit (s := S1x64x64) ![0, 0, 0] S1x64x64.size inb_S1x64x64_S1x64x64_0_0_0, w⟩] = w :=
  by
  show ((Memref.whole cc0_scratch6 : Memref sig .tc .vmem S1x64x64 .f32).access
      (Rect.unit (s := S1x64x64) ![0, 0, 0] S1x64x64.size inb_S1x64x64_S1x64x64_0_0_0) : View sig .tc _ _ _).write (Elt F) f w Finset.univ = w
  exact Memref.write_access_unit_zero_univ (Elt F) cc0_scratch6 hz3 _ f w
omit [FloatOps F] in
theorem stage_conv_0 (c : Dev nD) (f : FVec F S1x64x64 .f32) (L : List (View.Piece (Elt F) S1x64x64 .f32)) (w : FVec F S1x64x64 .f32)
    (h : (Memref.whole cc0_scratch6 : Memref sig .tc .vmem S1x64x64 .f32).view.writes (Elt F) f L = w) :
    ((Memref.whole cc0_scratch6 : Memref sig .tc .vmem S1x64x64 .f32).view.loc (c : Thread nD τ)
        ↦{fullShare} (Memref.whole cc0_scratch6 : Memref sig .tc .vmem S1x64x64 .f32).view.writes (Elt F) f L : sProp 𝕄)
      ⊢ stagePts (F := F) c 0 w := by
  rw [h]; exact Entails.of_eq (stagePts_0 c w).symm
omit [FloatOps F] in
/-- A full write through the whole rectangle of boundary plane 1 leaves the written vector; so a plane held at such a
    write is held at the vector. -/
theorem stage_writes_1 (f w : FVec F S1x64x64 .f32) :
    (Memref.whole cc0_scratch7 : Memref sig .tc .vmem S1x64x64 .f32).view.writes (Elt F) f
      [⟨Rect.unit (s := S1x64x64) ![0, 0, 0] S1x64x64.size inb_S1x64x64_S1x64x64_0_0_0, w⟩] = w :=
  by
  show ((Memref.whole cc0_scratch7 : Memref sig .tc .vmem S1x64x64 .f32).access
      (Rect.unit (s := S1x64x64) ![0, 0, 0] S1x64x64.size inb_S1x64x64_S1x64x64_0_0_0) : View sig .tc _ _ _).write (Elt F) f w Finset.univ = w
  exact Memref.write_access_unit_zero_univ (Elt F) cc0_scratch7 hz3 _ f w
omit [FloatOps F] in
theorem stage_conv_1 (c : Dev nD) (f : FVec F S1x64x64 .f32) (L : List (View.Piece (Elt F) S1x64x64 .f32)) (w : FVec F S1x64x64 .f32)
    (h : (Memref.whole cc0_scratch7 : Memref sig .tc .vmem S1x64x64 .f32).view.writes (Elt F) f L = w) :
    ((Memref.whole cc0_scratch7 : Memref sig .tc .vmem S1x64x64 .f32).view.loc (c : Thread nD τ)
        ↦{fullShare} (Memref.whole cc0_scratch7 : Memref sig .tc .vmem S1x64x64 .f32).view.writes (Elt F) f L : sProp 𝕄)
      ⊢ stagePts (F := F) c 1 w := by
  rw [h]; exact Entails.of_eq (stagePts_1 c w).symm
omit [FloatOps F] in
/-- A full write through the whole rectangle of boundary plane 2 leaves the written vector; so a plane held at such a
    write is held at the vector. -/
theorem stage_writes_2 (f w : FVec F S1x64x64 .f32) :
    (Memref.whole cc0_scratch8 : Memref sig .tc .vmem S1x64x64 .f32).view.writes (Elt F) f
      [⟨Rect.unit (s := S1x64x64) ![0, 0, 0] S1x64x64.size inb_S1x64x64_S1x64x64_0_0_0, w⟩] = w :=
  by
  show ((Memref.whole cc0_scratch8 : Memref sig .tc .vmem S1x64x64 .f32).access
      (Rect.unit (s := S1x64x64) ![0, 0, 0] S1x64x64.size inb_S1x64x64_S1x64x64_0_0_0) : View sig .tc _ _ _).write (Elt F) f w Finset.univ = w
  exact Memref.write_access_unit_zero_univ (Elt F) cc0_scratch8 hz3 _ f w
omit [FloatOps F] in
theorem stage_conv_2 (c : Dev nD) (f : FVec F S1x64x64 .f32) (L : List (View.Piece (Elt F) S1x64x64 .f32)) (w : FVec F S1x64x64 .f32)
    (h : (Memref.whole cc0_scratch8 : Memref sig .tc .vmem S1x64x64 .f32).view.writes (Elt F) f L = w) :
    ((Memref.whole cc0_scratch8 : Memref sig .tc .vmem S1x64x64 .f32).view.loc (c : Thread nD τ)
        ↦{fullShare} (Memref.whole cc0_scratch8 : Memref sig .tc .vmem S1x64x64 .f32).view.writes (Elt F) f L : sProp 𝕄)
      ⊢ stagePts (F := F) c 2 w := by
  rw [h]; exact Entails.of_eq (stagePts_2 c w).symm
omit [FloatOps F] in
/-- A full write through the whole rectangle of boundary plane 3 leaves the written vector; so a plane held at such a
    write is held at the vector. -/
theorem stage_writes_3 (f w : FVec F S1x64x64 .f32) :
    (Memref.whole cc0_scratch9 : Memref sig .tc .vmem S1x64x64 .f32).view.writes (Elt F) f
      [⟨Rect.unit (s := S1x64x64) ![0, 0, 0] S1x64x64.size inb_S1x64x64_S1x64x64_0_0_0, w⟩] = w :=
  by
  show ((Memref.whole cc0_scratch9 : Memref sig .tc .vmem S1x64x64 .f32).access
      (Rect.unit (s := S1x64x64) ![0, 0, 0] S1x64x64.size inb_S1x64x64_S1x64x64_0_0_0) : View sig .tc _ _ _).write (Elt F) f w Finset.univ = w
  exact Memref.write_access_unit_zero_univ (Elt F) cc0_scratch9 hz3 _ f w
omit [FloatOps F] in
theorem stage_conv_3 (c : Dev nD) (f : FVec F S1x64x64 .f32) (L : List (View.Piece (Elt F) S1x64x64 .f32)) (w : FVec F S1x64x64 .f32)
    (h : (Memref.whole cc0_scratch9 : Memref sig .tc .vmem S1x64x64 .f32).view.writes (Elt F) f L = w) :
    ((Memref.whole cc0_scratch9 : Memref sig .tc .vmem S1x64x64 .f32).view.loc (c : Thread nD τ)
        ↦{fullShare} (Memref.whole cc0_scratch9 : Memref sig .tc .vmem S1x64x64 .f32).view.writes (Elt F) f L : sProp 𝕄)
      ⊢ stagePts (F := F) c 3 w := by
  rw [h]; exact Entails.of_eq (stagePts_3 c w).symm
omit [FloatOps F] in
/-- A full write through the whole rectangle of boundary plane 4 leaves the written vector; so a plane held at such a
    write is held at the vector. -/
theorem stage_writes_4 (f w : FVec F S1x64x64 .f32) :
    (Memref.whole cc0_scratch10 : Memref sig .tc .vmem S1x64x64 .f32).view.writes (Elt F) f
      [⟨Rect.unit (s := S1x64x64) ![0, 0, 0] S1x64x64.size inb_S1x64x64_S1x64x64_0_0_0, w⟩] = w :=
  by
  show ((Memref.whole cc0_scratch10 : Memref sig .tc .vmem S1x64x64 .f32).access
      (Rect.unit (s := S1x64x64) ![0, 0, 0] S1x64x64.size inb_S1x64x64_S1x64x64_0_0_0) : View sig .tc _ _ _).write (Elt F) f w Finset.univ = w
  exact Memref.write_access_unit_zero_univ (Elt F) cc0_scratch10 hz3 _ f w
omit [FloatOps F] in
theorem stage_conv_4 (c : Dev nD) (f : FVec F S1x64x64 .f32) (L : List (View.Piece (Elt F) S1x64x64 .f32)) (w : FVec F S1x64x64 .f32)
    (h : (Memref.whole cc0_scratch10 : Memref sig .tc .vmem S1x64x64 .f32).view.writes (Elt F) f L = w) :
    ((Memref.whole cc0_scratch10 : Memref sig .tc .vmem S1x64x64 .f32).view.loc (c : Thread nD τ)
        ↦{fullShare} (Memref.whole cc0_scratch10 : Memref sig .tc .vmem S1x64x64 .f32).view.writes (Elt F) f L : sProp 𝕄)
      ⊢ stagePts (F := F) c 4 w := by
  rw [h]; exact Entails.of_eq (stagePts_4 c w).symm
omit [FloatOps F] in
/-- A full write through the whole rectangle of boundary plane 5 leaves the written vector; so a plane held at such a
    write is held at the vector. -/
theorem stage_writes_5 (f w : FVec F S1x64x64 .f32) :
    (Memref.whole cc0_scratch11 : Memref sig .tc .vmem S1x64x64 .f32).view.writes (Elt F) f
      [⟨Rect.unit (s := S1x64x64) ![0, 0, 0] S1x64x64.size inb_S1x64x64_S1x64x64_0_0_0, w⟩] = w :=
  by
  show ((Memref.whole cc0_scratch11 : Memref sig .tc .vmem S1x64x64 .f32).access
      (Rect.unit (s := S1x64x64) ![0, 0, 0] S1x64x64.size inb_S1x64x64_S1x64x64_0_0_0) : View sig .tc _ _ _).write (Elt F) f w Finset.univ = w
  exact Memref.write_access_unit_zero_univ (Elt F) cc0_scratch11 hz3 _ f w
omit [FloatOps F] in
theorem stage_conv_5 (c : Dev nD) (f : FVec F S1x64x64 .f32) (L : List (View.Piece (Elt F) S1x64x64 .f32)) (w : FVec F S1x64x64 .f32)
    (h : (Memref.whole cc0_scratch11 : Memref sig .tc .vmem S1x64x64 .f32).view.writes (Elt F) f L = w) :
    ((Memref.whole cc0_scratch11 : Memref sig .tc .vmem S1x64x64 .f32).view.loc (c : Thread nD τ)
        ↦{fullShare} (Memref.whole cc0_scratch11 : Memref sig .tc .vmem S1x64x64 .f32).view.writes (Elt F) f L : sProp 𝕄)
      ⊢ stagePts (F := F) c 5 w := by
  rw [h]; exact Entails.of_eq (stagePts_5 c w).symm

omit [FloatOps F] in
/-- Every halo plane and every boundary plane carries the same credit. -/
theorem halo_credit (d : Fin 6) : (haloM d : Memref sig .tc .vmem S1x64x64 .f32).view.dmaCredit = N := by fin_cases d <;> rfl
omit [FloatOps F] in
theorem stage_credit (d : Fin 6) : (stageM d : Memref sig .tc .vmem S1x64x64 .f32).view.dmaCredit = N := by fin_cases d <;> rfl

omit [FloatOps F] in
/-- A halo plane that came back holding a neighbour's plane, or that was never given away, is held at something. -/
theorem halo_back (c : Dev nD) (d : Fin 6) (v : FVec F S1x64x64 .f32) :
    iprop(onDir c d (haloPts c d v) ∗ offDir c d iprop(∃ f, haloPts (F := F) c d f)) ⊢ iprop(∃ f, haloPts (F := F) c d f) :=
  (sep_mono_left (onDir_mono c d (by iintro H; iexists v; iexact H))).trans (halo_merge c d)
omit [FloatOps F] in
/-- The same for a boundary plane: back from its send wait, or never sent. -/
theorem stage_back (c : Dev nD) (d : Fin 6) (v : FVec F S1x64x64 .f32) :
    iprop(onDir c d iprop(∃ f, stagePts (F := F) c d f) ∗ offDir c d (stagePts c d v)) ⊢ iprop(∃ f, stagePts (F := F) c d f) :=
  (sep_mono_right (offDir_mono c d (by iintro H; iexists v; iexact H))).trans (stage_merge c d)

omit [FloatOps F] in
/-- A full write through the whole rectangle of the output block leaves the written block. -/
theorem block_writes (f w : BlockC F) :
    (Memref.whole cc0_stg1_0 : Memref sig .tc .vmem S64x64x64 .f32).view.writes (Elt F) f
      [⟨Rect.unit (s := S64x64x64) ![0, 0, 0] S64x64x64.size inb_S64x64x64_S64x64x64_0_0_0, w⟩] = w := by
  show ((Memref.whole cc0_stg1_0 : Memref sig .tc .vmem S64x64x64 .f32).access
      (Rect.unit (s := S64x64x64) ![0, 0, 0] S64x64x64.size inb_S64x64x64_S64x64x64_0_0_0) : View sig .tc _ _ _).write (Elt F) f w Finset.univ = w
  exact Memref.write_access_unit_zero_univ (Elt F) cc0_stg1_0 hz3 _ f w
omit [FloatOps F] in
/-- The output block held at contents equal to others is held at those. -/
theorem block_conv (c : Dev nD) (o o' : BlockC F) (h : o = o') : blockPts (F := F) c o ⊢ blockPts (F := F) c o' := by
  rw [h]

theorem hbit0 : ∀ c : Dev nD, bitSet (Scalar.cmpi .sgt (cw2 c) 0#32) ↔ has 0 c = true := by decide +kernel
theorem hbit1 : ∀ c : Dev nD, bitSet (Scalar.cmpi .slt (cw2 c) 1#32) ↔ has 1 c = true := by decide +kernel
theorem hbit2 : ∀ c : Dev nD, bitSet (Scalar.cmpi .sgt (cw5 c) 0#32) ↔ has 2 c = true := by decide +kernel
theorem hbit3 : ∀ c : Dev nD, bitSet (Scalar.cmpi .slt (cw5 c) 3#32) ↔ has 3 c = true := by decide +kernel
theorem hbit4 : ∀ c : Dev nD, bitSet (Scalar.cmpi .sgt (cw8 c) 0#32) ↔ has 4 c = true := by decide +kernel
theorem hbit5 : ∀ c : Dev nD, bitSet (Scalar.cmpi .slt (cw8 c) 3#32) ↔ has 5 c = true := by decide +kernel

set_option maxHeartbeats 16000000 in
/-- One device's body, for any device of the mesh: from what a device starts with (its cells' invariants and round-0
    marks, its positions and the tokens of the neighbours it has, its launch credit, the twelve scratch planes, what it
    owes, its input block staged and the output staging buffer at anything) the body runs to its return, where the
    scratch planes are held again, the twelve own semaphores are back at zero, nothing is owed, the input block is as
    it was and the output staging buffer holds `outRaw` of the block and of the six planes that landed. -/
theorem sound_body : SoundBody m := by
  intro K c Kt W fo
  unfold pers scratch ownZero
  rw [show O₀ c = Osnd c + sigOwe c 5 + sigOwe c 4 + sigOwe c 3 + sigOwe c 2 + sigOwe c 1 + sigOwe c 0 from rfl]
  unfold sep6
  unfold persDir linDir credDir
  iintro ⟨⟨#HIb, ⟨#HIbn0, #HIrn0, #HIs0, #HIr0, #Rbn0, #Rrn0, #Rs0, #Rr0⟩, ⟨#HIbn1, #HIrn1, #HIs1, #HIr1, #Rbn1, #Rrn1, #Rs1, #Rr1⟩, ⟨#HIbn2, #HIrn2, #HIs2, #HIr2, #Rbn2, #Rrn2, #Rs2, #Rr2⟩, ⟨#HIbn3, #HIrn3, #HIs3, #HIr3, #Rbn3, #Rrn3, #Rs3, #Rr3⟩, ⟨#HIbn4, #HIrn4, #HIs4, #HIr4, #Rbn4, #Rrn4, #Rs4, #Rr4⟩, ⟨#HIbn5, #HIrn5, #HIs5, #HIr5, #Rbn5, #Rrn5, #Rs5, #Rr5⟩⟩, Hatb,
    ⟨⟨Tb0, Tr0, Ts0, As0, Ar0⟩, ⟨Tb1, Tr1, Ts1, As1, Ar1⟩, ⟨Tb2, Tr2, Ts2, As2, Ar2⟩, ⟨Tb3, Tr3, Ts3, As3, Ar3⟩, ⟨Tb4, Tr4, Ts4, As4, Ar4⟩, ⟨Tb5, Tr5, Ts5, As5, Ar5⟩⟩, Hcb, ⟨Cr0, Cr1, Cr2, Cr3, Cr4, Cr5⟩, #Hlev,
    ⟨⟨⟨%h0, Hh0⟩, ⟨%h1, Hh1⟩, ⟨%h2, Hh2⟩, ⟨%h3, Hh3⟩, ⟨%h4, Hh4⟩, ⟨%h5, Hh5⟩⟩, ⟨⟨%s0, Hs0⟩, ⟨%s1, Hs1⟩, ⟨%s2, Hs2⟩, ⟨%s3, Hs3⟩, ⟨%s4, Hs4⟩, ⟨%s5, Hs5⟩⟩⟩, HO, Hx, Ho, Hk⟩
  ihave Hs0 := (Entails.of_eq (stagePts_0 (F := F) c s0)) $$ Hs0
  ihave Hs1 := (Entails.of_eq (stagePts_1 (F := F) c s1)) $$ Hs1
  ihave Hs2 := (Entails.of_eq (stagePts_2 (F := F) c s2)) $$ Hs2
  ihave Hs3 := (Entails.of_eq (stagePts_3 (F := F) c s3)) $$ Hs3
  ihave Hs4 := (Entails.of_eq (stagePts_4 (F := F) c s4)) $$ Hs4
  ihave Hs5 := (Entails.of_eq (stagePts_5 (F := F) c s5)) $$ Hs5
  sl_exec_parts (disch := decide)
  iapply (wp_sig_g m c 0 (cond1_iff c) (fun h => ⟨k0_dev1 c, k0_dev1_lt c h⟩) (fun h => dev1_eq c h) _ _ _ (fun h => rfl) rfl (K (nbr 0 c, kBar)) _ W)
  isplitr; · iexact HIbn0
  isplitr; · iexact Rr0
  isplitr; · iexact Rbn0
  isplitl [HO]; · iexact HO
  isplitl [Tb0]; · iexact Tb0
  isplitl [Hh0]; · iexists h0; iexact Hh0
  iintro ⟨HO, Hh0⟩
  sl_exec_parts (disch := decide)
  iapply (wp_sig_g m c 1 (cond2_iff c) (fun h => ⟨k0_dev2 c, k0_dev2_lt c h⟩) (fun h => dev2_eq c h) _ _ _ (fun h => rfl) rfl (K (nbr 1 c, kBar)) _ W)
  isplitr; · iexact HIbn1
  isplitr; · iexact Rr1
  isplitr; · iexact Rbn1
  isplitl [HO]; · iexact HO
  isplitl [Tb1]; · iexact Tb1
  isplitl [Hh1]; · iexists h1; iexact Hh1
  iintro ⟨HO, Hh1⟩
  sl_exec_parts (disch := decide)
  iapply (wp_sig_g m c 2 (cond3_iff c) (fun h => ⟨k0_dev3 c, k0_dev3_lt c h⟩) (fun h => dev3_eq c h) _ _ _ (fun h => rfl) rfl (K (nbr 2 c, kBar)) _ W)
  isplitr; · iexact HIbn2
  isplitr; · iexact Rr2
  isplitr; · iexact Rbn2
  isplitl [HO]; · iexact HO
  isplitl [Tb2]; · iexact Tb2
  isplitl [Hh2]; · iexists h2; iexact Hh2
  iintro ⟨HO, Hh2⟩
  sl_exec_parts (disch := decide)
  iapply (wp_sig_g m c 3 (cond4_iff c) (fun h => ⟨k0_dev4 c, k0_dev4_lt c h⟩) (fun h => dev4_eq c h) _ _ _ (fun h => rfl) rfl (K (nbr 3 c, kBar)) _ W)
  isplitr; · iexact HIbn3
  isplitr; · iexact Rr3
  isplitr; · iexact Rbn3
  isplitl [HO]; · iexact HO
  isplitl [Tb3]; · iexact Tb3
  isplitl [Hh3]; · iexists h3; iexact Hh3
  iintro ⟨HO, Hh3⟩
  sl_exec_parts (disch := decide)
  iapply (wp_sig_g m c 4 (cond5_iff c) (fun h => ⟨k0_dev5 c, k0_dev5_lt c h⟩) (fun h => dev5_eq c h) _ _ _ (fun h => rfl) rfl (K (nbr 4 c, kBar)) _ W)
  isplitr; · iexact HIbn4
  isplitr; · iexact Rr4
  isplitr; · iexact Rbn4
  isplitl [HO]; · iexact HO
  isplitl [Tb4]; · iexact Tb4
  isplitl [Hh4]; · iexists h4; iexact Hh4
  iintro ⟨HO, Hh4⟩
  sl_exec_parts (disch := decide)
  iapply (wp_sig_g m c 5 (cond6_iff c) (fun h => ⟨k0_dev6 c, k0_dev6_lt c h⟩) (fun h => dev6_eq c h) _ _ _ (fun h => rfl) rfl (K (nbr 5 c, kBar)) _ W)
  isplitr; · iexact HIbn5
  isplitr; · iexact Rr5
  isplitr; · iexact Rbn5
  isplitl [HO]; · iexact HO
  isplitl [Tb5]; · iexact Tb5
  isplitl [Hh5]; · iexists h5; iexact Hh5
  iintro ⟨HO, Hh5⟩
  set_option sl_exec.stopBefore "v98" in sl_exec_parts (disch := decide)
  ihave Ho := (block_conv c _ (outRaw0 (xstg m c)) (block_writes fo _)) $$ [Ho]
  · iexact Ho
  iapply (wp_zero_face c rX0 (k0_pay14 (F := F)) _ _ _ (fun h => rfl) rfl _)
  isplitl [Ho]; · iexact Ho
  iintro Ho
  ihave Ho := (block_conv c _ (outRaw1 c (xstg m c)) rfl) $$ [Ho]
  · iexact Ho
  set_option sl_exec.stopBefore "v101" in sl_exec_parts (disch := decide)
  iapply (wp_zero_face c rX63 (k0_pay15 (F := F)) _ _ _ (fun h => rfl) rfl _)
  isplitl [Ho]; · iexact Ho
  iintro Ho
  ihave Ho := (block_conv c _ (outRaw2 c (xstg m c)) rfl) $$ [Ho]
  · iexact Ho
  set_option sl_exec.stopBefore "v104" in sl_exec_parts (disch := decide)
  iapply (wp_zero_face c rY0 (k0_pay16 (F := F)) _ _ _ (fun h => rfl) rfl _)
  isplitl [Ho]; · iexact Ho
  iintro Ho
  ihave Ho := (block_conv c _ (outRaw3 c (xstg m c)) rfl) $$ [Ho]
  · iexact Ho
  set_option sl_exec.stopBefore "v107" in sl_exec_parts (disch := decide)
  iapply (wp_zero_face c rY63 (k0_pay17 (F := F)) _ _ _ (fun h => rfl) rfl _)
  isplitl [Ho]; · iexact Ho
  iintro Ho
  ihave Ho := (block_conv c _ (outRaw4 c (xstg m c)) rfl) $$ [Ho]
  · iexact Ho
  set_option sl_exec.stopBefore "v110" in sl_exec_parts (disch := decide)
  iapply (wp_zero_face c rZ0 (k0_pay18 (F := F)) _ _ _ (fun h => rfl) rfl _)
  isplitl [Ho]; · iexact Ho
  iintro Ho
  ihave Ho := (block_conv c _ (outRaw5 c (xstg m c)) rfl) $$ [Ho]
  · iexact Ho
  set_option sl_exec.stopBefore "v113" in sl_exec_parts (disch := decide)
  iapply (wp_zero_face c rZ63 (k0_pay19 (F := F)) _ _ _ (fun h => rfl) rfl _)
  isplitl [Ho]; · iexact Ho
  iintro Ho
  ihave Ho := (block_conv c _ (outRaw6 c (xstg m c)) rfl) $$ [Ho]
  · iexact Ho
  sl_exec_parts (disch := decide)
  iapply (wp_wbar_g m c (mayWait_bar c) (amt1_eq c) (K (c, kBar)) W) $$ [Hcb HO Hatb]
  · isplitr; · iexact HIb
    isplitl [Hcb]; · iexact Hcb
    isplitl [HO]; · iexact HO
    isplitr; · iexact Hlev
    iexact Hatb
  iintro ⟨HO, Hatb, ⟨Pn0, Pn1, Pn2, Pn3, Pn4, Pn5⟩⟩
  rw [show Osnd c = 0 + sndOwe c 5 + sndOwe c 4 + sndOwe c 3 + sndOwe c 2 + sndOwe c 1 + sndOwe c 0 from rfl]
  sl_exec_parts (disch := decide)
  iapply (wp_snd_g m c 0 (cond13_iff c) (fun h => ⟨k0_dev7 c, k0_dev7_lt c h⟩) (fun h => dev7_eq c h) _ _ rfl rfl _ _ rfl rfl _ _ _ _ _ _ _ (fun h => rfl) rfl (K (c, kSend 0)) (K (nbr 0 c, kRecv (opp 0))) _ _)
  isplitr; · iexact HIs0
  isplitr; · iexact HIrn0
  isplitr; · iexact Rs0
  isplitr; · iexact Rrn0
  isplitl [HO]; · iexact HO
  isplitl [Ts0]; · iexact Ts0
  isplitl [Tr0]; · iexact Tr0
  isplitl [Pn0]; · iexact Pn0
  isplitl [Hs0]; · iapply (stage_conv_0 c _ _ _ (stage_writes_0 _ _)); iexact Hs0
  iintro ⟨HO, Cs0, Hs0⟩
  sl_exec_parts (disch := decide)
  iapply (wp_snd_g m c 1 (cond14_iff c) (fun h => ⟨k0_dev8 c, k0_dev8_lt c h⟩) (fun h => dev8_eq c h) _ _ rfl rfl _ _ rfl rfl _ _ _ _ _ _ _ (fun h => rfl) rfl (K (c, kSend 1)) (K (nbr 1 c, kRecv (opp 1))) _ _)
  isplitr; · iexact HIs1
  isplitr; · iexact HIrn1
  isplitr; · iexact Rs1
  isplitr; · iexact Rrn1
  isplitl [HO]; · iexact HO
  isplitl [Ts1]; · iexact Ts1
  isplitl [Tr1]; · iexact Tr1
  isplitl [Pn1]; · iexact Pn1
  isplitl [Hs1]; · iapply (stage_conv_1 c _ _ _ (stage_writes_1 _ _)); iexact Hs1
  iintro ⟨HO, Cs1, Hs1⟩
  sl_exec_parts (disch := decide)
  iapply (wp_snd_g m c 2 (cond15_iff c) (fun h => ⟨k0_dev9 c, k0_dev9_lt c h⟩) (fun h => dev9_eq c h) _ _ rfl rfl _ _ rfl rfl _ _ _ _ _ _ _ (fun h => rfl) rfl (K (c, kSend 2)) (K (nbr 2 c, kRecv (opp 2))) _ _)
  isplitr; · iexact HIs2
  isplitr; · iexact HIrn2
  isplitr; · iexact Rs2
  isplitr; · iexact Rrn2
  isplitl [HO]; · iexact HO
  isplitl [Ts2]; · iexact Ts2
  isplitl [Tr2]; · iexact Tr2
  isplitl [Pn2]; · iexact Pn2
  isplitl [Hs2]; · iapply (stage_conv_2 c _ _ _ (stage_writes_2 _ _)); iexact Hs2
  iintro ⟨HO, Cs2, Hs2⟩
  sl_exec_parts (disch := decide)
  iapply (wp_snd_g m c 3 (cond16_iff c) (fun h => ⟨k0_dev10 c, k0_dev10_lt c h⟩) (fun h => dev10_eq c h) _ _ rfl rfl _ _ rfl rfl _ _ _ _ _ _ _ (fun h => rfl) rfl (K (c, kSend 3)) (K (nbr 3 c, kRecv (opp 3))) _ _)
  isplitr; · iexact HIs3
  isplitr; · iexact HIrn3
  isplitr; · iexact Rs3
  isplitr; · iexact Rrn3
  isplitl [HO]; · iexact HO
  isplitl [Ts3]; · iexact Ts3
  isplitl [Tr3]; · iexact Tr3
  isplitl [Pn3]; · iexact Pn3
  isplitl [Hs3]; · iapply (stage_conv_3 c _ _ _ (stage_writes_3 _ _)); iexact Hs3
  iintro ⟨HO, Cs3, Hs3⟩
  sl_exec_parts (disch := decide)
  iapply (wp_snd_g m c 4 (cond17_iff c) (fun h => ⟨k0_dev11 c, k0_dev11_lt c h⟩) (fun h => dev11_eq c h) _ _ rfl rfl _ _ rfl rfl _ _ _ _ _ _ _ (fun h => rfl) rfl (K (c, kSend 4)) (K (nbr 4 c, kRecv (opp 4))) _ _)
  isplitr; · iexact HIs4
  isplitr; · iexact HIrn4
  isplitr; · iexact Rs4
  isplitr; · iexact Rrn4
  isplitl [HO]; · iexact HO
  isplitl [Ts4]; · iexact Ts4
  isplitl [Tr4]; · iexact Tr4
  isplitl [Pn4]; · iexact Pn4
  isplitl [Hs4]; · iapply (stage_conv_4 c _ _ _ (stage_writes_4 _ _)); iexact Hs4
  iintro ⟨HO, Cs4, Hs4⟩
  sl_exec_parts (disch := decide)
  iapply (wp_snd_g m c 5 (cond18_iff c) (fun h => ⟨k0_dev12 c, k0_dev12_lt c h⟩) (fun h => dev12_eq c h) _ _ rfl rfl _ _ rfl rfl _ _ _ _ _ _ _ (fun h => rfl) rfl (K (c, kSend 5)) (K (nbr 5 c, kRecv (opp 5))) _ _)
  isplitr; · iexact HIs5
  isplitr; · iexact HIrn5
  isplitr; · iexact Rs5
  isplitr; · iexact Rrn5
  isplitl [HO]; · iexact HO
  isplitl [Ts5]; · iexact Ts5
  isplitl [Tr5]; · iexact Tr5
  isplitl [Pn5]; · iexact Pn5
  isplitl [Hs5]; · iapply (stage_conv_5 c _ _ _ (stage_writes_5 _ _)); iexact Hs5
  iintro ⟨HO, Cs5, Hs5⟩
  sl_exec_parts (disch := decide)
  iapply (wp_wrecv_g m c 0 (hbit0 c) (Memref.whole cc0_scratch6) (Memref.whole cc0_scratch0) _ _ _ rfl (halo_credit 0) _ _ _ (fun h => rfl) rfl (K (c, kRecv 0)) _)
  isplitr; · iexact HIr0
  isplitl [Cr0]; · iexact Cr0
  isplitl [HO]; · iexact HO
  isplitl [Ar0]; · iexact Ar0
  iintro ⟨HO, Ar0, Hl0⟩
  sl_exec_parts (disch := decide)
  iapply (wp_wrecv_g m c 1 (hbit1 c) (Memref.whole cc0_scratch7) (Memref.whole cc0_scratch1) _ _ _ rfl (halo_credit 1) _ _ _ (fun h => rfl) rfl (K (c, kRecv 1)) _)
  isplitr; · iexact HIr1
  isplitl [Cr1]; · iexact Cr1
  isplitl [HO]; · iexact HO
  isplitl [Ar1]; · iexact Ar1
  iintro ⟨HO, Ar1, Hl1⟩
  sl_exec_parts (disch := decide)
  iapply (wp_wrecv_g m c 2 (hbit2 c) (Memref.whole cc0_scratch8) (Memref.whole cc0_scratch2) _ _ _ rfl (halo_credit 2) _ _ _ (fun h => rfl) rfl (K (c, kRecv 2)) _)
  isplitr; · iexact HIr2
  isplitl [Cr2]; · iexact Cr2
  isplitl [HO]; · iexact HO
  isplitl [Ar2]; · iexact Ar2
  iintro ⟨HO, Ar2, Hl2⟩
  sl_exec_parts (disch := decide)
  iapply (wp_wrecv_g m c 3 (hbit3 c) (Memref.whole cc0_scratch9) (Memref.whole cc0_scratch3) _ _ _ rfl (halo_credit 3) _ _ _ (fun h => rfl) rfl (K (c, kRecv 3)) _)
  isplitr; · iexact HIr3
  isplitl [Cr3]; · iexact Cr3
  isplitl [HO]; · iexact HO
  isplitl [Ar3]; · iexact Ar3
  iintro ⟨HO, Ar3, Hl3⟩
  sl_exec_parts (disch := decide)
  iapply (wp_wrecv_g m c 4 (hbit4 c) (Memref.whole cc0_scratch10) (Memref.whole cc0_scratch4) _ _ _ rfl (halo_credit 4) _ _ _ (fun h => rfl) rfl (K (c, kRecv 4)) _)
  isplitr; · iexact HIr4
  isplitl [Cr4]; · iexact Cr4
  isplitl [HO]; · iexact HO
  isplitl [Ar4]; · iexact Ar4
  iintro ⟨HO, Ar4, Hl4⟩
  sl_exec_parts (disch := decide)
  iapply (wp_wrecv_g m c 5 (hbit5 c) (Memref.whole cc0_scratch11) (Memref.whole cc0_scratch5) _ _ _ rfl (halo_credit 5) _ _ _ (fun h => rfl) rfl (K (c, kRecv 5)) _)
  isplitr; · iexact HIr5
  isplitl [Cr5]; · iexact Cr5
  isplitl [HO]; · iexact HO
  isplitl [Ar5]; · iexact Ar5
  iintro ⟨HO, Ar5, Hl5⟩
  sl_exec_parts (disch := decide)
  iapply (wp_add_face c 0 (hbit0 c) rX0 (haloM 0) rfl _ _ _ _ (fun h => rfl) rfl _ _)
  isplitl [Ho]; · iexact Ho
  isplitl [Hl0]; · iexact Hl0
  iintro ⟨Ho, Hl0⟩
  ihave Ho := (block_conv c _ (outRaw7 c (xstg m c) (landed m c)) rfl) $$ [Ho]
  · iexact Ho
  sl_exec_parts (disch := decide)
  iapply (wp_add_face c 1 (hbit1 c) rX63 (haloM 1) rfl _ _ _ _ (fun h => rfl) rfl _ _)
  isplitl [Ho]; · iexact Ho
  isplitl [Hl1]; · iexact Hl1
  iintro ⟨Ho, Hl1⟩
  ihave Ho := (block_conv c _ (outRaw8 c (xstg m c) (landed m c)) rfl) $$ [Ho]
  · iexact Ho
  sl_exec_parts (disch := decide)
  iapply (wp_add_face c 2 (hbit2 c) rY0 (haloM 2) rfl _ _ _ _ (fun h => rfl) rfl _ _)
  isplitl [Ho]; · iexact Ho
  isplitl [Hl2]; · iexact Hl2
  iintro ⟨Ho, Hl2⟩
  ihave Ho := (block_conv c _ (outRaw9 c (xstg m c) (landed m c)) rfl) $$ [Ho]
  · iexact Ho
  sl_exec_parts (disch := decide)
  iapply (wp_add_face c 3 (hbit3 c) rY63 (haloM 3) rfl _ _ _ _ (fun h => rfl) rfl _ _)
  isplitl [Ho]; · iexact Ho
  isplitl [Hl3]; · iexact Hl3
  iintro ⟨Ho, Hl3⟩
  ihave Ho := (block_conv c _ (outRaw10 c (xstg m c) (landed m c)) rfl) $$ [Ho]
  · iexact Ho
  sl_exec_parts (disch := decide)
  iapply (wp_add_face c 4 (hbit4 c) rZ0 (haloM 4) rfl _ _ _ _ (fun h => rfl) rfl _ _)
  isplitl [Ho]; · iexact Ho
  isplitl [Hl4]; · iexact Hl4
  iintro ⟨Ho, Hl4⟩
  ihave Ho := (block_conv c _ (outRaw11 c (xstg m c) (landed m c)) rfl) $$ [Ho]
  · iexact Ho
  sl_exec_parts (disch := decide)
  iapply (wp_add_face c 5 (hbit5 c) rZ63 (haloM 5) rfl _ _ _ _ (fun h => rfl) rfl _ _)
  isplitl [Ho]; · iexact Ho
  isplitl [Hl5]; · iexact Hl5
  iintro ⟨Ho, Hl5⟩
  ihave Ho := (block_conv c _ (outRaw12 c (xstg m c) (landed m c)) rfl) $$ [Ho]
  · iexact Ho
  sl_exec_parts (disch := decide)
  iapply (wp_wsend_g m c 0 (hbit0 c) (Memref.whole cc0_scratch1) (Memref.whole cc0_scratch6) _ _ _ rfl (stage_credit 0) _ _ _ (fun h => rfl) rfl (K (c, kSend 0)) _)
  isplitr; · iexact HIs0
  isplitl [Cs0]; · iexact Cs0
  isplitl [HO]; · iexact HO
  isplitl [As0]; · iexact As0
  iintro ⟨HO, As0, Hw0⟩
  sl_exec_parts (disch := decide)
  iapply (wp_wsend_g m c 1 (hbit1 c) (Memref.whole cc0_scratch0) (Memref.whole cc0_scratch7) _ _ _ rfl (stage_credit 1) _ _ _ (fun h => rfl) rfl (K (c, kSend 1)) _)
  isplitr; · iexact HIs1
  isplitl [Cs1]; · iexact Cs1
  isplitl [HO]; · iexact HO
  isplitl [As1]; · iexact As1
  iintro ⟨HO, As1, Hw1⟩
  sl_exec_parts (disch := decide)
  iapply (wp_wsend_g m c 2 (hbit2 c) (Memref.whole cc0_scratch3) (Memref.whole cc0_scratch8) _ _ _ rfl (stage_credit 2) _ _ _ (fun h => rfl) rfl (K (c, kSend 2)) _)
  isplitr; · iexact HIs2
  isplitl [Cs2]; · iexact Cs2
  isplitl [HO]; · iexact HO
  isplitl [As2]; · iexact As2
  iintro ⟨HO, As2, Hw2⟩
  sl_exec_parts (disch := decide)
  iapply (wp_wsend_g m c 3 (hbit3 c) (Memref.whole cc0_scratch2) (Memref.whole cc0_scratch9) _ _ _ rfl (stage_credit 3) _ _ _ (fun h => rfl) rfl (K (c, kSend 3)) _)
  isplitr; · iexact HIs3
  isplitl [Cs3]; · iexact Cs3
  isplitl [HO]; · iexact HO
  isplitl [As3]; · iexact As3
  iintro ⟨HO, As3, Hw3⟩
  sl_exec_parts (disch := decide)
  iapply (wp_wsend_g m c 4 (hbit4 c) (Memref.whole cc0_scratch5) (Memref.whole cc0_scratch10) _ _ _ rfl (stage_credit 4) _ _ _ (fun h => rfl) rfl (K (c, kSend 4)) _)
  isplitr; · iexact HIs4
  isplitl [Cs4]; · iexact Cs4
  isplitl [HO]; · iexact HO
  isplitl [As4]; · iexact As4
  iintro ⟨HO, As4, Hw4⟩
  sl_exec_parts (disch := decide)
  iapply (wp_wsend_g m c 5 (hbit5 c) (Memref.whole cc0_scratch4) (Memref.whole cc0_scratch11) _ _ _ rfl (stage_credit 5) _ _ _ (fun h => rfl) rfl (K (c, kSend 5)) _)
  isplitr; · iexact HIs5
  isplitl [Cs5]; · iexact Cs5
  isplitl [HO]; · iexact HO
  isplitl [As5]; · iexact As5
  iintro ⟨HO, As5, Hw5⟩
  sl_exec_parts (disch := decide)
  imod (close_send m c 0 _ rfl (K (c, kSend 0))) $$ [As0] with Zs0
  · isplitr; · iexact HIs0
    iexact As0
  imod (close_recv m c 0 _ rfl (K (c, kRecv 0))) $$ [Ar0] with Zr0
  · isplitr; · iexact HIr0
    iexact Ar0
  imod (close_send m c 1 _ rfl (K (c, kSend 1))) $$ [As1] with Zs1
  · isplitr; · iexact HIs1
    iexact As1
  imod (close_recv m c 1 _ rfl (K (c, kRecv 1))) $$ [Ar1] with Zr1
  · isplitr; · iexact HIr1
    iexact Ar1
  imod (close_send m c 2 _ rfl (K (c, kSend 2))) $$ [As2] with Zs2
  · isplitr; · iexact HIs2
    iexact As2
  imod (close_recv m c 2 _ rfl (K (c, kRecv 2))) $$ [Ar2] with Zr2
  · isplitr; · iexact HIr2
    iexact Ar2
  imod (close_send m c 3 _ rfl (K (c, kSend 3))) $$ [As3] with Zs3
  · isplitr; · iexact HIs3
    iexact As3
  imod (close_recv m c 3 _ rfl (K (c, kRecv 3))) $$ [Ar3] with Zr3
  · isplitr; · iexact HIr3
    iexact Ar3
  imod (close_send m c 4 _ rfl (K (c, kSend 4))) $$ [As4] with Zs4
  · isplitr; · iexact HIs4
    iexact As4
  imod (close_recv m c 4 _ rfl (K (c, kRecv 4))) $$ [Ar4] with Zr4
  · isplitr; · iexact HIr4
    iexact Ar4
  imod (close_send m c 5 _ rfl (K (c, kSend 5))) $$ [As5] with Zs5
  · isplitr; · iexact HIs5
    iexact As5
  imod (close_recv m c 5 _ rfl (K (c, kRecv 5))) $$ [Ar5] with Zr5
  · isplitr; · iexact HIr5
    iexact Ar5
  sl_step
  iapply Hk
  isplitl [Hl0 Hh0 Hl1 Hh1 Hl2 Hh2 Hl3 Hh3 Hl4 Hh4 Hl5 Hh5 Hw0 Hs0 Hw1 Hs1 Hw2 Hs2 Hw3 Hs3 Hw4 Hs4 Hw5 Hs5]
  · isplitl [Hl0 Hh0 Hl1 Hh1 Hl2 Hh2 Hl3 Hh3 Hl4 Hh4 Hl5 Hh5]
    · isplitl [Hl0 Hh0]
      · iapply (halo_back c 0 _)
        isplitl [Hl0]; · iexact Hl0
        iexact Hh0
      isplitl [Hl1 Hh1]
      · iapply (halo_back c 1 _)
        isplitl [Hl1]; · iexact Hl1
        iexact Hh1
      isplitl [Hl2 Hh2]
      · iapply (halo_back c 2 _)
        isplitl [Hl2]; · iexact Hl2
        iexact Hh2
      isplitl [Hl3 Hh3]
      · iapply (halo_back c 3 _)
        isplitl [Hl3]; · iexact Hl3
        iexact Hh3
      isplitl [Hl4 Hh4]
      · iapply (halo_back c 4 _)
        isplitl [Hl4]; · iexact Hl4
        iexact Hh4
      iapply (halo_back c 5 _)
      isplitl [Hl5]; · iexact Hl5
      iexact Hh5
    · isplitl [Hw0 Hs0]
      · iapply (stage_back c 0 _)
        isplitl [Hw0]; · iexact Hw0
        iexact Hs0
      isplitl [Hw1 Hs1]
      · iapply (stage_back c 1 _)
        isplitl [Hw1]; · iexact Hw1
        iexact Hs1
      isplitl [Hw2 Hs2]
      · iapply (stage_back c 2 _)
        isplitl [Hw2]; · iexact Hw2
        iexact Hs2
      isplitl [Hw3 Hs3]
      · iapply (stage_back c 3 _)
        isplitl [Hw3]; · iexact Hw3
        iexact Hs3
      isplitl [Hw4 Hs4]
      · iapply (stage_back c 4 _)
        isplitl [Hw4]; · iexact Hw4
        iexact Hs4
      iapply (stage_back c 5 _)
      isplitl [Hw5]; · iexact Hw5
      iexact Hs5
  isplitl [Zs0 Zs1 Zs2 Zs3 Zs4 Zs5 Zr0 Zr1 Zr2 Zr3 Zr4 Zr5]
  · isplitl [Zs0 Zs1 Zs2 Zs3 Zs4 Zs5]
    · isplitl [Zs0]; · iexact Zs0
      isplitl [Zs1]; · iexact Zs1
      isplitl [Zs2]; · iexact Zs2
      isplitl [Zs3]; · iexact Zs3
      isplitl [Zs4]; · iexact Zs4
      iexact Zs5
    · isplitl [Zr0]; · iexact Zr0
      isplitl [Zr1]; · iexact Zr1
      isplitl [Zr2]; · iexact Zr2
      isplitl [Zr3]; · iexact Zr3
      isplitl [Zr4]; · iexact Zr4
      iexact Zr5
  isplitl [HO]; · iexists _; iexact HO
  isplitl [Hx]; · iexact Hx
  iexact Ho

/-- info: 'Cert.Kernel.Halo.sound_body' depends on axioms: [propext, Classical.choice, Quot.sound] -/
#guard_msgs in #print axioms sound_body

end Cert.Kernel.Halo

end
-- ==== Proof.LapSpec.lean ====
/-
  The seven-point stencil as ONE function of a whole array, and the literal it scales the centre by.

  For an array `u` over 128 × 256 × 256 the value at an interior place (i, j, k) — one with a neighbour on both
  sides along every axis — is the sum of the six neighbours, taken in the order
  (i-1), (i+1), (j-1), (j+1), (k-1), (k+1), less six times the centre; at a place on any of the six outer faces it is
  zero. The literal is kept as the float word: the same word stands on both sides of every equation it meets, so it is
  never evaluated.
-/
import Idealize.ShloMosaic.PureOps.Ideal
import Idealize.ShloMosaic.Lib.ValueIdx

noncomputable section

namespace Cert.Halo

open Idealize.ShloMosaic Idealize.ShloMosaic.ValueIdx

/-- The word of 6.0 in the 32-bit format, read as an extended real. -/
abbrev six : EReal := Ideal.ofBits .f32 0x40C00000#32

/-- The stencil at a place given by its three coordinates, over an array given by coordinates. -/
def lapAt (u : Fin 128 → Fin 256 → Fin 256 → EReal) (i : Fin 128) (j : Fin 256) (k : Fin 256) : EReal :=
  if h : 1 ≤ i.val ∧ i.val < 127 ∧ 1 ≤ j.val ∧ j.val < 255 ∧ 1 ≤ k.val ∧ k.val < 255 then
    u ⟨i.val - 1, by omega⟩ j k + u ⟨i.val + 1, by omega⟩ j k
      + u i ⟨j.val - 1, by omega⟩ k + u i ⟨j.val + 1, by omega⟩ k
      + u i j ⟨k.val - 1, by omega⟩ + u i j ⟨k.val + 1, by omega⟩
      - six * u i j k
  else 0

/-- The stencil of a whole array, as an array: interior places by `lapAt`, the six outer faces zero. -/
def lapW (u : (⟨3, ![128, 256, 256]⟩ : Shape).Idx → EReal) : (⟨3, ![128, 256, 256]⟩ : Shape).Idx → EReal :=
  fun q => lapAt (fun i j k => u (ix3 i j k)) (q 0) (q 1) (q 2)

theorem lapW_apply (u : (⟨3, ![128, 256, 256]⟩ : Shape).Idx → EReal) (i : Fin 128) (j : Fin 256) (k : Fin 256) :
    lapW u (ix3 i j k) = lapAt (fun i j k => u (ix3 i j k)) i j k := rfl

/-- info: 'Cert.Halo.lapW_apply' depends on axioms: [propext, Classical.choice, Quot.sound] -/
#guard_msgs in #print axioms lapW_apply

end Cert.Halo

end
-- ==== Proof.RefValue.lean ====
/-
  The reference's run read back: its result array is the stencil of its argument array.

  The reference writes its 126 × 254 × 254 interior — six shifted slices of the argument added in order, less the
  literal times the centre slice — into an array of zeros by a scatter whose body returns the update and whose one
  start index is (1, 1, 1). A scatter of that kind is a left fold over the update's places; read at one place of the
  operand it is the update at the one place that lands there, and the operand's own entry where no update lands.
  Here the update's place (a, b, c) lands at (a + 1, b + 1, c + 1): so an interior place (i, j, k) reads the update at
  (i - 1, j - 1, k - 1), which the slices read back as the stencil of the argument at (i, j, k), and a place on an
  outer face keeps the zero.
-/
import proofs.«900441_g7700000000000442_dist_halo3d_v7x_xyz2x4x4_s64_f32_1_alg».proof.ReferenceIdeal
import proofs.«900441_g7700000000000442_dist_halo3d_v7x_xyz2x4x4_s64_f32_1_alg».proof.Proof.Gen.ReferenceIdeal
import proofs.«900441_g7700000000000442_dist_halo3d_v7x_xyz2x4x4_s64_f32_1_alg».proof.Proof.Gen.ReferenceIdeal.Run
import proofs.«900441_g7700000000000442_dist_halo3d_v7x_xyz2x4x4_s64_f32_1_alg».proof.Proof.Gen.ReferenceIdeal.Read
import proofs.«900441_g7700000000000442_dist_halo3d_v7x_xyz2x4x4_s64_f32_1_alg».proof.Proof.LapSpec
import Idealize.ShloMosaic.Lib.ValueIdx
import Idealize.ShloMosaic.PureOps.Ideal.Laws
import Idealize.ShloMosaic.Lib.Pipeline.Value
import Idealize.ShloMosaic.Lib.StableHlo.Run

noncomputable section

namespace Cert.ReferenceIdeal.RefValue

open Idealize.ShloMosaic Idealize.ShloMosaic.ValueIdx Idealize.SL.Sem
open Cert.ReferenceIdeal Cert.ReferenceIdeal.Gen

/-! ## A left fold of one-place writes, read at one place -/

section Fold
variable {ι κ α : Type}

/-- If no step of the fold changes the entry at `i'`, the fold leaves it as it found it. -/
theorem foldl_keep (F : (κ → α) → ι → κ → α) (i' : κ) :
    ∀ (L : List ι) (x : κ → α), (∀ n ∈ L, ∀ r, F r n i' = r i') → L.foldl F x i' = x i'
  | [], _, _ => rfl
  | a :: L, x, h => by
    rw [List.foldl_cons, foldl_keep F i' L (F x a) (fun n hn => h n (List.mem_cons_of_mem _ hn))]
    exact h a (List.mem_cons_self ..) x

/-- If the step at `n₀` always leaves `v` at `i'` and no other step changes the entry at `i'`, a fold over a list
    that holds `n₀` ends with `v` at `i'`. -/
theorem foldl_last (F : (κ → α) → ι → κ → α) (i' : κ) (v : α) (n₀ : ι) (h₀ : ∀ r, F r n₀ i' = v) :
    ∀ (L : List ι) (x : κ → α), n₀ ∈ L → (∀ n ∈ L, n ≠ n₀ → ∀ r, F r n i' = r i') → L.foldl F x i' = v
  | [], _, hm, _ => absurd hm List.not_mem_nil
  | a :: L, x, hm, h => by
    rw [List.foldl_cons]
    have hL : ∀ n ∈ L, n ≠ n₀ → ∀ r, F r n i' = r i' := fun n hn => h n (List.mem_cons_of_mem _ hn)
    by_cases hmL : n₀ ∈ L
    · exact foldl_last F i' v n₀ h₀ L (F x a) hmL hL
    · have ha : a = n₀ := by
        rcases List.mem_cons.1 hm with e | e
        · exact e.symm
        · exact absurd e hmL
      rw [foldl_keep F i' L (F x a) (fun n hn => hL n hn (fun e => hmL (e ▸ hn))), ha]
      exact h₀ x

end Fold

/-! ## A scatter whose body returns the update, read at one place -/

section ScatterSet
variable {s si u : Shape} {w : Nat} {α : Type}

/-- Where no update lands, the scatter keeps the operand's entry. -/
theorem scatter_set_keep (d : ScatterDims s si u) (x : s.Idx → α) (idx : IVec si w) (upd : u.Idx → α) (i' : s.Idx)
    (h : ∀ j : u.Idx, d.resultIdx? j idx ≠ some i') :
    Host.scatter d (fun _ b => b) x idx upd i' = x i' := by
  unfold Host.scatter
  refine foldl_keep _ i' _ x (fun n _ r => ?_)
  dsimp only
  have ho := h (u.rowMajor.symm n)
  revert ho
  generalize d.resultIdx? (u.rowMajor.symm n) idx = o
  intro ho
  cases o with
  | none => rfl
  | some i => exact if_neg (fun e => ho (congrArg some e.symm))

/-- Where exactly one update lands, the scatter holds that update. -/
theorem scatter_set_at (d : ScatterDims s si u) (x : s.Idx → α) (idx : IVec si w) (upd : u.Idx → α) (i' : s.Idx)
    (j₀ : u.Idx) (h₀ : d.resultIdx? j₀ idx = some i') (huniq : ∀ j : u.Idx, d.resultIdx? j idx = some i' → j = j₀) :
    Host.scatter d (fun _ b => b) x idx upd i' = upd j₀ := by
  unfold Host.scatter
  refine foldl_last _ i' (upd j₀) (u.rowMajor j₀) (fun r => ?_) _ x (List.mem_finRange _) (fun n _ hn r => ?_)
  · dsimp only
    rw [Equiv.symm_apply_apply, h₀]
    exact if_pos rfl
  · dsimp only
    have ho := huniq (u.rowMajor.symm n)
    revert ho
    generalize d.resultIdx? (u.rowMajor.symm n) idx = o
    intro ho
    cases o with
    | none => rfl
    | some i =>
      refine if_neg (fun e => hn ?_)
      rw [← ho (congrArg some e.symm), Equiv.apply_symm_apply]

end ScatterSet

/-! ## This scatter: the update's place (a, b, c) lands at (a + 1, b + 1, c + 1) -/

/-- Two places of a rank-3 array with equal coordinates are the same place. -/
theorem ix3_ext {n0 n1 n2 : Nat} (p q : (⟨3, ![n0, n1, n2]⟩ : Shape).Idx) (h0 : (p 0).val = (q 0).val)
    (h1 : (p 1).val = (q 1).val) (h2 : (p 2).val = (q 2).val) : p = q := by
  funext a
  match a with
  | ⟨0, _⟩ => exact Fin.ext h0
  | ⟨1, _⟩ => exact Fin.ext h1
  | ⟨2, _⟩ => exact Fin.ext h2

/-- The scatter's dimension numbers. -/
local notation "sc" => scatter_S128x256x256_S3_S126x254x254_012_n_012_0

/-- Each of the three index words — the concatenation of three one-word arrays, each the word 1 — is the word 1. -/
theorem indexWord (q : S3.Idx) : Read.val_main_v19 (F := Ideal) q = 1#32 := by
  obtain ⟨c, rfl⟩ : ∃ c : Fin 3, q = ix1 c := ⟨q 0, eq_ix1 q⟩
  match c with
  | ⟨0, _⟩ => rfl
  | ⟨1, _⟩ => rfl
  | ⟨2, _⟩ => rfl

/-- With every index word the word 1, the window starts at 1 on every axis. -/
theorem start_one (idx : IVec S3 32) (hidx : ∀ q, idx q = 1#32) (j : S126x254x254.Idx) (a : Fin 3) :
    ScatterDims.start sc j idx a = 1 := by
  have ha : a ∈ (sc).scatterDimsToOperandDims :=
    (by decide : ∀ a : Fin 3, a ∈ ([0, 1, 2] : List (Fin 3))) a
  unfold ScatterDims.start
  rw [dif_pos ha, hidx]
  rfl

/-- The window coordinate on an axis is the update's coordinate on that axis. -/
theorem window_coord (j : S126x254x254.Idx) (a : Fin 3) : ScatterDims.window sc j a = (j a).val := by
  match a with
  | ⟨0, _⟩ => rfl
  | ⟨1, _⟩ => rfl
  | ⟨2, _⟩ => rfl

/-- The update's place (a, b, c) lands at (a + 1, b + 1, c + 1), always inside the operand. -/
theorem lands (idx : IVec S3 32) (hidx : ∀ q, idx q = 1#32) (a : Fin 126) (b : Fin 254) (c : Fin 254) :
    ScatterDims.resultIdx? sc (ix3 a b c) idx
      = some (ix3 (⟨a.val + 1, by omega⟩ : Fin 128) (⟨b.val + 1, by omega⟩ : Fin 256) (⟨c.val + 1, by omega⟩ : Fin 256)) := by
  have hb : ∀ e : Fin 3, 0 ≤ ScatterDims.start sc (ix3 a b c) idx e + ScatterDims.window sc (ix3 a b c) e
      ∧ ScatterDims.start sc (ix3 a b c) idx e + ScatterDims.window sc (ix3 a b c) e < S128x256x256.size e := by
    intro e
    rw [start_one idx hidx, window_coord]
    match e with
    | ⟨0, _⟩ => have := a.isLt; exact ⟨by show (0 : Int) ≤ 1 + (a.val : Int); omega, by show 1 + (a.val : Int) < (128 : Nat); omega⟩
    | ⟨1, _⟩ => have := b.isLt; exact ⟨by show (0 : Int) ≤ 1 + (b.val : Int); omega, by show 1 + (b.val : Int) < (256 : Nat); omega⟩
    | ⟨2, _⟩ => have := c.isLt; exact ⟨by show (0 : Int) ≤ 1 + (c.val : Int); omega, by show 1 + (c.val : Int) < (256 : Nat); omega⟩
  unfold ScatterDims.resultIdx?
  rw [dif_pos hb]
  refine congrArg some (ix3_ext _ _ ?_ ?_ ?_)
  · show (ScatterDims.start sc (ix3 a b c) idx 0 + ScatterDims.window sc (ix3 a b c) 0).toNat = a.val + 1
    rw [start_one idx hidx, window_coord]; show (1 + (a.val : Int)).toNat = a.val + 1; omega
  · show (ScatterDims.start sc (ix3 a b c) idx 1 + ScatterDims.window sc (ix3 a b c) 1).toNat = b.val + 1
    rw [start_one idx hidx, window_coord]; show (1 + (b.val : Int)).toNat = b.val + 1; omega
  · show (ScatterDims.start sc (ix3 a b c) idx 2 + ScatterDims.window sc (ix3 a b c) 2).toNat = c.val + 1
    rw [start_one idx hidx, window_coord]; show (1 + (c.val : Int)).toNat = c.val + 1; omega

/-! ## The update read back: the stencil of the argument -/

/-- The interior condition on a place of the whole array. -/
abbrev Interior (i : Fin 128) (j : Fin 256) (k : Fin 256) : Prop :=
  1 ≤ i.val ∧ i.val < 127 ∧ 1 ≤ j.val ∧ j.val < 255 ∧ 1 ≤ k.val ∧ k.val < 255

/-- The update at (i - 1, j - 1, k - 1) is the six neighbours of (i, j, k) added in order, less the literal times the
    centre. -/
theorem update_center (u : (⟨S128x256x256, .f32⟩ : BufTy).Contents (Elt Ideal)) (i : Fin 128) (j : Fin 256) (k : Fin 256)
    (h : Interior i j k) :
    Read.val_main_v15 (F := Ideal) u
        (ix3 (⟨i.val - 1, by have := h; omega⟩ : Fin 126) (⟨j.val - 1, by have := h; omega⟩ : Fin 254)
          (⟨k.val - 1, by have := h; omega⟩ : Fin 254))
      = u (ix3 (⟨i.val - 1, by omega⟩ : Fin 128) j k) + u (ix3 (⟨i.val + 1, by have := h; omega⟩ : Fin 128) j k)
        + u (ix3 i (⟨j.val - 1, by omega⟩ : Fin 256) k) + u (ix3 i (⟨j.val + 1, by have := h; omega⟩ : Fin 256) k)
        + u (ix3 i j (⟨k.val - 1, by omega⟩ : Fin 256)) + u (ix3 i j (⟨k.val + 1, by have := h; omega⟩ : Fin 256))
        - Cert.Halo.six * u (ix3 i j k) := by
  obtain ⟨hi1, hi2, hj1, hj2, hk1, hk2⟩ := h
  rw [Read.val_main_v15_apply, Read.val_main_v11_apply, Read.val_main_v9_apply, Read.val_main_v7_apply,
    Read.val_main_v5_apply, Read.val_main_v3_apply, Read.val_main_v1_apply, Read.val_main_v2_apply,
    Read.val_main_v4_apply, Read.val_main_v6_apply, Read.val_main_v8_apply, Read.val_main_v10_apply,
    Read.val_main_v14_apply, Read.val_main_v13_apply, Read.val_main_cst_0_apply, Read.val_main_v12_apply]
  have e1 : Read.idx_main_v1 (ix3 (⟨i.val - 1, by omega⟩ : Fin 126) (⟨j.val - 1, by omega⟩ : Fin 254) (⟨k.val - 1, by omega⟩ : Fin 254))
      = ix3 (⟨i.val - 1, by omega⟩ : Fin 128) j k :=
    ix3_ext _ _ (by show i.val - 1 = i.val - 1; rfl) (by show 1 + (j.val - 1) = j.val; omega)
      (by show 1 + (k.val - 1) = k.val; omega)
  have e2 : Read.idx_main_v2 (ix3 (⟨i.val - 1, by omega⟩ : Fin 126) (⟨j.val - 1, by omega⟩ : Fin 254) (⟨k.val - 1, by omega⟩ : Fin 254))
      = ix3 (⟨i.val + 1, by omega⟩ : Fin 128) j k :=
    ix3_ext _ _ (by show 2 + (i.val - 1) = i.val + 1; omega) (by show 1 + (j.val - 1) = j.val; omega)
      (by show 1 + (k.val - 1) = k.val; omega)
  have e4 : Read.idx_main_v4 (ix3 (⟨i.val - 1, by omega⟩ : Fin 126) (⟨j.val - 1, by omega⟩ : Fin 254) (⟨k.val - 1, by omega⟩ : Fin 254))
      = ix3 i (⟨j.val - 1, by omega⟩ : Fin 256) k :=
    ix3_ext _ _ (by show 1 + (i.val - 1) = i.val; omega) (by show j.val - 1 = j.val - 1; rfl)
      (by show 1 + (k.val - 1) = k.val; omega)
  have e6 : Read.idx_main_v6 (ix3 (⟨i.val - 1, by omega⟩ : Fin 126) (⟨j.val - 1, by omega⟩ : Fin 254) (⟨k.val - 1, by omega⟩ : Fin 254))
      = ix3 i (⟨j.val + 1, by omega⟩ : Fin 256) k :=
    ix3_ext _ _ (by show 1 + (i.val - 1) = i.val; omega) (by show 2 + (j.val - 1) = j.val + 1; omega)
      (by show 1 + (k.val - 1) = k.val; omega)
  have e8 : Read.idx_main_v8 (ix3 (⟨i.val - 1, by omega⟩ : Fin 126) (⟨j.val - 1, by omega⟩ : Fin 254) (⟨k.val - 1, by omega⟩ : Fin 254))
      = ix3 i j (⟨k.val - 1, by omega⟩ : Fin 256) :=
    ix3_ext _ _ (by show 1 + (i.val - 1) = i.val; omega) (by show 1 + (j.val - 1) = j.val; omega)
      (by show k.val - 1 = k.val - 1; rfl)
  have e10 : Read.idx_main_v10 (ix3 (⟨i.val - 1, by omega⟩ : Fin 126) (⟨j.val - 1, by omega⟩ : Fin 254) (⟨k.val - 1, by omega⟩ : Fin 254))
      = ix3 i j (⟨k.val + 1, by omega⟩ : Fin 256) :=
    ix3_ext _ _ (by show 1 + (i.val - 1) = i.val; omega) (by show 1 + (j.val - 1) = j.val; omega)
      (by show 2 + (k.val - 1) = k.val + 1; omega)
  have e12 : Read.idx_main_v12 (ix3 (⟨i.val - 1, by omega⟩ : Fin 126) (⟨j.val - 1, by omega⟩ : Fin 254) (⟨k.val - 1, by omega⟩ : Fin 254))
      = ix3 i j k :=
    ix3_ext _ _ (by show 1 + (i.val - 1) = i.val; omega) (by show 1 + (j.val - 1) = j.val; omega)
      (by show 1 + (k.val - 1) = k.val; omega)
  rw [e1, e2, e4, e6, e8, e10, e12]
  rfl

/-! ## The scatter read at a place of the whole array -/

/-- An interior place holds the update at the place one less on every axis. -/
theorem result_interior (u : (⟨S128x256x256, .f32⟩ : BufTy).Contents (Elt Ideal)) (i : Fin 128) (j : Fin 256) (k : Fin 256)
    (h : Interior i j k) :
    Read.val_main_v20 (F := Ideal) u (ix3 i j k)
      = Read.val_main_v15 (F := Ideal) u
          (ix3 (⟨i.val - 1, by have := h; omega⟩ : Fin 126) (⟨j.val - 1, by have := h; omega⟩ : Fin 254)
            (⟨k.val - 1, by have := h; omega⟩ : Fin 254)) := by
  obtain ⟨hi1, hi2, hj1, hj2, hk1, hk2⟩ := h
  unfold Read.val_main_v20
  refine scatter_set_at sc _ _ _ _ _ ?_ ?_
  · refine (lands _ indexWord _ _ _).trans (congrArg some (ix3_ext _ _ ?_ ?_ ?_))
    · show i.val - 1 + 1 = i.val; omega
    · show j.val - 1 + 1 = j.val; omega
    · show k.val - 1 + 1 = k.val; omega
  · intro q hq
    obtain ⟨a, b, c, rfl⟩ : ∃ (a : Fin 126) (b : Fin 254) (c : Fin 254), q = ix3 a b c := ⟨q 0, q 1, q 2, eq_ix3 q⟩
    rw [lands _ indexWord] at hq
    have e := Option.some.inj hq
    have e0 : a.val + 1 = i.val := congrArg Fin.val (congrFun e 0)
    have e1 : b.val + 1 = j.val := congrArg Fin.val (congrFun e 1)
    have e2 : c.val + 1 = k.val := congrArg Fin.val (congrFun e 2)
    refine ix3_ext _ _ ?_ ?_ ?_
    · show a.val = i.val - 1; omega
    · show b.val = j.val - 1; omega
    · show c.val = k.val - 1; omega

/-- A place on an outer face keeps the zero the operand holds there. -/
theorem result_face (u : (⟨S128x256x256, .f32⟩ : BufTy).Contents (Elt Ideal)) (i : Fin 128) (j : Fin 256) (k : Fin 256)
    (h : ¬ Interior i j k) :
    Read.val_main_v20 (F := Ideal) u (ix3 i j k) = 0 := by
  unfold Read.val_main_v20
  rw [scatter_set_keep sc _ _ _ _ ?_, Read.val_main_v0_apply, Read.val_main_cst_apply]
  · exact Ideal.ofBits_zero_f32
  · intro q hq
    obtain ⟨a, b, c, rfl⟩ : ∃ (a : Fin 126) (b : Fin 254) (c : Fin 254), q = ix3 a b c := ⟨q 0, q 1, q 2, eq_ix3 q⟩
    rw [lands _ indexWord] at hq
    have e := Option.some.inj hq
    have e0 : a.val + 1 = i.val := congrArg Fin.val (congrFun e 0)
    have e1 : b.val + 1 = j.val := congrArg Fin.val (congrFun e 1)
    have e2 : c.val + 1 = k.val := congrArg Fin.val (congrFun e 2)
    have := a.isLt; have := b.isLt; have := c.isLt
    exact h ⟨by omega, by omega, by omega, by omega, by omega, by omega⟩

/-! ## The reference's result is the stencil of its argument -/

/-- The reference's result array is the stencil of its argument array. -/
theorem result_eq (u : (⟨Cert.ReferenceIdeal.S128x256x256, .f32⟩ : BufTy).Contents (Elt Ideal)) :
    Cert.ReferenceIdeal.Read.val_main_v20 (F := Ideal) u = Cert.Halo.lapW u := by
  funext q
  obtain ⟨i, j, k, rfl⟩ : ∃ (i : Fin 128) (j : Fin 256) (k : Fin 256), q = ix3 i j k := ⟨q 0, q 1, q 2, eq_ix3 q⟩
  rw [Cert.Halo.lapW_apply]
  unfold Cert.Halo.lapAt
  by_cases h : Interior i j k
  · rw [dif_pos h, result_interior u i j k h, update_center u i j k h]
  · rw [dif_neg h, result_face u i j k h]

/-- Every execution of the reference ends with its result the stencil of its argument, the argument unchanged. -/
theorem run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v20) = Cert.Halo.lapW (m' ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)) :=
  (θ_run (Cert.ReferenceIdeal.defs (F := Ideal)) _ _).mono
    (fun _ h c => ⟨by rw [(h c).1, Read.val_main_v20_eq, result_eq], (h c).2⟩)
    (Cert.ReferenceIdeal.Value.run (F := Ideal) m' ρ')

/-- info: 'Cert.ReferenceIdeal.RefValue.result_eq' depends on axioms: [propext, Classical.choice, Quot.sound] -/
#guard_msgs in #print axioms result_eq

/-- info: 'Cert.ReferenceIdeal.RefValue.run' depends on axioms: [propext, Classical.choice, Quot.sound] -/
#guard_msgs in #print axioms run

end Cert.ReferenceIdeal.RefValue

end
-- ==== Proof.PayloadAt.lean ====
/-
  The kernel body's pure payloads, read at an index given by coordinates, at the extended reals.

  One device holds a block x of 64 × 64 × 64 values. The body computes from it
  • the seven-point stencil with ZERO beyond the block's own six faces: at (i, j, k) the sum of the six neighbours
    that lie inside the block, taken in the order (i-1), (i+1), (j-1), (j+1), (k-1), (k+1), less six times the centre;
    a neighbour that would lie outside the block contributes 0 (each shifted copy of the block is a slice of it laid
    beside a plane of zeros);
  • six planes of zeros, and six planes copied out of the block unchanged (only their shape is re-read: a plane
    64 × 1 × 64 or 64 × 64 × 1 is stored as 1 × 64 × 64, entry by entry);
  • three 64 × 64 one-bit masks, each set on those edge rows and columns of a face that lie on the outer boundary of
    the whole mesh of devices (decided by the device's three mesh coordinates);
  • on each of the six faces, the face's own values plus the neighbouring device's plane where the mask is clear,
    plus nothing where it is set.
  Every equation is at explicit coordinates i j k : Fin 64.
-/
import proofs.«900441_g7700000000000442_dist_halo3d_v7x_xyz2x4x4_s64_f32_1_alg».proof.Proof.Gen.KernelIdeal.Skeleton
import proofs.«900441_g7700000000000442_dist_halo3d_v7x_xyz2x4x4_s64_f32_1_alg».proof.Proof.LapSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayAt

open Cert.KernelIdeal Cert.KernelIdeal.Gen Idealize.ShloMosaic Idealize.ShloMosaic.ValueIdx

/-! ## The six neighbour reads, zero outside the block -/

/-- The neighbour one step down the first axis, zero at the first plane. -/
def nbLo0 (x : Vec Ideal S64x64x64 .f32) (i j k : Fin 64) : EReal :=
  if h : 0 < i.val then x (ix3 ⟨i.val - 1, by omega⟩ j k) else 0
/-- The neighbour one step up the first axis, zero at the last plane. -/
def nbHi0 (x : Vec Ideal S64x64x64 .f32) (i j k : Fin 64) : EReal :=
  if h : i.val < 63 then x (ix3 ⟨i.val + 1, by omega⟩ j k) else 0
/-- The neighbour one step down the second axis, zero at the first plane. -/
def nbLo1 (x : Vec Ideal S64x64x64 .f32) (i j k : Fin 64) : EReal :=
  if h : 0 < j.val then x (ix3 i ⟨j.val - 1, by omega⟩ k) else 0
/-- The neighbour one step up the second axis, zero at the last plane. -/
def nbHi1 (x : Vec Ideal S64x64x64 .f32) (i j k : Fin 64) : EReal :=
  if h : j.val < 63 then x (ix3 i ⟨j.val + 1, by omega⟩ k) else 0
/-- The neighbour one step down the third axis, zero at the first plane. -/
def nbLo2 (x : Vec Ideal S64x64x64 .f32) (i j k : Fin 64) : EReal :=
  if h : 0 < k.val then x (ix3 i j ⟨k.val - 1, by omega⟩) else 0
/-- The neighbour one step up the third axis, zero at the last plane. -/
def nbHi2 (x : Vec Ideal S64x64x64 .f32) (i j k : Fin 64) : EReal :=
  if h : k.val < 63 then x (ix3 i j ⟨k.val + 1, by omega⟩) else 0

/-! ## The six shifted copies of the block

Each is a slice of the block that leaves out one boundary plane, laid beside a plane of zeros on the side the slice
left: read at (i, j, k) it is the block one step away along that axis, or zero where that step leaves the block. -/

/-- The zero word as a value. -/
abbrev z32 : Ideal .f32 := Scalar.ofBits (F := Ideal) .f32 0x00000000#32

theorem z32_eq : z32 = 0 := Ideal.ofBits_zero_f32

/-- The block shifted one step up the first axis: a zero plane, then planes 0 … 62; read at (i, j, k) it is the block at (i-1, j, k), zero at i = 0. -/
theorem shiftLo0_apply (y : FVec Ideal S64x64x64 .f32) (i j k : Fin 64) :
    concatenate S64x64x64 0 [⟨S1x64x64, broadcast S1x64x64 z32⟩,
      ⟨S63x64x64, extractStridedSlice S63x64x64 ![0, 0, 0] y slices_S64x64x64_o0_0_0_S63x64x64⟩]
      concatenates_S1x64x64_S63x64x64_S64x64x64_d0 (ix3 i j k) = nbLo0 y i j k := by
  unfold nbLo0
  by_cases h : 0 < i.val
  · rw [dif_pos h]
    refine (concatenate_pair_apply_right (t := S64x64x64) (s₁ := S1x64x64) (s₂ := S63x64x64) 0 _ _ _ (ix3 i j k) rfl rfl
      (ix3 ⟨i.val - 1, by omega⟩ j k) (fun b hb => ?_) ?_).trans ?_
    · match b with
      | ⟨0, _⟩ => exact absurd rfl hb
      | ⟨1, _⟩ => rfl
      | ⟨2, _⟩ => rfl
    · show (i.val - 1) + 1 = i.val
      omega
    · exact extractStridedSlice_apply _ y _ _ _ (fun a => match a with
        | ⟨0, _⟩ => by show i.val - 1 = 0 + (i.val - 1); omega
        | ⟨1, _⟩ => by show j.val = 0 + j.val; omega
        | ⟨2, _⟩ => by show k.val = 0 + k.val; omega)
  · rw [dif_neg h]
    refine (concatenate_pair_apply_left (t := S64x64x64) (s₁ := S1x64x64) (s₂ := S63x64x64) 0 _ _ _ (ix3 i j k) rfl
      (ix3 0 j k) (fun b => ?_)).trans z32_eq
    match b with
    | ⟨0, _⟩ => show 0 = i.val; omega
    | ⟨1, _⟩ => rfl
    | ⟨2, _⟩ => rfl

/-- The block shifted one step down the first axis: planes 1 … 63, then a zero plane; read at (i, j, k) it is the block at (i+1, j, k), zero at i = 63. -/
theorem shiftHi0_apply (y : FVec Ideal S64x64x64 .f32) (i j k : Fin 64) :
    concatenate S64x64x64 0 [⟨S63x64x64, extractStridedSlice S63x64x64 ![1, 0, 0] y slices_S64x64x64_o1_0_0_S63x64x64⟩,
      ⟨S1x64x64, broadcast S1x64x64 z32⟩]
      concatenates_S63x64x64_S1x64x64_S64x64x64_d0 (ix3 i j k) = nbHi0 y i j k := by
  unfold nbHi0
  by_cases h : i.val < 63
  · rw [dif_pos h]
    refine (concatenate_pair_apply_left (t := S64x64x64) (s₁ := S63x64x64) (s₂ := S1x64x64) 0 _ _ _ (ix3 i j k) rfl
      (ix3 ⟨i.val, h⟩ j k) (fun b => ?_)).trans ?_
    · match b with
      | ⟨0, _⟩ => rfl
      | ⟨1, _⟩ => rfl
      | ⟨2, _⟩ => rfl
    · exact extractStridedSlice_apply _ y _ _ _ (fun a => match a with
        | ⟨0, _⟩ => by show i.val + 1 = 1 + i.val; omega
        | ⟨1, _⟩ => by show j.val = 0 + j.val; omega
        | ⟨2, _⟩ => by show k.val = 0 + k.val; omega)
  · rw [dif_neg h]
    refine (concatenate_pair_apply_right (t := S64x64x64) (s₁ := S63x64x64) (s₂ := S1x64x64) 0 _ _ _ (ix3 i j k) rfl rfl
      (ix3 0 j k) (fun b hb => ?_) ?_).trans z32_eq
    · match b with
      | ⟨0, _⟩ => exact absurd rfl hb
      | ⟨1, _⟩ => rfl
      | ⟨2, _⟩ => rfl
    · show 0 + 63 = i.val
      have := i.isLt
      omega

/-- The same along the second axis: the block at (i, j-1, k), zero at j = 0. -/
theorem shiftLo1_apply (y : FVec Ideal S64x64x64 .f32) (i j k : Fin 64) :
    concatenate S64x64x64 1 [⟨S64x1x64, broadcast S64x1x64 z32⟩,
      ⟨S64x63x64, extractStridedSlice S64x63x64 ![0, 0, 0] y slices_S64x64x64_o0_0_0_S64x63x64⟩]
      concatenates_S64x1x64_S64x63x64_S64x64x64_d1 (ix3 i j k) = nbLo1 y i j k := by
  unfold nbLo1
  by_cases h : 0 < j.val
  · rw [dif_pos h]
    refine (concatenate_pair_apply_right (t := S64x64x64) (s₁ := S64x1x64) (s₂ := S64x63x64) 1 _ _ _ (ix3 i j k) rfl rfl
      (ix3 i ⟨j.val - 1, by omega⟩ k) (fun b hb => ?_) ?_).trans ?_
    · match b with
      | ⟨0, _⟩ => rfl
      | ⟨1, _⟩ => exact absurd rfl hb
      | ⟨2, _⟩ => rfl
    · show (j.val - 1) + 1 = j.val
      omega
    · exact extractStridedSlice_apply _ y _ _ _ (fun a => match a with
        | ⟨0, _⟩ => by show i.val = 0 + i.val; omega
        | ⟨1, _⟩ => by show j.val - 1 = 0 + (j.val - 1); omega
        | ⟨2, _⟩ => by show k.val = 0 + k.val; omega)
  · rw [dif_neg h]
    refine (concatenate_pair_apply_left (t := S64x64x64) (s₁ := S64x1x64) (s₂ := S64x63x64) 1 _ _ _ (ix3 i j k) rfl
      (ix3 i 0 k) (fun b => ?_)).trans z32_eq
    match b with
    | ⟨0, _⟩ => rfl
    | ⟨1, _⟩ => show 0 = j.val; omega
    | ⟨2, _⟩ => rfl

/-- The block at (i, j+1, k), zero at j = 63. -/
theorem shiftHi1_apply (y : FVec Ideal S64x64x64 .f32) (i j k : Fin 64) :
    concatenate S64x64x64 1 [⟨S64x63x64, extractStridedSlice S64x63x64 ![0, 1, 0] y slices_S64x64x64_o0_1_0_S64x63x64⟩,
      ⟨S64x1x64, broadcast S64x1x64 z32⟩]
      concatenates_S64x63x64_S64x1x64_S64x64x64_d1 (ix3 i j k) = nbHi1 y i j k := by
  unfold nbHi1
  by_cases h : j.val < 63
  · rw [dif_pos h]
    refine (concatenate_pair_apply_left (t := S64x64x64) (s₁ := S64x63x64) (s₂ := S64x1x64) 1 _ _ _ (ix3 i j k) rfl
      (ix3 i ⟨j.val, h⟩ k) (fun b => ?_)).trans ?_
    · match b with
      | ⟨0, _⟩ => rfl
      | ⟨1, _⟩ => rfl
      | ⟨2, _⟩ => rfl
    · exact extractStridedSlice_apply _ y _ _ _ (fun a => match a with
        | ⟨0, _⟩ => by show i.val = 0 + i.val; omega
        | ⟨1, _⟩ => by show j.val + 1 = 1 + j.val; omega
        | ⟨2, _⟩ => by show k.val = 0 + k.val; omega)
  · rw [dif_neg h]
    refine (concatenate_pair_apply_right (t := S64x64x64) (s₁ := S64x63x64) (s₂ := S64x1x64) 1 _ _ _ (ix3 i j k) rfl rfl
      (ix3 i 0 k) (fun b hb => ?_) ?_).trans z32_eq
    · match b with
      | ⟨0, _⟩ => rfl
      | ⟨1, _⟩ => exact absurd rfl hb
      | ⟨2, _⟩ => rfl
    · show 0 + 63 = j.val
      have := j.isLt
      omega

/-- The same along the third axis: the block at (i, j, k-1), zero at k = 0. -/
theorem shiftLo2_apply (y : FVec Ideal S64x64x64 .f32) (i j k : Fin 64) :
    concatenate S64x64x64 2 [⟨S64x64x1, broadcast S64x64x1 z32⟩,
      ⟨S64x64x63, extractStridedSlice S64x64x63 ![0, 0, 0] y slices_S64x64x64_o0_0_0_S64x64x63⟩]
      concatenates_S64x64x1_S64x64x63_S64x64x64_d2 (ix3 i j k) = nbLo2 y i j k := by
  unfold nbLo2
  by_cases h : 0 < k.val
  · rw [dif_pos h]
    refine (concatenate_pair_apply_right (t := S64x64x64) (s₁ := S64x64x1) (s₂ := S64x64x63) 2 _ _ _ (ix3 i j k) rfl rfl
      (ix3 i j ⟨k.val - 1, by omega⟩) (fun b hb => ?_) ?_).trans ?_
    · match b with
      | ⟨0, _⟩ => rfl
      | ⟨1, _⟩ => rfl
      | ⟨2, _⟩ => exact absurd rfl hb
    · show (k.val - 1) + 1 = k.val
      omega
    · exact extractStridedSlice_apply _ y _ _ _ (fun a => match a with
        | ⟨0, _⟩ => by show i.val = 0 + i.val; omega
        | ⟨1, _⟩ => by show j.val = 0 + j.val; omega
        | ⟨2, _⟩ => by show k.val - 1 = 0 + (k.val - 1); omega)
  · rw [dif_neg h]
    refine (concatenate_pair_apply_left (t := S64x64x64) (s₁ := S64x64x1) (s₂ := S64x64x63) 2 _ _ _ (ix3 i j k) rfl
      (ix3 i j 0) (fun b => ?_)).trans z32_eq
    match b with
    | ⟨0, _⟩ => rfl
    | ⟨1, _⟩ => rfl
    | ⟨2, _⟩ => show 0 = k.val; omega

/-- The block at (i, j, k+1), zero at k = 63. -/
theorem shiftHi2_apply (y : FVec Ideal S64x64x64 .f32) (i j k : Fin 64) :
    concatenate S64x64x64 2 [⟨S64x64x63, extractStridedSlice S64x64x63 ![0, 0, 1] y slices_S64x64x64_o0_0_1_S64x64x63⟩,
      ⟨S64x64x1, broadcast S64x64x1 z32⟩]
      concatenates_S64x64x63_S64x64x1_S64x64x64_d2 (ix3 i j k) = nbHi2 y i j k := by
  unfold nbHi2
  by_cases h : k.val < 63
  · rw [dif_pos h]
    refine (concatenate_pair_apply_left (t := S64x64x64) (s₁ := S64x64x63) (s₂ := S64x64x1) 2 _ _ _ (ix3 i j k) rfl
      (ix3 i j ⟨k.val, h⟩) (fun b => ?_)).trans ?_
    · match b with
      | ⟨0, _⟩ => rfl
      | ⟨1, _⟩ => rfl
      | ⟨2, _⟩ => rfl
    · exact extractStridedSlice_apply _ y _ _ _ (fun a => match a with
        | ⟨0, _⟩ => by show i.val = 0 + i.val; omega
        | ⟨1, _⟩ => by show j.val = 0 + j.val; omega
        | ⟨2, _⟩ => by show k.val + 1 = 1 + k.val; omega)
  · rw [dif_neg h]
    refine (concatenate_pair_apply_right (t := S64x64x64) (s₁ := S64x64x63) (s₂ := S64x64x1) 2 _ _ _ (ix3 i j k) rfl rfl
      (ix3 i j 0) (fun b hb => ?_) ?_).trans z32_eq
    · match b with
      | ⟨0, _⟩ => rfl
      | ⟨1, _⟩ => rfl
      | ⟨2, _⟩ => exact absurd rfl hb
    · show 0 + 63 = k.val
      have := k.isLt
      omega

/-! ## The stencil -/

/-- The stored value of the body's stencil step at (i, j, k): the six neighbour reads added in the program's order,
    less the literal 6.0 times the centre. -/
theorem pay13_apply (x : Vec Ideal S64x64x64 .f32) (i j k : Fin 64) :
    k0_pay13 (F := Ideal) x (ix3 i j k)
      = nbLo0 x i j k + nbHi0 x i j k + nbLo1 x i j k + nbHi1 x i j k + nbLo2 x i j k + nbHi2 x i j k
        - Cert.Halo.six * x (ix3 i j k) := by
  unfold k0_pay13
  rw [shapeCast_self]
  show (concatenate S64x64x64 0 [⟨S1x64x64, broadcast S1x64x64 z32⟩,
          ⟨S63x64x64, extractStridedSlice S63x64x64 ![0, 0, 0] x slices_S64x64x64_o0_0_0_S63x64x64⟩]
          concatenates_S1x64x64_S63x64x64_S64x64x64_d0 (ix3 i j k)
        + concatenate S64x64x64 0 [⟨S63x64x64, extractStridedSlice S63x64x64 ![1, 0, 0] x slices_S64x64x64_o1_0_0_S63x64x64⟩,
          ⟨S1x64x64, broadcast S1x64x64 z32⟩]
          concatenates_S63x64x64_S1x64x64_S64x64x64_d0 (ix3 i j k)
        + concatenate S64x64x64 1 [⟨S64x1x64, broadcast S64x1x64 z32⟩,
          ⟨S64x63x64, extractStridedSlice S64x63x64 ![0, 0, 0] x slices_S64x64x64_o0_0_0_S64x63x64⟩]
          concatenates_S64x1x64_S64x63x64_S64x64x64_d1 (ix3 i j k)
        + concatenate S64x64x64 1 [⟨S64x63x64, extractStridedSlice S64x63x64 ![0, 1, 0] x slices_S64x64x64_o0_1_0_S64x63x64⟩,
          ⟨S64x1x64, broadcast S64x1x64 z32⟩]
          concatenates_S64x63x64_S64x1x64_S64x64x64_d1 (ix3 i j k)
        + concatenate S64x64x64 2 [⟨S64x64x1, broadcast S64x64x1 z32⟩,
          ⟨S64x64x63, extractStridedSlice S64x64x63 ![0, 0, 0] x slices_S64x64x64_o0_0_0_S64x64x63⟩]
          concatenates_S64x64x1_S64x64x63_S64x64x64_d2 (ix3 i j k)
        + concatenate S64x64x64 2 [⟨S64x64x63, extractStridedSlice S64x64x63 ![0, 0, 1] x slices_S64x64x64_o0_0_1_S64x64x63⟩,
          ⟨S64x64x1, broadcast S64x64x1 z32⟩]
          concatenates_S64x64x63_S64x64x1_S64x64x64_d2 (ix3 i j k))
        - Cert.Halo.six * x (ix3 i j k) = _
  rw [shiftLo0_apply, shiftHi0_apply, shiftLo1_apply, shiftHi1_apply, shiftLo2_apply, shiftHi2_apply]

/-! ## A unit axis in the middle or at the end, dropped or added by a shape cast

A 64 × 1 × 64 or 64 × 64 × 1 plane has the same row-major order as the 64 × 64 matrix of its two long axes. -/

section UnitAxisCasts
variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

end UnitAxisCasts

/-! ## The six planes of zeros -/

theorem pay14_apply (q : S1x64x64.Idx) : k0_pay14 (F := Ideal) q = 0 := by
  unfold k0_pay14
  exact z32_eq

theorem pay15_apply (q : S1x64x64.Idx) : k0_pay15 (F := Ideal) q = 0 := by
  unfold k0_pay15
  exact z32_eq

theorem pay16_apply (q : S64x1x64.Idx) : k0_pay16 (F := Ideal) q = 0 := by
  unfold k0_pay16
  exact z32_eq

theorem pay17_apply (q : S64x1x64.Idx) : k0_pay17 (F := Ideal) q = 0 := by
  unfold k0_pay17
  exact z32_eq

theorem pay18_apply (q : S64x64x1.Idx) : k0_pay18 (F := Ideal) q = 0 := by
  unfold k0_pay18
  exact z32_eq

theorem pay19_apply (q : S64x64x1.Idx) : k0_pay19 (F := Ideal) q = 0 := by
  unfold k0_pay19
  exact z32_eq

/-! ## A face plus its masked halo

On the 64 × 64 matrix of a face: the face's own value, plus the neighbouring device's value where the mask is clear. -/

/-- The sum at one place of the matrix, given what the two summands' matrices read there. -/
theorem face_add (msk : IVec S64x64 1) (a b : FVec Ideal S64x64 .f32) (q : S64x64.Idx) (A B : EReal)
    (ha : a q = A) (hb : b q = B) :
    addf a (select msk (broadcast S64x64 z32) b) q = A + (if msk q = 1#1 then 0 else B) := by
  show a q + Scalar.select (msk q) z32 (b q) = _
  rw [ha, hb]
  by_cases hm : msk q = 1#1
  · rw [if_pos hm, hm, select_one, z32_eq]
  · rw [if_neg hm, eq_zero_of_ne_one hm, select_zero]

/-- The first plane along the first axis. -/
theorem pay25_apply (msk : IVec S64x64 1) (o h : Vec Ideal S1x64x64 .f32) (j k : Fin 64) :
    k0_pay25 (F := Ideal) msk o h (ix3 0 j k)
      = o (ix3 0 j k) + (if msk (ix2 j k) = 1#1 then 0 else h (ix3 0 j k)) := by
  unfold k0_pay25
  refine (shapeCast_ab_1ab_apply _ _ 0 j k).trans ?_
  exact face_add msk _ _ _ _ _ (shapeCast_1ab_ab_apply o _ j k) (shapeCast_1ab_ab_apply h _ j k)

/-- The last plane along the first axis. -/
theorem pay1_apply (msk : IVec S64x64 1) (o h : Vec Ideal S1x64x64 .f32) (j k : Fin 64) :
    k0_pay1 (F := Ideal) msk o h (ix3 0 j k)
      = o (ix3 0 j k) + (if msk (ix2 j k) = 1#1 then 0 else h (ix3 0 j k)) := by
  unfold k0_pay1
  refine (shapeCast_ab_1ab_apply _ _ 0 j k).trans ?_
  exact face_add msk _ _ _ _ _ (shapeCast_1ab_ab_apply o _ j k) (shapeCast_1ab_ab_apply h _ j k)

/-- The first plane along the second axis: the halo plane's entry (0, i, k) meets the face's (i, 0, k). -/
theorem pay2_apply (msk : IVec S64x64 1) (o : Vec Ideal S64x1x64 .f32) (h : Vec Ideal S1x64x64 .f32) (i k : Fin 64) :
    k0_pay2 (F := Ideal) msk o h (ix3 i 0 k)
      = o (ix3 i 0 k) + (if msk (ix2 i k) = 1#1 then 0 else h (ix3 0 i k)) := by
  unfold k0_pay2
  refine (shapeCast_ab_a1b_apply _ _ i 0 k).trans ?_
  exact face_add msk _ _ _ _ _ (shapeCast_a1b_ab_apply o _ i k) (shapeCast_1ab_ab_apply h _ i k)

/-- The last plane along the second axis: the halo plane's entry (0, i, k) meets the face's (i, 0, k). -/
theorem pay3_apply (msk : IVec S64x64 1) (o : Vec Ideal S64x1x64 .f32) (h : Vec Ideal S1x64x64 .f32) (i k : Fin 64) :
    k0_pay3 (F := Ideal) msk o h (ix3 i 0 k)
      = o (ix3 i 0 k) + (if msk (ix2 i k) = 1#1 then 0 else h (ix3 0 i k)) := by
  unfold k0_pay3
  refine (shapeCast_ab_a1b_apply _ _ i 0 k).trans ?_
  exact face_add msk _ _ _ _ _ (shapeCast_a1b_ab_apply o _ i k) (shapeCast_1ab_ab_apply h _ i k)

/-- The first plane along the third axis: the halo plane's entry (0, i, j) meets the face's (i, j, 0). -/
theorem pay4_apply (msk : IVec S64x64 1) (o : Vec Ideal S64x64x1 .f32) (h : Vec Ideal S1x64x64 .f32) (i j : Fin 64) :
    k0_pay4 (F := Ideal) msk o h (ix3 i j 0)
      = o (ix3 i j 0) + (if msk (ix2 i j) = 1#1 then 0 else h (ix3 0 i j)) := by
  unfold k0_pay4
  refine (shapeCast_ab_ab1_apply _ _ i j 0).trans ?_
  exact face_add msk _ _ _ _ _ (shapeCast_ab1_ab_apply o _ i j) (shapeCast_1ab_ab_apply h _ i j)

/-- The last plane along the third axis: the halo plane's entry (0, i, j) meets the face's (i, j, 0). -/
theorem pay5_apply (msk : IVec S64x64 1) (o : Vec Ideal S64x64x1 .f32) (h : Vec Ideal S1x64x64 .f32) (i j : Fin 64) :
    k0_pay5 (F := Ideal) msk o h (ix3 i j 0)
      = o (ix3 i j 0) + (if msk (ix2 i j) = 1#1 then 0 else h (ix3 0 i j)) := by
  unfold k0_pay5
  refine (shapeCast_ab_ab1_apply _ _ i j 0).trans ?_
  exact face_add msk _ _ _ _ _ (shapeCast_ab1_ab_apply o _ i j) (shapeCast_1ab_ab_apply h _ i j)

/-! ## The six planes copied out of the block

Each is re-read as a 64 × 64 matrix and stored as a 1 × 64 × 64 plane: entry by entry the same values. -/

/-- The first plane along the first axis, copied. -/
theorem pay6_apply (v : Vec Ideal S1x64x64 .f32) (j k : Fin 64) :
    k0_pay6 (F := Ideal) v (ix3 0 j k) = v (ix3 0 j k) := by
  unfold k0_pay6
  exact (shapeCast_ab_1ab_apply _ _ 0 j k).trans (shapeCast_1ab_ab_apply v _ j k)

/-- The last plane along the first axis, copied. -/
theorem pay7_apply (v : Vec Ideal S1x64x64 .f32) (j k : Fin 64) :
    k0_pay7 (F := Ideal) v (ix3 0 j k) = v (ix3 0 j k) := by
  unfold k0_pay7
  exact (shapeCast_ab_1ab_apply _ _ 0 j k).trans (shapeCast_1ab_ab_apply v _ j k)

/-- A plane across the second axis: the stored plane's entry (0, i, k) is the loaded one's (i, 0, k). -/
theorem pay8_apply (v : Vec Ideal S64x1x64 .f32) (i k : Fin 64) :
    k0_pay8 (F := Ideal) v (ix3 0 i k) = v (ix3 i 0 k) := by
  unfold k0_pay8
  exact (shapeCast_ab_1ab_apply _ _ 0 i k).trans (shapeCast_a1b_ab_apply v _ i k)

/-- The other plane across the second axis, whose matrix the body forms first and stores afterwards. -/
theorem pay10_pay9_apply (v : Vec Ideal S64x1x64 .f32) (i k : Fin 64) :
    k0_pay10 (F := Ideal) (k0_pay9 (F := Ideal) v) (ix3 0 i k) = v (ix3 i 0 k) := by
  unfold k0_pay10 k0_pay9
  exact (shapeCast_ab_1ab_apply _ _ 0 i k).trans (shapeCast_a1b_ab_apply v _ i k)

/-- A plane across the third axis: the stored plane's entry (0, i, j) is the loaded one's (i, j, 0). -/
theorem pay11_apply (v : Vec Ideal S64x64x1 .f32) (i j : Fin 64) :
    k0_pay11 (F := Ideal) v (ix3 0 i j) = v (ix3 i j 0) := by
  unfold k0_pay11
  exact (shapeCast_ab_1ab_apply _ _ 0 i j).trans (shapeCast_ab1_ab_apply v _ i j)

/-- The other plane across the third axis. -/
theorem pay12_apply (v : Vec Ideal S64x64x1 .f32) (i j : Fin 64) :
    k0_pay12 (F := Ideal) v (ix3 0 i j) = v (ix3 i j 0) := by
  unfold k0_pay12
  exact (shapeCast_ab_1ab_apply _ _ 0 i j).trans (shapeCast_ab1_ab_apply v _ i j)

/-! ## The three boundary masks

A mask is set at (a, b) of its 64 × 64 face exactly when (a, b) lies on an edge row or column of the face that is on
the outer boundary of the whole mesh: the device is first (or last) along a mesh axis and the place is in the first
(or last) row or column along the matching axis of the face. -/

/-- Two places below 64 are the same 32-bit word exactly when they are the same number. -/
theorem word_eq_iff (t : Fin 64) (m : Nat) (hm : m < 64) : BitVec.ofNat 32 t.val = BitVec.ofNat 32 m ↔ t.val = m := by
  constructor
  · intro h
    have e := congrArg BitVec.toNat h
    rw [BitVec.toNat_ofNat, BitVec.toNat_ofNat, Nat.mod_eq_of_lt (by have := t.isLt; omega), Nat.mod_eq_of_lt (by omega)] at e
    exact e
  · intro h
    rw [h]

/-- One clause of a mask: the device's mesh coordinate is the given one and the place's row (or column) is the given one. -/
theorem clause_iff (w c : BitVec 32) (m : Nat) (hm : m < 64) (t : Fin 64) :
    IntOp.andi (Scalar.cmpi .eq w c) (IntOp.cmpi .eq (BitVec.ofNat 32 t.val) (BitVec.ofNat 32 m)) = 1#1 ↔ (w = c ∧ t.val = m) := by
  rw [IntOp.andi_eq_one, Scalar.cmpi, IntOp.cmpi_eq, IntOp.cmpi_eq, word_eq_iff t m hm]

/-- The row number of a place of the 64 × 64 face, as the body's word. -/
theorem iota0_apply (a b : Fin 64) : iota .tc S64x64 32 [0] iota_S64x64_d0_w32 (ix2 a b) = BitVec.ofNat 32 a.val :=
  iota_single_apply .tc S64x64 32 0 iota_S64x64_d0_w32 (ix2 a b)

/-- The column number of a place of the 64 × 64 face, as the body's word. -/
theorem iota1_apply (a b : Fin 64) : iota .tc S64x64 32 [1] iota_S64x64_d1_w32 (ix2 a b) = BitVec.ofNat 32 b.val :=
  iota_single_apply .tc S64x64 32 1 iota_S64x64_d1_w32 (ix2 a b)

/-- The mask of the two faces across the first axis, over (j, k): the mesh's second and third coordinates decide it. -/
theorem pay20_iff (v5 v8 : BitVec 32) (a b : Fin 64) :
    k0_pay20 v5 v8 (ix2 a b) = 1#1 ↔
      (v5 = 0#32 ∧ a.val = 0) ∨ (v5 = 3#32 ∧ a.val = 63) ∨ (v8 = 0#32 ∧ b.val = 0) ∨ (v8 = 3#32 ∧ b.val = 63) := by
  unfold k0_pay20
  show IntOp.ori (IntOp.ori (IntOp.ori
        (IntOp.andi (Scalar.cmpi .eq v5 0#32) (IntOp.cmpi .eq (iota .tc S64x64 32 [0] iota_S64x64_d0_w32 (ix2 a b)) 0#32))
        (IntOp.andi (Scalar.cmpi .eq v5 3#32) (IntOp.cmpi .eq (iota .tc S64x64 32 [0] iota_S64x64_d0_w32 (ix2 a b)) 63#32)))
        (IntOp.andi (Scalar.cmpi .eq v8 0#32) (IntOp.cmpi .eq (iota .tc S64x64 32 [1] iota_S64x64_d1_w32 (ix2 a b)) 0#32)))
        (IntOp.andi (Scalar.cmpi .eq v8 3#32) (IntOp.cmpi .eq (iota .tc S64x64 32 [1] iota_S64x64_d1_w32 (ix2 a b)) 63#32)) = 1#1 ↔ _
  rw [iota0_apply, iota1_apply, IntOp.ori_eq_one, IntOp.ori_eq_one, IntOp.ori_eq_one,
    clause_iff _ _ 0 (by omega), clause_iff _ _ 63 (by omega), clause_iff _ _ 0 (by omega), clause_iff _ _ 63 (by omega),
    or_assoc, or_assoc]

/-- The mask of the two faces across the second axis, over (i, k), at the row and column numbers and the first clause's two halves as the body passes them: the mesh's first and third coordinates decide it. -/
theorem pay23_iff (v2 v8 : BitVec 32) (a b : Fin 64) :
    k0_pay23 v2 v8 (iota .tc S64x64 32 [0] iota_S64x64_d0_w32) (iota .tc S64x64 32 [1] iota_S64x64_d1_w32) k0_pay21 (k0_pay22 v2) (ix2 a b) = 1#1 ↔
      (v2 = 0#32 ∧ a.val = 0) ∨ (v2 = 1#32 ∧ a.val = 63) ∨ (v8 = 0#32 ∧ b.val = 0) ∨ (v8 = 3#32 ∧ b.val = 63) := by
  unfold k0_pay23 k0_pay21 k0_pay22
  show IntOp.ori (IntOp.ori (IntOp.ori
        (IntOp.andi (Scalar.cmpi .eq v2 0#32) (IntOp.cmpi .eq (iota .tc S64x64 32 [0] iota_S64x64_d0_w32 (ix2 a b)) 0#32))
        (IntOp.andi (Scalar.cmpi .eq v2 1#32) (IntOp.cmpi .eq (iota .tc S64x64 32 [0] iota_S64x64_d0_w32 (ix2 a b)) 63#32)))
        (IntOp.andi (Scalar.cmpi .eq v8 0#32) (IntOp.cmpi .eq (iota .tc S64x64 32 [1] iota_S64x64_d1_w32 (ix2 a b)) 0#32)))
        (IntOp.andi (Scalar.cmpi .eq v8 3#32) (IntOp.cmpi .eq (iota .tc S64x64 32 [1] iota_S64x64_d1_w32 (ix2 a b)) 63#32)) = 1#1 ↔ _
  rw [iota0_apply, iota1_apply, IntOp.ori_eq_one, IntOp.ori_eq_one, IntOp.ori_eq_one,
    clause_iff _ _ 0 (by omega), clause_iff _ _ 63 (by omega), clause_iff _ _ 0 (by omega), clause_iff _ _ 63 (by omega),
    or_assoc, or_assoc]

/-- The mask of the two faces across the third axis, over (i, j), at the row and column numbers as the body passes them: the mesh's first and second coordinates decide it. -/
theorem pay24_iff (v2 v5 : BitVec 32) (a b : Fin 64) :
    k0_pay24 v2 v5 (iota .tc S64x64 32 [0] iota_S64x64_d0_w32) (iota .tc S64x64 32 [1] iota_S64x64_d1_w32) (ix2 a b) = 1#1 ↔
      (v2 = 0#32 ∧ a.val = 0) ∨ (v2 = 1#32 ∧ a.val = 63) ∨ (v5 = 0#32 ∧ b.val = 0) ∨ (v5 = 3#32 ∧ b.val = 63) := by
  unfold k0_pay24
  show IntOp.ori (IntOp.ori (IntOp.ori
        (IntOp.andi (Scalar.cmpi .eq v2 0#32) (IntOp.cmpi .eq (iota .tc S64x64 32 [0] iota_S64x64_d0_w32 (ix2 a b)) 0#32))
        (IntOp.andi (Scalar.cmpi .eq v2 1#32) (IntOp.cmpi .eq (iota .tc S64x64 32 [0] iota_S64x64_d0_w32 (ix2 a b)) 63#32)))
        (IntOp.andi (Scalar.cmpi .eq v5 0#32) (IntOp.cmpi .eq (iota .tc S64x64 32 [1] iota_S64x64_d1_w32 (ix2 a b)) 0#32)))
        (IntOp.andi (Scalar.cmpi .eq v5 3#32) (IntOp.cmpi .eq (iota .tc S64x64 32 [1] iota_S64x64_d1_w32 (ix2 a b)) 63#32)) = 1#1 ↔ _
  rw [iota0_apply, iota1_apply, IntOp.ori_eq_one, IntOp.ori_eq_one, IntOp.ori_eq_one,
    clause_iff _ _ 0 (by omega), clause_iff _ _ 63 (by omega), clause_iff _ _ 0 (by omega), clause_iff _ _ 63 (by omega),
    or_assoc, or_assoc]

/-! ## Axioms -/

/-- info: 'Cert.KernelIdeal.PayAt.pay13_apply' depends on axioms: [propext, Classical.choice, Quot.sound] -/
#guard_msgs in #print axioms pay13_apply

/-- info: 'Cert.KernelIdeal.PayAt.pay14_apply' depends on axioms: [propext, Classical.choice, Quot.sound] -/
#guard_msgs in #print axioms pay14_apply

/-- info: 'Cert.KernelIdeal.PayAt.pay15_apply' depends on axioms: [propext, Classical.choice, Quot.sound] -/
#guard_msgs in #print axioms pay15_apply

/-- info: 'Cert.KernelIdeal.PayAt.pay16_apply' depends on axioms: [propext, Classical.choice, Quot.sound] -/
#guard_msgs in #print axioms pay16_apply

/-- info: 'Cert.KernelIdeal.PayAt.pay17_apply' depends on axioms: [propext, Classical.choice, Quot.sound] -/
#guard_msgs in #print axioms pay17_apply

/-- info: 'Cert.KernelIdeal.PayAt.pay18_apply' depends on axioms: [propext, Classical.choice, Quot.sound] -/
#guard_msgs in #print axioms pay18_apply

/-- info: 'Cert.KernelIdeal.PayAt.pay19_apply' depends on axioms: [propext, Classical.choice, Quot.sound] -/
#guard_msgs in #print axioms pay19_apply

/-- info: 'Cert.KernelIdeal.PayAt.pay25_apply' depends on axioms: [propext, Classical.choice, Quot.sound] -/
#guard_msgs in #print axioms pay25_apply

/-- info: 'Cert.KernelIdeal.PayAt.pay1_apply' depends on axioms: [propext, Classical.choice, Quot.sound] -/
#guard_msgs in #print axioms pay1_apply

/-- info: 'Cert.KernelIdeal.PayAt.pay2_apply' depends on axioms: [propext, Classical.choice, Quot.sound] -/
#guard_msgs in #print axioms pay2_apply

/-- info: 'Cert.KernelIdeal.PayAt.pay3_apply' depends on axioms: [propext, Classical.choice, Quot.sound] -/
#guard_msgs in #print axioms pay3_apply

/-- info: 'Cert.KernelIdeal.PayAt.pay4_apply' depends on axioms: [propext, Classical.choice, Quot.sound] -/
#guard_msgs in #print axioms pay4_apply

/-- info: 'Cert.KernelIdeal.PayAt.pay5_apply' depends on axioms: [propext, Classical.choice, Quot.sound] -/
#guard_msgs in #print axioms pay5_apply

/-- info: 'Cert.KernelIdeal.PayAt.pay6_apply' depends on axioms: [propext, Classical.choice, Quot.sound] -/
#guard_msgs in #print axioms pay6_apply

/-- info: 'Cert.KernelIdeal.PayAt.pay7_apply' depends on axioms: [propext, Classical.choice, Quot.sound] -/
#guard_msgs in #print axioms pay7_apply

/-- info: 'Cert.KernelIdeal.PayAt.pay8_apply' depends on axioms: [propext, Classical.choice, Quot.sound] -/
#guard_msgs in #print axioms pay8_apply

/-- info: 'Cert.KernelIdeal.PayAt.pay10_pay9_apply' depends on axioms: [propext, Classical.choice, Quot.sound] -/
#guard_msgs in #print axioms pay10_pay9_apply

/-- info: 'Cert.KernelIdeal.PayAt.pay11_apply' depends on axioms: [propext, Classical.choice, Quot.sound] -/
#guard_msgs in #print axioms pay11_apply

/-- info: 'Cert.KernelIdeal.PayAt.pay12_apply' depends on axioms: [propext, Classical.choice, Quot.sound] -/
#guard_msgs in #print axioms pay12_apply

/-- info: 'Cert.KernelIdeal.PayAt.pay20_iff' depends on axioms: [propext, Quot.sound] -/
#guard_msgs in #print axioms pay20_iff

/-- info: 'Cert.KernelIdeal.PayAt.pay23_iff' depends on axioms: [propext, Quot.sound] -/
#guard_msgs in #print axioms pay23_iff

/-- info: 'Cert.KernelIdeal.PayAt.pay24_iff' depends on axioms: [propext, Quot.sound] -/
#guard_msgs in #print axioms pay24_iff

end Cert.KernelIdeal.PayAt

end
-- ==== Proof.DevSpec.lean ====
/-
  What ONE device of the 2 × 4 × 4 mesh ends with, by coordinates, at the ideal instance.

  Device `c` sits at mesh place (cx, cy, cz) and holds the 64 × 64 × 64 block of the whole 128 × 256 × 256 array whose
  corner is (64·cx, 64·cy, 64·cz). Its result at a place (i, j, k) of its block is built in three stages:
  * the stencil of its own block alone, a neighbour beyond one of the block's faces counting as zero
    (`blockLap`: the six neighbours in the order i-1, i+1, j-1, j+1, k-1, k+1, less six times the centre);
  * that value replaced by zero where the place lies on one of the six OUTER faces of the whole array (`onEdge`);
  * then, one direction after the other (0: i-1, 1: i+1, 2: j-1, 3: j+1, 4: k-1, 5: k+1), where the place lies on the
    block's face in that direction and the device has a neighbour there, the neighbour's adjoining plane is added — or
    zero, where the place lies on an outer face of the whole array along one of the other two axes.
  `hal h a b` is entry (a, b) of the plane received from direction `h`: for directions 0 and 1 (a, b) = (j, k), for 2
  and 3 (a, b) = (i, k), for 4 and 5 (a, b) = (i, j).
-/
import proofs.«900441_g7700000000000442_dist_halo3d_v7x_xyz2x4x4_s64_f32_1_alg».proof.Proof.LapSpec
import proofs.«900441_g7700000000000442_dist_halo3d_v7x_xyz2x4x4_s64_f32_1_alg».proof.Proof.MeshNbr

noncomputable section

namespace Cert.Halo

open Idealize.ShloMosaic Idealize.ShloMosaic.ValueIdx

/-- The mesh coordinates of device `c`. -/
def cx (c : Fin 32) : Nat := c.val / 16
def cy (c : Fin 32) : Nat := (c.val / 4) % 4
def cz (c : Fin 32) : Nat := c.val % 4

theorem cx_lt (c : Fin 32) : cx c < 2 := by unfold cx; omega
theorem cy_lt (c : Fin 32) : cy c < 4 := by unfold cy; omega
theorem cz_lt (c : Fin 32) : cz c < 4 := by unfold cz; omega

/-- The place lies on an outer face of the whole array along the first, second, third axis. -/
def edge0 (c : Fin 32) (i : Fin 64) : Prop := (cx c = 0 ∧ i.val = 0) ∨ (cx c = 1 ∧ i.val = 63)
def edge1 (c : Fin 32) (j : Fin 64) : Prop := (cy c = 0 ∧ j.val = 0) ∨ (cy c = 3 ∧ j.val = 63)
def edge2 (c : Fin 32) (k : Fin 64) : Prop := (cz c = 0 ∧ k.val = 0) ∨ (cz c = 3 ∧ k.val = 63)
instance (c : Fin 32) (i : Fin 64) : Decidable (edge0 c i) := by unfold edge0; infer_instance
instance (c : Fin 32) (j : Fin 64) : Decidable (edge1 c j) := by unfold edge1; infer_instance
instance (c : Fin 32) (k : Fin 64) : Decidable (edge2 c k) := by unfold edge2; infer_instance

/-- The stencil of a block alone: a neighbour beyond a face of the block counts as zero. -/
def blockLap (x : Fin 64 → Fin 64 → Fin 64 → EReal) (i j k : Fin 64) : EReal :=
  (if h : 0 < i.val then x ⟨i.val - 1, by omega⟩ j k else 0) + (if h : i.val < 63 then x ⟨i.val + 1, by omega⟩ j k else 0)
    + (if h : 0 < j.val then x i ⟨j.val - 1, by omega⟩ k else 0) + (if h : j.val < 63 then x i ⟨j.val + 1, by omega⟩ k else 0)
    + (if h : 0 < k.val then x i j ⟨k.val - 1, by omega⟩ else 0) + (if h : k.val < 63 then x i j ⟨k.val + 1, by omega⟩ else 0)
    - six * x i j k

/-- What the plane received from direction `h` adds at (i, j, k): nothing off the block's face in that direction or
    where there is no neighbour; on it, the plane's entry, or zero on an outer face along another axis. -/
def haloAdd (c : Fin 32) (hal : Fin 6 → Fin 64 → Fin 64 → EReal) (h : Fin 6) (i j k : Fin 64) : EReal :=
  match h with
  | ⟨0, _⟩ => if has 0 c = true ∧ i.val = 0 then (if edge1 c j ∨ edge2 c k then 0 else hal 0 j k) else 0
  | ⟨1, _⟩ => if has 1 c = true ∧ i.val = 63 then (if edge1 c j ∨ edge2 c k then 0 else hal 1 j k) else 0
  | ⟨2, _⟩ => if has 2 c = true ∧ j.val = 0 then (if edge0 c i ∨ edge2 c k then 0 else hal 2 i k) else 0
  | ⟨3, _⟩ => if has 3 c = true ∧ j.val = 63 then (if edge0 c i ∨ edge2 c k then 0 else hal 3 i k) else 0
  | ⟨4, _⟩ => if has 4 c = true ∧ k.val = 0 then (if edge0 c i ∨ edge1 c j then 0 else hal 4 i j) else 0
  | ⟨_ + 5, _⟩ => if has 5 c = true ∧ k.val = 63 then (if edge0 c i ∨ edge1 c j then 0 else hal 5 i j) else 0

/-- Device `c`'s result at (i, j, k) from its block `x` and the six received planes. -/
def outDev (c : Fin 32) (x : Fin 64 → Fin 64 → Fin 64 → EReal) (hal : Fin 6 → Fin 64 → Fin 64 → EReal) (i j k : Fin 64) : EReal :=
  (if edge0 c i ∨ edge1 c j ∨ edge2 c k then 0 else blockLap x i j k)
    + haloAdd c hal 0 i j k + haloAdd c hal 1 i j k + haloAdd c hal 2 i j k + haloAdd c hal 3 i j k
    + haloAdd c hal 4 i j k + haloAdd c hal 5 i j k

/-- Device `c`'s block of a whole array, by coordinates. -/
def blockOf (c : Fin 32) (u : (⟨3, ![128, 256, 256]⟩ : Shape).Idx → EReal) (i j k : Fin 64) : EReal :=
  u (ix3 (n0 := 128) (n1 := 256) (n2 := 256) ⟨cx c * 64 + i.val, by have := cx_lt c; omega⟩ ⟨cy c * 64 + j.val, by have := cy_lt c; omega⟩
    ⟨cz c * 64 + k.val, by have := cz_lt c; omega⟩)

/-- The plane device `c` receives from direction `h`: the adjoining plane of that neighbour's block. -/
def nbPlane (c : Fin 32) (u : (⟨3, ![128, 256, 256]⟩ : Shape).Idx → EReal) (h : Fin 6) (a b : Fin 64) : EReal :=
  match h with
  | ⟨0, _⟩ => blockOf (nbr 0 c) u ⟨63, by omega⟩ a b
  | ⟨1, _⟩ => blockOf (nbr 1 c) u ⟨0, by omega⟩ a b
  | ⟨2, _⟩ => blockOf (nbr 2 c) u a ⟨63, by omega⟩ b
  | ⟨3, _⟩ => blockOf (nbr 3 c) u a ⟨0, by omega⟩ b
  | ⟨4, _⟩ => blockOf (nbr 4 c) u a b ⟨63, by omega⟩
  | ⟨_ + 5, _⟩ => blockOf (nbr 5 c) u a b ⟨0, by omega⟩

end Cert.Halo

end
-- ==== Proof.DevBridge.lean ====
/-
  From what one device ends with to its block of the whole array's stencil.

  Device `c` of the 2 × 4 × 4 mesh sits at (cx, cy, cz) and holds the 64 × 64 × 64 block whose corner is
  (64·cx, 64·cy, 64·cz): place (i, j, k) of the block is place (64·cx + i, 64·cy + j, 64·cz + k) of the whole
  128 × 256 × 256 array. That place lies on an outer face of the whole array exactly when the block place lies on an
  outer face along one of the three axes; there both the device's result and the whole array's stencil are zero.
  Elsewhere each of the six neighbours of the place is either inside the block, where the block's own stencil reads it
  and the plane received from that direction adds nothing, or just beyond a face of the block that has a neighbouring
  device, where the block's own stencil counts zero and the received plane — the adjoining plane of the neighbour's
  block — holds it. So the device's result and the whole array's stencil are sums of the same seven numbers, in
  different orders.
-/
import proofs.«900441_g7700000000000442_dist_halo3d_v7x_xyz2x4x4_s64_f32_1_alg».proof.Proof.DevSpec
import Idealize.ShloMosaic.Lib.Layout

noncomputable section

namespace Cert.HaloBridge

open Cert.Halo Idealize.ShloMosaic Idealize.ShloMosaic.ValueIdx

/-! ## Places of a rank-3 array, and a device's block coordinates -/

/-- Two places of a rank-3 array with equal coordinates are the same place. -/
theorem ix3_ext {n0 n1 n2 : Nat} (p q : (⟨3, ![n0, n1, n2]⟩ : Shape).Idx) (h0 : (p 0).val = (q 0).val)
    (h1 : (p 1).val = (q 1).val) (h2 : (p 2).val = (q 2).val) : p = q := by
  funext a
  match a with
  | ⟨0, _⟩ => exact Fin.ext h0
  | ⟨1, _⟩ => exact Fin.ext h1
  | ⟨2, _⟩ => exact Fin.ext h2

/-- The whole-array coordinates of place (i, j, k) of device `c`'s block. -/
abbrev gx (c : Fin 32) (i : Fin 64) : Fin 128 := ⟨cx c * 64 + i.val, by have := cx_lt c; omega⟩
abbrev gy (c : Fin 32) (j : Fin 64) : Fin 256 := ⟨cy c * 64 + j.val, by have := cy_lt c; omega⟩
abbrev gz (c : Fin 32) (k : Fin 64) : Fin 256 := ⟨cz c * 64 + k.val, by have := cz_lt c; omega⟩

/-- On the 2 × 4 × 4 mesh numbered row-major, device `c`'s block coordinate along each axis is its mesh coordinate. -/
theorem meshLin_x : ∀ c : Fin 32, Layout.meshLin [2, 4, 4] c.val [0] = cx c := by decide
theorem meshLin_y : ∀ c : Fin 32, Layout.meshLin [2, 4, 4] c.val [1] = cy c := by decide
theorem meshLin_z : ∀ c : Fin 32, Layout.meshLin [2, 4, 4] c.val [2] = cz c := by decide

/-- Device `c`'s block of a whole array, read at a place by coordinates. -/
theorem blockN_apply3 {α : Type} (c : Fin 32) (v : (⟨3, ![128, 256, 256]⟩ : Shape).Idx → α) (i j k : Fin 64) :
    (Idealize.ShloMosaic.Layout.blockN ⟨3, ![64, 64, 64]⟩ ⟨3, ![128, 256, 256]⟩ (Idealize.ShloMosaic.Layout.meshBlock [2, 4, 4] ![[0], [1], [2]] c) v) (ix3 i j k)
      = v (ix3 (n0 := 128) (n1 := 256) (n2 := 256) ⟨cx c * 64 + i.val, by have := cx_lt c; omega⟩ ⟨cy c * 64 + j.val, by have := cy_lt c; omega⟩ ⟨cz c * 64 + k.val, by have := cz_lt c; omega⟩) := by
  rw [Layout.blockN_apply]
  refine congrArg v (ix3_ext _ _ ?_ ?_ ?_)
  · show Layout.meshLin [2, 4, 4] c.val [0] * 64 + i.val = cx c * 64 + i.val
    rw [meshLin_x]
  · show Layout.meshLin [2, 4, 4] c.val [1] * 64 + j.val = cy c * 64 + j.val
    rw [meshLin_y]
  · show Layout.meshLin [2, 4, 4] c.val [2] * 64 + k.val = cz c * 64 + k.val
    rw [meshLin_z]

/-- The same with the device typed as the machine's device number. -/
example {α : Type} (c : Dev 32) (v : (⟨3, ![128, 256, 256]⟩ : Shape).Idx → α) (i j k : Fin 64) :
    (Idealize.ShloMosaic.Layout.blockN ⟨3, ![64, 64, 64]⟩ ⟨3, ![128, 256, 256]⟩ (Idealize.ShloMosaic.Layout.meshBlock [2, 4, 4] ![[0], [1], [2]] c) v) (ix3 i j k)
      = v (ix3 (n0 := 128) (n1 := 256) (n2 := 256) ⟨cx c * 64 + i.val, by have := cx_lt c; omega⟩ ⟨cy c * 64 + j.val, by have := cy_lt c; omega⟩ ⟨cz c * 64 + k.val, by have := cz_lt c; omega⟩) :=
  blockN_apply3 c v i j k

/-! ## The mesh by coordinates: who has a neighbour, and where the neighbour sits -/

theorem has0_iff : ∀ c : Fin 32, (has 0 c = true ↔ cx c = 1) := by decide
theorem has1_iff : ∀ c : Fin 32, (has 1 c = true ↔ cx c = 0) := by decide
theorem has2_iff : ∀ c : Fin 32, (has 2 c = true ↔ 0 < cy c) := by decide
theorem has3_iff : ∀ c : Fin 32, (has 3 c = true ↔ cy c < 3) := by decide
theorem has4_iff : ∀ c : Fin 32, (has 4 c = true ↔ 0 < cz c) := by decide
theorem has5_iff : ∀ c : Fin 32, (has 5 c = true ↔ cz c < 3) := by decide

theorem nbr0_coord : ∀ c : Fin 32, has 0 c = true →
    cx (nbr 0 c) + 1 = cx c ∧ cy (nbr 0 c) = cy c ∧ cz (nbr 0 c) = cz c := by decide
theorem nbr1_coord : ∀ c : Fin 32, has 1 c = true →
    cx (nbr 1 c) = cx c + 1 ∧ cy (nbr 1 c) = cy c ∧ cz (nbr 1 c) = cz c := by decide
theorem nbr2_coord : ∀ c : Fin 32, has 2 c = true →
    cx (nbr 2 c) = cx c ∧ cy (nbr 2 c) + 1 = cy c ∧ cz (nbr 2 c) = cz c := by decide
theorem nbr3_coord : ∀ c : Fin 32, has 3 c = true →
    cx (nbr 3 c) = cx c ∧ cy (nbr 3 c) = cy c + 1 ∧ cz (nbr 3 c) = cz c := by decide
theorem nbr4_coord : ∀ c : Fin 32, has 4 c = true →
    cx (nbr 4 c) = cx c ∧ cy (nbr 4 c) = cy c ∧ cz (nbr 4 c) + 1 = cz c := by decide
theorem nbr5_coord : ∀ c : Fin 32, has 5 c = true →
    cx (nbr 5 c) = cx c ∧ cy (nbr 5 c) = cy c ∧ cz (nbr 5 c) = cz c + 1 := by decide

/-! ## What a received plane adds, direction by direction, and which plane it is -/

section Unfold
variable (c : Fin 32) (hal : Fin 6 → Fin 64 → Fin 64 → EReal) (u : (⟨3, ![128, 256, 256]⟩ : Shape).Idx → EReal)
  (i j k a b : Fin 64)

theorem haloAdd_0 : haloAdd c hal 0 i j k
    = if has 0 c = true ∧ i.val = 0 then (if edge1 c j ∨ edge2 c k then 0 else hal 0 j k) else 0 := rfl
theorem haloAdd_1 : haloAdd c hal 1 i j k
    = if has 1 c = true ∧ i.val = 63 then (if edge1 c j ∨ edge2 c k then 0 else hal 1 j k) else 0 := rfl
theorem haloAdd_2 : haloAdd c hal 2 i j k
    = if has 2 c = true ∧ j.val = 0 then (if edge0 c i ∨ edge2 c k then 0 else hal 2 i k) else 0 := rfl
theorem haloAdd_3 : haloAdd c hal 3 i j k
    = if has 3 c = true ∧ j.val = 63 then (if edge0 c i ∨ edge2 c k then 0 else hal 3 i k) else 0 := rfl
theorem haloAdd_4 : haloAdd c hal 4 i j k
    = if has 4 c = true ∧ k.val = 0 then (if edge0 c i ∨ edge1 c j then 0 else hal 4 i j) else 0 := rfl
theorem haloAdd_5 : haloAdd c hal 5 i j k
    = if has 5 c = true ∧ k.val = 63 then (if edge0 c i ∨ edge1 c j then 0 else hal 5 i j) else 0 := rfl

theorem nbPlane_0 : nbPlane c u 0 a b = blockOf (nbr 0 c) u ⟨63, by omega⟩ a b := rfl
theorem nbPlane_1 : nbPlane c u 1 a b = blockOf (nbr 1 c) u ⟨0, by omega⟩ a b := rfl
theorem nbPlane_2 : nbPlane c u 2 a b = blockOf (nbr 2 c) u a ⟨63, by omega⟩ b := rfl
theorem nbPlane_3 : nbPlane c u 3 a b = blockOf (nbr 3 c) u a ⟨0, by omega⟩ b := rfl
theorem nbPlane_4 : nbPlane c u 4 a b = blockOf (nbr 4 c) u a b ⟨63, by omega⟩ := rfl
theorem nbPlane_5 : nbPlane c u 5 a b = blockOf (nbr 5 c) u a b ⟨0, by omega⟩ := rfl

end Unfold

/-! ## On an outer face of the whole array no received plane adds anything -/

section Face
variable (c : Fin 32) (hal : Fin 6 → Fin 64 → Fin 64 → EReal) (i j k : Fin 64)
  (hE : edge0 c i ∨ edge1 c j ∨ edge2 c k)
include hE

theorem haloAdd_0_face : haloAdd c hal 0 i j k = 0 := by
  rw [haloAdd_0]
  by_cases h1 : has 0 c = true ∧ i.val = 0
  · rw [if_pos h1]
    by_cases h2 : edge1 c j ∨ edge2 c k
    · rw [if_pos h2]
    · exfalso
      rcases hE with h | h | h
      · have hx := (has0_iff c).1 h1.1
        have hi := h1.2
        unfold edge0 at h
        omega
      · exact h2 (Or.inl h)
      · exact h2 (Or.inr h)
  · rw [if_neg h1]

theorem haloAdd_1_face : haloAdd c hal 1 i j k = 0 := by
  rw [haloAdd_1]
  by_cases h1 : has 1 c = true ∧ i.val = 63
  · rw [if_pos h1]
    by_cases h2 : edge1 c j ∨ edge2 c k
    · rw [if_pos h2]
    · exfalso
      rcases hE with h | h | h
      · have hx := (has1_iff c).1 h1.1
        have hi := h1.2
        unfold edge0 at h
        omega
      · exact h2 (Or.inl h)
      · exact h2 (Or.inr h)
  · rw [if_neg h1]

theorem haloAdd_2_face : haloAdd c hal 2 i j k = 0 := by
  rw [haloAdd_2]
  by_cases h1 : has 2 c = true ∧ j.val = 0
  · rw [if_pos h1]
    by_cases h2 : edge0 c i ∨ edge2 c k
    · rw [if_pos h2]
    · exfalso
      rcases hE with h | h | h
      · exact h2 (Or.inl h)
      · have hy := (has2_iff c).1 h1.1
        have hj := h1.2
        unfold edge1 at h
        omega
      · exact h2 (Or.inr h)
  · rw [if_neg h1]

theorem haloAdd_3_face : haloAdd c hal 3 i j k = 0 := by
  rw [haloAdd_3]
  by_cases h1 : has 3 c = true ∧ j.val = 63
  · rw [if_pos h1]
    by_cases h2 : edge0 c i ∨ edge2 c k
    · rw [if_pos h2]
    · exfalso
      rcases hE with h | h | h
      · exact h2 (Or.inl h)
      · have hy := (has3_iff c).1 h1.1
        have hj := h1.2
        unfold edge1 at h
        omega
      · exact h2 (Or.inr h)
  · rw [if_neg h1]

theorem haloAdd_4_face : haloAdd c hal 4 i j k = 0 := by
  rw [haloAdd_4]
  by_cases h1 : has 4 c = true ∧ k.val = 0
  · rw [if_pos h1]
    by_cases h2 : edge0 c i ∨ edge1 c j
    · rw [if_pos h2]
    · exfalso
      rcases hE with h | h | h
      · exact h2 (Or.inl h)
      · exact h2 (Or.inr h)
      · have hz := (has4_iff c).1 h1.1
        have hk := h1.2
        unfold edge2 at h
        omega
  · rw [if_neg h1]

theorem haloAdd_5_face : haloAdd c hal 5 i j k = 0 := by
  rw [haloAdd_5]
  by_cases h1 : has 5 c = true ∧ k.val = 63
  · rw [if_pos h1]
    by_cases h2 : edge0 c i ∨ edge1 c j
    · rw [if_pos h2]
    · exfalso
      rcases hE with h | h | h
      · exact h2 (Or.inl h)
      · exact h2 (Or.inr h)
      · have hz := (has5_iff c).1 h1.1
        have hk := h1.2
        unfold edge2 at h
        omega
  · rw [if_neg h1]

end Face

/-! ## Off the outer faces: each neighbour of the place comes from the block or from a received plane

For each of the six directions: the block's own stencil term (zero beyond a face of the block) plus what the plane
received from that direction adds is the whole array's entry one step over. -/

section Neighbour
variable (u : (⟨3, ![128, 256, 256]⟩ : Shape).Idx → EReal) (c : Fin 32) (i j k : Fin 64)

theorem step_0 (h0 : ¬edge0 c i) (h12 : ¬(edge1 c j ∨ edge2 c k)) :
    (if h : 0 < i.val then blockOf c u ⟨i.val - 1, by omega⟩ j k else 0) + haloAdd c (nbPlane c u) 0 i j k
      = u (ix3 (⟨(gx c i).val - 1, by have := (gx c i).isLt; omega⟩ : Fin 128) (gy c j) (gz c k)) := by
  have hcx := cx_lt c
  unfold edge0 at h0
  rw [haloAdd_0]
  by_cases hi : 0 < i.val
  · rw [dif_pos hi, if_neg (fun h => by have := h.2; omega), add_zero]
    exact congrArg u (ix3_ext _ _ (by show cx c * 64 + (i.val - 1) = cx c * 64 + i.val - 1; omega) rfl rfl)
  · have hi0 : i.val = 0 := by omega
    have hh : has 0 c = true := (has0_iff c).2 (by omega)
    obtain ⟨n0, n1, n2⟩ := nbr0_coord c hh
    rw [dif_neg hi, zero_add, if_pos ⟨hh, hi0⟩, if_neg h12, nbPlane_0]
    exact congrArg u (ix3_ext _ _ (by show cx (nbr 0 c) * 64 + 63 = cx c * 64 + i.val - 1; omega)
      (by show cy (nbr 0 c) * 64 + j.val = cy c * 64 + j.val; rw [n1])
      (by show cz (nbr 0 c) * 64 + k.val = cz c * 64 + k.val; rw [n2]))

theorem step_1 (h0 : ¬edge0 c i) (h12 : ¬(edge1 c j ∨ edge2 c k)) (hb : (gx c i).val + 1 < 128) :
    (if h : i.val < 63 then blockOf c u ⟨i.val + 1, by omega⟩ j k else 0) + haloAdd c (nbPlane c u) 1 i j k
      = u (ix3 (⟨(gx c i).val + 1, hb⟩ : Fin 128) (gy c j) (gz c k)) := by
  have hcx := cx_lt c
  unfold edge0 at h0
  rw [haloAdd_1]
  by_cases hi : i.val < 63
  · rw [dif_pos hi, if_neg (fun h => by have := h.2; omega), add_zero]
    exact congrArg u (ix3_ext _ _ (by show cx c * 64 + (i.val + 1) = cx c * 64 + i.val + 1; omega) rfl rfl)
  · have hi63 : i.val = 63 := by omega
    have hh : has 1 c = true := (has1_iff c).2 (by omega)
    obtain ⟨n0, n1, n2⟩ := nbr1_coord c hh
    rw [dif_neg hi, zero_add, if_pos ⟨hh, hi63⟩, if_neg h12, nbPlane_1]
    exact congrArg u (ix3_ext _ _ (by show cx (nbr 1 c) * 64 + 0 = cx c * 64 + i.val + 1; omega)
      (by show cy (nbr 1 c) * 64 + j.val = cy c * 64 + j.val; rw [n1])
      (by show cz (nbr 1 c) * 64 + k.val = cz c * 64 + k.val; rw [n2]))

theorem step_2 (h1 : ¬edge1 c j) (h02 : ¬(edge0 c i ∨ edge2 c k)) :
    (if h : 0 < j.val then blockOf c u i ⟨j.val - 1, by omega⟩ k else 0) + haloAdd c (nbPlane c u) 2 i j k
      = u (ix3 (gx c i) (⟨(gy c j).val - 1, by have := (gy c j).isLt; omega⟩ : Fin 256) (gz c k)) := by
  have hcy := cy_lt c
  unfold edge1 at h1
  rw [haloAdd_2]
  by_cases hj : 0 < j.val
  · rw [dif_pos hj, if_neg (fun h => by have := h.2; omega), add_zero]
    exact congrArg u (ix3_ext _ _ rfl (by show cy c * 64 + (j.val - 1) = cy c * 64 + j.val - 1; omega) rfl)
  · have hj0 : j.val = 0 := by omega
    have hh : has 2 c = true := (has2_iff c).2 (by omega)
    obtain ⟨n0, n1, n2⟩ := nbr2_coord c hh
    rw [dif_neg hj, zero_add, if_pos ⟨hh, hj0⟩, if_neg h02, nbPlane_2]
    exact congrArg u (ix3_ext _ _ (by show cx (nbr 2 c) * 64 + i.val = cx c * 64 + i.val; rw [n0])
      (by show cy (nbr 2 c) * 64 + 63 = cy c * 64 + j.val - 1; omega)
      (by show cz (nbr 2 c) * 64 + k.val = cz c * 64 + k.val; rw [n2]))

theorem step_3 (h1 : ¬edge1 c j) (h02 : ¬(edge0 c i ∨ edge2 c k)) (hb : (gy c j).val + 1 < 256) :
    (if h : j.val < 63 then blockOf c u i ⟨j.val + 1, by omega⟩ k else 0) + haloAdd c (nbPlane c u) 3 i j k
      = u (ix3 (gx c i) (⟨(gy c j).val + 1, hb⟩ : Fin 256) (gz c k)) := by
  have hcy := cy_lt c
  unfold edge1 at h1
  rw [haloAdd_3]
  by_cases hj : j.val < 63
  · rw [dif_pos hj, if_neg (fun h => by have := h.2; omega), add_zero]
    exact congrArg u (ix3_ext _ _ rfl (by show cy c * 64 + (j.val + 1) = cy c * 64 + j.val + 1; omega) rfl)
  · have hj63 : j.val = 63 := by omega
    have hh : has 3 c = true := (has3_iff c).2 (by omega)
    obtain ⟨n0, n1, n2⟩ := nbr3_coord c hh
    rw [dif_neg hj, zero_add, if_pos ⟨hh, hj63⟩, if_neg h02, nbPlane_3]
    exact congrArg u (ix3_ext _ _ (by show cx (nbr 3 c) * 64 + i.val = cx c * 64 + i.val; rw [n0])
      (by show cy (nbr 3 c) * 64 + 0 = cy c * 64 + j.val + 1; omega)
      (by show cz (nbr 3 c) * 64 + k.val = cz c * 64 + k.val; rw [n2]))

theorem step_4 (h2 : ¬edge2 c k) (h01 : ¬(edge0 c i ∨ edge1 c j)) :
    (if h : 0 < k.val then blockOf c u i j ⟨k.val - 1, by omega⟩ else 0) + haloAdd c (nbPlane c u) 4 i j k
      = u (ix3 (gx c i) (gy c j) (⟨(gz c k).val - 1, by have := (gz c k).isLt; omega⟩ : Fin 256)) := by
  have hcz := cz_lt c
  unfold edge2 at h2
  rw [haloAdd_4]
  by_cases hk : 0 < k.val
  · rw [dif_pos hk, if_neg (fun h => by have := h.2; omega), add_zero]
    exact congrArg u (ix3_ext _ _ rfl rfl (by show cz c * 64 + (k.val - 1) = cz c * 64 + k.val - 1; omega))
  · have hk0 : k.val = 0 := by omega
    have hh : has 4 c = true := (has4_iff c).2 (by omega)
    obtain ⟨n0, n1, n2⟩ := nbr4_coord c hh
    rw [dif_neg hk, zero_add, if_pos ⟨hh, hk0⟩, if_neg h01, nbPlane_4]
    exact congrArg u (ix3_ext _ _ (by show cx (nbr 4 c) * 64 + i.val = cx c * 64 + i.val; rw [n0])
      (by show cy (nbr 4 c) * 64 + j.val = cy c * 64 + j.val; rw [n1])
      (by show cz (nbr 4 c) * 64 + 63 = cz c * 64 + k.val - 1; omega))

theorem step_5 (h2 : ¬edge2 c k) (h01 : ¬(edge0 c i ∨ edge1 c j)) (hb : (gz c k).val + 1 < 256) :
    (if h : k.val < 63 then blockOf c u i j ⟨k.val + 1, by omega⟩ else 0) + haloAdd c (nbPlane c u) 5 i j k
      = u (ix3 (gx c i) (gy c j) (⟨(gz c k).val + 1, hb⟩ : Fin 256)) := by
  have hcz := cz_lt c
  unfold edge2 at h2
  rw [haloAdd_5]
  by_cases hk : k.val < 63
  · rw [dif_pos hk, if_neg (fun h => by have := h.2; omega), add_zero]
    exact congrArg u (ix3_ext _ _ rfl rfl (by show cz c * 64 + (k.val + 1) = cz c * 64 + k.val + 1; omega))
  · have hk63 : k.val = 63 := by omega
    have hh : has 5 c = true := (has5_iff c).2 (by omega)
    obtain ⟨n0, n1, n2⟩ := nbr5_coord c hh
    rw [dif_neg hk, zero_add, if_pos ⟨hh, hk63⟩, if_neg h01, nbPlane_5]
    exact congrArg u (ix3_ext _ _ (by show cx (nbr 5 c) * 64 + i.val = cx c * 64 + i.val; rw [n0])
      (by show cy (nbr 5 c) * 64 + j.val = cy c * 64 + j.val; rw [n1])
      (by show cz (nbr 5 c) * 64 + 0 = cz c * 64 + k.val + 1; omega))

end Neighbour

/-! ## The two orders of the sum -/

/-- Six terms less `m`, then six more added one after the other, is the six pairs added in order, less `m`: addition of
    extended reals is associative and commutative, and the subtraction is the addition of the negative. -/
theorem regroup (t0 t1 t2 t3 t4 t5 m h0 h1 h2 h3 h4 h5 : EReal) :
    (t0 + t1 + t2 + t3 + t4 + t5 - m) + h0 + h1 + h2 + h3 + h4 + h5
      = (t0 + h0) + (t1 + h1) + (t2 + h2) + (t3 + h3) + (t4 + h4) + (t5 + h5) - m := by
  rw [sub_eq_add_neg, sub_eq_add_neg]
  ac_rfl

/-! ## The device's result is its block of the whole array's stencil -/

theorem outDev_eq (u : (⟨3, ![128, 256, 256]⟩ : Shape).Idx → EReal) (c : Fin 32) (i j k : Fin 64) :
    outDev c (blockOf c u) (nbPlane c u) i j k
      = lapW u (ix3 (n0 := 128) (n1 := 256) (n2 := 256) ⟨cx c * 64 + i.val, by have := cx_lt c; omega⟩ ⟨cy c * 64 + j.val, by have := cy_lt c; omega⟩ ⟨cz c * 64 + k.val, by have := cz_lt c; omega⟩) := by
  have hcx := cx_lt c
  have hcy := cy_lt c
  have hcz := cz_lt c
  have vx : (gx c i).val = cx c * 64 + i.val := rfl
  have vy : (gy c j).val = cy c * 64 + j.val := rfl
  have vz : (gz c k).val = cz c * 64 + k.val := rfl
  show outDev c (blockOf c u) (nbPlane c u) i j k = lapW u (ix3 (gx c i) (gy c j) (gz c k))
  rw [lapW_apply]
  unfold lapAt outDev
  by_cases hE : edge0 c i ∨ edge1 c j ∨ edge2 c k
  · have hint : ¬(1 ≤ (gx c i).val ∧ (gx c i).val < 127 ∧ 1 ≤ (gy c j).val ∧ (gy c j).val < 255
        ∧ 1 ≤ (gz c k).val ∧ (gz c k).val < 255) := by
      unfold edge0 edge1 edge2 at hE
      omega
    rw [dif_neg hint, if_pos hE, haloAdd_0_face c _ i j k hE, haloAdd_1_face c _ i j k hE, haloAdd_2_face c _ i j k hE,
      haloAdd_3_face c _ i j k hE, haloAdd_4_face c _ i j k hE, haloAdd_5_face c _ i j k hE,
      add_zero, add_zero, add_zero, add_zero, add_zero, add_zero]
  · have hint : 1 ≤ (gx c i).val ∧ (gx c i).val < 127 ∧ 1 ≤ (gy c j).val ∧ (gy c j).val < 255
        ∧ 1 ≤ (gz c k).val ∧ (gz c k).val < 255 := by
      unfold edge0 edge1 edge2 at hE
      omega
    have h0 : ¬edge0 c i := fun h => hE (Or.inl h)
    have h1 : ¬edge1 c j := fun h => hE (Or.inr (Or.inl h))
    have h2 : ¬edge2 c k := fun h => hE (Or.inr (Or.inr h))
    rw [dif_pos hint, if_neg hE]
    unfold blockLap
    rw [regroup, step_0 u c i j k h0 (not_or.2 ⟨h1, h2⟩), step_1 u c i j k h0 (not_or.2 ⟨h1, h2⟩) (by omega),
      step_2 u c i j k h1 (not_or.2 ⟨h0, h2⟩), step_3 u c i j k h1 (not_or.2 ⟨h0, h2⟩) (by omega),
      step_4 u c i j k h2 (not_or.2 ⟨h0, h1⟩), step_5 u c i j k h2 (not_or.2 ⟨h0, h1⟩) (by omega)]
    rfl

/-- info: 'Cert.HaloBridge.blockN_apply3' depends on axioms: [propext, Quot.sound] -/
#guard_msgs in #print axioms blockN_apply3

/-- info: 'Cert.HaloBridge.outDev_eq' depends on axioms: [propext, Classical.choice, Quot.sound] -/
#guard_msgs in #print axioms outDev_eq

end Cert.HaloBridge

end
-- ==== Proof.OutValue.lean ====
/-
  What the body leaves in the output block, at the extended reals: the device's block of the stencil of the whole array.

  The block's contents go through thirteen stages (the stencil of the device's own block, six guarded zeroings of a face,
  six guarded additions of a received plane to a face). Read at a place (i, j, k) of the block:
  * a write of a plane through a face of the block changes exactly the places on that face, and there it puts the
    plane's entry at the face's own two coordinates; a load of the face reads the block at the face's places;
  * the body's tests on the device's three mesh coordinates say where the device sits in the mesh: on an outer face of
    the mesh, or with a neighbour across a face;
  * so the six zeroings together put zero at the places on an outer face of the whole array and leave the block's own
    stencil elsewhere, and each addition adds, on the block's face towards a neighbour, the neighbour's adjoining plane
    (or nothing where the place is on an outer face along another axis) and adds nothing elsewhere.
  That is the device's result by coordinates; with every device's block of the argument given, it is the device's block
  of the stencil of the whole array.
-/
import proofs.«900441_g7700000000000442_dist_halo3d_v7x_xyz2x4x4_s64_f32_1_alg».proof.Proof.PayloadAt
import proofs.«900441_g7700000000000442_dist_halo3d_v7x_xyz2x4x4_s64_f32_1_alg».proof.Proof.HaloStores
import proofs.«900441_g7700000000000442_dist_halo3d_v7x_xyz2x4x4_s64_f32_1_alg».proof.Proof.DevSpec
import proofs.«900441_g7700000000000442_dist_halo3d_v7x_xyz2x4x4_s64_f32_1_alg».proof.Proof.DevBridge

noncomputable section

namespace Cert.KernelIdeal.OutValue

open Cert.KernelIdeal Cert.KernelIdeal.Gen Cert.Halo Cert.HaloBridge Cert.KernelIdeal.Halo Cert.KernelIdeal.PayAt
open Idealize.ShloMosaic Idealize.ShloMosaic.ValueIdx

/-! ## A plane written through a rectangle of the block, and a face read, at an index -/

/-- A write through a unit-stride rectangle of the block, at a place inside the rectangle: the written entry. -/
theorem write_unit_on (off size : Fin 3 → ℕ) (inb : ∀ a, off a + size a ≤ S64x64x64.size a) (o : BlockC Ideal)
    (v : (⟨3, size⟩ : Shape).Idx → EReal) (y : (⟨3, size⟩ : Shape).Idx) (q : S64x64x64.Idx)
    (hq : ∀ a, (q a).val = off a + (y a).val) :
    (((oM : Memref sig .tc .vmem S64x64x64 .f32).access (Rect.unit (s := S64x64x64) off size inb) : View sig .tc _ _ _).write
      (Elt Ideal) o v Finset.univ) q = v y := by
  have e : ((oM : Memref sig .tc .vmem S64x64x64 .f32).access (Rect.unit (s := S64x64x64) off size inb) : View sig .tc _ _ _).emb y = q :=
    funext fun a => Fin.ext (by
      show off a + 1 * (y a).val = (q a).val
      rw [hq a, Nat.one_mul])
  rw [← e]
  exact View.write_emb_of_mem _ _ (Finset.mem_univ y)

/-- At a place outside the rectangle: the block as it was. -/
theorem write_unit_off (off size : Fin 3 → ℕ) (inb : ∀ a, off a + size a ≤ S64x64x64.size a) (o : BlockC Ideal)
    (v : (⟨3, size⟩ : Shape).Idx → EReal) (q : S64x64x64.Idx)
    (hq : ¬ ∀ a, off a ≤ (q a).val ∧ (q a).val < off a + size a) :
    (((oM : Memref sig .tc .vmem S64x64x64 .f32).access (Rect.unit (s := S64x64x64) off size inb) : View sig .tc _ _ _).write
      (Elt Ideal) o v Finset.univ) q = o q := by
  refine View.write_of_not_mem _ _ _ ?_
  rw [View.setOn_univ]
  show q ∉ ((View.whole cc0_stg1_0).slice (Rect.unit (s := S64x64x64) off size inb)).set
  rw [View.set_slice_whole, Rect.mem_set_unit]
  exact hq

/-- A load through a unit-stride rectangle of the block reads the block at the rectangle's places. -/
theorem faceAt_unit (off size : Fin 3 → ℕ) (inb : ∀ a, off a + size a ≤ S64x64x64.size a) (o : BlockC Ideal)
    (y : (⟨3, size⟩ : Shape).Idx) (q : S64x64x64.Idx) (hq : ∀ a, (q a).val = off a + (y a).val) :
    faceAt (F := Ideal) (Rect.unit (s := S64x64x64) off size inb) o y = o q := by
  have e : ((oM : Memref sig .tc .vmem S64x64x64 .f32).access (Rect.unit (s := S64x64x64) off size inb) : View sig .tc _ _ _).emb y = q :=
    funext fun a => Fin.ext (by
      show off a + 1 * (y a).val = (q a).val
      rw [hq a, Nat.one_mul])
  rw [← e]
  rfl

/-- The same for the input block. -/
theorem readX_unit (off size : Fin 3 → ℕ) (inb : ∀ a, off a + size a ≤ S64x64x64.size a)
    (x : (cc0_stg0_0 : Ref sig .tc).ty.Contents (Elt Ideal))
    (y : (⟨3, size⟩ : Shape).Idx) (q : S64x64x64.Idx) (hq : ∀ a, (q a).val = off a + (y a).val) :
    (xM : Memref sig .tc .vmem S64x64x64 .f32).view.readAt (Elt Ideal) (Rect.unit (s := S64x64x64) off size inb).toLoadRect x y = x q := by
  have e : ((xM : Memref sig .tc .vmem S64x64x64 .f32).access (Rect.unit (s := S64x64x64) off size inb) : View sig .tc _ _ _).emb y = q :=
    funext fun a => Fin.ext (by
      show off a + 1 * (y a).val = (q a).val
      rw [hq a, Nat.one_mul])
  rw [← e]
  rfl

/-- A plane written through face X0 of the block, at (i, j, k): on the face the plane's entry, off it the block as it was. -/
theorem write_X0 (o : BlockC Ideal) (v : FVec Ideal S1x64x64 .f32) (i j k : Fin 64) :
    (((oM : Memref sig .tc .vmem S64x64x64 .f32).access rX0 : View sig .tc _ _ _).write (Elt Ideal) o v Finset.univ) (ix3 i j k)
      = if i.val = 0 then v (ix3 0 j k) else o (ix3 i j k) := by
  by_cases h : i.val = 0
  · rw [if_pos h]
    exact write_unit_on _ _ _ o v (ix3 0 j k) (ix3 i j k) (fun a => match a with
      | ⟨0, _⟩ => by show i.val = 0 + 0; omega
      | ⟨1, _⟩ => by show j.val = 0 + j.val; omega
      | ⟨2, _⟩ => by show k.val = 0 + k.val; omega)
  · rw [if_neg h]
    refine write_unit_off _ _ _ o v (ix3 i j k) (fun hm => h ?_)
    have := hm ⟨0, by decide⟩
    have h1 : 0 ≤ i.val ∧ i.val < 0 + 1 := this
    omega

/-- Face X0 of the block, loaded, at its own coordinates: the block there. -/
theorem faceAt_X0 (o : BlockC Ideal) (j k : Fin 64) :
    faceAt (F := Ideal) rX0 o (ix3 0 j k) = o (ix3 ⟨0, by omega⟩ j k) :=
  faceAt_unit _ _ _ o (ix3 0 j k) _ (fun a => match a with
      | ⟨0, _⟩ => by show 0 = 0 + 0; omega
      | ⟨1, _⟩ => by show j.val = 0 + j.val; omega
      | ⟨2, _⟩ => by show k.val = 0 + k.val; omega)

/-- Face X0 of the input block, loaded, at its own coordinates. -/
theorem readX_X0 (x : (cc0_stg0_0 : Ref sig .tc).ty.Contents (Elt Ideal)) (j k : Fin 64) :
    (xM : Memref sig .tc .vmem S64x64x64 .f32).view.readAt (Elt Ideal) rX0.toLoadRect x (ix3 0 j k)
      = x (ix3 ⟨0, by omega⟩ j k) :=
  readX_unit _ _ _ x (ix3 0 j k) _ (fun a => match a with
      | ⟨0, _⟩ => by show 0 = 0 + 0; omega
      | ⟨1, _⟩ => by show j.val = 0 + j.val; omega
      | ⟨2, _⟩ => by show k.val = 0 + k.val; omega)

/-- A plane written through face X63 of the block, at (i, j, k): on the face the plane's entry, off it the block as it was. -/
theorem write_X63 (o : BlockC Ideal) (v : FVec Ideal S1x64x64 .f32) (i j k : Fin 64) :
    (((oM : Memref sig .tc .vmem S64x64x64 .f32).access rX63 : View sig .tc _ _ _).write (Elt Ideal) o v Finset.univ) (ix3 i j k)
      = if i.val = 63 then v (ix3 0 j k) else o (ix3 i j k) := by
  by_cases h : i.val = 63
  · rw [if_pos h]
    exact write_unit_on _ _ _ o v (ix3 0 j k) (ix3 i j k) (fun a => match a with
      | ⟨0, _⟩ => by show i.val = 63 + 0; omega
      | ⟨1, _⟩ => by show j.val = 0 + j.val; omega
      | ⟨2, _⟩ => by show k.val = 0 + k.val; omega)
  · rw [if_neg h]
    refine write_unit_off _ _ _ o v (ix3 i j k) (fun hm => h ?_)
    have := hm ⟨0, by decide⟩
    have h1 : 63 ≤ i.val ∧ i.val < 63 + 1 := this
    omega

/-- Face X63 of the block, loaded, at its own coordinates: the block there. -/
theorem faceAt_X63 (o : BlockC Ideal) (j k : Fin 64) :
    faceAt (F := Ideal) rX63 o (ix3 0 j k) = o (ix3 ⟨63, by omega⟩ j k) :=
  faceAt_unit _ _ _ o (ix3 0 j k) _ (fun a => match a with
      | ⟨0, _⟩ => by show 63 = 63 + 0; omega
      | ⟨1, _⟩ => by show j.val = 0 + j.val; omega
      | ⟨2, _⟩ => by show k.val = 0 + k.val; omega)

/-- Face X63 of the input block, loaded, at its own coordinates. -/
theorem readX_X63 (x : (cc0_stg0_0 : Ref sig .tc).ty.Contents (Elt Ideal)) (j k : Fin 64) :
    (xM : Memref sig .tc .vmem S64x64x64 .f32).view.readAt (Elt Ideal) rX63.toLoadRect x (ix3 0 j k)
      = x (ix3 ⟨63, by omega⟩ j k) :=
  readX_unit _ _ _ x (ix3 0 j k) _ (fun a => match a with
      | ⟨0, _⟩ => by show 63 = 63 + 0; omega
      | ⟨1, _⟩ => by show j.val = 0 + j.val; omega
      | ⟨2, _⟩ => by show k.val = 0 + k.val; omega)

/-- A plane written through face Y0 of the block, at (i, j, k): on the face the plane's entry, off it the block as it was. -/
theorem write_Y0 (o : BlockC Ideal) (v : FVec Ideal S64x1x64 .f32) (i j k : Fin 64) :
    (((oM : Memref sig .tc .vmem S64x64x64 .f32).access rY0 : View sig .tc _ _ _).write (Elt Ideal) o v Finset.univ) (ix3 i j k)
      = if j.val = 0 then v (ix3 i 0 k) else o (ix3 i j k) := by
  by_cases h : j.val = 0
  · rw [if_pos h]
    exact write_unit_on _ _ _ o v (ix3 i 0 k) (ix3 i j k) (fun a => match a with
      | ⟨0, _⟩ => by show i.val = 0 + i.val; omega
      | ⟨1, _⟩ => by show j.val = 0 + 0; omega
      | ⟨2, _⟩ => by show k.val = 0 + k.val; omega)
  · rw [if_neg h]
    refine write_unit_off _ _ _ o v (ix3 i j k) (fun hm => h ?_)
    have := hm ⟨1, by decide⟩
    have h1 : 0 ≤ j.val ∧ j.val < 0 + 1 := this
    omega

/-- Face Y0 of the block, loaded, at its own coordinates: the block there. -/
theorem faceAt_Y0 (o : BlockC Ideal) (i k : Fin 64) :
    faceAt (F := Ideal) rY0 o (ix3 i 0 k) = o (ix3 i ⟨0, by omega⟩ k) :=
  faceAt_unit _ _ _ o (ix3 i 0 k) _ (fun a => match a with
      | ⟨0, _⟩ => by show i.val = 0 + i.val; omega
      | ⟨1, _⟩ => by show 0 = 0 + 0; omega
      | ⟨2, _⟩ => by show k.val = 0 + k.val; omega)

/-- Face Y0 of the input block, loaded, at its own coordinates. -/
theorem readX_Y0 (x : (cc0_stg0_0 : Ref sig .tc).ty.Contents (Elt Ideal)) (i k : Fin 64) :
    (xM : Memref sig .tc .vmem S64x64x64 .f32).view.readAt (Elt Ideal) rY0.toLoadRect x (ix3 i 0 k)
      = x (ix3 i ⟨0, by omega⟩ k) :=
  readX_unit _ _ _ x (ix3 i 0 k) _ (fun a => match a with
      | ⟨0, _⟩ => by show i.val = 0 + i.val; omega
      | ⟨1, _⟩ => by show 0 = 0 + 0; omega
      | ⟨2, _⟩ => by show k.val = 0 + k.val; omega)

/-- A plane written through face Y63 of the block, at (i, j, k): on the face the plane's entry, off it the block as it was. -/
theorem write_Y63 (o : BlockC Ideal) (v : FVec Ideal S64x1x64 .f32) (i j k : Fin 64) :
    (((oM : Memref sig .tc .vmem S64x64x64 .f32).access rY63 : View sig .tc _ _ _).write (Elt Ideal) o v Finset.univ) (ix3 i j k)
      = if j.val = 63 then v (ix3 i 0 k) else o (ix3 i j k) := by
  by_cases h : j.val = 63
  · rw [if_pos h]
    exact write_unit_on _ _ _ o v (ix3 i 0 k) (ix3 i j k) (fun a => match a with
      | ⟨0, _⟩ => by show i.val = 0 + i.val; omega
      | ⟨1, _⟩ => by show j.val = 63 + 0; omega
      | ⟨2, _⟩ => by show k.val = 0 + k.val; omega)
  · rw [if_neg h]
    refine write_unit_off _ _ _ o v (ix3 i j k) (fun hm => h ?_)
    have := hm ⟨1, by decide⟩
    have h1 : 63 ≤ j.val ∧ j.val < 63 + 1 := this
    omega

/-- Face Y63 of the block, loaded, at its own coordinates: the block there. -/
theorem faceAt_Y63 (o : BlockC Ideal) (i k : Fin 64) :
    faceAt (F := Ideal) rY63 o (ix3 i 0 k) = o (ix3 i ⟨63, by omega⟩ k) :=
  faceAt_unit _ _ _ o (ix3 i 0 k) _ (fun a => match a with
      | ⟨0, _⟩ => by show i.val = 0 + i.val; omega
      | ⟨1, _⟩ => by show 63 = 63 + 0; omega
      | ⟨2, _⟩ => by show k.val = 0 + k.val; omega)

/-- Face Y63 of the input block, loaded, at its own coordinates. -/
theorem readX_Y63 (x : (cc0_stg0_0 : Ref sig .tc).ty.Contents (Elt Ideal)) (i k : Fin 64) :
    (xM : Memref sig .tc .vmem S64x64x64 .f32).view.readAt (Elt Ideal) rY63.toLoadRect x (ix3 i 0 k)
      = x (ix3 i ⟨63, by omega⟩ k) :=
  readX_unit _ _ _ x (ix3 i 0 k) _ (fun a => match a with
      | ⟨0, _⟩ => by show i.val = 0 + i.val; omega
      | ⟨1, _⟩ => by show 63 = 63 + 0; omega
      | ⟨2, _⟩ => by show k.val = 0 + k.val; omega)

/-- A plane written through face Z0 of the block, at (i, j, k): on the face the plane's entry, off it the block as it was. -/
theorem write_Z0 (o : BlockC Ideal) (v : FVec Ideal S64x64x1 .f32) (i j k : Fin 64) :
    (((oM : Memref sig .tc .vmem S64x64x64 .f32).access rZ0 : View sig .tc _ _ _).write (Elt Ideal) o v Finset.univ) (ix3 i j k)
      = if k.val = 0 then v (ix3 i j 0) else o (ix3 i j k) := by
  by_cases h : k.val = 0
  · rw [if_pos h]
    exact write_unit_on _ _ _ o v (ix3 i j 0) (ix3 i j k) (fun a => match a with
      | ⟨0, _⟩ => by show i.val = 0 + i.val; omega
      | ⟨1, _⟩ => by show j.val = 0 + j.val; omega
      | ⟨2, _⟩ => by show k.val = 0 + 0; omega)
  · rw [if_neg h]
    refine write_unit_off _ _ _ o v (ix3 i j k) (fun hm => h ?_)
    have := hm ⟨2, by decide⟩
    have h1 : 0 ≤ k.val ∧ k.val < 0 + 1 := this
    omega

/-- Face Z0 of the block, loaded, at its own coordinates: the block there. -/
theorem faceAt_Z0 (o : BlockC Ideal) (i j : Fin 64) :
    faceAt (F := Ideal) rZ0 o (ix3 i j 0) = o (ix3 i j ⟨0, by omega⟩) :=
  faceAt_unit _ _ _ o (ix3 i j 0) _ (fun a => match a with
      | ⟨0, _⟩ => by show i.val = 0 + i.val; omega
      | ⟨1, _⟩ => by show j.val = 0 + j.val; omega
      | ⟨2, _⟩ => by show 0 = 0 + 0; omega)

/-- Face Z0 of the input block, loaded, at its own coordinates. -/
theorem readX_Z0 (x : (cc0_stg0_0 : Ref sig .tc).ty.Contents (Elt Ideal)) (i j : Fin 64) :
    (xM : Memref sig .tc .vmem S64x64x64 .f32).view.readAt (Elt Ideal) rZ0.toLoadRect x (ix3 i j 0)
      = x (ix3 i j ⟨0, by omega⟩) :=
  readX_unit _ _ _ x (ix3 i j 0) _ (fun a => match a with
      | ⟨0, _⟩ => by show i.val = 0 + i.val; omega
      | ⟨1, _⟩ => by show j.val = 0 + j.val; omega
      | ⟨2, _⟩ => by show 0 = 0 + 0; omega)

/-- A plane written through face Z63 of the block, at (i, j, k): on the face the plane's entry, off it the block as it was. -/
theorem write_Z63 (o : BlockC Ideal) (v : FVec Ideal S64x64x1 .f32) (i j k : Fin 64) :
    (((oM : Memref sig .tc .vmem S64x64x64 .f32).access rZ63 : View sig .tc _ _ _).write (Elt Ideal) o v Finset.univ) (ix3 i j k)
      = if k.val = 63 then v (ix3 i j 0) else o (ix3 i j k) := by
  by_cases h : k.val = 63
  · rw [if_pos h]
    exact write_unit_on _ _ _ o v (ix3 i j 0) (ix3 i j k) (fun a => match a with
      | ⟨0, _⟩ => by show i.val = 0 + i.val; omega
      | ⟨1, _⟩ => by show j.val = 0 + j.val; omega
      | ⟨2, _⟩ => by show k.val = 63 + 0; omega)
  · rw [if_neg h]
    refine write_unit_off _ _ _ o v (ix3 i j k) (fun hm => h ?_)
    have := hm ⟨2, by decide⟩
    have h1 : 63 ≤ k.val ∧ k.val < 63 + 1 := this
    omega

/-- Face Z63 of the block, loaded, at its own coordinates: the block there. -/
theorem faceAt_Z63 (o : BlockC Ideal) (i j : Fin 64) :
    faceAt (F := Ideal) rZ63 o (ix3 i j 0) = o (ix3 i j ⟨63, by omega⟩) :=
  faceAt_unit _ _ _ o (ix3 i j 0) _ (fun a => match a with
      | ⟨0, _⟩ => by show i.val = 0 + i.val; omega
      | ⟨1, _⟩ => by show j.val = 0 + j.val; omega
      | ⟨2, _⟩ => by show 63 = 63 + 0; omega)

/-- Face Z63 of the input block, loaded, at its own coordinates. -/
theorem readX_Z63 (x : (cc0_stg0_0 : Ref sig .tc).ty.Contents (Elt Ideal)) (i j : Fin 64) :
    (xM : Memref sig .tc .vmem S64x64x64 .f32).view.readAt (Elt Ideal) rZ63.toLoadRect x (ix3 i j 0)
      = x (ix3 i j ⟨63, by omega⟩) :=
  readX_unit _ _ _ x (ix3 i j 0) _ (fun a => match a with
      | ⟨0, _⟩ => by show i.val = 0 + i.val; omega
      | ⟨1, _⟩ => by show j.val = 0 + j.val; omega
      | ⟨2, _⟩ => by show 63 = 63 + 0; omega)

/-! ## The body's tests, as facts about where the device sits in the mesh (decided over the 32 devices) -/

theorem onFace_x0 : ∀ c : Dev nD, onFace (cw2 c) 0#32 ↔ cx c = 0 := by decide +kernel
theorem onFace_x1 : ∀ c : Dev nD, onFace (cw2 c) 1#32 ↔ cx c = 1 := by decide +kernel
theorem onFace_y0 : ∀ c : Dev nD, onFace (cw5 c) 0#32 ↔ cy c = 0 := by decide +kernel
theorem onFace_y3 : ∀ c : Dev nD, onFace (cw5 c) 3#32 ↔ cy c = 3 := by decide +kernel
theorem onFace_z0 : ∀ c : Dev nD, onFace (cw8 c) 0#32 ↔ cz c = 0 := by decide +kernel
theorem onFace_z3 : ∀ c : Dev nD, onFace (cw8 c) 3#32 ↔ cz c = 3 := by decide +kernel

theorem nb0_iff : ∀ c : Dev nD, bitSet (Scalar.cmpi .sgt (cw2 c) 0#32) ↔ has 0 c = true := by decide +kernel
theorem nb1_iff : ∀ c : Dev nD, bitSet (Scalar.cmpi .slt (cw2 c) 1#32) ↔ has 1 c = true := by decide +kernel
theorem nb2_iff : ∀ c : Dev nD, bitSet (Scalar.cmpi .sgt (cw5 c) 0#32) ↔ has 2 c = true := by decide +kernel
theorem nb3_iff : ∀ c : Dev nD, bitSet (Scalar.cmpi .slt (cw5 c) 3#32) ↔ has 3 c = true := by decide +kernel
theorem nb4_iff : ∀ c : Dev nD, bitSet (Scalar.cmpi .sgt (cw8 c) 0#32) ↔ has 4 c = true := by decide +kernel
theorem nb5_iff : ∀ c : Dev nD, bitSet (Scalar.cmpi .slt (cw8 c) 3#32) ↔ has 5 c = true := by decide +kernel

theorem cw2_eq0 : ∀ c : Dev nD, cw2 c = 0#32 ↔ cx c = 0 := by decide +kernel
theorem cw2_eq1 : ∀ c : Dev nD, cw2 c = 1#32 ↔ cx c = 1 := by decide +kernel
theorem cw5_eq0 : ∀ c : Dev nD, cw5 c = 0#32 ↔ cy c = 0 := by decide +kernel
theorem cw5_eq3 : ∀ c : Dev nD, cw5 c = 3#32 ↔ cy c = 3 := by decide +kernel
theorem cw8_eq0 : ∀ c : Dev nD, cw8 c = 0#32 ↔ cz c = 0 := by decide +kernel
theorem cw8_eq3 : ∀ c : Dev nD, cw8 c = 3#32 ↔ cz c = 3 := by decide +kernel

/-! ## The three masks: set exactly on the outer faces along the face's own two axes -/

theorem mskX_iff (c : Dev nD) (j k : Fin 64) : mskX c (ix2 j k) = 1#1 ↔ edge1 c j ∨ edge2 c k := by
  refine (pay20_iff (cw5 c) (cw8 c) j k).trans ?_
  rw [cw5_eq0 c, cw5_eq3 c, cw8_eq0 c, cw8_eq3 c]
  unfold edge1 edge2
  rw [or_assoc]

theorem mskY_iff (c : Dev nD) (i k : Fin 64) : mskY c (ix2 i k) = 1#1 ↔ edge0 c i ∨ edge2 c k := by
  refine (pay23_iff (cw2 c) (cw8 c) i k).trans ?_
  rw [cw2_eq0 c, cw2_eq1 c, cw8_eq0 c, cw8_eq3 c]
  unfold edge0 edge2
  rw [or_assoc]

theorem mskZ_iff (c : Dev nD) (i j : Fin 64) : mskZ c (ix2 i j) = 1#1 ↔ edge0 c i ∨ edge1 c j := by
  refine (pay24_iff (cw2 c) (cw5 c) i j).trans ?_
  rw [cw2_eq0 c, cw2_eq1 c, cw5_eq0 c, cw5_eq3 c]
  unfold edge0 edge1
  rw [or_assoc]

/-! ## One stage of the chain at an index -/

/-- The guarded zeroing of face X0, at (i, j, k). -/
theorem zero_X0 (C : Prop) [Decidable C] (o : S64x64x64.Idx → EReal) (i j k : Fin 64) :
    gw (F := Ideal) C rX0 (k0_pay14 (F := Ideal)) o (ix3 i j k) = if C ∧ i.val = 0 then 0 else o (ix3 i j k) := by
  unfold gw
  by_cases hC : C
  · rw [if_pos hC, write_X0]
    by_cases hi : i.val = 0
    · rw [if_pos hi, if_pos ⟨hC, hi⟩, pay14_apply]
    · rw [if_neg hi, if_neg (fun h => hi h.2)]
  · rw [if_neg hC, if_neg (fun h => hC h.1)]

/-- The guarded zeroing of face X63, at (i, j, k). -/
theorem zero_X63 (C : Prop) [Decidable C] (o : S64x64x64.Idx → EReal) (i j k : Fin 64) :
    gw (F := Ideal) C rX63 (k0_pay15 (F := Ideal)) o (ix3 i j k) = if C ∧ i.val = 63 then 0 else o (ix3 i j k) := by
  unfold gw
  by_cases hC : C
  · rw [if_pos hC, write_X63]
    by_cases hi : i.val = 63
    · rw [if_pos hi, if_pos ⟨hC, hi⟩, pay15_apply]
    · rw [if_neg hi, if_neg (fun h => hi h.2)]
  · rw [if_neg hC, if_neg (fun h => hC h.1)]

/-- The guarded zeroing of face Y0, at (i, j, k). -/
theorem zero_Y0 (C : Prop) [Decidable C] (o : S64x64x64.Idx → EReal) (i j k : Fin 64) :
    gw (F := Ideal) C rY0 (k0_pay16 (F := Ideal)) o (ix3 i j k) = if C ∧ j.val = 0 then 0 else o (ix3 i j k) := by
  unfold gw
  by_cases hC : C
  · rw [if_pos hC, write_Y0]
    by_cases hi : j.val = 0
    · rw [if_pos hi, if_pos ⟨hC, hi⟩, pay16_apply]
    · rw [if_neg hi, if_neg (fun h => hi h.2)]
  · rw [if_neg hC, if_neg (fun h => hC h.1)]

/-- The guarded zeroing of face Y63, at (i, j, k). -/
theorem zero_Y63 (C : Prop) [Decidable C] (o : S64x64x64.Idx → EReal) (i j k : Fin 64) :
    gw (F := Ideal) C rY63 (k0_pay17 (F := Ideal)) o (ix3 i j k) = if C ∧ j.val = 63 then 0 else o (ix3 i j k) := by
  unfold gw
  by_cases hC : C
  · rw [if_pos hC, write_Y63]
    by_cases hi : j.val = 63
    · rw [if_pos hi, if_pos ⟨hC, hi⟩, pay17_apply]
    · rw [if_neg hi, if_neg (fun h => hi h.2)]
  · rw [if_neg hC, if_neg (fun h => hC h.1)]

/-- The guarded zeroing of face Z0, at (i, j, k). -/
theorem zero_Z0 (C : Prop) [Decidable C] (o : S64x64x64.Idx → EReal) (i j k : Fin 64) :
    gw (F := Ideal) C rZ0 (k0_pay18 (F := Ideal)) o (ix3 i j k) = if C ∧ k.val = 0 then 0 else o (ix3 i j k) := by
  unfold gw
  by_cases hC : C
  · rw [if_pos hC, write_Z0]
    by_cases hi : k.val = 0
    · rw [if_pos hi, if_pos ⟨hC, hi⟩, pay18_apply]
    · rw [if_neg hi, if_neg (fun h => hi h.2)]
  · rw [if_neg hC, if_neg (fun h => hC h.1)]

/-- The guarded zeroing of face Z63, at (i, j, k). -/
theorem zero_Z63 (C : Prop) [Decidable C] (o : S64x64x64.Idx → EReal) (i j k : Fin 64) :
    gw (F := Ideal) C rZ63 (k0_pay19 (F := Ideal)) o (ix3 i j k) = if C ∧ k.val = 63 then 0 else o (ix3 i j k) := by
  unfold gw
  by_cases hC : C
  · rw [if_pos hC, write_Z63]
    by_cases hi : k.val = 63
    · rw [if_pos hi, if_pos ⟨hC, hi⟩, pay19_apply]
    · rw [if_neg hi, if_neg (fun h => hi h.2)]
  · rw [if_neg hC, if_neg (fun h => hC h.1)]

/-- The guarded addition in direction 0, at (i, j, k): the block as it was plus what the received plane adds there. -/
theorem add_0 (c : Dev nD) (o : S64x64x64.Idx → EReal) (hal : Fin 6 → FVec Ideal S1x64x64 .f32) (i j k : Fin 64) :
    gw (F := Ideal) (bitSet (Scalar.cmpi .sgt (cw2 c) 0#32)) rX0 (k0_pay25 (F := Ideal) (mskX c) (faceAt rX0 o) (hal 0)) o (ix3 i j k)
      = o (ix3 i j k) + haloAdd c (fun h a b => hal h (ix3 0 a b)) 0 i j k := by
  rw [haloAdd_0]
  unfold gw
  by_cases hC : bitSet (Scalar.cmpi .sgt (cw2 c) 0#32)
  · have hd : has 0 c = true := (nb0_iff c).mp hC
    rw [if_pos hC, write_X0]
    by_cases hi : i.val = 0
    · obtain rfl : i = ⟨0, by decide⟩ := Fin.ext hi
      rw [if_pos rfl, if_pos ⟨hd, rfl⟩, pay25_apply, faceAt_X0]
      exact congrArg (fun t : EReal => (o (ix3 ⟨0, by omega⟩ j k) : EReal) + t) (if_congr (mskX_iff c j k) rfl rfl)
    · rw [if_neg hi, if_neg (fun h => hi h.2), add_zero]
  · have hd : ¬ has 0 c = true := fun h => hC ((nb0_iff c).mpr h)
    rw [if_neg hC, if_neg (fun h => hd h.1), add_zero]

/-- The guarded addition in direction 1, at (i, j, k): the block as it was plus what the received plane adds there. -/
theorem add_1 (c : Dev nD) (o : S64x64x64.Idx → EReal) (hal : Fin 6 → FVec Ideal S1x64x64 .f32) (i j k : Fin 64) :
    gw (F := Ideal) (bitSet (Scalar.cmpi .slt (cw2 c) 1#32)) rX63 (k0_pay1 (F := Ideal) (mskX c) (faceAt rX63 o) (hal 1)) o (ix3 i j k)
      = o (ix3 i j k) + haloAdd c (fun h a b => hal h (ix3 0 a b)) 1 i j k := by
  rw [haloAdd_1]
  unfold gw
  by_cases hC : bitSet (Scalar.cmpi .slt (cw2 c) 1#32)
  · have hd : has 1 c = true := (nb1_iff c).mp hC
    rw [if_pos hC, write_X63]
    by_cases hi : i.val = 63
    · obtain rfl : i = ⟨63, by decide⟩ := Fin.ext hi
      rw [if_pos rfl, if_pos ⟨hd, rfl⟩, pay1_apply, faceAt_X63]
      exact congrArg (fun t : EReal => (o (ix3 ⟨63, by omega⟩ j k) : EReal) + t) (if_congr (mskX_iff c j k) rfl rfl)
    · rw [if_neg hi, if_neg (fun h => hi h.2), add_zero]
  · have hd : ¬ has 1 c = true := fun h => hC ((nb1_iff c).mpr h)
    rw [if_neg hC, if_neg (fun h => hd h.1), add_zero]

/-- The guarded addition in direction 2, at (i, j, k): the block as it was plus what the received plane adds there. -/
theorem add_2 (c : Dev nD) (o : S64x64x64.Idx → EReal) (hal : Fin 6 → FVec Ideal S1x64x64 .f32) (i j k : Fin 64) :
    gw (F := Ideal) (bitSet (Scalar.cmpi .sgt (cw5 c) 0#32)) rY0 (k0_pay2 (F := Ideal) (mskY c) (faceAt rY0 o) (hal 2)) o (ix3 i j k)
      = o (ix3 i j k) + haloAdd c (fun h a b => hal h (ix3 0 a b)) 2 i j k := by
  rw [haloAdd_2]
  unfold gw
  by_cases hC : bitSet (Scalar.cmpi .sgt (cw5 c) 0#32)
  · have hd : has 2 c = true := (nb2_iff c).mp hC
    rw [if_pos hC, write_Y0]
    by_cases hi : j.val = 0
    · obtain rfl : j = ⟨0, by decide⟩ := Fin.ext hi
      rw [if_pos rfl, if_pos ⟨hd, rfl⟩, pay2_apply, faceAt_Y0]
      exact congrArg (fun t : EReal => (o (ix3 i ⟨0, by omega⟩ k) : EReal) + t) (if_congr (mskY_iff c i k) rfl rfl)
    · rw [if_neg hi, if_neg (fun h => hi h.2), add_zero]
  · have hd : ¬ has 2 c = true := fun h => hC ((nb2_iff c).mpr h)
    rw [if_neg hC, if_neg (fun h => hd h.1), add_zero]

/-- The guarded addition in direction 3, at (i, j, k): the block as it was plus what the received plane adds there. -/
theorem add_3 (c : Dev nD) (o : S64x64x64.Idx → EReal) (hal : Fin 6 → FVec Ideal S1x64x64 .f32) (i j k : Fin 64) :
    gw (F := Ideal) (bitSet (Scalar.cmpi .slt (cw5 c) 3#32)) rY63 (k0_pay3 (F := Ideal) (mskY c) (faceAt rY63 o) (hal 3)) o (ix3 i j k)
      = o (ix3 i j k) + haloAdd c (fun h a b => hal h (ix3 0 a b)) 3 i j k := by
  rw [haloAdd_3]
  unfold gw
  by_cases hC : bitSet (Scalar.cmpi .slt (cw5 c) 3#32)
  · have hd : has 3 c = true := (nb3_iff c).mp hC
    rw [if_pos hC, write_Y63]
    by_cases hi : j.val = 63
    · obtain rfl : j = ⟨63, by decide⟩ := Fin.ext hi
      rw [if_pos rfl, if_pos ⟨hd, rfl⟩, pay3_apply, faceAt_Y63]
      exact congrArg (fun t : EReal => (o (ix3 i ⟨63, by omega⟩ k) : EReal) + t) (if_congr (mskY_iff c i k) rfl rfl)
    · rw [if_neg hi, if_neg (fun h => hi h.2), add_zero]
  · have hd : ¬ has 3 c = true := fun h => hC ((nb3_iff c).mpr h)
    rw [if_neg hC, if_neg (fun h => hd h.1), add_zero]

/-- The guarded addition in direction 4, at (i, j, k): the block as it was plus what the received plane adds there. -/
theorem add_4 (c : Dev nD) (o : S64x64x64.Idx → EReal) (hal : Fin 6 → FVec Ideal S1x64x64 .f32) (i j k : Fin 64) :
    gw (F := Ideal) (bitSet (Scalar.cmpi .sgt (cw8 c) 0#32)) rZ0 (k0_pay4 (F := Ideal) (mskZ c) (faceAt rZ0 o) (hal 4)) o (ix3 i j k)
      = o (ix3 i j k) + haloAdd c (fun h a b => hal h (ix3 0 a b)) 4 i j k := by
  rw [haloAdd_4]
  unfold gw
  by_cases hC : bitSet (Scalar.cmpi .sgt (cw8 c) 0#32)
  · have hd : has 4 c = true := (nb4_iff c).mp hC
    rw [if_pos hC, write_Z0]
    by_cases hi : k.val = 0
    · obtain rfl : k = ⟨0, by decide⟩ := Fin.ext hi
      rw [if_pos rfl, if_pos ⟨hd, rfl⟩, pay4_apply, faceAt_Z0]
      exact congrArg (fun t : EReal => (o (ix3 i j ⟨0, by omega⟩) : EReal) + t) (if_congr (mskZ_iff c i j) rfl rfl)
    · rw [if_neg hi, if_neg (fun h => hi h.2), add_zero]
  · have hd : ¬ has 4 c = true := fun h => hC ((nb4_iff c).mpr h)
    rw [if_neg hC, if_neg (fun h => hd h.1), add_zero]

/-- The guarded addition in direction 5, at (i, j, k): the block as it was plus what the received plane adds there. -/
theorem add_5 (c : Dev nD) (o : S64x64x64.Idx → EReal) (hal : Fin 6 → FVec Ideal S1x64x64 .f32) (i j k : Fin 64) :
    gw (F := Ideal) (bitSet (Scalar.cmpi .slt (cw8 c) 3#32)) rZ63 (k0_pay5 (F := Ideal) (mskZ c) (faceAt rZ63 o) (hal 5)) o (ix3 i j k)
      = o (ix3 i j k) + haloAdd c (fun h a b => hal h (ix3 0 a b)) 5 i j k := by
  rw [haloAdd_5]
  unfold gw
  by_cases hC : bitSet (Scalar.cmpi .slt (cw8 c) 3#32)
  · have hd : has 5 c = true := (nb5_iff c).mp hC
    rw [if_pos hC, write_Z63]
    by_cases hi : k.val = 63
    · obtain rfl : k = ⟨63, by decide⟩ := Fin.ext hi
      rw [if_pos rfl, if_pos ⟨hd, rfl⟩, pay5_apply, faceAt_Z63]
      exact congrArg (fun t : EReal => (o (ix3 i j ⟨63, by omega⟩) : EReal) + t) (if_congr (mskZ_iff c i j) rfl rfl)
    · rw [if_neg hi, if_neg (fun h => hi h.2), add_zero]
  · have hd : ¬ has 5 c = true := fun h => hC ((nb5_iff c).mpr h)
    rw [if_neg hC, if_neg (fun h => hd h.1), add_zero]

/-! ## The chain at an index -/

/-- Two zeroings in a row zero where either does. -/
theorem ite_chain (p q : Prop) [Decidable p] [Decidable q] (z : EReal) :
    (if p then 0 else if q then 0 else z) = if p ∨ q then 0 else z := by
  by_cases hp : p
  · rw [if_pos hp, if_pos (Or.inl hp)]
  · rw [if_neg hp]
    by_cases hq : q
    · rw [if_pos hq, if_pos (Or.inr hq)]
    · rw [if_neg hq, if_neg (fun h => h.elim hp hq)]

/-- After the six zeroings: zero on the outer faces of the whole array, the block's own stencil elsewhere. -/
theorem outRaw6_apply (c : Dev nD) (x : (cc0_stg0_0 : Ref sig .tc).ty.Contents (Elt Ideal)) (i j k : Fin 64) :
    outRaw6 (F := Ideal) c x (ix3 i j k)
      = if edge0 c i ∨ edge1 c j ∨ edge2 c k then 0 else blockLap (fun i j k => x (ix3 i j k)) i j k := by
  unfold outRaw6
  rw [zero_Z63]
  unfold outRaw5
  rw [zero_Z0]
  unfold outRaw4
  rw [zero_Y63]
  unfold outRaw3
  rw [zero_Y0]
  unfold outRaw2
  rw [zero_X63]
  unfold outRaw1
  rw [zero_X0]
  unfold outRaw0
  have ex : (xM : Memref sig .tc .vmem S64x64x64 .f32).view.readAt (Elt Ideal) rW.toLoadRect x = x :=
    Memref.readAt_unit_zero (Elt Ideal) cc0_stg0_0 zero3 _ x
  rw [ex, pay13_apply]
  have hb : nbLo0 x i j k + nbHi0 x i j k + nbLo1 x i j k + nbHi1 x i j k + nbLo2 x i j k + nbHi2 x i j k
      - Cert.Halo.six * x (ix3 i j k) = blockLap (fun i j k => x (ix3 i j k)) i j k := rfl
  rw [hb]
  rw [ite_chain, ite_chain, ite_chain, ite_chain, ite_chain]
  refine if_congr ?_ rfl rfl
  rw [onFace_x0 c, onFace_x1 c, onFace_y0 c, onFace_y3 c, onFace_z0 c, onFace_z3 c]
  unfold edge0 edge1 edge2
  tauto

/-- What the body leaves in the output block, at (i, j, k): the device's result by coordinates. -/
theorem outRaw_apply (c : Dev nD) (x : (cc0_stg0_0 : Ref sig .tc).ty.Contents (Elt Ideal))
    (hal : Fin 6 → FVec Ideal S1x64x64 .f32) (i j k : Fin 64) :
    outRaw (F := Ideal) c x hal (ix3 i j k)
      = Cert.Halo.outDev c (fun i j k => x (ix3 i j k)) (fun h a b => hal h (ix3 0 a b)) i j k := by
  unfold outRaw outRaw12
  rw [add_5]
  unfold outRaw11
  rw [add_4]
  unfold outRaw10
  rw [add_3]
  unfold outRaw9
  rw [add_2]
  unfold outRaw8
  rw [add_1]
  unfold outRaw7
  rw [add_0, outRaw6_apply]
  rfl

/-! ## A boundary plane of a block, at an index -/

section Faces
variable (x : (cc0_stg0_0 : Ref sig .tc).ty.Contents (Elt Ideal)) (a b : Fin 64)

theorem faceOf_0 : faceOf (F := Ideal) x 0 (ix3 0 a b) = x (ix3 0 a b) :=
  (pay6_apply ((xM : Memref sig .tc .vmem S64x64x64 .f32).view.readAt (Elt Ideal) rX0.toLoadRect x) a b).trans (readX_X0 x a b)
theorem faceOf_1 : faceOf (F := Ideal) x 1 (ix3 0 a b) = x (ix3 63 a b) :=
  (pay7_apply ((xM : Memref sig .tc .vmem S64x64x64 .f32).view.readAt (Elt Ideal) rX63.toLoadRect x) a b).trans (readX_X63 x a b)
theorem faceOf_2 : faceOf (F := Ideal) x 2 (ix3 0 a b) = x (ix3 a 0 b) :=
  (pay8_apply ((xM : Memref sig .tc .vmem S64x64x64 .f32).view.readAt (Elt Ideal) rY0.toLoadRect x) a b).trans (readX_Y0 x a b)
theorem faceOf_3 : faceOf (F := Ideal) x 3 (ix3 0 a b) = x (ix3 a 63 b) :=
  (pay10_pay9_apply ((xM : Memref sig .tc .vmem S64x64x64 .f32).view.readAt (Elt Ideal) rY63.toLoadRect x) a b).trans (readX_Y63 x a b)
theorem faceOf_4 : faceOf (F := Ideal) x 4 (ix3 0 a b) = x (ix3 a b 0) :=
  (pay11_apply ((xM : Memref sig .tc .vmem S64x64x64 .f32).view.readAt (Elt Ideal) rZ0.toLoadRect x) a b).trans (readX_Z0 x a b)
theorem faceOf_5 : faceOf (F := Ideal) x 5 (ix3 0 a b) = x (ix3 a b 63) :=
  (pay12_apply ((xM : Memref sig .tc .vmem S64x64x64 .f32).view.readAt (Elt Ideal) rZ63.toLoadRect x) a b).trans (readX_Z63 x a b)

end Faces

/-! ## The result -/

/-- The input window stages the device's whole array: its contents are the array's. -/
theorem xstg_eq (m : (ℓ : Loc nD τ sig) → Buf (Elt Ideal) ℓ) (c : Dev nD) :
    xstg (F := Ideal) m c = m ((c.tc : Thread nD τ).loc main_arg0) := by
  unfold xstg
  exact Memref.readAt_unit_zero (Elt Ideal) main_arg0 (funext fun a => Nat.zero_mul _) _ _

/-- What the body leaves in the output block is the device's block of the stencil of the whole array, every device's
    argument block being its block of the whole argument array. -/
theorem out_block (m : (ℓ : Loc nD τ sig) → Buf (Elt Ideal) ℓ) (u : (⟨3, ![128, 256, 256]⟩ : Shape).Idx → EReal)
    (hag : ∀ c : Dev nD, m ((c.tc : Thread nD τ).loc main_arg0)
      = Layout.blockN ⟨3, ![64, 64, 64]⟩ ⟨3, ![128, 256, 256]⟩ (Layout.meshBlock [2, 4, 4] ![[0], [1], [2]] c) u) (c : Dev nD) :
    outRaw (F := Ideal) c (xstg m c) (landed m c)
      = Layout.blockN ⟨3, ![64, 64, 64]⟩ ⟨3, ![128, 256, 256]⟩ (Layout.meshBlock [2, 4, 4] ![[0], [1], [2]] c) (Cert.Halo.lapW u) := by
  have hx : ∀ (c' : Dev nD) (i j k : Fin 64), xstg (F := Ideal) m c' (ix3 i j k) = blockOf c' u i j k := fun c' i j k => by
    rw [xstg_eq, hag c', blockN_apply3]
    rfl
  have e1 : (fun (i j k : Fin 64) => xstg (F := Ideal) m c (ix3 i j k)) = blockOf c u :=
    funext fun i => funext fun j => funext fun k => hx c i j k
  have e2 : (fun (h : Fin 6) (a b : Fin 64) => landed (F := Ideal) m c h (ix3 0 a b)) = nbPlane c u :=
    funext fun h => funext fun a => funext fun b => by
      match h with
      | ⟨0, _⟩ => exact (faceOf_1 (xstg m (nbr 0 c)) a b).trans (hx (nbr 0 c) 63 a b)
      | ⟨1, _⟩ => exact (faceOf_0 (xstg m (nbr 1 c)) a b).trans (hx (nbr 1 c) 0 a b)
      | ⟨2, _⟩ => exact (faceOf_3 (xstg m (nbr 2 c)) a b).trans (hx (nbr 2 c) a 63 b)
      | ⟨3, _⟩ => exact (faceOf_2 (xstg m (nbr 3 c)) a b).trans (hx (nbr 3 c) a 0 b)
      | ⟨4, _⟩ => exact (faceOf_5 (xstg m (nbr 4 c)) a b).trans (hx (nbr 4 c) a b 63)
      | ⟨5, _⟩ => exact (faceOf_4 (xstg m (nbr 5 c)) a b).trans (hx (nbr 5 c) a b 0)
  funext q
  obtain ⟨i, j, k, rfl⟩ : ∃ i j k : Fin 64, q = ix3 i j k := ⟨q 0, q 1, q 2, eq_ix3 q⟩
  refine (outRaw_apply c (xstg m c) (landed m c) i j k).trans ?_
  rw [e1, e2]
  exact (outDev_eq u c i j k).trans (blockN_apply3 c (Cert.Halo.lapW u) i j k).symm

/-! ## Axioms -/

/-- info: 'Cert.KernelIdeal.OutValue.outRaw_apply' depends on axioms: [propext, Classical.choice, Quot.sound] -/
#guard_msgs in #print axioms outRaw_apply

/-- info: 'Cert.KernelIdeal.OutValue.faceOf_0' depends on axioms: [propext, Classical.choice, Quot.sound] -/
#guard_msgs in #print axioms faceOf_0

/-- info: 'Cert.KernelIdeal.OutValue.faceOf_1' depends on axioms: [propext, Classical.choice, Quot.sound] -/
#guard_msgs in #print axioms faceOf_1

/-- info: 'Cert.KernelIdeal.OutValue.faceOf_2' depends on axioms: [propext, Classical.choice, Quot.sound] -/
#guard_msgs in #print axioms faceOf_2

/-- info: 'Cert.KernelIdeal.OutValue.faceOf_3' depends on axioms: [propext, Classical.choice, Quot.sound] -/
#guard_msgs in #print axioms faceOf_3

/-- info: 'Cert.KernelIdeal.OutValue.faceOf_4' depends on axioms: [propext, Classical.choice, Quot.sound] -/
#guard_msgs in #print axioms faceOf_4

/-- info: 'Cert.KernelIdeal.OutValue.faceOf_5' depends on axioms: [propext, Classical.choice, Quot.sound] -/
#guard_msgs in #print axioms faceOf_5

/-- info: 'Cert.KernelIdeal.OutValue.out_block' depends on axioms: [propext, Classical.choice, Quot.sound] -/
#guard_msgs in #print axioms out_block

end Cert.KernelIdeal.OutValue

end
-- ==== Proof.lean ====
/-
  The certificate of the distributed seven-point stencil with halo exchange.

  Thirty-two devices on a 2 × 4 × 4 mesh each hold a 64 × 64 × 64 block of a 128 × 256 × 256 array. Every device takes
  the stencil of its own block, counting a neighbour beyond a face of the block as zero; sends each neighbouring device
  the boundary plane facing it and receives theirs, the exchange ordered by a barrier handshake and by one send and one
  receive semaphore per direction; zeroes its result on the outer faces of the whole array; and adds each received plane
  on the face it belongs to. The reference, on one device, takes the stencil of the whole array: six shifted slices added
  in order, less six times the centre, written into an array of zeros.
  * Both programs run to the end and leave their argument arrays as they were (the three frame claims): the kernel's by
    the launch of its protocol — every cell's invariant allocated, the duty tokens dealt to the devices that pay them, the
    launch credit counted over the mesh — and its body's run; the reference's by the run of its operations.
  * At the ideal values, each device's result is its block of the whole array's stencil (the algebraic claim): the body
    leaves the chain of its stores, which read by coordinates is the device's own stencil, zeroed on the outer faces, plus
    the received planes; and those are the same seven numbers the whole array's stencil adds, in another order.
  * The idealized kernel is the kernel's own text read at the ideal values: nothing was rewritten.
-/
import proofs.«900441_g7700000000000442_dist_halo3d_v7x_xyz2x4x4_s64_f32_1_alg».proof.Defs
import proofs.«900441_g7700000000000442_dist_halo3d_v7x_xyz2x4x4_s64_f32_1_alg».proof.Proof.Gen.Kernel
import proofs.«900441_g7700000000000442_dist_halo3d_v7x_xyz2x4x4_s64_f32_1_alg».proof.Proof.Gen.Kernel.Skeleton
import proofs.«900441_g7700000000000442_dist_halo3d_v7x_xyz2x4x4_s64_f32_1_alg».proof.Proof.Gen.Kernel.Launch
import proofs.«900441_g7700000000000442_dist_halo3d_v7x_xyz2x4x4_s64_f32_1_alg».proof.Proof.Gen.Kernel.Points
import proofs.«900441_g7700000000000442_dist_halo3d_v7x_xyz2x4x4_s64_f32_1_alg».proof.Proof.Gen.Kernel.Frame
import proofs.«900441_g7700000000000442_dist_halo3d_v7x_xyz2x4x4_s64_f32_1_alg».proof.Proof.Gen.KernelIdeal
import proofs.«900441_g7700000000000442_dist_halo3d_v7x_xyz2x4x4_s64_f32_1_alg».proof.Proof.Gen.KernelIdeal.Skeleton
import proofs.«900441_g7700000000000442_dist_halo3d_v7x_xyz2x4x4_s64_f32_1_alg».proof.Proof.Gen.KernelIdeal.Launch
import proofs.«900441_g7700000000000442_dist_halo3d_v7x_xyz2x4x4_s64_f32_1_alg».proof.Proof.Gen.KernelIdeal.Points
import proofs.«900441_g7700000000000442_dist_halo3d_v7x_xyz2x4x4_s64_f32_1_alg».proof.Proof.Gen.KernelIdeal.Frame
import proofs.«900441_g7700000000000442_dist_halo3d_v7x_xyz2x4x4_s64_f32_1_alg».proof.Proof.Gen.ReferenceIdeal
import proofs.«900441_g7700000000000442_dist_halo3d_v7x_xyz2x4x4_s64_f32_1_alg».proof.Proof.Gen.Pre_finite_inputs_Kernel
import proofs.«900441_g7700000000000442_dist_halo3d_v7x_xyz2x4x4_s64_f32_1_alg».proof.Proof.Gen.Pre_finite_inputs_ReferenceIdeal
import proofs.«900441_g7700000000000442_dist_halo3d_v7x_xyz2x4x4_s64_f32_1_alg».proof.Proof.HaloBody
import proofs.«900441_g7700000000000442_dist_halo3d_v7x_xyz2x4x4_s64_f32_1_alg».proof.Proof.HaloOblig
import proofs.«900441_g7700000000000442_dist_halo3d_v7x_xyz2x4x4_s64_f32_1_alg».proof.Proof.K.HaloBody
import proofs.«900441_g7700000000000442_dist_halo3d_v7x_xyz2x4x4_s64_f32_1_alg».proof.Proof.K.HaloOblig
import proofs.«900441_g7700000000000442_dist_halo3d_v7x_xyz2x4x4_s64_f32_1_alg».proof.Proof.RefValue
import proofs.«900441_g7700000000000442_dist_halo3d_v7x_xyz2x4x4_s64_f32_1_alg».proof.Proof.OutValue
import Idealize.ShloMosaic.Adequacy
import Idealize.ShloMosaic.Init

noncomputable section

namespace Cert.Proof

open Idealize.ShloMosaic Idealize.SL.Sem Cert.Kernel

/-- The word-level kernel runs and leaves its argument as it was. -/
theorem frame_Kernel : Cert.frame_Kernel (hKernel := Cert.Kernel.Gen.facts) (hPre_finite_inputs_Kernel := Cert.Pre_finite_inputs_Kernel.Gen.facts) :=
  fun m g _ =>
    (θ_run (Cert.Kernel.defs (F := Bits)) _ _).mono (fun _ h c => (h c).2)
      (Cert.Kernel.Halo.run_out (F := Bits) m g (Cert.Kernel.Halo.sound_body (F := Bits) m))

/-- The idealized kernel runs and leaves its argument as it was. -/
theorem frame_KernelIdeal : Cert.frame_KernelIdeal (hKernelIdeal := Cert.KernelIdeal.Gen.facts) (hPre_finite_inputs_Kernel := Cert.Pre_finite_inputs_Kernel.Gen.facts) :=
  fun m g _ =>
    (θ_run (Cert.KernelIdeal.defs (F := Ideal)) _ _).mono (fun _ h c => (h c).2)
      (Cert.KernelIdeal.Halo.run_out (F := Ideal) m g (Cert.KernelIdeal.Halo.sound_body (F := Ideal) m))

/-- The reference runs and leaves its argument as it was. -/
theorem frame_ReferenceIdeal : Cert.frame_ReferenceIdeal (hReferenceIdeal := Cert.ReferenceIdeal.Gen.facts) (hPre_finite_inputs_ReferenceIdeal := Cert.Pre_finite_inputs_ReferenceIdeal.Gen.facts) :=
  fun m' g' _ =>
    (θ_run (Cert.ReferenceIdeal.defs (F := Ideal)) _ _).mono (fun _ h c => (h c).2)
      (Cert.ReferenceIdeal.RefValue.run m' g')

/-- At the ideal values every device's result is its block of the reference's result, the stencil of the whole array. -/
theorem algebraic : Cert.algebraic_KernelIdeal_ReferenceIdeal (hKernelIdeal := Cert.KernelIdeal.Gen.facts) (hReferenceIdeal := Cert.ReferenceIdeal.Gen.facts) (hPre_finite_inputs_Kernel := Cert.Pre_finite_inputs_Kernel.Gen.facts) :=
  fun m g m' g' _ hag =>
    ⟨Cert.Halo.lapW (m' (((0 : Dev Cert.ReferenceIdeal.nD).tc : Thread Cert.ReferenceIdeal.nD Cert.ReferenceIdeal.τ).loc Cert.ReferenceIdeal.main_arg0)),
      (θ_run (Cert.KernelIdeal.defs (F := Ideal)) _ _).mono
        (fun _ h c => ⟨(h c).1.trans (Cert.KernelIdeal.OutValue.out_block m _ hag c), (h c).2⟩)
        (Cert.KernelIdeal.Halo.run_out (F := Ideal) m g (Cert.KernelIdeal.Halo.sound_body (F := Ideal) m)),
      (θ_run (Cert.ReferenceIdeal.defs (F := Ideal)) _ _).mono (fun _ h => h 0)
        (Cert.ReferenceIdeal.RefValue.run m' g')⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_Kernel, frame_KernelIdeal, frame_ReferenceIdeal, trivial, algebraic⟩

end Cert.Proof

end
